-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v253) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S65536x4 : Shape := ⟨2, ![65536, 4]⟩
abbrev S65536x100x4 : Shape := ⟨3, ![65536, 100, 4]⟩
abbrev S81x1024 : Shape := ⟨2, ![81, 1024]⟩
abbrev S81 : Shape := ⟨1, ![81]⟩
abbrev S4x1024 : Shape := ⟨2, ![4, 1024]⟩
abbrev S4 : Shape := ⟨1, ![4]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S65536x4 : S_.BroadcastsInDim S65536x4 (![] : Fin 0 → Fin S65536x4.rank)
  reducesTo_S65536x4_S_d0_1 : S65536x4.ReducesTo [0, 1] S_
  bcast_S_S65536x100x4 : S_.BroadcastsInDim S65536x100x4 (![] : Fin 0 → Fin S65536x100x4.rank)
  reducesTo_S65536x100x4_S_d0_1_2 : S65536x100x4.ReducesTo [0, 1, 2] S_
  bcast_S_S81x1024 : S_.BroadcastsInDim S81x1024 (![] : Fin 0 → Fin S81x1024.rank)
  reducesTo_S81x1024_S_d0_1 : S81x1024.ReducesTo [0, 1] S_
  bcast_S_S81 : S_.BroadcastsInDim S81 (![] : Fin 0 → Fin S81.rank)
  reducesTo_S81_S_d0 : S81.ReducesTo [0] S_
  bcast_S_S4x1024 : S_.BroadcastsInDim S4x1024 (![] : Fin 0 → Fin S4x1024.rank)
  reducesTo_S4x1024_S_d0_1 : S4x1024.ReducesTo [0, 1] S_
  bcast_S_S4 : S_.BroadcastsInDim S4 (![] : Fin 0 → Fin S4.rank)
  reducesTo_S4_S_d0 : S4.ReducesTo [0] S_

variable [Facts]

def fn_part2 {F : FTy → Type} [FloatOps F] (main_arg7 : FVec F S4x1024 .f32) (main_arg8 : FVec F S4 .f32) (main_v33 : IVec S_ 1) : IVec S_ 1 :=
  let main_v34 : FVec F S4x1024 .f32 := Host.absf main_arg7
  let main_cst_12 : FVec F S_ .f32 := constant S_ .f32 0x7F800000#32
  let main_v35 : FVec F S4x1024 .f32 := broadcastInDim S4x1024 ![] bcast_S_S4x1024 main_cst_12
  let main_v36 : IVec S4x1024 1 := cmpf .olt main_v34 main_v35
  let main_c_13 : IVec S_ 1 := constantI S_ 1 1#1
  let main_v37 : IVec S_ 1 := (fun x v => Host.reduce IntOp.andi x v reducesTo_S4x1024_S_d0_1 h_S_) main_v36 main_c_13
  let main_v38 : IVec S_ 1 := andi main_v33 main_v37
  let main_v39 : FVec F S4 .f32 := Host.absf main_arg8
  let main_cst_14 : FVec F S_ .f32 := constant S_ .f32 0x7F800000#32
  let main_v40 : FVec F S4 .f32 := broadcastInDim S4 ![] bcast_S_S4 main_cst_14
  let main_v41 : IVec S4 1 := cmpf .olt main_v39 main_v40
  let main_c_15 : IVec S_ 1 := constantI S_ 1 1#1
  let main_v42 : IVec S_ 1 := (fun x v => Host.reduce IntOp.andi x v reducesTo_S4_S_d0 h_S_) main_v41 main_c_15
  let main_v43 : IVec S_ 1 := andi main_v38 main_v42
  main_v43

def fn_part1 {F : FTy → Type} [FloatOps F] (main_arg4 : FVec F S81 .f32) (main_arg5 : FVec F S4x1024 .f32) (main_arg6 : FVec F S4 .f32) (main_arg7 : FVec F S4x1024 .f32) (main_arg8 : FVec F S4 .f32) (main_v13 : IVec S_ 1) (main_v16 : IVec S81x1024 1) : IVec S_ 1 :=
  let main_c_5 : IVec S_ 1 := constantI S_ 1 1#1
  let main_v17 : IVec S_ 1 := (fun x v => Host.reduce IntOp.andi x v reducesTo_S81x1024_S_d0_1 h_S_) main_v16 main_c_5
  let main_v18 : IVec S_ 1 := andi main_v13 main_v17
  let main_v19 : FVec F S81 .f32 := Host.absf main_arg4
  let main_cst_6 : FVec F S_ .f32 := constant S_ .f32 0x7F800000#32
  let main_v20 : FVec F S81 .f32 := broadcastInDim S81 ![] bcast_S_S81 main_cst_6
  let main_v21 : IVec S81 1 := cmpf .olt main_v19 main_v20
  let main_c_7 : IVec S_ 1 := constantI S_ 1 1#1
  let main_v22 : IVec S_ 1 := (fun x v => Host.reduce IntOp.andi x v reducesTo_S81_S_d0 h_S_) main_v21 main_c_7
  let main_v23 : IVec S_ 1 := andi main_v18 main_v22
  let main_v24 : FVec F S4x1024 .f32 := Host.absf main_arg5
  let main_cst_8 : FVec F S_ .f32 := constant S_ .f32 0x7F800000#32
  let main_v25 : FVec F S4x1024 .f32 := broadcastInDim S4x1024 ![] bcast_S_S4x1024 main_cst_8
  let main_v26 : IVec S4x1024 1 := cmpf .olt main_v24 main_v25
  let main_c_9 : IVec S_ 1 := constantI S_ 1 1#1
  let main_v27 : IVec S_ 1 := (fun x v => Host.reduce IntOp.andi x v reducesTo_S4x1024_S_d0_1 h_S_) main_v26 main_c_9
  let main_v28 : IVec S_ 1 := andi main_v23 main_v27
  let main_v29 : FVec F S4 .f32 := Host.absf main_arg6
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  fn_part2 (F := F) main_arg7 main_arg8 main_v33

def fn {F : FTy → Type} [FloatOps F] (main_arg0 : FVec F S65536x1024 .f32) (main_arg1 : FVec F S65536x4 .f32) (main_arg2 : FVec F S65536x100x4 .f32) (main_arg3 : FVec F S81x1024 .f32) (main_arg4 : FVec F S81 .f32) (main_arg5 : FVec F S4x1024 .f32) (main_arg6 : FVec F S4 .f32) (main_arg7 : FVec F S4x1024 .f32) (main_arg8 : FVec F S4 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S65536x4 .f32 := Host.absf main_arg1
  let main_cst_0 : FVec F S_ .f32 := constant S_ .f32 0x7F800000#32
  let main_v5 : FVec F S65536x4 .f32 := broadcastInDim S65536x4 ![] bcast_S_S65536x4 main_cst_0
  let main_v6 : IVec S65536x4 1 := cmpf .olt main_v4 main_v5
  let main_c_1 : IVec S_ 1 := constantI S_ 1 1#1
  let main_v7 : IVec S_ 1 := (fun x v => Host.reduce IntOp.andi x v reducesTo_S65536x4_S_d0_1 h_S_) main_v6 main_c_1
  let main_v8 : IVec S_ 1 := andi main_v3 main_v7
  let main_v9 : FVec F S65536x100x4 .f32 := Host.absf main_arg2
  let main_cst_2 : FVec F S_ .f32 := constant S_ .f32 0x7F800000#32
  let main_v10 : FVec F S65536x100x4 .f32 := broadcastInDim S65536x100x4 ![] bcast_S_S65536x100x4 main_cst_2
  let main_v11 : IVec S65536x100x4 1 := cmpf .olt main_v9 main_v10
  let main_c_3 : IVec S_ 1 := constantI S_ 1 1#1
  let main_v12 : IVec S_ 1 := (fun x v => Host.reduce IntOp.andi x v reducesTo_S65536x100x4_S_d0_1_2 h_S_) main_v11 main_c_3
  let main_v13 : IVec S_ 1 := andi main_v8 main_v12
  let main_v14 : FVec F S81x1024 .f32 := Host.absf main_arg3
  let main_cst_4 : FVec F S_ .f32 := constant S_ .f32 0x7F800000#32
  let main_v15 : FVec F S81x1024 .f32 := broadcastInDim S81x1024 ![] bcast_S_S81x1024 main_cst_4
  let main_v16 : IVec S81x1024 1 := cmpf .olt main_v14 main_v15
  fn_part1 (F := F) main_arg4 main_arg5 main_arg6 main_arg7 main_arg8 main_v13 main_v16
-- ==== Kernel.lean ====
abbrev S65536x1024 : Shape := ⟨2, ![65536, 1024]⟩
abbrev S65536x4 : Shape := ⟨2, ![65536, 4]⟩
abbrev S65536x100x4 : Shape := ⟨3, ![65536, 100, 4]⟩
abbrev S81x1024 : Shape := ⟨2, ![81, 1024]⟩
abbrev S81 : Shape := ⟨1, ![81]⟩
abbrev S4x1024 : Shape := ⟨2, ![4, 1024]⟩
abbrev S4 : Shape := ⟨1, ![4]⟩
abbrev S4x65536x100 : Shape := ⟨3, ![4, 65536, 100]⟩
abbrev S1x81 : Shape := ⟨2, ![1, 81]⟩
abbrev S1x4 : Shape := ⟨2, ![1, 4]⟩
abbrev S65536x90 : Shape := ⟨2, ![65536, 90]⟩
abbrev S512x1024 : Shape := ⟨2, ![512, 1024]⟩
abbrev S4x512x100 : Shape := ⟨3, ![4, 512, 100]⟩
abbrev S512x4 : Shape := ⟨2, ![512, 4]⟩
abbrev S512x90 : Shape := ⟨2, ![512, 90]⟩
abbrev S1024x81 : Shape := ⟨2, ![1024, 81]⟩
abbrev S512x81 : Shape := ⟨2, ![512, 81]⟩
abbrev S1024x4 : Shape := ⟨2, ![1024, 4]⟩
abbrev S512x1 : Shape := ⟨2, ![512, 1]⟩
abbrev S1x512x100 : Shape := ⟨3, ![1, 512, 100]⟩
abbrev S512x100 : Shape := ⟨2, ![512, 100]⟩
abbrev S512 : Shape := ⟨1, ![512]⟩

abbrev nBuf : Space → Nat
  | .hbm => 14
  | .vmem => 14
  | .smem => 0
  | _ => 0

abbrev bufTy : (tb : Table) → Fin (tcTables nBuf tb) → BufTy
  | .hbm, ⟨0, _⟩ => ⟨S65536x1024, .f32⟩
  | .hbm, ⟨1, _⟩ => ⟨S65536x4, .f32⟩
  | .hbm, ⟨2, _⟩ => ⟨S65536x100x4, .f32⟩
  | .hbm, ⟨3, _⟩ => ⟨S81x1024, .f32⟩
  | .hbm, ⟨4, _⟩ => ⟨S81, .f32⟩
  | .hbm, ⟨5, _⟩ => ⟨S4x1024, .f32⟩
  | .hbm, ⟨6, _⟩ => ⟨S4, .f32⟩
  | .hbm, ⟨7, _⟩ => ⟨S4x1024, .f32⟩
  | .hbm, ⟨8, _⟩ => ⟨S4, .f32⟩
  | .hbm, ⟨9, _⟩ => ⟨S4x65536x100, .f32⟩
  | .hbm, ⟨10, _⟩ => ⟨S1x81, .f32⟩
  | .hbm, ⟨11, _⟩ => ⟨S1x4, .f32⟩
  | .hbm, ⟨12, _⟩ => ⟨S1x4, .f32⟩
  | .hbm, ⟨13, _⟩ => ⟨S65536x90, .f32⟩
  | .local _ .vmem, ⟨0, _⟩ => ⟨S512x1024, .f32⟩
  | .local _ .vmem, ⟨1, _⟩ => ⟨S512x1024, .f32⟩
  | .local _ .vmem, ⟨2, _⟩ => ⟨S4x512x100, .f32⟩
  | .local _ .vmem, ⟨3, _⟩ => ⟨S4x512x100, .f32⟩
  | .local _ .vmem, ⟨4, _⟩ => ⟨S512x4, .f32⟩
  | .local _ .vmem, ⟨5, _⟩ => ⟨S512x4, .f32⟩
  | .local _ .vmem, ⟨6, _⟩ => ⟨S81x1024, .f32⟩
  | .local _ .vmem, ⟨7, _⟩ => ⟨S1x81, .f32⟩
  | .local _ .vmem, ⟨8, _⟩ => ⟨S4x1024, .f32⟩
  | .local _ .vmem, ⟨9, _⟩ => ⟨S1x4, .f32⟩
  | .local _ .vmem, ⟨10, _⟩ => ⟨S4x1024, .f32⟩
  | .local _ .vmem, ⟨11, _⟩ => ⟨S1x4, .f32⟩
  | .local _ .vmem, ⟨12, _⟩ => ⟨S512x90, .f32⟩
  | .local _ .vmem, ⟨13, _⟩ => ⟨S512x90, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S81x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x81 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x90 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S65536x100x4_S4x65536x100_2_0_1 : S65536x100x4.Transposes [2, 0, 1] S4x65536x100
  shapeCasts_S81_S1x81 : S81.ShapeCasts S1x81
  shapeCasts_S4_S1x4 : S4.ShapeCasts S1x4
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S81x1024_S81x1024_0_0 : ∀ a, (![0, 0] : Fin 2 → Nat) a + S81x1024.size a ≤ S81x1024.size a
  h_S81x1024 : 0 < S81x1024.numel
  inb_S4x1024_S4x1024_0_0 : ∀ a, (![0, 0] : Fin 2 → Nat) a + S4x1024.size a ≤ S4x1024.size a
  h_S4x1024 : 0 < S4x1024.numel
  transposes_S81x1024_p1_0_S1024x81 : S81x1024.Transposes [1, 0] S1024x81
  inb_S1x81_S1x81_0_0 : ∀ a, (![0, 0] : Fin 2 → Nat) a + S1x81.size a ≤ S1x81.size a
  h_S1x81 : 0 < S1x81.numel
  shapeCasts_S1x81_S1x81 : S1x81.ShapeCasts S1x81
  broadcasts_S1x81_S512x81 : S1x81.Broadcasts S512x81
  transposes_S4x1024_p1_0_S1024x4 : S4x1024.Transposes [1, 0] S1024x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S512x4 : S1x4.Broadcasts S512x4
  inb_S512x4_S512x4_0_0 : ∀ a, (![0, 0] : Fin 2 → Nat) a + S512x4.size a ≤ S512x4.size a
  h_S512x4 : 0 < S512x4.numel
  slices_S512x4_o0_0_S512x1 : S512x4.Slices ![0, 0] S512x1
  slices_S512x4_o0_1_S512x1 : S512x4.Slices ![0, 1] S512x1
  slices_S512x4_o0_2_S512x1 : S512x4.Slices ![0, 2] S512x1
  slices_S512x4_o0_3_S512x1 : S512x4.Slices ![0, 3] S512x1
  inb_S4x512x100_S1x512x100_0_0_0 : ∀ a, (![0, 0, 0] : Fin 3 → Nat) a + S1x512x100.size a ≤ S4x512x100.size a
  h_S1x512x100 : 0 < S1x512x100.numel
  shapeCasts_S1x512x100_S512x100 : S1x512x100.ShapeCasts S512x100
  inb_S4x512x100_S1x512x100_1_0_0 : ∀ a, (![1, 0, 0] : Fin 3 → Nat) a + S1x512x100.size a ≤ S4x512x100.size a
  inb_S4x512x100_S1x512x100_2_0_0 : ∀ a, (![2, 0, 0] : Fin 3 → Nat) a + S1x512x100.size a ≤ S4x512x100.size a
  inb_S4x512x100_S1x512x100_3_0_0 : ∀ a, (![3, 0, 0] : Fin 3 → Nat) a + S1x512x100.size a ≤ S4x512x100.size a
  broadcasts_S512x1_S512x100 : S512x1.Broadcasts S512x100
  reduces_S512x100_S512 : S512x100.Reduces [1] S512
  shapeCasts_S512_S512x1 : S512.ShapeCasts S512x1
  concatenates_S512x81_S512x1_S512x1_S512x1_S512x1_S512x4_S512x1_S512x90_d1 : Shape.Concatenates [S512x81, S512x1, S512x1, S512x1, S512x1, S512x4, S512x1] S512x90 1
  inb_S512x90_S512x90_0_0 : ∀ a, (![0, 0] : Fin 2 → Nat) a + S512x90.size a ≤ S512x90.size a
  h_S512x90 : 0 < S512x90.numel
  dot_S512x1024_S1024x81_S512x81_1_0_0_1_n_n_wf : DotDims.WF S512x1024 S1024x81 S512x81 [1] [0] [0] [1] [] []
  dot_S512x1024_S1024x4_S512x4_1_0_0_1_n_n_wf : DotDims.WF S512x1024 S1024x4 S512x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S65536x1024.size a
  hwx0_0 : ∀ i : grid0.Coords, EltTy.bits .f32 = 32 ∨ (Rect.block (s := S65536x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x100.size a ≤ S4x65536x100.size a
  hwx0_1 : ∀ i : grid0.Coords, EltTy.bits .f32 = 32 ∨ (Rect.block (s := S4x65536x100) S4x512x100.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4.size a ≤ S65536x4.size a
  hwx0_2 : ∀ i : grid0.Coords, EltTy.bits .f32 = 32 ∨ (Rect.block (s := S65536x4) S512x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S81x1024.size a ≤ S81x1024.size a
  hwx0_3 : ∀ i : grid0.Coords, EltTy.bits .f32 = 32 ∨ (Rect.block (s := S81x1024) S81x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x81.size a ≤ S1x81.size a
  hwx0_4 : ∀ i : grid0.Coords, EltTy.bits .f32 = 32 ∨ (Rect.block (s := S1x81) S1x81.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x1024.size a ≤ S4x1024.size a
  hwx0_5 : ∀ i : grid0.Coords, EltTy.bits .f32 = 32 ∨ (Rect.block (s := S4x1024) S4x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4.size a ≤ S1x4.size a
  hwx0_6 : ∀ i : grid0.Coords, EltTy.bits .f32 = 32 ∨ (Rect.block (s := S1x4) S1x4.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x1024.size a ≤ S4x1024.size a
  hwx0_7 : ∀ i : grid0.Coords, EltTy.bits .f32 = 32 ∨ (Rect.block (s := S4x1024) S4x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x4.size a ≤ S1x4.size a
  hwx0_8 : ∀ i : grid0.Coords, EltTy.bits .f32 = 32 ∨ (Rect.block (s := S1x4) S1x4.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x90.size a ≤ S65536x90.size a
  hwx0_9 : ∀ i : grid0.Coords, EltTy.bits .f32 = 32 ∨ (Rect.block (s := S65536x90) S512x90.size (cc0_transform_9 i) (hinb0_9 i)).WholeWords (EltTy.packing .f32)

variable [Facts₀]

def dot_S512x1024_S1024x81_S512x81_1_0_0_1_n_n : DotDims S512x1024 S1024x81 S512x81 where
  lhsContracting := [1]
  rhsContracting := [0]
  lhsNonContracting := [0]
  rhsNonContracting := [1]
  lhsBatch := []
  rhsBatch := []
  wf := dot_S512x1024_S1024x81_S512x81_1_0_0_1_n_n_wf
def dot_S512x1024_S1024x4_S512x4_1_0_0_1_n_n : DotDims S512x1024 S1024x4 S512x4 where
  lhsContracting := [1]
  rhsContracting := [0]
  lhsNonContracting := [0]
  rhsNonContracting := [1]
  lhsBatch := []
  rhsBatch := []
  wf := dot_S512x1024_S1024x4_S512x4_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x512x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S81x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x81.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x4.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S4x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x4.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S512x90.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S65536x4 : Shape := ⟨2, ![65536, 4]⟩
abbrev S65536x100x4 : Shape := ⟨3, ![65536, 100, 4]⟩
abbrev S81x1024 : Shape := ⟨2, ![81, 1024]⟩
abbrev S81 : Shape := ⟨1, ![81]⟩
abbrev S4x1024 : Shape := ⟨2, ![4, 1024]⟩
abbrev S4 : Shape := ⟨1, ![4]⟩
abbrev S1024x81 : Shape := ⟨2, ![1024, 81]⟩
abbrev S65536x81 : Shape := ⟨2, ![65536, 81]⟩
abbrev S1x81 : Shape := ⟨2, ![1, 81]⟩
abbrev S1024x4 : Shape := ⟨2, ![1024, 4]⟩
abbrev S1x4 : Shape := ⟨2, ![1, 4]⟩
abbrev S_ : Shape := ⟨0, ![]⟩
abbrev S65536x1 : Shape := ⟨2, ![65536, 1]⟩
abbrev S65536 : Shape := ⟨1, ![65536]⟩
abbrev S65536x1x4 : Shape := ⟨3, ![65536, 1, 4]⟩
abbrev S65536x1x1 : Shape := ⟨3, ![65536, 1, 1]⟩
abbrev S65536x100x1 : Shape := ⟨3, ![65536, 100, 1]⟩
abbrev S65536x100 : Shape := ⟨2, ![65536, 100]⟩
abbrev S65536x100x2 : Shape := ⟨3, ![65536, 100, 2]⟩
abbrev S65536x1x2 : Shape := ⟨3, ![65536, 1, 2]⟩
abbrev S65536x90 : Shape := ⟨2, ![65536, 90]⟩

abbrev nBuf : Space → Nat
  | .hbm => 338
  | .vmem => 0
  | .smem => 0
  | _ => 0

abbrev hbmTy0_0 (i : Nat) : BufTy := match i % 128 with
  | 0 => ⟨S65536x1024, .f32⟩
  | 1 => ⟨S65536x4, .f32⟩
  | 2 => ⟨S65536x100x4, .f32⟩
  | 3 => ⟨S81x1024, .f32⟩
  | 4 => ⟨S81, .f32⟩
  | 5 => ⟨S4x1024, .f32⟩
  | 6 => ⟨S4, .f32⟩
  | 7 => ⟨S4x1024, .f32⟩
  | 8 => ⟨S4, .f32⟩
  | 9 => ⟨S1024x81, .f32⟩
  | 10 => ⟨S65536x81, .f32⟩
  | 11 => ⟨S1x81, .f32⟩
  | 12 => ⟨S65536x81, .f32⟩
  | 13 => ⟨S65536x81, .f32⟩
  | 14 => ⟨S1024x4, .f32⟩
  | 15 => ⟨S65536x4, .f32⟩
  | 16 => ⟨S1x4, .f32⟩
  | 17 => ⟨S65536x4, .f32⟩
  | 18 => ⟨S65536x4, .f32⟩
  | 19 => ⟨S1024x4, .f32⟩
  | 20 => ⟨S65536x4, .f32⟩
  | 21 => ⟨S1x4, .f32⟩
  | 22 => ⟨S65536x4, .f32⟩
  | 23 => ⟨S65536x4, .f32⟩
  | 24 => ⟨S_, .f32⟩
  | 25 => ⟨S_, .f32⟩
  | 26 => ⟨S_, .f32⟩
  | 27 => ⟨S65536x4, .f32⟩
  | 28 => ⟨S65536x4, .f32⟩
  | 29 => ⟨S_, .f32⟩
  | 30 => ⟨S65536x4, .f32⟩
  | 31 => ⟨S65536x4, .f32⟩
  | 32 => ⟨S65536x4, .f32⟩
  | 33 => ⟨S65536x1, .f32⟩
  | 34 => ⟨S65536, .f32⟩
  | 35 => ⟨S_, .f32⟩
  | 36 => ⟨S65536, .f32⟩
  | 37 => ⟨S65536, .f32⟩
  | 38 => ⟨S65536x1, .f32⟩
  | 39 => ⟨S65536, .f32⟩
  | 40 => ⟨S_, .f32⟩
  | 41 => ⟨S65536, .f32⟩
  | 42 => ⟨S65536, .f32⟩
  | 43 => ⟨S65536x1, .f32⟩
  | 44 => ⟨S65536, .f32⟩
  | 45 => ⟨S_, .f32⟩
  | 46 => ⟨S65536, .f32⟩
  | 47 => ⟨S65536, .f32⟩
  | 48 => ⟨S_, .f32⟩
  | 49 => ⟨S65536, .f32⟩
  | 50 => ⟨S65536, .f32⟩
  | 51 => ⟨S65536x1, .f32⟩
  | 52 => ⟨S65536, .f32⟩
  | 53 => ⟨S_, .f32⟩
  | 54 => ⟨S65536, .f32⟩
  | 55 => ⟨S65536, .f32⟩
  | 56 => ⟨S_, .f32⟩
  | 57 => ⟨S65536, .f32⟩
  | 58 => ⟨S65536, .f32⟩
  | 59 => ⟨S65536, .f32⟩
  | 60 => ⟨S65536, .f32⟩
  | 61 => ⟨S65536x1, .f32⟩
  | 62 => ⟨S65536x1, .f32⟩
  | 63 => ⟨S65536x1, .f32⟩
  | 64 => ⟨S65536x1, .f32⟩
  | 65 => ⟨S65536x4, .f32⟩
  | 66 => ⟨S65536x1, .f32⟩
  | 67 => ⟨S65536, .f32⟩
  | 68 => ⟨S65536x1, .f32⟩
  | 69 => ⟨S65536, .f32⟩
  | 70 => ⟨S65536, .f32⟩
  | 71 => ⟨S65536x1, .f32⟩
  | 72 => ⟨S65536, .f32⟩
  | 73 => ⟨S65536x1, .f32⟩
  | 74 => ⟨S65536, .f32⟩
  | 75 => ⟨S65536, .f32⟩
  | 76 => ⟨S65536x1, .f32⟩
  | 77 => ⟨S65536, .f32⟩
  | 78 => ⟨S_, .f32⟩
  | 79 => ⟨S65536, .f32⟩
  | 80 => ⟨S65536, .f32⟩
  | 81 => ⟨S65536, .f32⟩
  | 82 => ⟨S65536x1, .f32⟩
  | 83 => ⟨S65536, .f32⟩
  | 84 => ⟨S_, .f32⟩
  | 85 => ⟨S65536, .f32⟩
  | 86 => ⟨S65536, .f32⟩
  | 87 => ⟨S65536, .f32⟩
  | 88 => ⟨S65536x1, .f32⟩
  | 89 => ⟨S65536, .f32⟩
  | 90 => ⟨S_, .f32⟩
  | 91 => ⟨S65536, .f32⟩
  | 92 => ⟨S65536, .f32⟩
  | 93 => ⟨S65536x1, .f32⟩
  | 94 => ⟨S65536, .f32⟩
  | 95 => ⟨S_, .f32⟩
  | 96 => ⟨S65536, .f32⟩
  | 97 => ⟨S65536, .f32⟩
  | 98 => ⟨S65536x1, .f32⟩
  | 99 => ⟨S65536, .f32⟩
  | 100 => ⟨S_, .f32⟩
  | 101 => ⟨S65536, .f32⟩
  | 102 => ⟨S65536, .f32⟩
  | 103 => ⟨S_, .f32⟩
  | 104 => ⟨S65536, .f32⟩
  | 105 => ⟨S65536, .f32⟩
  | 106 => ⟨S65536x1, .f32⟩
  | 107 => ⟨S65536, .f32⟩
  | 108 => ⟨S_, .f32⟩
  | 109 => ⟨S65536, .f32⟩
  | 110 => ⟨S65536, .f32⟩
  | 111 => ⟨S_, .f32⟩
  | 112 => ⟨S65536, .f32⟩
  | 113 => ⟨S65536, .f32⟩
  | 114 => ⟨S65536, .f32⟩
  | 115 => ⟨S65536, .f32⟩
  | 116 => ⟨S65536, .f32⟩
  | 117 => ⟨S65536, .f32⟩
  | 118 => ⟨S65536, .f32⟩
  | 119 => ⟨S65536, .f32⟩
  | 120 => ⟨S65536, .f32⟩
  | 121 => ⟨S65536, .f32⟩
  | 122 => ⟨S_, .f32⟩
  | 123 => ⟨S65536, .f32⟩
  | 124 => ⟨S65536, .f32⟩
  | 125 => ⟨S65536, .f32⟩
  | 126 => ⟨S_, .f32⟩
  | 127 => ⟨S65536, .f32⟩
  | _ => ⟨S65536x1024, .f32⟩

abbrev hbmTy0_1 (i : Nat) : BufTy := match i % 128 with
  | 0 => ⟨S65536, .f32⟩
  | 1 => ⟨S65536, .f32⟩
  | 2 => ⟨S_, .f32⟩
  | 3 => ⟨S65536, .f32⟩
  | 4 => ⟨S65536, .f32⟩
  | 5 => ⟨S65536, .f32⟩
  | 6 => ⟨S_, .f32⟩
  | 7 => ⟨S65536, .f32⟩
  | 8 => ⟨S65536, .f32⟩
  | 9 => ⟨S65536, .f32⟩
  | 10 => ⟨S65536x1, .f32⟩
  | 11 => ⟨S65536x1, .f32⟩
  | 12 => ⟨S65536x1, .f32⟩
  | 13 => ⟨S65536x1, .f32⟩
  | 14 => ⟨S65536x4, .f32⟩
  | 15 => ⟨S65536x1, .f32⟩
  | 16 => ⟨S65536, .f32⟩
  | 17 => ⟨S_, .f32⟩
  | 18 => ⟨S_, .f32⟩
  | 19 => ⟨S_, .f32⟩
  | 20 => ⟨S65536, .f32⟩
  | 21 => ⟨S65536, .f32⟩
  | 22 => ⟨S_, .f32⟩
  | 23 => ⟨S65536, .f32⟩
  | 24 => ⟨S65536, .f32⟩
  | 25 => ⟨S65536x1, .f32⟩
  | 26 => ⟨S65536, .f32⟩
  | 27 => ⟨S_, .f32⟩
  | 28 => ⟨S_, .f32⟩
  | 29 => ⟨S_, .f32⟩
  | 30 => ⟨S65536, .f32⟩
  | 31 => ⟨S65536, .f32⟩
  | 32 => ⟨S_, .f32⟩
  | 33 => ⟨S65536, .f32⟩
  | 34 => ⟨S65536, .f32⟩
  | 35 => ⟨S65536x1, .f32⟩
  | 36 => ⟨S65536, .f32⟩
  | 37 => ⟨S_, .f32⟩
  | 38 => ⟨S_, .f32⟩
  | 39 => ⟨S_, .f32⟩
  | 40 => ⟨S65536, .f32⟩
  | 41 => ⟨S65536, .f32⟩
  | 42 => ⟨S_, .f32⟩
  | 43 => ⟨S65536, .f32⟩
  | 44 => ⟨S65536, .f32⟩
  | 45 => ⟨S65536x1, .f32⟩
  | 46 => ⟨S65536, .f32⟩
  | 47 => ⟨S_, .f32⟩
  | 48 => ⟨S_, .f32⟩
  | 49 => ⟨S_, .f32⟩
  | 50 => ⟨S65536, .f32⟩
  | 51 => ⟨S65536, .f32⟩
  | 52 => ⟨S_, .f32⟩
  | 53 => ⟨S65536, .f32⟩
  | 54 => ⟨S65536, .f32⟩
  | 55 => ⟨S65536x1, .f32⟩
  | 56 => ⟨S65536x1, .f32⟩
  | 57 => ⟨S65536x1, .f32⟩
  | 58 => ⟨S65536x1, .f32⟩
  | 59 => ⟨S65536x4, .f32⟩
  | 60 => ⟨S65536x4, .f32⟩
  | 61 => ⟨S65536x1x4, .f32⟩
  | 62 => ⟨S65536x100x4, .f32⟩
  | 63 => ⟨S65536x100x4, .f32⟩
  | 64 => ⟨S65536x1x4, .f32⟩
  | 65 => ⟨S65536x1x1, .f32⟩
  | 66 => ⟨S65536x1, .f32⟩
  | 67 => ⟨S65536x1x1, .f32⟩
  | 68 => ⟨S65536x1, .f32⟩
  | 69 => ⟨S65536x1, .f32⟩
  | 70 => ⟨S65536x1x1, .f32⟩
  | 71 => ⟨S65536x1, .f32⟩
  | 72 => ⟨S65536x1x1, .f32⟩
  | 73 => ⟨S65536x1, .f32⟩
  | 74 => ⟨S65536x1, .f32⟩
  | 75 => ⟨S65536x1x1, .f32⟩
  | 76 => ⟨S65536x1, .f32⟩
  | 77 => ⟨S_, .f32⟩
  | 78 => ⟨S65536x1, .f32⟩
  | 79 => ⟨S65536x1, .f32⟩
  | 80 => ⟨S65536x1, .f32⟩
  | 81 => ⟨S65536x1x1, .f32⟩
  | 82 => ⟨S65536x1, .f32⟩
  | 83 => ⟨S_, .f32⟩
  | 84 => ⟨S65536x1, .f32⟩
  | 85 => ⟨S65536x1, .f32⟩
  | 86 => ⟨S65536x1, .f32⟩
  | 87 => ⟨S65536x100x1, .f32⟩
  | 88 => ⟨S65536x100, .f32⟩
  | 89 => ⟨S_, .f32⟩
  | 90 => ⟨S65536x100, .f32⟩
  | 91 => ⟨S65536x100, .f32⟩
  | 92 => ⟨S65536x100x1, .f32⟩
  | 93 => ⟨S65536x100, .f32⟩
  | 94 => ⟨S_, .f32⟩
  | 95 => ⟨S65536x100, .f32⟩
  | 96 => ⟨S65536x100, .f32⟩
  | 97 => ⟨S65536x100x1, .f32⟩
  | 98 => ⟨S65536x100, .f32⟩
  | 99 => ⟨S_, .f32⟩
  | 100 => ⟨S65536x100, .f32⟩
  | 101 => ⟨S65536x100, .f32⟩
  | 102 => ⟨S_, .f32⟩
  | 103 => ⟨S65536x100, .f32⟩
  | 104 => ⟨S65536x100, .f32⟩
  | 105 => ⟨S65536x100x1, .f32⟩
  | 106 => ⟨S65536x100, .f32⟩
  | 107 => ⟨S_, .f32⟩
  | 108 => ⟨S65536x100, .f32⟩
  | 109 => ⟨S65536x100, .f32⟩
  | 110 => ⟨S_, .f32⟩
  | 111 => ⟨S65536x100, .f32⟩
  | 112 => ⟨S65536x100, .f32⟩
  | 113 => ⟨S65536x100, .f32⟩
  | 114 => ⟨S65536x100, .f32⟩
  | 115 => ⟨S65536x100, .f32⟩
  | 116 => ⟨S65536x100, .f32⟩
  | 117 => ⟨S65536x100, .f32⟩
  | 118 => ⟨S65536x100, .f32⟩
  | 119 => ⟨S65536x100, .f32⟩
  | 120 => ⟨S65536x100, .f32⟩
  | 121 => ⟨S65536x100, .f32⟩
  | 122 => ⟨S65536x100, .f32⟩
  | 123 => ⟨S65536x100, .f32⟩
  | 124 => ⟨S65536x100, .f32⟩
  | 125 => ⟨S65536x100, .f32⟩
  | 126 => ⟨S65536x100, .f32⟩
  | 127 => ⟨S_, .f32⟩
  | _ => ⟨S65536x1024, .f32⟩

abbrev hbmTy0_2 (i : Nat) : BufTy := match i % 128 with
  | 0 => ⟨S65536x100, .f32⟩
  | 1 => ⟨S65536x100, .f32⟩
  | 2 => ⟨S65536x100, .f32⟩
  | 3 => ⟨S_, .f32⟩
  | 4 => ⟨S65536x100, .f32⟩
  | 5 => ⟨S65536x100, .f32⟩
  | 6 => ⟨S65536x100, .f32⟩
  | 7 => ⟨S_, .f32⟩
  | 8 => ⟨S65536x100, .f32⟩
  | 9 => ⟨S65536x100, .f32⟩
  | 10 => ⟨S65536x100, .f32⟩
  | 11 => ⟨S_, .f32⟩
  | 12 => ⟨S65536x100, .f32⟩
  | 13 => ⟨S65536x100, .f32⟩
  | 14 => ⟨S65536x100, .f32⟩
  | 15 => ⟨S65536x100x1, .f32⟩
  | 16 => ⟨S65536x100x1, .f32⟩
  | 17 => ⟨S65536x100x1, .f32⟩
  | 18 => ⟨S65536x100x1, .f32⟩
  | 19 => ⟨S65536x100x4, .f32⟩
  | 20 => ⟨S65536x1x4, .f32⟩
  | 21 => ⟨S65536x100x2, .f32⟩
  | 22 => ⟨S65536x1x2, .f32⟩
  | 23 => ⟨S65536x100x2, .f32⟩
  | 24 => ⟨S65536x100x2, .f32⟩
  | 25 => ⟨S65536x100x2, .f32⟩
  | 26 => ⟨S65536x1x2, .f32⟩
  | 27 => ⟨S65536x100x2, .f32⟩
  | 28 => ⟨S65536x100x2, .f32⟩
  | 29 => ⟨S65536x100x2, .f32⟩
  | 30 => ⟨S_, .f32⟩
  | 31 => ⟨S_, .f32⟩
  | 32 => ⟨S65536x100x2, .f32⟩
  | 33 => ⟨S65536x100x2, .f32⟩
  | 34 => ⟨S65536x100x1, .f32⟩
  | 35 => ⟨S65536x100, .f32⟩
  | 36 => ⟨S65536x100x1, .f32⟩
  | 37 => ⟨S65536x100, .f32⟩
  | 38 => ⟨S65536x100, .f32⟩
  | 39 => ⟨S65536x100x1, .f32⟩
  | 40 => ⟨S65536x100, .f32⟩
  | 41 => ⟨S65536x100x1, .f32⟩
  | 42 => ⟨S65536x100, .f32⟩
  | 43 => ⟨S65536x100, .f32⟩
  | 44 => ⟨S65536x100x1, .f32⟩
  | 45 => ⟨S65536x100, .f32⟩
  | 46 => ⟨S65536x100x1, .f32⟩
  | 47 => ⟨S65536x100, .f32⟩
  | 48 => ⟨S65536x100, .f32⟩
  | 49 => ⟨S65536x100, .f32⟩
  | 50 => ⟨S65536x1x1, .f32⟩
  | 51 => ⟨S65536x1, .f32⟩
  | 52 => ⟨S65536x1x1, .f32⟩
  | 53 => ⟨S65536x1, .f32⟩
  | 54 => ⟨S65536x1, .f32⟩
  | 55 => ⟨S65536x1x1, .f32⟩
  | 56 => ⟨S65536x1, .f32⟩
  | 57 => ⟨S65536x1x1, .f32⟩
  | 58 => ⟨S65536x1, .f32⟩
  | 59 => ⟨S65536x1, .f32⟩
  | 60 => ⟨S65536x1, .f32⟩
  | 61 => ⟨S65536x100, .f32⟩
  | 62 => ⟨S65536x100, .f32⟩
  | 63 => ⟨S65536x100, .f32⟩
  | 64 => ⟨S_, .f32⟩
  | 65 => ⟨S65536x100, .f32⟩
  | 66 => ⟨S65536x100, .i1⟩
  | 67 => ⟨S_, .f32⟩
  | 68 => ⟨S65536x100, .f32⟩
  | 69 => ⟨S65536x100, .f32⟩
  | 70 => ⟨S65536x100, .f32⟩
  | 71 => ⟨S_, .f32⟩
  | 72 => ⟨S_, .f32⟩
  | 73 => ⟨S65536x100, .f32⟩
  | 74 => ⟨S65536x100, .f32⟩
  | 75 => ⟨S_, .f32⟩
  | 76 => ⟨S65536, .f32⟩
  | 77 => ⟨S_, .f32⟩
  | 78 => ⟨S65536, .f32⟩
  | 79 => ⟨S65536, .f32⟩
  | 80 => ⟨S65536x1, .f32⟩
  | 81 => ⟨S65536x90, .f32⟩
  | _ => ⟨S65536x1024, .f32⟩

abbrev hbmTy (i : Nat) : BufTy := match i / 128 with
  | 0 => hbmTy0_0 i
  | 1 => hbmTy0_1 i
  | 2 => hbmTy0_2 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_7 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_8 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_9 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_10 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_11 : Ref sig .tc := ⟨.hbm, 100, rfl⟩
abbrev main_v74 : Ref sig .tc := ⟨.hbm, 101, rfl⟩
abbrev main_v75 : Ref sig .tc := ⟨.hbm, 102, rfl⟩
abbrev main_cst_12 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_13 : Ref sig .tc := ⟨.hbm, 108, rfl⟩
abbrev main_v80 : Ref sig .tc := ⟨.hbm, 109, rfl⟩
abbrev main_v81 : Ref sig .tc := ⟨.hbm, 110, rfl⟩
abbrev main_cst_14 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_15 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_16 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_cst_17 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_cst_18 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_cst_19 : Ref sig .tc := ⟨.hbm, 145, rfl⟩
abbrev main_cst_20 : Ref sig .tc := ⟨.hbm, 146, rfl⟩
abbrev main_call1_v0 : Ref sig .tc := ⟨.hbm, 147, rfl⟩
abbrev main_call1_v1 : Ref sig .tc := ⟨.hbm, 148, rfl⟩
abbrev main_call1_v2 : Ref sig .tc := ⟨.hbm, 149, rfl⟩
abbrev main_call1_v3 : Ref sig .tc := ⟨.hbm, 150, rfl⟩
abbrev main_call1_v4 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_cst_21 : Ref sig .tc := ⟨.hbm, 155, rfl⟩
abbrev main_cst_22 : Ref sig .tc := ⟨.hbm, 156, rfl⟩
abbrev main_call2_v0 : Ref sig .tc := ⟨.hbm, 157, rfl⟩
abbrev main_call2_v1 : Ref sig .tc := ⟨.hbm, 158, rfl⟩
abbrev main_call2_v2 : Ref sig .tc := ⟨.hbm, 159, rfl⟩
abbrev main_call2_v3 : Ref sig .tc := ⟨.hbm, 160, rfl⟩
abbrev main_call2_v4 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_cst_23 : Ref sig .tc := ⟨.hbm, 165, rfl⟩
abbrev main_cst_24 : Ref sig .tc := ⟨.hbm, 166, rfl⟩
abbrev main_call3_v0 : Ref sig .tc := ⟨.hbm, 167, rfl⟩
abbrev main_call3_v1 : Ref sig .tc := ⟨.hbm, 168, rfl⟩
abbrev main_call3_v2 : Ref sig .tc := ⟨.hbm, 169, rfl⟩
abbrev main_call3_v3 : Ref sig .tc := ⟨.hbm, 170, rfl⟩
abbrev main_call3_v4 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_cst_25 : Ref sig .tc := ⟨.hbm, 175, rfl⟩
abbrev main_cst_26 : Ref sig .tc := ⟨.hbm, 176, rfl⟩
abbrev main_call4_v0 : Ref sig .tc := ⟨.hbm, 177, rfl⟩
abbrev main_call4_v1 : Ref sig .tc := ⟨.hbm, 178, rfl⟩
abbrev main_call4_v2 : Ref sig .tc := ⟨.hbm, 179, rfl⟩
abbrev main_call4_v3 : Ref sig .tc := ⟨.hbm, 180, rfl⟩
abbrev main_call4_v4 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_cst_27 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_cst_28 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_cst_29 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_cst_30 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_cst_31 : Ref sig .tc := ⟨.hbm, 227, rfl⟩
abbrev main_v161 : Ref sig .tc := ⟨.hbm, 228, rfl⟩
abbrev main_v162 : Ref sig .tc := ⟨.hbm, 229, rfl⟩
abbrev main_cst_32 : Ref sig .tc := ⟨.hbm, 230, rfl⟩
abbrev main_v163 : Ref sig .tc := ⟨.hbm, 231, rfl⟩
abbrev main_v164 : Ref sig .tc := ⟨.hbm, 232, rfl⟩
abbrev main_v165 : Ref sig .tc := ⟨.hbm, 233, rfl⟩
abbrev main_v166 : Ref sig .tc := ⟨.hbm, 234, rfl⟩
abbrev main_cst_33 : Ref sig .tc := ⟨.hbm, 235, rfl⟩
abbrev main_v167 : Ref sig .tc := ⟨.hbm, 236, rfl⟩
abbrev main_v168 : Ref sig .tc := ⟨.hbm, 237, rfl⟩
abbrev main_cst_34 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩
abbrev main_v177 : Ref sig .tc := ⟨.hbm, 247, rfl⟩
abbrev main_v178 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_cst_35 : Ref sig .tc := ⟨.hbm, 255, rfl⟩
abbrev main_v185 : Ref sig .tc := ⟨.hbm, 256, rfl⟩
abbrev main_v186 : Ref sig .tc := ⟨.hbm, 257, rfl⟩
abbrev main_v187 : Ref sig .tc := ⟨.hbm, 258, rfl⟩
abbrev main_cst_36 : Ref sig .tc := ⟨.hbm, 259, rfl⟩
abbrev main_v188 : Ref sig .tc := ⟨.hbm, 260, rfl⟩
abbrev main_v189 : Ref sig .tc := ⟨.hbm, 261, rfl⟩
abbrev main_v190 : Ref sig .tc := ⟨.hbm, 262, rfl⟩
abbrev main_cst_37 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_cst_38 : Ref sig .tc := ⟨.hbm, 267, rfl⟩
abbrev main_v194 : Ref sig .tc := ⟨.hbm, 268, rfl⟩
abbrev main_v195 : Ref sig .tc := ⟨.hbm, 269, rfl⟩
abbrev main_v196 : Ref sig .tc := ⟨.hbm, 270, rfl⟩
abbrev main_v197 : Ref sig .tc := ⟨.hbm, 271, rfl⟩
abbrev main_v198 : Ref sig .tc := ⟨.hbm, 272, rfl⟩
abbrev main_v199 : Ref sig .tc := ⟨.hbm, 273, rfl⟩
abbrev main_v200 : Ref sig .tc := ⟨.hbm, 274, rfl⟩
abbrev main_v201 : Ref sig .tc := ⟨.hbm, 275, rfl⟩
abbrev main_v202 : Ref sig .tc := ⟨.hbm, 276, rfl⟩
abbrev main_v203 : Ref sig .tc := ⟨.hbm, 277, rfl⟩
abbrev main_v204 : Ref sig .tc := ⟨.hbm, 278, rfl⟩
abbrev main_v205 : Ref sig .tc := ⟨.hbm, 279, rfl⟩
abbrev main_v206 : Ref sig .tc := ⟨.hbm, 280, rfl⟩
abbrev main_v207 : Ref sig .tc := ⟨.hbm, 281, rfl⟩
abbrev main_v208 : Ref sig .tc := ⟨.hbm, 282, rfl⟩
abbrev main_v209 : Ref sig .tc := ⟨.hbm, 283, rfl⟩
abbrev main_v210 : Ref sig .tc := ⟨.hbm, 284, rfl⟩
abbrev main_v211 : Ref sig .tc := ⟨.hbm, 285, rfl⟩
abbrev main_cst_39 : Ref sig .tc := ⟨.hbm, 286, rfl⟩
abbrev main_call5_v0 : Ref sig .tc := ⟨.hbm, 287, rfl⟩
abbrev main_call5_v1 : Ref sig .tc := ⟨.hbm, 288, rfl⟩
abbrev main_v212 : Ref sig .tc := ⟨.hbm, 289, rfl⟩
abbrev main_v213 : Ref sig .tc := ⟨.hbm, 290, rfl⟩
abbrev main_v214 : Ref sig .tc := ⟨.hbm, 291, rfl⟩
abbrev main_v215 : Ref sig .tc := ⟨.hbm, 292, rfl⟩
abbrev main_v216 : Ref sig .tc := ⟨.hbm, 293, rfl⟩
abbrev main_v217 : Ref sig .tc := ⟨.hbm, 294, rfl⟩
abbrev main_v218 : Ref sig .tc := ⟨.hbm, 295, rfl⟩
abbrev main_v219 : Ref sig .tc := ⟨.hbm, 296, rfl⟩
abbrev main_v220 : Ref sig .tc := ⟨.hbm, 297, rfl⟩
abbrev main_v221 : Ref sig .tc := ⟨.hbm, 298, rfl⟩
abbrev main_v222 : Ref sig .tc := ⟨.hbm, 299, rfl⟩
abbrev main_v223 : Ref sig .tc := ⟨.hbm, 300, rfl⟩
abbrev main_v224 : Ref sig .tc := ⟨.hbm, 301, rfl⟩
abbrev main_v225 : Ref sig .tc := ⟨.hbm, 302, rfl⟩
abbrev main_v226 : Ref sig .tc := ⟨.hbm, 303, rfl⟩
abbrev main_v227 : Ref sig .tc := ⟨.hbm, 304, rfl⟩
abbrev main_v228 : Ref sig .tc := ⟨.hbm, 305, rfl⟩
abbrev main_v229 : Ref sig .tc := ⟨.hbm, 306, rfl⟩
abbrev main_v230 : Ref sig .tc := ⟨.hbm, 307, rfl⟩
abbrev main_v231 : Ref sig .tc := ⟨.hbm, 308, rfl⟩
abbrev main_v232 : Ref sig .tc := ⟨.hbm, 309, rfl⟩
abbrev main_v233 : Ref sig .tc := ⟨.hbm, 310, rfl⟩
abbrev main_v234 : Ref sig .tc := ⟨.hbm, 311, rfl⟩
abbrev main_v235 : Ref sig .tc := ⟨.hbm, 312, rfl⟩
abbrev main_v236 : Ref sig .tc := ⟨.hbm, 313, rfl⟩
abbrev main_v237 : Ref sig .tc := ⟨.hbm, 314, rfl⟩
abbrev main_v238 : Ref sig .tc := ⟨.hbm, 315, rfl⟩
abbrev main_v239 : Ref sig .tc := ⟨.hbm, 316, rfl⟩
abbrev main_v240 : Ref sig .tc := ⟨.hbm, 317, rfl⟩
abbrev main_v241 : Ref sig .tc := ⟨.hbm, 318, rfl⟩
abbrev main_v242 : Ref sig .tc := ⟨.hbm, 319, rfl⟩
abbrev main_cst_40 : Ref sig .tc := ⟨.hbm, 320, rfl⟩
abbrev main_v243 : Ref sig .tc := ⟨.hbm, 321, rfl⟩
abbrev main_v244 : Ref sig .tc := ⟨.hbm, 322, rfl⟩
abbrev main_cst_41 : Ref sig .tc := ⟨.hbm, 323, rfl⟩
abbrev main_v245 : Ref sig .tc := ⟨.hbm, 324, rfl⟩
abbrev main_v246 : Ref sig .tc := ⟨.hbm, 325, rfl⟩
abbrev main_v247 : Ref sig .tc := ⟨.hbm, 326, rfl⟩
abbrev main_cst_42 : Ref sig .tc := ⟨.hbm, 327, rfl⟩
abbrev main_call6_v0 : Ref sig .tc := ⟨.hbm, 328, rfl⟩
abbrev main_call6_v1 : Ref sig .tc := ⟨.hbm, 329, rfl⟩
abbrev main_v248 : Ref sig .tc := ⟨.hbm, 330, rfl⟩
abbrev main_cst_43 : Ref sig .tc := ⟨.hbm, 331, rfl⟩
abbrev main_v249 : Ref sig .tc := ⟨.hbm, 332, rfl⟩
abbrev main_cst_44 : Ref sig .tc := ⟨.hbm, 333, rfl⟩
abbrev main_v250 : Ref sig .tc := ⟨.hbm, 334, rfl⟩
abbrev main_v251 : Ref sig .tc := ⟨.hbm, 335, rfl⟩
abbrev main_v252 : Ref sig .tc := ⟨.hbm, 336, rfl⟩
abbrev main_v253 : Ref sig .tc := ⟨.hbm, 337, rfl⟩

abbrev nD : Nat := 1
abbrev τ : Topo := Topo.v7x

variable {F : FTy → Type} [FloatOps F]

class Facts₀ : Prop where
  transposes_S81x1024_S1024x81_1_0 : S81x1024.Transposes [1, 0] S1024x81
  bcast_S81_S1x81_1 : S81.BroadcastsInDim S1x81 (![1] : Fin 1 → Fin S1x81.rank)
  bcast_S1x81_S65536x81_0_1 : S1x81.BroadcastsInDim S65536x81 (![0, 1] : Fin 2 → Fin S65536x81.rank)
  transposes_S4x1024_S1024x4_1_0 : S4x1024.Transposes [1, 0] S1024x4
  bcast_S4_S1x4_1 : S4.BroadcastsInDim S1x4 (![1] : Fin 1 → Fin S1x4.rank)
  bcast_S1x4_S65536x4_0_1 : S1x4.BroadcastsInDim S65536x4 (![0, 1] : Fin 2 → Fin S65536x4.rank)
  bcast_S_S65536x4 : S_.BroadcastsInDim S65536x4 (![] : Fin 0 → Fin S65536x4.rank)
  slices_S65536x4_S65536x1_0_0 : S65536x4.Slices ![0, 0] S65536x1
  shapeCasts_S65536x1_S65536 : S65536x1.ShapeCasts S65536
  bcast_S_S65536 : S_.BroadcastsInDim S65536 (![] : Fin 0 → Fin S65536.rank)
  slices_S65536x4_S65536x1_0_1 : S65536x4.Slices ![0, 1] S65536x1
  slices_S65536x4_S65536x1_0_2 : S65536x4.Slices ![0, 2] S65536x1
  slices_S65536x4_S65536x1_0_3 : S65536x4.Slices ![0, 3] S65536x1
  bcast_S65536_S65536x1_0 : S65536.BroadcastsInDim S65536x1 (![0] : Fin 1 → Fin S65536x1.rank)
  concatenates_S65536x1_S65536x1_S65536x1_S65536x1_S65536x4_d1 : Shape.Concatenates [S65536x1, S65536x1, S65536x1, S65536x1] S65536x4 1
  bcast_S65536x4_S65536x1x4_0_2 : S65536x4.BroadcastsInDim S65536x1x4 (![0, 2] : Fin 2 → Fin S65536x1x4.rank)
  bcast_S65536x1x4_S65536x100x4_0_1_2 : S65536x1x4.BroadcastsInDim S65536x100x4 (![0, 1, 2] : Fin 3 → Fin S65536x100x4.rank)
  slices_S65536x1x4_S65536x1x1_0_0_2 : S65536x1x4.Slices ![0, 0, 2] S65536x1x1
  shapeCasts_S65536x1x1_S65536x1 : S65536x1x1.ShapeCasts S65536x1
  slices_S65536x1x4_S65536x1x1_0_0_0 : S65536x1x4.Slices ![0, 0, 0] S65536x1x1
  slices_S65536x1x4_S65536x1x1_0_0_3 : S65536x1x4.Slices ![0, 0, 3] S65536x1x1
  slices_S65536x1x4_S65536x1x1_0_0_1 : S65536x1x4.Slices ![0, 0, 1] S65536x1x1
  bcast_S_S65536x1 : S_.BroadcastsInDim S65536x1 (![] : Fin 0 → Fin S65536x1.rank)
  slices_S65536x100x4_S65536x100x1_0_0_0 : S65536x100x4.Slices ![0, 0, 0] S65536x100x1
  shapeCasts_S65536x100x1_S65536x100 : S65536x100x1.ShapeCasts S65536x100
  bcast_S_S65536x100 : S_.BroadcastsInDim S65536x100 (![] : Fin 0 → Fin S65536x100.rank)
  slices_S65536x100x4_S65536x100x1_0_0_1 : S65536x100x4.Slices ![0, 0, 1] S65536x100x1
  slices_S65536x100x4_S65536x100x1_0_0_2 : S65536x100x4.Slices ![0, 0, 2] S65536x100x1
  slices_S65536x100x4_S65536x100x1_0_0_3 : S65536x100x4.Slices ![0, 0, 3] S65536x100x1
  bcast_S65536x1_S65536x100_0_1 : S65536x1.BroadcastsInDim S65536x100 (![0, 1] : Fin 2 → Fin S65536x100.rank)
  bcast_S65536x100_S65536x100x1_0_1 : S65536x100.BroadcastsInDim S65536x100x1 (![0, 1] : Fin 2 → Fin S65536x100x1.rank)
  concatenates_S65536x100x1_S65536x100x1_S65536x100x1_S65536x100x1_S65536x100x4_d2 : Shape.Concatenates [S65536x100x1, S65536x100x1, S65536x100x1, S65536x100x1] S65536x100x4 2
  slices_S65536x100x4_S65536x100x2_0_0_0 : S65536x100x4.Slices ![0, 0, 0] S65536x100x2
  slices_S65536x1x4_S65536x1x2_0_0_0 : S65536x1x4.Slices ![0, 0, 0] S65536x1x2
  bcast_S65536x1x2_S65536x100x2_0_1_2 : S65536x1x2.BroadcastsInDim S65536x100x2 (![0, 1, 2] : Fin 3 → Fin S65536x100x2.rank)
  slices_S65536x100x4_S65536x100x2_0_0_2 : S65536x100x4.Slices ![0, 0, 2] S65536x100x2
  slices_S65536x1x4_S65536x1x2_0_0_2 : S65536x1x4.Slices ![0, 0, 2] S65536x1x2
  bcast_S_S65536x100x2 : S_.BroadcastsInDim S65536x100x2 (![] : Fin 0 → Fin S65536x100x2.rank)
  slices_S65536x100x2_S65536x100x1_0_0_0 : S65536x100x2.Slices ![0, 0, 0] S65536x100x1
  slices_S65536x100x2_S65536x100x1_0_0_1 : S65536x100x2.Slices ![0, 0, 1] S65536x100x1
  reducesTo_S65536x100_S65536_d1 : S65536x100.ReducesTo [1] S65536
  h_S_ : 0 < S_.numel
  concatenates_S65536x81_S65536x4_S65536x4_S65536x1_S65536x90_d1 : Shape.Concatenates [S65536x81, S65536x4, S65536x4, S65536x1] S65536x90 1
  dot_S65536x1024_S1024x81_S65536x81_1_0_0_1_n_n_wf : DotDims.WF S65536x1024 S1024x81 S65536x81 [1] [0] [0] [1] [] []
  dot_S65536x1024_S1024x4_S65536x4_1_0_0_1_n_n_wf : DotDims.WF S65536x1024 S1024x4 S65536x4 [1] [0] [0] [1] [] []

variable [Facts₀]

def dot_S65536x1024_S1024x81_S65536x81_1_0_0_1_n_n : DotDims S65536x1024 S1024x81 S65536x81 where
  lhsContracting := [1]
  rhsContracting := [0]
  lhsNonContracting := [0]
  rhsNonContracting := [1]
  lhsBatch := []
  rhsBatch := []
  wf := dot_S65536x1024_S1024x81_S65536x81_1_0_0_1_n_n_wf
def dot_S65536x1024_S1024x4_S65536x4_1_0_0_1_n_n : DotDims S65536x1024 S1024x4 S65536x4 where
  lhsContracting := [1]
  rhsContracting := [0]
  lhsNonContracting := [0]
  rhsNonContracting := [1]
  lhsBatch := []
  rhsBatch := []
  wf := dot_S65536x1024_S1024x4_S65536x4_1_0_0_1_n_n_wf

class Facts : Prop extends Facts₀ where

variable [Facts]
-- ==== Proof.BoxSpec.lean ====
/-
  One row of the detection head's output, as a function on the extended reals.

  A proposal row carries 1024 features `f`, four raw box numbers `p` and a hundred noise vectors `e s` of four
  numbers each. Three affine heads read the features: 81 class scores, four box deltas `d`, and four raw
  log-variances `z`. The raw box numbers give a box with corner `(lo p₀, lo p₁)` and sides `ext p₂`, `ext p₃`;
  the deltas move its centre and scale its sides (the scale's logarithm capped), and the result is clipped to the
  image: `boxLo`, `boxHi` on each axis. The variances are `var z = exp (clip z)`. Each noise vector, scaled by the
  variances' square roots, is applied as a delta to the CLIPPED box, giving a sampled box `[sLo, sHi]` on each
  axis; `iou` is the sampled box's intersection-over-union with the clipped box (0 when they do not meet), and the
  row's last entry is the mean of the hundred values. The 90 entries of the row: 81 scores, the clipped box's four
  corners (x low, y low, x high, y high), the four variances, the mean.

  Every operation is the extended reals' own (`Ideal.div`, `Ideal.exp`, `Ideal.sqrt`, `max`, `min`), and the
  float literals are kept as the words both programs print, so no literal is ever evaluated.
-/
import Idealize.ShloMosaic.PureOps.Ideal
import Idealize.ShloMosaic.Lib.ValueIdx

noncomputable section

open scoped BigOperators

namespace Cert.BoxHead

open Idealize.ShloMosaic

/-! ## The literals, by their f32 words -/

/-- 800, the scale of a raw corner coordinate. -/
abbrev k800 : EReal := Ideal.ofBits .f32 0x44480000#32
/-- 300, the scale of a raw side. -/
abbrev k300 : EReal := Ideal.ofBits .f32 0x43960000#32
/-- 1, the least side. -/
abbrev k1 : EReal := Ideal.ofBits .f32 0x3F800000#32
/-- 1/2. -/
abbrev khalf : EReal := Ideal.ofBits .f32 0x3F000000#32
/-- 10, the weight of a centre delta. -/
abbrev k10 : EReal := Ideal.ofBits .f32 0x41200000#32
/-- 5, the weight of a size delta. -/
abbrev k5 : EReal := Ideal.ofBits .f32 0x40A00000#32
/-- The cap on a size delta, the f32 nearest log (1000 / 16). -/
abbrev kcap : EReal := Ideal.ofBits .f32 0x40845349#32
/-- 0. -/
abbrev k0 : EReal := Ideal.ofBits .f32 0x00000000#32
/-- 1024, the image's extent. -/
abbrev k1024 : EReal := Ideal.ofBits .f32 0x44800000#32
/-- 7 and -7, the bounds of a raw log-variance. -/
abbrev k7 : EReal := Ideal.ofBits .f32 0x40E00000#32
abbrev km7 : EReal := Ideal.ofBits .f32 0xC0E00000#32
/-- The floor of a union area, the f32 nearest 1e-12. -/
abbrev keps : EReal := Ideal.ofBits .f32 0x2B8CBCCC#32
/-- 100, the number of samples. -/
abbrev k100 : EReal := Ideal.ofBits .f32 0x42C80000#32

/-! ## The proposal box and the predicted, clipped box (one axis at a time) -/

/-- The proposal's low corner on an axis, from its raw number. -/
def lo (p : EReal) : EReal := p * k800
/-- The proposal's side on an axis, from its raw number. -/
def ext (q : EReal) : EReal := q * k300 + k1
/-- The proposal's side again, as high corner minus low corner. -/
def side (p q : EReal) : EReal := (lo p + ext q) - lo p
/-- The proposal's centre on an axis. -/
def mid (p q : EReal) : EReal := lo p + khalf * side p q
/-- The predicted centre: the centre delta `d`, weighted, times the side, plus the centre. -/
def ctr (d p q : EReal) : EReal := Ideal.div d k10 * side p q + mid p q
/-- The predicted side: the exponential of the capped, weighted size delta `d`, times the side. -/
def len (d p q : EReal) : EReal := Ideal.exp (min (Ideal.div d k5) kcap) * side p q
/-- The predicted box's low corner on an axis, clipped to the image. -/
def boxLo (dc dl p q : EReal) : EReal := min k1024 (max k0 (ctr dc p q - khalf * len dl p q))
/-- The predicted box's high corner on an axis, clipped to the image. -/
def boxHi (dc dl p q : EReal) : EReal := min k1024 (max k0 (ctr dc p q + khalf * len dl p q))

/-- A variance from its raw logarithm: clipped to [-7, 7], then exponentiated. -/
def var (z : EReal) : EReal := Ideal.exp (min k7 (max km7 z))

/-! ## A sampled box against the clipped box `[L, H]` (one axis at a time) -/

/-- The sampled centre: noise `e` scaled by the standard deviation `√v`, applied as a centre delta to `[L, H]`. -/
def sctr (e v L H : EReal) : EReal := Ideal.div (e * Ideal.sqrt v) k10 * (H - L) + (L + khalf * (H - L))
/-- The sampled side: noise `e` scaled by `√v`, applied as a size delta to `[L, H]`. -/
def slen (e v L H : EReal) : EReal := Ideal.exp (min (Ideal.div (e * Ideal.sqrt v) k5) kcap) * (H - L)
/-- The sampled box's low corner (centre noise `ec`, variance `vc`; size noise `el`, variance `vl`). -/
def sLo (ec vc el vl L H : EReal) : EReal := sctr ec vc L H - khalf * slen el vl L H
/-- The sampled box's high corner. -/
def sHi (ec vc el vl L H : EReal) : EReal := sctr ec vc L H + khalf * slen el vl L H
/-- The length of the overlap of `[a, b]` with `[L, H]`, zero when they do not meet. -/
def overlap (a b L H : EReal) : EReal := max k0 (min b H - max a L)

/-- Intersection over union of the sampled box `[ax, bx] × [ay, by]` with the clipped box `[Lx, Hx] × [Ly, Hy]`:
    the intersection's area over the floored union area when the intersection is positive, else 0. -/
def iou (ax bx ay by' Lx Hx Ly Hy : EReal) : EReal :=
  Scalar.select (Ideal.cmp .ogt (overlap ax bx Lx Hx * overlap ay by' Ly Hy) k0)
    (Ideal.div (overlap ax bx Lx Hx * overlap ay by' Ly Hy)
      (max ((bx - ax) * (by' - ay) + (Hx - Lx) * (Hy - Ly) - overlap ax bx Lx Hx * overlap ay by' Ly Hy) keps))
    k0

/-! ## The row -/

section Row

variable (f : Fin 1024 → EReal) (p : Fin 4 → EReal) (e : Fin 100 → Fin 4 → EReal)
  (Wc : Fin 81 → Fin 1024 → EReal) (bc : Fin 81 → EReal)
  (Wb : Fin 4 → Fin 1024 → EReal) (bb : Fin 4 → EReal)
  (Wv : Fin 4 → Fin 1024 → EReal) (bv : Fin 4 → EReal)

/-- An affine head: the features against row `j` of the weights, plus the bias. -/
def head {J : Nat} (W : Fin J → Fin 1024 → EReal) (b : Fin J → EReal) (j : Fin J) : EReal :=
  (∑ k : Fin 1024, f k * W j k) + b j

/-- The clipped box's corners: x low, y low, x high, y high. -/
def cx0 : EReal := boxLo (head f Wb bb 0) (head f Wb bb 2) (p 0) (p 2)
def cy0 : EReal := boxLo (head f Wb bb 1) (head f Wb bb 3) (p 1) (p 3)
def cx1 : EReal := boxHi (head f Wb bb 0) (head f Wb bb 2) (p 0) (p 2)
def cy1 : EReal := boxHi (head f Wb bb 1) (head f Wb bb 3) (p 1) (p 3)

/-- Variance `j` of the row. -/
def vr (j : Fin 4) : EReal := var (head f Wv bv j)

/-- Sample `s`'s intersection-over-union with the clipped box. -/
def sampleIou (s : Fin 100) : EReal :=
  iou
    (sLo (e s 0) (vr f Wv bv 0) (e s 2) (vr f Wv bv 2) (cx0 f p Wb bb) (cx1 f p Wb bb))
    (sHi (e s 0) (vr f Wv bv 0) (e s 2) (vr f Wv bv 2) (cx0 f p Wb bb) (cx1 f p Wb bb))
    (sLo (e s 1) (vr f Wv bv 1) (e s 3) (vr f Wv bv 3) (cy0 f p Wb bb) (cy1 f p Wb bb))
    (sHi (e s 1) (vr f Wv bv 1) (e s 3) (vr f Wv bv 3) (cy0 f p Wb bb) (cy1 f p Wb bb))
    (cx0 f p Wb bb) (cx1 f p Wb bb) (cy0 f p Wb bb) (cy1 f p Wb bb)

/-- The mean of the hundred samples' values. -/
def meanIou : EReal := Ideal.div (∑ s : Fin 100, sampleIou f p e Wb bb Wv bv s) k100

/-- The row's 90 entries: scores, the four corners, the four variances, the mean. -/
def row (c : Fin 90) : EReal :=
  if h : c.val < 81 then head f Wc bc ⟨c.val, h⟩
  else if c.val = 81 then cx0 f p Wb bb
  else if c.val = 82 then cy0 f p Wb bb
  else if c.val = 83 then cx1 f p Wb bb
  else if c.val = 84 then cy1 f p Wb bb
  else if h' : c.val < 89 then vr f Wv bv ⟨c.val - 85, by omega⟩
  else meanIou f p e Wb bb Wv bv

end Row

end Cert.BoxHead

end
-- ==== Proof.LibKeepdims.lean ====
/-
  Small layout operations and one-axis sums of a matrix, read at an index: a vector turned into a column
  ([a] → [a, 1]), a column broadcast along its rows ([a, 1] → [a, b]), the sum of a matrix along its rows
  ([a, b] → [a], at `i` the sum over `k` of the entries `(i, k)`) and the sum of a column ([a, 1] → [1]), the two
  sums at the ideal values, where a float sum is the sum of the extended reals.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the ideal values the sum of an `[a, b]` matrix along its rows is, at `i`, the sum over `k` of the entries `(i, k)`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src (funext fun ax => Fin.ext ?_)
  match ax with
  | ⟨0, _⟩ => rfl
  | ⟨1, _⟩ => rfl

/-- At the ideal values the sum of an `[a, 1]` column is, at its one index, the sum over `r` of the entries `(r, 0)`. -/
theorem colSum_apply {a : ℕ} {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ) (u : Fin 1) :
    multiReduction .add [0] ⟨1, ![1]⟩ src acc h hφ hacc (ix1 u) = ∑ r : Fin a, src (ix2 r (0 : Fin 1)) := by
  refine (Ideal.multiReduction_add_single src acc h hφ hacc (ix1 u)).trans ?_
  refine Finset.sum_congr rfl fun r _ => congrArg src (funext fun ax => Fin.ext ?_)
  have hu : u.val = 0 := by omega
  match ax with
  | ⟨0, _⟩ => rfl
  | ⟨1, _⟩ => exact hu

end Cert.LibKeepdims

end
-- ==== Proof.LibPlainDot.lean ====
/-
  A plain matrix product read at an index, on the extended reals.

  For the dimension numbers of an M×K by K×N product (contract the left operand's axis 1 with the
  right operand's axis 0, no batch axis), the entry (p, q) of the product is ∑ k, a[p, k] · b[k, q]:
  for the host's dot_general, for a matmul into any accumulator (plus the accumulator's entry), and
  for a matmul into the zero splat. The contraction's one-axis index is re-indexed to its coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's row coordinate is the output's row. -/
theorem plain_lhs_row (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the output's column. -/
theorem plain_rhs_col (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => exact plain_lhs_row M K N (ix2 p q) _
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => exact plain_rhs_col M K N (ix2 p q) _

/-- The contraction sum of a plain product at (p, q) is the sum over the shared coordinate. -/
theorem plain_sum (a : (⟨2, ![M, K]⟩ : Shape).Idx → EReal) (b : (⟨2, ![K, N]⟩ : Shape).Idx → EReal) (p : Fin M) (q : Fin N) :
    (∑ k : (DotDims.plain M K N).contr.Idx,
        a ((DotDims.plain M K N).lhsIdx (ix2 p q) k) * b ((DotDims.plain M K N).rhsIdx (ix2 p q) k))
      = ∑ k : Fin K, a (ix2 p k) * b (ix2 k q) := by
  rw [← Equiv.sum_comp (contrEquiv1 (DotDims.plain M K N) K rfl rfl).symm]
  refine Finset.sum_congr rfl fun k _ => ?_
  rw [plain_lhsIdx, plain_rhsIdx]

/-- A matmul into the zero splat, read at (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) :=
  (Ideal.matmul_constant_zero_apply (DotDims.plain M K N) prec a b (ix2 p q)).trans (plain_sum M K N a b p q)

/-- The host's dot_general, read at (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral (DotDims.plain M K N) prec sched a b (ix2 p q) = ∑ k : Fin K, a (ix2 p k) * b (ix2 k q) :=
  (Ideal.dotGeneral_apply (DotDims.plain M K N) prec sched a b (ix2 p q)).trans (plain_sum M K N a b p q)

end Idealize.ShloMosaic.PlainDot

end
-- ==== Proof.KernelRow.lean ====
/-
  The kernel's result block, entry by entry.

  The body computes, for each of the 512 rows of a block, a row of 90 numbers, and stores the whole block at once.
  This file reads that block at row `y` and column `c` and shows it is entry `c` of the row `Cert.BoxHead.row`
  gives from row `y`'s 1024 features, four raw box numbers and hundred noise vectors, and the three heads' weights
  and biases.

  Every intermediate value of the body is a column (one number per row), a block of four or 81 columns, or a matrix
  with one column per sample. Each is read at row `y` (and sample `s`) in terms of the values it is computed from,
  read at the same row: a column cut out of a block is that block's column; a column spread over the samples is the
  column; a bias row spread over the rows is the bias; a product with transposed weights is the sum over the 1024
  features of feature times weight. The clipped box's corners are then `boxLo` and `boxHi` of the deltas and the
  raw box numbers, the variances are `var` of the third head, and the last column is the mean over the samples of
  `iou`. The row is seven blocks laid side by side, and a column of the row falls in exactly one of them.
-/
import proofs.«177437_j84602265797277_1_alg».proof.Proof.Gen.KernelIdeal.Value
import proofs.«177437_j84602265797277_1_alg».proof.Proof.BoxSpec
import proofs.«177437_j84602265797277_1_alg».proof.Proof.LibKeepdims
import proofs.«177437_j84602265797277_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.RowValue

open Cert.KernelIdeal Cert.KernelIdeal.Gen Idealize.ShloMosaic Idealize.ShloMosaic.ValueIdx Cert.BoxHead Cert.LibKeepdims

/-! ## Layout operations read at a row -/

/-- Column 0 of a four-column block, read at row `y`. -/
theorem col0 (v : FVec Ideal S512x4 .f32) (h : S512x4.Slices ![0, 0] S512x1) (y : Fin 512) :
    extractStridedSlice S512x1 ![0, 0] v h (ix2 y (0 : Fin 1)) = v (ix2 y (0 : Fin 4)) :=
  slice2_axis1_apply 0 v h y 0 0 rfl

/-- Column 1 of a four-column block, read at row `y`. -/
theorem col1 (v : FVec Ideal S512x4 .f32) (h : S512x4.Slices ![0, 1] S512x1) (y : Fin 512) :
    extractStridedSlice S512x1 ![0, 1] v h (ix2 y (0 : Fin 1)) = v (ix2 y (1 : Fin 4)) :=
  slice2_axis1_apply 1 v h y 0 1 rfl

/-- Column 2 of a four-column block, read at row `y`. -/
theorem col2 (v : FVec Ideal S512x4 .f32) (h : S512x4.Slices ![0, 2] S512x1) (y : Fin 512) :
    extractStridedSlice S512x1 ![0, 2] v h (ix2 y (0 : Fin 1)) = v (ix2 y (2 : Fin 4)) :=
  slice2_axis1_apply 2 v h y 0 2 rfl

/-- Column 3 of a four-column block, read at row `y`. -/
theorem col3 (v : FVec Ideal S512x4 .f32) (h : S512x4.Slices ![0, 3] S512x1) (y : Fin 512) :
    extractStridedSlice S512x1 ![0, 3] v h (ix2 y (0 : Fin 1)) = v (ix2 y (3 : Fin 4)) :=
  slice2_axis1_apply 3 v h y 0 3 rfl

/-- A column spread over the hundred samples reads, at row `y` and any sample, the column at row `y`. -/
theorem spread (v : FVec Ideal S512x1 .f32) (h : S512x1.Broadcasts S512x100) (y : Fin 512) (s : Fin 100) :
    broadcastTo S512x100 v h (ix2 y s) = v (ix2 y (0 : Fin 1)) :=
  broadcastTo_a1_ab_apply v h y s

/-- A four-entry bias row spread over the rows reads, at `(y, j)`, its entry `j`. -/
theorem biasRow4 (v : FVec Ideal S1x4 .f32) (h' : S1x4.ShapeCasts S1x4) (h : S1x4.Broadcasts S512x4)
    (y : Fin 512) (j : Fin 4) :
    broadcastTo S512x4 (shapeCast S1x4 v h') h (ix2 y j) = v (ix2 (0 : Fin 1) j) := by
  rw [broadcastTo_1b_ab_apply, shapeCast_self]

/-- An 81-entry bias row spread over the rows reads, at `(y, j)`, its entry `j`. -/
theorem biasRow81 (v : FVec Ideal S1x81 .f32) (h' : S1x81.ShapeCasts S1x81) (h : S1x81.Broadcasts S512x81)
    (y : Fin 512) (j : Fin 81) :
    broadcastTo S512x81 (shapeCast S1x81 v h') h (ix2 y j) = v (ix2 (0 : Fin 1) j) := by
  rw [broadcastTo_1b_ab_apply, shapeCast_self]

/-- A one-slab noise block seen as a matrix reads, at `(y, s)`, the slab at `(0, y, s)`. -/
theorem slab (v : FVec Ideal S1x512x100 .f32) (h : S1x512x100.ShapeCasts S512x100) (y : Fin 512) (s : Fin 100) :
    shapeCast S512x100 v h (ix2 y s) = v (ix3 (0 : Fin 1) y s) :=
  shapeCast_1ab_ab_apply v h y s

/-- An exponential at an index is the exponential of the entry. -/
theorem exp_apply {s : Shape} (a : FVec Ideal s .f32) (i : s.Idx) : exp a i = Ideal.exp (a i) := rfl

/-- A square root at an index is the square root of the entry. -/
theorem sqrt_apply {s : Shape} (a : FVec Ideal s .f32) (i : s.Idx) : sqrt a i = Ideal.sqrt (a i) := rfl

/-! ## The three affine heads -/

/-- The product of the features with a transposed four-row weight block, read at `(y, j)`: row `y` of the
    features against row `j` of the weights. -/
theorem dot4 (a : FVec Ideal S512x1024 .bf16) (w : FVec Ideal S4x1024 .bf16) (h : S4x1024.Transposes [1, 0] S1024x4)
    (y : Fin 512) (j : Fin 4) :
    matmul dot_S512x1024_S1024x4_S512x4_1_0_0_1_n_n none a (transpose S1024x4 [1, 0] w h)
        (constant (F := Ideal) S512x4 .f32 0x00000000#32) (ix2 y j)
      = ∑ k : Fin 1024, a (ix2 y k) * w (ix2 j k) := by
  refine (PlainDot.matmul_zero_apply 512 1024 4 none a (transpose S1024x4 [1, 0] w h) y j).trans ?_
  refine Finset.sum_congr rfl fun k _ => ?_
  rw [transpose_ix2_apply]

/-- The same for the 81-row weight block. -/
theorem dot81 (a : FVec Ideal S512x1024 .bf16) (w : FVec Ideal S81x1024 .bf16) (h : S81x1024.Transposes [1, 0] S1024x81)
    (y : Fin 512) (j : Fin 81) :
    matmul dot_S512x1024_S1024x81_S512x81_1_0_0_1_n_n none a (transpose S1024x81 [1, 0] w h)
        (constant (F := Ideal) S512x81 .f32 0x00000000#32) (ix2 y j)
      = ∑ k : Fin 1024, a (ix2 y k) * w (ix2 j k) := by
  refine (PlainDot.matmul_zero_apply 512 1024 81 none a (transpose S1024x81 [1, 0] w h) y j).trans ?_
  refine Finset.sum_congr rfl fun k _ => ?_
  rw [transpose_ix2_apply]

/-- The class scores' block at `(y, j)`: row `y` of the features against row `j` of the weights, plus bias `j`. -/
theorem pay2_apply (v0 : Vec Ideal S512x1024 .f32) (v2 : Vec Ideal S81x1024 .f32) (v10 : Vec Ideal S1x81 .f32)
    (y : Fin 512) (j : Fin 81) :
    k0_pay2 (F := Ideal) v0 v2 v10 (ix2 y j)
      = (∑ k : Fin 1024, v0 (ix2 y k) * v2 (ix2 j k)) + v10 (ix2 (0 : Fin 1) j) := by
  unfold k0_pay2 k0_pay1
  show matmul (F := Ideal) _ none _ _ _ (ix2 y j) + broadcastTo S512x81 _ _ (ix2 y j) = _
  rw [dot81, biasRow81]
  rfl

/-- The box deltas' block at `(y, j)`. -/
theorem pay3_apply (v0 : Vec Ideal S512x1024 .f32) (v4 : Vec Ideal S4x1024 .f32) (v16 : Vec Ideal S1x4 .f32)
    (y : Fin 512) (j : Fin 4) :
    k0_pay3 (F := Ideal) v0 v4 v16 (ix2 y j)
      = (∑ k : Fin 1024, v0 (ix2 y k) * v4 (ix2 j k)) + v16 (ix2 (0 : Fin 1) j) := by
  unfold k0_pay3 k0_pay1
  show matmul (F := Ideal) _ none _ _ _ (ix2 y j) + broadcastTo S512x4 _ _ (ix2 y j) = _
  rw [dot4, biasRow4]
  rfl

/-- The variances' block at `(y, j)`: the variance of the raw logarithm the third head gives. -/
theorem pay4_apply (v0 : Vec Ideal S512x1024 .f32) (v6 : Vec Ideal S4x1024 .f32) (v22 : Vec Ideal S1x4 .f32)
    (y : Fin 512) (j : Fin 4) :
    k0_pay4 (F := Ideal) v0 v6 v22 (ix2 y j)
      = var ((∑ k : Fin 1024, v0 (ix2 y k) * v6 (ix2 j k)) + v22 (ix2 (0 : Fin 1) j)) := by
  unfold k0_pay4 k0_pay1
  show Ideal.exp (min _ (max _ (matmul (F := Ideal) _ none _ _ _ (ix2 y j) + broadcastTo S512x4 _ _ (ix2 y j)))) = _
  rw [dot4, biasRow4]
  rfl

/-! ## The proposal box and the predicted box, column by column -/

/-- The proposal's low x corner at row `y`. -/
theorem pay5_apply (v31 : Vec Ideal S512x4 .f32) (y : Fin 512) :
    k0_pay5 (F := Ideal) v31 (ix2 y (0 : Fin 1)) = lo (v31 (ix2 y (0 : Fin 4))) := by
  unfold k0_pay5
  show extractStridedSlice S512x1 ![0, 0] v31 _ (ix2 y (0 : Fin 1)) * _ = _
  rw [col0]
  rfl

/-- The second raw box number at row `y`. -/
theorem pay6_apply (v31 : Vec Ideal S512x4 .f32) (y : Fin 512) :
    k0_pay6 (F := Ideal) v31 (ix2 y (0 : Fin 1)) = v31 (ix2 y (1 : Fin 4)) :=
  col1 v31 slices_S512x4_o0_1_S512x1 y

/-- A column scaled by a number, at row `y`. -/
theorem pay7_apply (v35 : FVec Ideal S512x1 .f32) (c : Ideal .f32) (y : Fin 512) :
    k0_pay7 (F := Ideal) v35 c (ix2 y (0 : Fin 1)) = v35 (ix2 y (0 : Fin 1)) * c := rfl

/-- The proposal's x side at row `y`: high corner minus low corner. -/
theorem pay8_apply (v31 : Vec Ideal S512x4 .f32) (v34 : FVec Ideal S512x1 .f32) (y : Fin 512) :
    k0_pay8 (F := Ideal) v31 v34 (ix2 y (0 : Fin 1))
      = (v34 (ix2 y (0 : Fin 1)) + ext (v31 (ix2 y (2 : Fin 4)))) - v34 (ix2 y (0 : Fin 1)) := by
  unfold k0_pay8
  show (v34 _ + (extractStridedSlice S512x1 ![0, 2] v31 _ (ix2 y (0 : Fin 1)) * _ + _)) - v34 _ = _
  rw [col2]
  rfl

/-- The proposal's y side at row `y`. -/
theorem pay9_apply (v31 : Vec Ideal S512x4 .f32) (v35 : FVec Ideal S512x1 .f32) (c : Ideal .f32) (y : Fin 512) :
    k0_pay9 (F := Ideal) v31 v35 c (ix2 y (0 : Fin 1))
      = (v35 (ix2 y (0 : Fin 1)) * c + ext (v31 (ix2 y (3 : Fin 4)))) - v35 (ix2 y (0 : Fin 1)) * c := by
  unfold k0_pay9 k0_pay7
  show (v35 _ * c + (extractStridedSlice S512x1 ![0, 3] v31 _ (ix2 y (0 : Fin 1)) * _ + _)) - v35 _ * c = _
  rw [col3]
  rfl

/-- The predicted x centre at row `y`. -/
theorem pay10_apply (v19 : FVec Ideal S512x4 .f32) (v31 : Vec Ideal S512x4 .f32) (v34 : FVec Ideal S512x1 .f32) (y : Fin 512) :
    k0_pay10 (F := Ideal) v19 v31 v34 (ix2 y (0 : Fin 1))
      = Ideal.div (v19 (ix2 y (0 : Fin 4))) k10 * k0_pay8 (F := Ideal) v31 v34 (ix2 y (0 : Fin 1))
        + (v34 (ix2 y (0 : Fin 1)) + khalf * k0_pay8 (F := Ideal) v31 v34 (ix2 y (0 : Fin 1))) := by
  unfold k0_pay10
  show Ideal.div (extractStridedSlice S512x1 ![0, 0] v19 _ (ix2 y (0 : Fin 1))) _ * _ + _ = _
  rw [col0]
  rfl

/-- The predicted y centre at row `y`. -/
theorem pay11_apply (v19 : FVec Ideal S512x4 .f32) (v31 : Vec Ideal S512x4 .f32) (v35 : FVec Ideal S512x1 .f32)
    (c : Ideal .f32) (y : Fin 512) :
    k0_pay11 (F := Ideal) v19 v31 v35 c (ix2 y (0 : Fin 1))
      = Ideal.div (v19 (ix2 y (1 : Fin 4))) k10 * k0_pay9 (F := Ideal) v31 v35 c (ix2 y (0 : Fin 1))
        + (v35 (ix2 y (0 : Fin 1)) * c + khalf * k0_pay9 (F := Ideal) v31 v35 c (ix2 y (0 : Fin 1))) := by
  unfold k0_pay11
  show Ideal.div (extractStridedSlice S512x1 ![0, 1] v19 _ (ix2 y (0 : Fin 1))) _ * _ + _ = _
  rw [col1]
  rfl

/-- The predicted x side at row `y`. -/
theorem pay12_apply (v19 : FVec Ideal S512x4 .f32) (v31 : Vec Ideal S512x4 .f32) (v34 : FVec Ideal S512x1 .f32) (y : Fin 512) :
    k0_pay12 (F := Ideal) v19 v31 v34 (ix2 y (0 : Fin 1))
      = Ideal.exp (min (Ideal.div (v19 (ix2 y (2 : Fin 4))) k5) kcap) * k0_pay8 (F := Ideal) v31 v34 (ix2 y (0 : Fin 1)) := by
  unfold k0_pay12
  show Ideal.exp (min (Ideal.div (extractStridedSlice S512x1 ![0, 2] v19 _ (ix2 y (0 : Fin 1))) _) _) * _ = _
  rw [col2]
  rfl

/-- The predicted y side at row `y`. -/
theorem pay13_apply (v19 : FVec Ideal S512x4 .f32) (v31 : Vec Ideal S512x4 .f32) (v35 : FVec Ideal S512x1 .f32)
    (c : Ideal .f32) (y : Fin 512) :
    k0_pay13 (F := Ideal) v19 v31 v35 c (ix2 y (0 : Fin 1))
      = Ideal.exp (min (Ideal.div (v19 (ix2 y (3 : Fin 4))) k5) kcap) * k0_pay9 (F := Ideal) v31 v35 c (ix2 y (0 : Fin 1)) := by
  unfold k0_pay13
  show Ideal.exp (min (Ideal.div (extractStridedSlice S512x1 ![0, 3] v19 _ (ix2 y (0 : Fin 1))) _) _) * _ = _
  rw [col3]
  rfl

/-- The column of halves. -/
theorem pay14_apply (y : Fin 512) : k0_pay14 (F := Ideal) (ix2 y (0 : Fin 1)) = khalf := rfl

/-- A clipped low corner at row `y`, from centre, side and the column of halves. -/
theorem pay15_apply (v75 v79 v82 : FVec Ideal S512x1 .f32) (y : Fin 512) :
    k0_pay15 (F := Ideal) v75 v79 v82 (ix2 y (0 : Fin 1))
      = min k1024 (max k0 (v75 (ix2 y (0 : Fin 1)) - v82 (ix2 y (0 : Fin 1)) * v79 (ix2 y (0 : Fin 1)))) := rfl

/-- A clipped low corner at row `y`, from centre and side. -/
theorem pay16_apply (v77 v81 : FVec Ideal S512x1 .f32) (y : Fin 512) :
    k0_pay16 (F := Ideal) v77 v81 (ix2 y (0 : Fin 1))
      = min k1024 (max k0 (v77 (ix2 y (0 : Fin 1)) - khalf * v81 (ix2 y (0 : Fin 1)))) := rfl

/-- A clipped high corner at row `y`, from centre and side. -/
theorem pay17_apply (v75 v79 : FVec Ideal S512x1 .f32) (y : Fin 512) :
    k0_pay17 (F := Ideal) v75 v79 (ix2 y (0 : Fin 1))
      = min k1024 (max k0 (v75 (ix2 y (0 : Fin 1)) + khalf * v79 (ix2 y (0 : Fin 1)))) := rfl

/-- The other clipped high corner at row `y`. -/
theorem pay18_apply (v77 v81 : FVec Ideal S512x1 .f32) (y : Fin 512) :
    k0_pay18 (F := Ideal) v77 v81 (ix2 y (0 : Fin 1))
      = min k1024 (max k0 (v77 (ix2 y (0 : Fin 1)) + khalf * v81 (ix2 y (0 : Fin 1)))) := rfl

/-! ## The standard deviations and the noise -/

/-- The square root of variance 0 at row `y`. -/
theorem pay19_apply (v30 : FVec Ideal S512x4 .f32) (y : Fin 512) :
    k0_pay19 (F := Ideal) v30 (ix2 y (0 : Fin 1)) = Ideal.sqrt (v30 (ix2 y (0 : Fin 4))) :=
  congrArg Ideal.sqrt (col0 v30 slices_S512x4_o0_0_S512x1 y)

/-- The square root of variance 1 at row `y`. -/
theorem pay20_apply (v30 : FVec Ideal S512x4 .f32) (y : Fin 512) :
    k0_pay20 (F := Ideal) v30 (ix2 y (0 : Fin 1)) = Ideal.sqrt (v30 (ix2 y (1 : Fin 4))) :=
  congrArg Ideal.sqrt (col1 v30 slices_S512x4_o0_1_S512x1 y)

/-- The square root of variance 2 at row `y`. -/
theorem pay21_apply (v30 : FVec Ideal S512x4 .f32) (y : Fin 512) :
    k0_pay21 (F := Ideal) v30 (ix2 y (0 : Fin 1)) = Ideal.sqrt (v30 (ix2 y (2 : Fin 4))) :=
  congrArg Ideal.sqrt (col2 v30 slices_S512x4_o0_2_S512x1 y)

/-- The square root of variance 3 at row `y`. -/
theorem pay22_apply (v30 : FVec Ideal S512x4 .f32) (y : Fin 512) :
    k0_pay22 (F := Ideal) v30 (ix2 y (0 : Fin 1)) = Ideal.sqrt (v30 (ix2 y (3 : Fin 4))) :=
  congrArg Ideal.sqrt (col3 v30 slices_S512x4_o0_3_S512x1 y)

/-- A noise slab as a matrix, at row `y` and sample `s`. -/
theorem pay23_apply (v118 : Vec Ideal S1x512x100 .f32) (y : Fin 512) (s : Fin 100) :
    k0_pay23 (F := Ideal) v118 (ix2 y s) = v118 (ix3 (0 : Fin 1) y s) :=
  slab v118 shapeCasts_S1x512x100_S512x100 y s

/-- Another noise slab as a matrix, at row `y` and sample `s`. -/
theorem pay24_apply (v120 : Vec Ideal S1x512x100 .f32) (y : Fin 512) (s : Fin 100) :
    k0_pay24 (F := Ideal) v120 (ix2 y s) = v120 (ix3 (0 : Fin 1) y s) :=
  slab v120 shapeCasts_S1x512x100_S512x100 y s

/-- The clipped box's x side at row `y`. -/
theorem pay25_apply (v97 v105 : FVec Ideal S512x1 .f32) (y : Fin 512) :
    k0_pay25 (F := Ideal) v97 v105 (ix2 y (0 : Fin 1)) = v105 (ix2 y (0 : Fin 1)) - v97 (ix2 y (0 : Fin 1)) := rfl

/-- The clipped box's y side at row `y`. -/
theorem pay26_apply (v101 v109 : FVec Ideal S512x1 .f32) (y : Fin 512) :
    k0_pay26 (F := Ideal) v101 v109 (ix2 y (0 : Fin 1)) = v109 (ix2 y (0 : Fin 1)) - v101 (ix2 y (0 : Fin 1)) := rfl

/-! ## The sampled boxes -/

/-- A sampled centre at row `y`, sample `s`: noise times standard deviation, as a centre delta to `[L, H]`. -/
theorem pay27_apply (v97 v105 v111 : FVec Ideal S512x1 .f32) (v119 : FVec Ideal S512x100 .f32) (y : Fin 512) (s : Fin 100) :
    k0_pay27 (F := Ideal) v97 v105 v111 v119 (ix2 y s)
      = Ideal.div (v119 (ix2 y s) * v111 (ix2 y (0 : Fin 1))) k10 * (v105 (ix2 y (0 : Fin 1)) - v97 (ix2 y (0 : Fin 1)))
        + (v97 (ix2 y (0 : Fin 1)) + khalf * (v105 (ix2 y (0 : Fin 1)) - v97 (ix2 y (0 : Fin 1)))) := by
  unfold k0_pay27 k0_pay25
  show Ideal.div (v119 _ * broadcastTo S512x100 v111 _ (ix2 y s)) _ * broadcastTo S512x100 _ _ (ix2 y s)
      + broadcastTo S512x100 _ _ (ix2 y s) = _
  rw [spread, spread, spread]
  rfl

/-- The other sampled centre. -/
theorem pay28_apply (v101 v109 v113 : FVec Ideal S512x1 .f32) (v121 : FVec Ideal S512x100 .f32) (y : Fin 512) (s : Fin 100) :
    k0_pay28 (F := Ideal) v101 v109 v113 v121 (ix2 y s)
      = Ideal.div (v121 (ix2 y s) * v113 (ix2 y (0 : Fin 1))) k10 * (v109 (ix2 y (0 : Fin 1)) - v101 (ix2 y (0 : Fin 1)))
        + (v101 (ix2 y (0 : Fin 1)) + khalf * (v109 (ix2 y (0 : Fin 1)) - v101 (ix2 y (0 : Fin 1)))) := by
  unfold k0_pay28 k0_pay26
  show Ideal.div (v121 _ * broadcastTo S512x100 v113 _ (ix2 y s)) _ * broadcastTo S512x100 _ _ (ix2 y s)
      + broadcastTo S512x100 _ _ (ix2 y s) = _
  rw [spread, spread, spread]
  rfl

/-- A sampled side at row `y`, sample `s`: noise times standard deviation, as a size delta to `[L, H]`. -/
theorem pay29_apply (v97 v105 v115 : FVec Ideal S512x1 .f32) (v122 : Vec Ideal S1x512x100 .f32) (y : Fin 512) (s : Fin 100) :
    k0_pay29 (F := Ideal) v97 v105 v115 v122 (ix2 y s)
      = Ideal.exp (min (Ideal.div (v122 (ix3 (0 : Fin 1) y s) * v115 (ix2 y (0 : Fin 1))) k5) kcap)
        * (v105 (ix2 y (0 : Fin 1)) - v97 (ix2 y (0 : Fin 1))) := by
  unfold k0_pay29 k0_pay25
  show Ideal.exp (min (Ideal.div (shapeCast S512x100 v122 _ (ix2 y s) * broadcastTo S512x100 v115 _ (ix2 y s)) _) _)
      * broadcastTo S512x100 _ _ (ix2 y s) = _
  rw [slab, spread, spread]
  rfl

/-- The other sampled side. -/
theorem pay30_apply (v101 v109 v117 : FVec Ideal S512x1 .f32) (v124 : Vec Ideal S1x512x100 .f32) (y : Fin 512) (s : Fin 100) :
    k0_pay30 (F := Ideal) v101 v109 v117 v124 (ix2 y s)
      = Ideal.exp (min (Ideal.div (v124 (ix3 (0 : Fin 1) y s) * v117 (ix2 y (0 : Fin 1))) k5) kcap)
        * (v109 (ix2 y (0 : Fin 1)) - v101 (ix2 y (0 : Fin 1))) := by
  unfold k0_pay30 k0_pay26
  show Ideal.exp (min (Ideal.div (shapeCast S512x100 v124 _ (ix2 y s) * broadcastTo S512x100 v117 _ (ix2 y s)) _) _)
      * broadcastTo S512x100 _ _ (ix2 y s) = _
  rw [slab, spread, spread]
  rfl

/-- A sampled low corner at row `y`, sample `s`: sampled centre minus half the sampled side. -/
theorem pay31_apply (v97 v105 v111 v115 : FVec Ideal S512x1 .f32) (v119 : FVec Ideal S512x100 .f32)
    (v122 : Vec Ideal S1x512x100 .f32) (y : Fin 512) (s : Fin 100) :
    k0_pay31 (F := Ideal) v97 v105 v111 v115 v119 v122 (ix2 y s)
      = k0_pay27 (F := Ideal) v97 v105 v111 v119 (ix2 y s) - khalf * k0_pay29 (F := Ideal) v97 v105 v115 v122 (ix2 y s) := rfl

/-! ## The row's seven parts

The row is seven blocks laid side by side: 81 scores, the four clipped corners one column each, the four variances,
and the mean. An entry of the row is the entry of the block its column falls in. -/

section Parts

variable (v13 : FVec Ideal S512x81 .f32) (v30 : FVec Ideal S512x4 .f32)
  (v97 v101 v105 v109 v134 v135 : FVec Ideal S512x1 .f32)
  (v157 v161 v164 v167 v170 : FVec Ideal S512x100 .f32) (y : Fin 512) (c : Fin 90)

/-- Columns below 81 read the scores. -/
theorem pay32_scores (hc : c.val < 81) :
    k0_pay32 (F := Ideal) v13 v30 v97 v101 v105 v109 v134 v135 v157 v161 v164 v167 v170 (ix2 y c)
      = v13 (ix2 y (⟨c.val, hc⟩ : Fin 81)) := by
  unfold k0_pay32
  show concatenate S512x90 1 _ _ (ix2 y c) = _
  refine concatenate_apply_piece _ _ _ (ix2 y c) 0 (by show (0 : Nat) < 7; omega) S512x81 v13 rfl rfl 0 rfl
    (ix2 y (⟨c.val, hc⟩ : Fin 81)) ?_ ?_
  · intro b hb
    match b with
    | ⟨0, _⟩ => rfl
    | ⟨1, _⟩ => exact absurd rfl hb
  · show 0 + c.val = c.val
    omega

/-- Column 81 reads the first corner column. -/
theorem pay32_c81 (hc : c.val = 81) :
    k0_pay32 (F := Ideal) v13 v30 v97 v101 v105 v109 v134 v135 v157 v161 v164 v167 v170 (ix2 y c)
      = v97 (ix2 y (0 : Fin 1)) := by
  unfold k0_pay32
  show concatenate S512x90 1 _ _ (ix2 y c) = _
  refine concatenate_apply_piece _ _ _ (ix2 y c) 1 (by show (1 : Nat) < 7; omega) S512x1 v97 rfl rfl 81 rfl
    (ix2 y (0 : Fin 1)) ?_ ?_
  · intro b hb
    match b with
    | ⟨0, _⟩ => rfl
    | ⟨1, _⟩ => exact absurd rfl hb
  · show 81 + 0 = c.val
    omega

/-- Column 82 reads the second corner column. -/
theorem pay32_c82 (hc : c.val = 82) :
    k0_pay32 (F := Ideal) v13 v30 v97 v101 v105 v109 v134 v135 v157 v161 v164 v167 v170 (ix2 y c)
      = v101 (ix2 y (0 : Fin 1)) := by
  unfold k0_pay32
  show concatenate S512x90 1 _ _ (ix2 y c) = _
  refine concatenate_apply_piece _ _ _ (ix2 y c) 2 (by show (2 : Nat) < 7; omega) S512x1 v101 rfl rfl 82 rfl
    (ix2 y (0 : Fin 1)) ?_ ?_
  · intro b hb
    match b with
    | ⟨0, _⟩ => rfl
    | ⟨1, _⟩ => exact absurd rfl hb
  · show 82 + 0 = c.val
    omega

/-- Column 83 reads the third corner column. -/
theorem pay32_c83 (hc : c.val = 83) :
    k0_pay32 (F := Ideal) v13 v30 v97 v101 v105 v109 v134 v135 v157 v161 v164 v167 v170 (ix2 y c)
      = v105 (ix2 y (0 : Fin 1)) := by
  unfold k0_pay32
  show concatenate S512x90 1 _ _ (ix2 y c) = _
  refine concatenate_apply_piece _ _ _ (ix2 y c) 3 (by show (3 : Nat) < 7; omega) S512x1 v105 rfl rfl 83 rfl
    (ix2 y (0 : Fin 1)) ?_ ?_
  · intro b hb
    match b with
    | ⟨0, _⟩ => rfl
    | ⟨1, _⟩ => exact absurd rfl hb
  · show 83 + 0 = c.val
    omega

/-- Column 84 reads the fourth corner column. -/
theorem pay32_c84 (hc : c.val = 84) :
    k0_pay32 (F := Ideal) v13 v30 v97 v101 v105 v109 v134 v135 v157 v161 v164 v167 v170 (ix2 y c)
      = v109 (ix2 y (0 : Fin 1)) := by
  unfold k0_pay32
  show concatenate S512x90 1 _ _ (ix2 y c) = _
  refine concatenate_apply_piece _ _ _ (ix2 y c) 4 (by show (4 : Nat) < 7; omega) S512x1 v109 rfl rfl 84 rfl
    (ix2 y (0 : Fin 1)) ?_ ?_
  · intro b hb
    match b with
    | ⟨0, _⟩ => rfl
    | ⟨1, _⟩ => exact absurd rfl hb
  · show 84 + 0 = c.val
    omega

/-- Columns 85 to 88 read the variances. -/
theorem pay32_var (hlo : 85 ≤ c.val) (hhi : c.val < 89) :
    k0_pay32 (F := Ideal) v13 v30 v97 v101 v105 v109 v134 v135 v157 v161 v164 v167 v170 (ix2 y c)
      = v30 (ix2 y (⟨c.val - 85, by omega⟩ : Fin 4)) := by
  unfold k0_pay32
  show concatenate S512x90 1 _ _ (ix2 y c) = _
  refine concatenate_apply_piece _ _ _ (ix2 y c) 5 (by show (5 : Nat) < 7; omega) S512x4 v30 rfl rfl 85 rfl
    (ix2 y (⟨c.val - 85, by omega⟩ : Fin 4)) ?_ ?_
  · intro b hb
    match b with
    | ⟨0, _⟩ => rfl
    | ⟨1, _⟩ => exact absurd rfl hb
  · show 85 + (c.val - 85) = c.val
    omega

end Parts

section Mean

variable (v13 : FVec Ideal S512x81 .f32) (v30 : FVec Ideal S512x4 .f32)
  (v97 v101 v105 v109 : FVec Ideal S512x1 .f32)
  (v157 v161 v164 v167 v170 : FVec Ideal S512x100 .f32) (y : Fin 512) (c : Fin 90)

/-- Column 89 reads the mean: over the hundred samples, the intersection-over-union of the sampled box (low corners
    `v170`, `v161 - v167 / 2`; high corners `v157 + v164 / 2`, `v161 + v167 / 2`) with the clipped box, summed and
    divided by a hundred. -/
theorem pay32_mean (hc : c.val = 89) :
    k0_pay32 (F := Ideal) v13 v30 v97 v101 v105 v109 (k0_pay25 (F := Ideal) v97 v105) (k0_pay26 (F := Ideal) v101 v109)
        v157 v161 v164 v167 v170 (ix2 y c)
      = Ideal.div (∑ s : Fin 100, iou (v170 (ix2 y s)) (v157 (ix2 y s) + khalf * v164 (ix2 y s))
          (v161 (ix2 y s) - khalf * v167 (ix2 y s)) (v161 (ix2 y s) + khalf * v167 (ix2 y s))
          (v97 (ix2 y (0 : Fin 1))) (v105 (ix2 y (0 : Fin 1))) (v101 (ix2 y (0 : Fin 1))) (v109 (ix2 y (0 : Fin 1)))) k100 := by
  unfold k0_pay32
  show concatenate S512x90 1 _ _ (ix2 y c) = _
  refine (concatenate_apply_piece _ _ _ (ix2 y c) 6 (by show (6 : Nat) < 7; omega) S512x1 _ rfl rfl 89 rfl
    (ix2 y (0 : Fin 1)) ?_ ?_).trans ?_
  · intro b hb
    match b with
    | ⟨0, _⟩ => rfl
    | ⟨1, _⟩ => exact absurd rfl hb
  · show 89 + 0 = c.val
    omega
  · show Ideal.div (shapeCast S512x1 _ _ (ix2 y (0 : Fin 1))) _ = _
    rw [shapeCast_a_a1_apply]
    refine congrArg (fun t => Ideal.div t k100) ((rowSum_apply _ _ _ _ _ y).trans (Finset.sum_congr rfl fun s _ => ?_))
    simp only [select_apply, cmpf_apply, mulf_apply, subf_apply, addf_apply, divf_apply, maximumf_apply,
      minimumf_apply, broadcast_apply, spread]
    rfl

end Mean

/-! ## The loads -/

/-- The two-axis zero offsets, as the constant function. -/
theorem hz : (![0, 0] : Fin 2 → Nat) = fun _ => 0 := by
  funext a; fin_cases a <;> rfl

/-- The first noise slab at `(0, y, s)` is the noise block at `(0, y, s)`. -/
theorem ld_noise0 (x1 : Vec Ideal S4x512x100 .f32) (y : Fin 512) (s : Fin 100) :
    View.ld x1 r0_6 (ix3 (0 : Fin 1) y s) = x1 (ix3 (0 : Fin 4) y s) := by
  show x1 _ = x1 _
  congr 1
  funext a
  match a with
  | ⟨0, _⟩ => rfl
  | ⟨1, _⟩ => apply Fin.ext; show 0 + 1 * y.val = y.val; omega
  | ⟨2, _⟩ => apply Fin.ext; show 0 + 1 * s.val = s.val; omega

/-- The second noise slab at `(0, y, s)` is the noise block at `(1, y, s)`. -/
theorem ld_noise1 (x1 : Vec Ideal S4x512x100 .f32) (y : Fin 512) (s : Fin 100) :
    View.ld x1 r0_7 (ix3 (0 : Fin 1) y s) = x1 (ix3 (1 : Fin 4) y s) := by
  show x1 _ = x1 _
  congr 1
  funext a
  match a with
  | ⟨0, _⟩ => rfl
  | ⟨1, _⟩ => apply Fin.ext; show 0 + 1 * y.val = y.val; omega
  | ⟨2, _⟩ => apply Fin.ext; show 0 + 1 * s.val = s.val; omega

/-- The third noise slab at `(0, y, s)` is the noise block at `(2, y, s)`. -/
theorem ld_noise2 (x1 : Vec Ideal S4x512x100 .f32) (y : Fin 512) (s : Fin 100) :
    View.ld x1 r0_8 (ix3 (0 : Fin 1) y s) = x1 (ix3 (2 : Fin 4) y s) := by
  show x1 _ = x1 _
  congr 1
  funext a
  match a with
  | ⟨0, _⟩ => rfl
  | ⟨1, _⟩ => apply Fin.ext; show 0 + 1 * y.val = y.val; omega
  | ⟨2, _⟩ => apply Fin.ext; show 0 + 1 * s.val = s.val; omega

/-- The fourth noise slab at `(0, y, s)` is the noise block at `(3, y, s)`. -/
theorem ld_noise3 (x1 : Vec Ideal S4x512x100 .f32) (y : Fin 512) (s : Fin 100) :
    View.ld x1 r0_9 (ix3 (0 : Fin 1) y s) = x1 (ix3 (3 : Fin 4) y s) := by
  show x1 _ = x1 _
  congr 1
  funext a
  match a with
  | ⟨0, _⟩ => rfl
  | ⟨1, _⟩ => apply Fin.ext; show 0 + 1 * y.val = y.val; omega
  | ⟨2, _⟩ => apply Fin.ext; show 0 + 1 * s.val = s.val; omega

/-! ## The clipped box's corners, from the deltas and the raw box numbers -/

/-- The low x corner at row `y`. -/
theorem corner_x0 (v19 : FVec Ideal S512x4 .f32) (v31 : Vec Ideal S512x4 .f32) (y : Fin 512) :
    k0_pay15 (F := Ideal) (k0_pay10 (F := Ideal) v19 v31 (k0_pay5 (F := Ideal) v31))
        (k0_pay12 (F := Ideal) v19 v31 (k0_pay5 (F := Ideal) v31)) (k0_pay14 (F := Ideal)) (ix2 y (0 : Fin 1))
      = boxLo (v19 (ix2 y (0 : Fin 4))) (v19 (ix2 y (2 : Fin 4))) (v31 (ix2 y (0 : Fin 4))) (v31 (ix2 y (2 : Fin 4))) := by
  simp only [pay15_apply, pay10_apply, pay12_apply, pay14_apply, pay8_apply, pay5_apply]
  rfl

/-- The high x corner at row `y`. -/
theorem corner_x1 (v19 : FVec Ideal S512x4 .f32) (v31 : Vec Ideal S512x4 .f32) (y : Fin 512) :
    k0_pay17 (F := Ideal) (k0_pay10 (F := Ideal) v19 v31 (k0_pay5 (F := Ideal) v31))
        (k0_pay12 (F := Ideal) v19 v31 (k0_pay5 (F := Ideal) v31)) (ix2 y (0 : Fin 1))
      = boxHi (v19 (ix2 y (0 : Fin 4))) (v19 (ix2 y (2 : Fin 4))) (v31 (ix2 y (0 : Fin 4))) (v31 (ix2 y (2 : Fin 4))) := by
  simp only [pay17_apply, pay10_apply, pay12_apply, pay8_apply, pay5_apply]
  rfl

/-- The low y corner at row `y`. -/
theorem corner_y0 (v19 : FVec Ideal S512x4 .f32) (v31 : Vec Ideal S512x4 .f32) (y : Fin 512) :
    k0_pay16 (F := Ideal)
        (k0_pay11 (F := Ideal) v19 v31 (k0_pay6 (F := Ideal) v31) (Scalar.ofBits .f32 0x44480000#32))
        (k0_pay13 (F := Ideal) v19 v31 (k0_pay6 (F := Ideal) v31) (Scalar.ofBits .f32 0x44480000#32)) (ix2 y (0 : Fin 1))
      = boxLo (v19 (ix2 y (1 : Fin 4))) (v19 (ix2 y (3 : Fin 4))) (v31 (ix2 y (1 : Fin 4))) (v31 (ix2 y (3 : Fin 4))) := by
  simp only [pay16_apply, pay11_apply, pay13_apply, pay9_apply, pay6_apply]
  rfl

/-- The high y corner at row `y`. -/
theorem corner_y1 (v19 : FVec Ideal S512x4 .f32) (v31 : Vec Ideal S512x4 .f32) (y : Fin 512) :
    k0_pay18 (F := Ideal)
        (k0_pay11 (F := Ideal) v19 v31 (k0_pay6 (F := Ideal) v31) (Scalar.ofBits .f32 0x44480000#32))
        (k0_pay13 (F := Ideal) v19 v31 (k0_pay6 (F := Ideal) v31) (Scalar.ofBits .f32 0x44480000#32)) (ix2 y (0 : Fin 1))
      = boxHi (v19 (ix2 y (1 : Fin 4))) (v19 (ix2 y (3 : Fin 4))) (v31 (ix2 y (1 : Fin 4))) (v31 (ix2 y (3 : Fin 4))) := by
  simp only [pay18_apply, pay11_apply, pay13_apply, pay9_apply, pay6_apply]
  rfl

/-! ## The row -/

/-- The body's result block, read at row `y` and column `c`, is entry `c` of the row the specification computes from
    row `y`'s features, raw box numbers and noise and the three heads' weights and biases. -/
theorem out_apply (x0 : Vec Ideal S512x1024 .f32) (x1 : Vec Ideal S4x512x100 .f32) (x2 : Vec Ideal S512x4 .f32)
    (x3 : Vec Ideal S81x1024 .f32) (x4 : Vec Ideal S1x81 .f32) (x5 : Vec Ideal S4x1024 .f32) (x6 : Vec Ideal S1x4 .f32)
    (x7 : Vec Ideal S4x1024 .f32) (x8 : Vec Ideal S1x4 .f32) (y : Fin 512) (c : Fin 90) :
    out0_9 (F := Ideal) x0 x1 x2 x3 x4 x5 x6 x7 x8 (ix2 y c)
      = row (fun k => x0 (ix2 y k)) (fun j => x2 (ix2 y j)) (fun s j => x1 (ix3 j y s))
          (fun j k => x3 (ix2 j k)) (fun j => x4 (ix2 (0 : Fin 1) j)) (fun j k => x5 (ix2 j k)) (fun j => x6 (ix2 (0 : Fin 1) j))
          (fun j k => x7 (ix2 j k)) (fun j => x8 (ix2 (0 : Fin 1) j)) c := by
  unfold out0_9
  rw [View.canon_unit_zero hz]
  simp only [View.ld_unit_zero (S := S512x1024) hz, View.ld_unit_zero (S := S81x1024) hz,
    View.ld_unit_zero (S := S4x1024) hz, View.ld_unit_zero (S := S1x81) hz, View.ld_unit_zero (S := S1x4) hz,
    View.ld_unit_zero (S := S512x4) hz]
  have hc := c.isLt
  by_cases h81 : c.val < 81
  · rw [pay32_scores _ _ _ _ _ _ _ _ _ _ _ _ _ y c h81, pay2_apply]
    unfold row
    rw [dif_pos h81]
    rfl
  by_cases e81 : c.val = 81
  · rw [pay32_c81 _ _ _ _ _ _ _ _ _ _ _ _ _ y c e81, corner_x0]
    simp only [pay3_apply]
    unfold row
    rw [dif_neg h81, if_pos e81]
    rfl
  by_cases e82 : c.val = 82
  · rw [pay32_c82 _ _ _ _ _ _ _ _ _ _ _ _ _ y c e82, corner_y0]
    simp only [pay3_apply]
    unfold row
    rw [dif_neg h81, if_neg e81, if_pos e82]
    rfl
  by_cases e83 : c.val = 83
  · rw [pay32_c83 _ _ _ _ _ _ _ _ _ _ _ _ _ y c e83, corner_x1]
    simp only [pay3_apply]
    unfold row
    rw [dif_neg h81, if_neg e81, if_neg e82, if_pos e83]
    rfl
  by_cases e84 : c.val = 84
  · rw [pay32_c84 _ _ _ _ _ _ _ _ _ _ _ _ _ y c e84, corner_y1]
    simp only [pay3_apply]
    unfold row
    rw [dif_neg h81, if_neg e81, if_neg e82, if_neg e83, if_pos e84]
    rfl
  by_cases h89 : c.val < 89
  · rw [pay32_var _ _ _ _ _ _ _ _ _ _ _ _ _ y c (by omega) h89, pay4_apply]
    unfold row
    rw [dif_neg h81, if_neg e81, if_neg e82, if_neg e83, if_neg e84, dif_pos h89]
    rfl
  · rw [pay32_mean _ _ _ _ _ _ _ _ _ _ _ y c (by omega)]
    simp only [pay31_apply, pay27_apply, pay28_apply, pay29_apply, pay30_apply, pay23_apply, pay24_apply,
      corner_x0, corner_y0, corner_x1, corner_y1,
      pay19_apply, pay20_apply, pay21_apply, pay22_apply, pay4_apply, pay3_apply]
    unfold row
    rw [dif_neg h81, if_neg e81, if_neg e82, if_neg e83, if_neg e84, dif_neg h89]
    unfold meanIou
    refine congrArg (fun t => Ideal.div t k100) (Finset.sum_congr rfl fun s _ => ?_)
    rw [ld_noise0, ld_noise1, ld_noise2, ld_noise3]
    rfl

end Cert.KernelIdeal.RowValue

end
-- ==== Proof.BoxArray.lean ====
/-
  The whole output table: 65536 rows of 90 numbers, each row the row function of that proposal's features, raw
  box numbers and noise vectors and of the three heads' weights and biases.
-/
import proofs.«177437_j84602265797277_1_alg».proof.Proof.BoxSpec

noncomputable section

namespace Cert.BoxHead

open Idealize.ShloMosaic Idealize.ShloMosaic.ValueIdx

/-- Entry `(r, c)` of the output is entry `c` of the row function at row `r` of the features `A0`, of the raw boxes `A1`
    and of the noise `A2`, with the class head `A3, A4`, the box head `A5, A6` and the variance head `A7, A8`. -/
def table (A0 : (⟨2, ![65536, 1024]⟩ : Shape).Idx → EReal) (A1 : (⟨2, ![65536, 4]⟩ : Shape).Idx → EReal)
    (A2 : (⟨3, ![65536, 100, 4]⟩ : Shape).Idx → EReal)
    (A3 : (⟨2, ![81, 1024]⟩ : Shape).Idx → EReal) (A4 : (⟨1, ![81]⟩ : Shape).Idx → EReal)
    (A5 : (⟨2, ![4, 1024]⟩ : Shape).Idx → EReal) (A6 : (⟨1, ![4]⟩ : Shape).Idx → EReal)
    (A7 : (⟨2, ![4, 1024]⟩ : Shape).Idx → EReal) (A8 : (⟨1, ![4]⟩ : Shape).Idx → EReal) :
    (⟨2, ![65536, 90]⟩ : Shape).Idx → EReal :=
  fun i => row (fun k => A0 (ix2 (i 0) k)) (fun j => A1 (ix2 (i 0) j)) (fun s j => A2 (ix3 (i 0) s j))
    (fun j k => A3 (ix2 j k)) (fun j => A4 (ix1 j)) (fun j k => A5 (ix2 j k)) (fun j => A6 (ix1 j))
    (fun j k => A7 (ix2 j k)) (fun j => A8 (ix1 j)) (i 1)

end Cert.BoxHead

end
-- ==== Proof.KernelArray.lean ====
/-
  From the kernel's block rows to its whole output table.

  The kernel runs over 128 grid points; point `t` reads rows `512 t … 512 t + 511` of the features, of the raw boxes
  and (on the middle axis of the transposed noise) of the noise, reads the six weight and bias arrays whole, and
  writes back rows `512 t … 512 t + 511` of the output. Given that the body's result block, at row `y` of the block,
  is the row function of row `y` of its input blocks, the block written back at point `t` is block `t` of the
  output table of the argument arrays: each input block's entry is the argument array's entry at row `512 t + y`
  (for the noise through the host's transpose, for the biases through the host's reshape to one row). The 128 blocks
  tile the 65536 rows, so the array after the run is the table.
-/
import proofs.«177437_j84602265797277_1_alg».proof.Proof.Gen.KernelIdeal.Value
import proofs.«177437_j84602265797277_1_alg».proof.Proof.BoxArray
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
open Idealize.ShloMosaic.ValueIdx Idealize.ShloMosaic.StableHlo Cert.BoxHead
open Idealize.ShloMosaic.Pipeline (Dat)

variable (m : (ℓ : Loc nD τ sig) → Buf (Elt Ideal) ℓ) (ρ : Dev nD → PrngReg)

/-! ## Where each window's block sits, decided over the 128 points -/

/-- The features, the raw boxes and (on its middle axis) the noise move with the output's row block; every other
    window stays at block 0; the output's row block is at most 127 and its column block is 0. -/
theorem idx_facts : ∀ t : Fin cfg0.N,
    win0_0.index t (0 : Fin 2) = win0_9.index t (0 : Fin 2) ∧ win0_0.index t (1 : Fin 2) = 0
    ∧ win0_1.index t (0 : Fin 3) = 0 ∧ win0_1.index t (1 : Fin 3) = win0_9.index t (0 : Fin 2) ∧ win0_1.index t (2 : Fin 3) = 0
    ∧ win0_2.index t (0 : Fin 2) = win0_9.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (1 : Fin 2) = 0 ∧ win0_9.index t (0 : Fin 2) ≤ 127 :=
  (by decide +kernel : ∀ t : Fin grid0.N, _)

/-- Every row block of the output is some point's. -/
theorem idx_onto : ∀ q0 : Fin 128, ∃ t : Fin cfg0.N, win0_9.index t = ![q0.val, 0] :=
  (by decide +kernel : ∀ q0 : Fin 128, ∃ t : Fin grid0.N, win0_9.index t = ![q0.val, 0])

/-! ## The arrays the host wrote before the region -/

/-- The noise as the region finds it: the argument with its last axis brought to the front. -/
theorem V_v0 (c : Dev nD) : (V m c main_v0 : S4x65536x100.Idx → EReal)
    = transpose S4x65536x100 [2, 0, 1] (m ((c : Thread nD τ).loc main_arg2)) transposes_S65536x100x4_S4x65536x100_2_0_1 := by
  dsimp only [Gen.V, Gen.hostOps0]; after_results <;> rfl

/-- The class bias as the region finds it: the argument as one row. -/
theorem V_v1 (c : Dev nD) : (V m c main_v1 : S1x81.Idx → EReal) = shapeCast S1x81 (m ((c : Thread nD τ).loc main_arg4)) shapeCasts_S81_S1x81 := by
  dsimp only [Gen.V, Gen.hostOps0]; after_results <;> rfl

/-- The box bias as the region finds it: the argument as one row. -/
theorem V_v2 (c : Dev nD) : (V m c main_v2 : S1x4.Idx → EReal) = shapeCast S1x4 (m ((c : Thread nD τ).loc main_arg6)) shapeCasts_S4_S1x4 := by
  dsimp only [Gen.V, Gen.hostOps0]; after_results <;> rfl

/-- The variance bias as the region finds it: the argument as one row. -/
theorem V_v3 (c : Dev nD) : (V m c main_v3 : S1x4.Idx → EReal) = shapeCast S1x4 (m ((c : Thread nD τ).loc main_arg8)) shapeCasts_S4_S1x4 := by
  dsimp only [Gen.V, Gen.hostOps0]; after_results <;> rfl

/-! ## The blocks at a point, entry by entry -/

/-- Row `y` of point `t`'s feature block is row `R = 512 t + y` of the features. -/
theorem blk0 (c : Dev nD) (t : Fin cfg0.N) (y : Fin 512) (k : Fin 1024) (R : Fin 65536)
    (hR : R.val = win0_9.index t (0 : Fin 2) * 512 + y.val) :
    iblk m c 0 t (ix2 y k) = (m ((c : Thread nD τ).loc main_arg0)) (ix2 R k) := by
  obtain ⟨e00, e01, -⟩ := idx_facts t
  show V m c main_arg0 (((cfg0.win 0).blk t).view.emb (ix2 y k)) = _
  rw [V_main_arg0]
  refine congrArg _ (funext fun a => Fin.ext ?_)
  match a with
  | ⟨0, _⟩ => show win0_0.index t (0 : Fin 2) * 512 + 1 * y.val = R.val; omega
  | ⟨1, _⟩ => show win0_0.index t (1 : Fin 2) * 1024 + 1 * k.val = k.val; omega

/-- Row `y` of point `t`'s raw-box block is row `R` of the raw boxes. -/
theorem blk2 (c : Dev nD) (t : Fin cfg0.N) (y : Fin 512) (j : Fin 4) (R : Fin 65536)
    (hR : R.val = win0_9.index t (0 : Fin 2) * 512 + y.val) :
    iblk m c 2 t (ix2 y j) = (m ((c : Thread nD τ).loc main_arg1)) (ix2 R j) := by
  obtain ⟨-, -, -, -, -, e20, e21, -⟩ := idx_facts t
  show V m c main_arg1 (((cfg0.win 2).blk t).view.emb (ix2 y j)) = _
  rw [V_main_arg1]
  refine congrArg _ (funext fun a => Fin.ext ?_)
  match a with
  | ⟨0, _⟩ => show win0_2.index t (0 : Fin 2) * 512 + 1 * y.val = R.val; omega
  | ⟨1, _⟩ => show win0_2.index t (1 : Fin 2) * 4 + 1 * j.val = j.val; omega

/-- Entry `(j, y, s)` of point `t`'s noise block is entry `(R, s, j)` of the noise. -/
theorem blk1 (c : Dev nD) (t : Fin cfg0.N) (y : Fin 512) (s : Fin 100) (j : Fin 4) (R : Fin 65536)
    (hR : R.val = win0_9.index t (0 : Fin 2) * 512 + y.val) :
    iblk m c 1 t (ix3 j y s) = (m ((c : Thread nD τ).loc main_arg2)) (ix3 R s j) := by
  obtain ⟨-, -, e10, e11, e12, -⟩ := idx_facts t
  show V m c main_v0 (((cfg0.win 1).blk t).view.emb (ix3 j y s)) = _
  rw [V_v0]
  refine transpose_apply [2, 0, 1] _ _ _ (ix3 R s j) (fun b => ?_)
  match b with
  | ⟨0, _⟩ => show j.val = win0_1.index t (0 : Fin 3) * 4 + 1 * j.val; omega
  | ⟨1, _⟩ => show R.val = win0_1.index t (1 : Fin 3) * 512 + 1 * y.val; omega
  | ⟨2, _⟩ => show s.val = win0_1.index t (2 : Fin 3) * 100 + 1 * s.val; omega

/-- Window 3 is its whole array at every point. -/
theorem emb3 (t : Fin cfg0.N) (j : Fin 81) (k : Fin 1024) :
    ((cfg0.win 3).blk t).view.emb (ix2 j k) = ix2 j k := by
  obtain ⟨-, -, -, -, -, -, -, e30, e31, e40, e41, e50, e51, e60, e61, e70, e71, e80, e81, -, -⟩ := idx_facts t
  funext a; apply Fin.ext
  match a with
  | ⟨0, _⟩ => show win0_3.index t (0 : Fin 2) * 81 + 1 * j.val = j.val; omega
  | ⟨1, _⟩ => show win0_3.index t (1 : Fin 2) * 1024 + 1 * k.val = k.val; omega

/-- Window 5 is its whole array at every point. -/
theorem emb5 (t : Fin cfg0.N) (j : Fin 4) (k : Fin 1024) :
    ((cfg0.win 5).blk t).view.emb (ix2 j k) = ix2 j k := by
  obtain ⟨-, -, -, -, -, -, -, e30, e31, e40, e41, e50, e51, e60, e61, e70, e71, e80, e81, -, -⟩ := idx_facts t
  funext a; apply Fin.ext
  match a with
  | ⟨0, _⟩ => show win0_5.index t (0 : Fin 2) * 4 + 1 * j.val = j.val; omega
  | ⟨1, _⟩ => show win0_5.index t (1 : Fin 2) * 1024 + 1 * k.val = k.val; omega

/-- Window 7 is its whole array at every point. -/
theorem emb7 (t : Fin cfg0.N) (j : Fin 4) (k : Fin 1024) :
    ((cfg0.win 7).blk t).view.emb (ix2 j k) = ix2 j k := by
  obtain ⟨-, -, -, -, -, -, -, e30, e31, e40, e41, e50, e51, e60, e61, e70, e71, e80, e81, -, -⟩ := idx_facts t
  funext a; apply Fin.ext
  match a with
  | ⟨0, _⟩ => show win0_7.index t (0 : Fin 2) * 4 + 1 * j.val = j.val; omega
  | ⟨1, _⟩ => show win0_7.index t (1 : Fin 2) * 1024 + 1 * k.val = k.val; omega

/-- Window 4 is its whole array at every point. -/
theorem emb4 (t : Fin cfg0.N) (j : Fin 1) (k : Fin 81) :
    ((cfg0.win 4).blk t).view.emb (ix2 j k) = ix2 j k := by
  obtain ⟨-, -, -, -, -, -, -, e30, e31, e40, e41, e50, e51, e60, e61, e70, e71, e80, e81, -, -⟩ := idx_facts t
  funext a; apply Fin.ext
  match a with
  | ⟨0, _⟩ => show win0_4.index t (0 : Fin 2) * 1 + 1 * j.val = j.val; omega
  | ⟨1, _⟩ => show win0_4.index t (1 : Fin 2) * 81 + 1 * k.val = k.val; omega

/-- Window 6 is its whole array at every point. -/
theorem emb6 (t : Fin cfg0.N) (j : Fin 1) (k : Fin 4) :
    ((cfg0.win 6).blk t).view.emb (ix2 j k) = ix2 j k := by
  obtain ⟨-, -, -, -, -, -, -, e30, e31, e40, e41, e50, e51, e60, e61, e70, e71, e80, e81, -, -⟩ := idx_facts t
  funext a; apply Fin.ext
  match a with
  | ⟨0, _⟩ => show win0_6.index t (0 : Fin 2) * 1 + 1 * j.val = j.val; omega
  | ⟨1, _⟩ => show win0_6.index t (1 : Fin 2) * 4 + 1 * k.val = k.val; omega

/-- Window 8 is its whole array at every point. -/
theorem emb8 (t : Fin cfg0.N) (j : Fin 1) (k : Fin 4) :
    ((cfg0.win 8).blk t).view.emb (ix2 j k) = ix2 j k := by
  obtain ⟨-, -, -, -, -, -, -, e30, e31, e40, e41, e50, e51, e60, e61, e70, e71, e80, e81, -, -⟩ := idx_facts t
  funext a; apply Fin.ext
  match a with
  | ⟨0, _⟩ => show win0_8.index t (0 : Fin 2) * 1 + 1 * j.val = j.val; omega
  | ⟨1, _⟩ => show win0_8.index t (1 : Fin 2) * 4 + 1 * k.val = k.val; omega

/-- The class weights' block is the class weights. -/
theorem blk3 (c : Dev nD) (t : Fin cfg0.N) (j : Fin 81) (k : Fin 1024) : iblk m c 3 t (ix2 j k) = (m ((c : Thread nD τ).loc main_arg3)) (ix2 j k) := by
  show V m c main_arg3 (((cfg0.win 3).blk t).view.emb (ix2 j k)) = _
  rw [V_main_arg3, emb3]
/-- The box weights' block is the box weights. -/
theorem blk5 (c : Dev nD) (t : Fin cfg0.N) (j : Fin 4) (k : Fin 1024) : iblk m c 5 t (ix2 j k) = (m ((c : Thread nD τ).loc main_arg5)) (ix2 j k) := by
  show V m c main_arg5 (((cfg0.win 5).blk t).view.emb (ix2 j k)) = _
  rw [V_main_arg5, emb5]
/-- The variance weights' block is the variance weights. -/
theorem blk7 (c : Dev nD) (t : Fin cfg0.N) (j : Fin 4) (k : Fin 1024) : iblk m c 7 t (ix2 j k) = (m ((c : Thread nD τ).loc main_arg7)) (ix2 j k) := by
  show V m c main_arg7 (((cfg0.win 7).blk t).view.emb (ix2 j k)) = _
  rw [V_main_arg7, emb7]
/-- The class bias row's block, at `(0, j)`, is the class bias at `j`. -/
theorem blk4 (c : Dev nD) (t : Fin cfg0.N) (j : Fin 81) : iblk m c 4 t (ix2 (0 : Fin 1) j) = (m ((c : Thread nD τ).loc main_arg4)) (ix1 j) := by
  show V m c main_v1 (((cfg0.win 4).blk t).view.emb (ix2 (0 : Fin 1) j)) = _
  rw [V_v1, emb4]
  exact shapeCast_a_1a_apply _ _ 0 j
/-- The box bias row's block, at `(0, j)`, is the box bias at `j`. -/
theorem blk6 (c : Dev nD) (t : Fin cfg0.N) (j : Fin 4) : iblk m c 6 t (ix2 (0 : Fin 1) j) = (m ((c : Thread nD τ).loc main_arg6)) (ix1 j) := by
  show V m c main_v2 (((cfg0.win 6).blk t).view.emb (ix2 (0 : Fin 1) j)) = _
  rw [V_v2, emb6]
  exact shapeCast_a_1a_apply _ _ 0 j
/-- The variance bias row's block, at `(0, j)`, is the variance bias at `j`. -/
theorem blk8 (c : Dev nD) (t : Fin cfg0.N) (j : Fin 4) : iblk m c 8 t (ix2 (0 : Fin 1) j) = (m ((c : Thread nD τ).loc main_arg8)) (ix1 j) := by
  show V m c main_v3 (((cfg0.win 8).blk t).view.emb (ix2 (0 : Fin 1) j)) = _
  rw [V_v3, emb8]
  exact shapeCast_a_1a_apply _ _ 0 j

/-! ## What a point writes back, the cover, the array -/

/-- The body's result block at row `y`, column `c`, is the row function of row `y` of its input blocks. -/
def BodyRows : Prop :=
  ∀ (x0 : Vec Ideal S512x1024 .f32) (x1 : Vec Ideal S4x512x100 .f32) (x2 : Vec Ideal S512x4 .f32) (x3 : Vec Ideal S81x1024 .f32)
    (x4 : Vec Ideal S1x81 .f32) (x5 : Vec Ideal S4x1024 .f32) (x6 : Vec Ideal S1x4 .f32) (x7 : Vec Ideal S4x1024 .f32)
    (x8 : Vec Ideal S1x4 .f32) (y : Fin 512) (c : Fin 90),
    out0_9 (F := Ideal) x0 x1 x2 x3 x4 x5 x6 x7 x8 (ix2 y c)
      = row (fun k => x0 (ix2 y k)) (fun j => x2 (ix2 y j)) (fun s j => x1 (ix3 j y s))
          (fun j k => x3 (ix2 j k)) (fun j => x4 (ix2 (0 : Fin 1) j)) (fun j k => x5 (ix2 j k)) (fun j => x6 (ix2 (0 : Fin 1) j))
          (fun j k => x7 (ix2 j k)) (fun j => x8 (ix2 (0 : Fin 1) j)) c

/-- What point `t` writes back is block `t` of the table of the argument arrays. -/
theorem flushed_eq (hout : BodyRows) (c : Dev nD) (t : Fin cfg0.N) :
    (dats m 0 c).flushed 9 t = ((cfg0.win 9).blk t).view.read (Elt Ideal) (table (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  rw [Value.flushed9]
  have e9 := idx_facts t
  obtain ⟨-, -, -, -, -, -, -, -, -, -, -, -, -, -, -, -, -, -, -, e91, e9b⟩ := e9
  funext j
  obtain ⟨y, q, rfl⟩ : ∃ (y : Fin 512) (q : Fin 90), j = ix2 y q := ⟨j 0, j 1, eq_ix2 j⟩
  have hy := y.isLt
  let R : Fin 65536 := ⟨win0_9.index t (0 : Fin 2) * 512 + y.val, by omega⟩
  have hR : ((cfg0.win 9).blk t).view.emb (ix2 y q) = ix2 R q := by
    funext a; apply Fin.ext
    match a with
    | ⟨0, _⟩ => show win0_9.index t (0 : Fin 2) * 512 + 1 * y.val = win0_9.index t (0 : Fin 2) * 512 + y.val; omega
    | ⟨1, _⟩ => show win0_9.index t (1 : Fin 2) * 90 + 1 * q.val = q.val; omega
  show out0_9 (iblk m c 0 t) (iblk m c 1 t) (iblk m c 2 t) (iblk m c 3 t) (iblk m c 4 t) (iblk m c 5 t) (iblk m c 6 t) (iblk m c 7 t) (iblk m c 8 t) (ix2 y q)
    = table (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 9).blk t).view.emb (ix2 y q))
  rw [hR]
  refine (hout (iblk m c 0 t) (iblk m c 1 t) (iblk m c 2 t) (iblk m c 3 t) (iblk m c 4 t) (iblk m c 5 t) (iblk m c 6 t) (iblk m c 7 t) (iblk m c 8 t) y q).trans ?_
  show _ = row (fun k => (m ((c : Thread nD τ).loc main_arg0)) (ix2 R k)) (fun j => (m ((c : Thread nD τ).loc main_arg1)) (ix2 R j)) (fun s j => (m ((c : Thread nD τ).loc main_arg2)) (ix3 R s j))
    (fun j k => (m ((c : Thread nD τ).loc main_arg3)) (ix2 j k)) (fun j => (m ((c : Thread nD τ).loc main_arg4)) (ix1 j)) (fun j k => (m ((c : Thread nD τ).loc main_arg5)) (ix2 j k)) (fun j => (m ((c : Thread nD τ).loc main_arg6)) (ix1 j))
    (fun j k => (m ((c : Thread nD τ).loc main_arg7)) (ix2 j k)) (fun j => (m ((c : Thread nD τ).loc main_arg8)) (ix1 j)) q
  have h0 : (fun k => iblk m c 0 t (ix2 y k)) = fun k => (m ((c : Thread nD τ).loc main_arg0)) (ix2 R k) := funext fun k => blk0 m c t y k R rfl
  have h2 : (fun j => iblk m c 2 t (ix2 y j)) = fun j => (m ((c : Thread nD τ).loc main_arg1)) (ix2 R j) := funext fun j => blk2 m c t y j R rfl
  have h1 : (fun s j => iblk m c 1 t (ix3 j y s)) = fun s j => (m ((c : Thread nD τ).loc main_arg2)) (ix3 R s j) := funext fun s => funext fun j => blk1 m c t y s j R rfl
  have h3 : (fun j k => iblk m c 3 t (ix2 j k)) = fun j k => (m ((c : Thread nD τ).loc main_arg3)) (ix2 j k) := funext fun j => funext fun k => blk3 m c t j k
  have h4 : (fun j => iblk m c 4 t (ix2 (0 : Fin 1) j)) = fun j => (m ((c : Thread nD τ).loc main_arg4)) (ix1 j) := funext fun j => blk4 m c t j
  have h5 : (fun j k => iblk m c 5 t (ix2 j k)) = fun j k => (m ((c : Thread nD τ).loc main_arg5)) (ix2 j k) := funext fun j => funext fun k => blk5 m c t j k
  have h6 : (fun j => iblk m c 6 t (ix2 (0 : Fin 1) j)) = fun j => (m ((c : Thread nD τ).loc main_arg6)) (ix1 j) := funext fun j => blk6 m c t j
  have h7 : (fun j k => iblk m c 7 t (ix2 j k)) = fun j k => (m ((c : Thread nD τ).loc main_arg7)) (ix2 j k) := funext fun j => funext fun k => blk7 m c t j k
  have h8 : (fun j => iblk m c 8 t (ix2 (0 : Fin 1) j)) = fun j => (m ((c : Thread nD τ).loc main_arg8)) (ix1 j) := funext fun j => blk8 m c t j
  rw [h0, h1, h2, h3, h4, h5, h6, h7, h8]

/-- An index of the output is in point `t`'s block iff each coordinate is in the block's range on its axis. -/
theorem mem_blk (t : Fin cfg0.N) (i : S65536x90.Idx) :
    i ∈ ((cfg0.win 9).blk t).view.set ↔ ∀ a : Fin 2, win0_9.index t a * S512x90.size a ≤ (i a).val ∧ (i a).val < win0_9.index t a * S512x90.size a + S512x90.size a := by
  show i ∈ ((View.whole main_v4).slice (win0_9.rect t)).set ↔ _
  rw [View.set_slice_whole, Rect.mem_set_unit]
  exact Iff.rfl

/-- Every index of the output is in some point's block: row `r` is in the block of the point whose row block is `r / 512`. -/
theorem cover (i : S65536x90.Idx) : ∃ t : Fin cfg0.N, (cfg0.win 9).flush t = true ∧ i ∈ ((cfg0.win 9).blk t).view.set := by
  have hi0 : (i 0).val < 65536 := (i 0).isLt
  have hi1 : (i 1).val < 90 := (i 1).isLt
  obtain ⟨t, ht⟩ := idx_onto ⟨(i 0).val / 512, by omega⟩
  have q0 : win0_9.index t (0 : Fin 2) = (i 0).val / 512 := congrFun ht 0
  have q1 : win0_9.index t (1 : Fin 2) = 0 := congrFun ht 1
  refine ⟨t, flush0_9 t, ?_⟩
  rw [mem_blk]
  intro a
  match a with
  | ⟨0, _⟩ => show win0_9.index t (0 : Fin 2) * 512 ≤ (i 0).val ∧ (i 0).val < win0_9.index t (0 : Fin 2) * 512 + 512; omega
  | ⟨1, _⟩ => show win0_9.index t (1 : Fin 2) * 90 ≤ (i 1).val ∧ (i 1).val < win0_9.index t (1 : Fin 2) * 90 + 90; omega

/-- The output array after the run is the table of the argument arrays. -/
theorem final (hout : BodyRows) (c : Dev nD) : (dats m 0 c).arrAt 9 cfg0.N = table (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 9 (table (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (fun t _ => flushed_eq m hout c t) cover

/-- The kernel's run: every weakly fair execution terminates with the output array at the table of the argument arrays
    and the nine arguments unchanged. -/
theorem run (hout : BodyRows) : θ_run defs (onTc (τ := τ) (main (F := Ideal))) ⟨m, fun _ => 0, ρ⟩ fun r => ∀ c : Dev nD,
      r.2.mem ((c : Thread nD τ).loc main_v4) = table (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m hout c), (h c).2⟩) (Value.run_blocks m ρ)

end Cert.KernelIdeal.ArrayValue

end
-- ==== Proof.RefRow.lean ====
/-
  The reference program's result, one entry at a time.

  The reference computes, for each of the 65536 proposal rows, three affine heads of the row's features (81 class
  scores, four box deltas, four raw log-variances), the proposal box from the row's four raw numbers, the predicted
  box (the deltas applied to the proposal box) clipped to the image, the four variances, and the mean over a hundred
  noisy copies of the clipped box of their intersection-over-union with it; its result array lays these side by side
  in 90 columns. This module reads every intermediate array of that computation at an arbitrary index and identifies
  the entry with the corresponding quantity of `Cert.BoxHead`, computed from that row's data alone: each lemma
  `vN` says which quantity of the row the N-th intermediate array holds at index `i` (the row is `i 0`; for a
  matrix with one column per head output, the output is `i 1`). An array assembled from four columns is read one
  column at a time (`vN_pk`: at an index whose column is `k`). The last theorem, `ref_apply`, reads the result
  array: columns 0 to 80 are the scores, 81 to 84 the clipped box's corners, 85 to 88 the variances, 89 the mean.

  All arithmetic is the extended reals' own, and both sides perform the same operations in the same order, so once
  the layout operations (slices, reshapes, broadcasts, concatenations) have been read at an index the two sides
  agree by unfolding definitions.
-/
import proofs.«177437_j84602265797277_1_alg».proof.Proof.RefRead
import proofs.«177437_j84602265797277_1_alg».proof.Proof.BoxSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RowValue

open Cert.ReferenceIdeal Cert.ReferenceIdeal.ReadP Idealize.ShloMosaic Idealize.ShloMosaic.ValueIdx Cert.BoxHead

/-- One coordinate of an index equation: by computation, or by arithmetic after unfolding. -/
macro "idx_c" : tactic => `(tactic| first | rfl | (dsimp only; omega) | (simp only [Nat.div_one]; done))

/-- Two indices are equal when their coordinates are (one macro per rank). -/
macro "idx_eq0" : tactic => `(tactic| exact funext fun a => a.elim0)
macro "idx_eq1" : tactic => `(tactic| exact funext fun a => Fin.ext (by match a with | ⟨0, _⟩ => idx_c))
macro "idx_eq2" : tactic => `(tactic| exact funext fun a => Fin.ext (by match a with | ⟨0, _⟩ => idx_c | ⟨1, _⟩ => idx_c))
macro "idx_eq3" : tactic => `(tactic| exact funext fun a => Fin.ext (by match a with | ⟨0, _⟩ => idx_c | ⟨1, _⟩ => idx_c | ⟨2, _⟩ => idx_c))

variable (a0 : (⟨S65536x1024, .f32⟩ : BufTy).Contents (Elt Ideal)) (a1 : (⟨S65536x4, .f32⟩ : BufTy).Contents (Elt Ideal))
  (a2 : (⟨S65536x100x4, .f32⟩ : BufTy).Contents (Elt Ideal)) (a3 : (⟨S81x1024, .f32⟩ : BufTy).Contents (Elt Ideal))
  (a4 : (⟨S81, .f32⟩ : BufTy).Contents (Elt Ideal)) (a5 : (⟨S4x1024, .f32⟩ : BufTy).Contents (Elt Ideal))
  (a6 : (⟨S4, .f32⟩ : BufTy).Contents (Elt Ideal)) (a7 : (⟨S4x1024, .f32⟩ : BufTy).Contents (Elt Ideal))
  (a8 : (⟨S4, .f32⟩ : BufTy).Contents (Elt Ideal))

variable {α : Type}

/-- Four columns laid side by side, read at an entry of column `k`, give column `k` at that row. -/
theorem cat2_0 (x0 x1 x2 x3 : S65536x1.Idx → α)
    (h : Shape.Concatenates (([⟨S65536x1, x0⟩, ⟨S65536x1, x1⟩, ⟨S65536x1, x2⟩, ⟨S65536x1, x3⟩] : List ((s : Shape) × (s.Idx → α))).map (·.1)) S65536x4 1)
    (j : S65536x4.Idx) (hj : (j 1).val = 0) :
    concatenate S65536x4 1 [⟨S65536x1, x0⟩, ⟨S65536x1, x1⟩, ⟨S65536x1, x2⟩, ⟨S65536x1, x3⟩] h j = x0 (ix2 (n0 := 65536) (j 0) (0 : Fin 1)) :=
  concatenate_apply_piece 1 _ h j 0 (by simp) S65536x1 x0 rfl rfl 0 rfl (ix2 (n0 := 65536) (j 0) (0 : Fin 1))
    (fun b hb => match b with | ⟨0, _⟩ => rfl | ⟨1, _⟩ => absurd rfl hb) (by show 0 + 0 = (j 1).val; omega)
theorem cat2_1 (x0 x1 x2 x3 : S65536x1.Idx → α)
    (h : Shape.Concatenates (([⟨S65536x1, x0⟩, ⟨S65536x1, x1⟩, ⟨S65536x1, x2⟩, ⟨S65536x1, x3⟩] : List ((s : Shape) × (s.Idx → α))).map (·.1)) S65536x4 1)
    (j : S65536x4.Idx) (hj : (j 1).val = 1) :
    concatenate S65536x4 1 [⟨S65536x1, x0⟩, ⟨S65536x1, x1⟩, ⟨S65536x1, x2⟩, ⟨S65536x1, x3⟩] h j = x1 (ix2 (n0 := 65536) (j 0) (0 : Fin 1)) :=
  concatenate_apply_piece 1 _ h j 1 (by simp) S65536x1 x1 rfl rfl 1 rfl (ix2 (n0 := 65536) (j 0) (0 : Fin 1))
    (fun b hb => match b with | ⟨0, _⟩ => rfl | ⟨1, _⟩ => absurd rfl hb) (by show 1 + 0 = (j 1).val; omega)
theorem cat2_2 (x0 x1 x2 x3 : S65536x1.Idx → α)
    (h : Shape.Concatenates (([⟨S65536x1, x0⟩, ⟨S65536x1, x1⟩, ⟨S65536x1, x2⟩, ⟨S65536x1, x3⟩] : List ((s : Shape) × (s.Idx → α))).map (·.1)) S65536x4 1)
    (j : S65536x4.Idx) (hj : (j 1).val = 2) :
    concatenate S65536x4 1 [⟨S65536x1, x0⟩, ⟨S65536x1, x1⟩, ⟨S65536x1, x2⟩, ⟨S65536x1, x3⟩] h j = x2 (ix2 (n0 := 65536) (j 0) (0 : Fin 1)) :=
  concatenate_apply_piece 1 _ h j 2 (by simp) S65536x1 x2 rfl rfl 2 rfl (ix2 (n0 := 65536) (j 0) (0 : Fin 1))
    (fun b hb => match b with | ⟨0, _⟩ => rfl | ⟨1, _⟩ => absurd rfl hb) (by show 2 + 0 = (j 1).val; omega)
theorem cat2_3 (x0 x1 x2 x3 : S65536x1.Idx → α)
    (h : Shape.Concatenates (([⟨S65536x1, x0⟩, ⟨S65536x1, x1⟩, ⟨S65536x1, x2⟩, ⟨S65536x1, x3⟩] : List ((s : Shape) × (s.Idx → α))).map (·.1)) S65536x4 1)
    (j : S65536x4.Idx) (hj : (j 1).val = 3) :
    concatenate S65536x4 1 [⟨S65536x1, x0⟩, ⟨S65536x1, x1⟩, ⟨S65536x1, x2⟩, ⟨S65536x1, x3⟩] h j = x3 (ix2 (n0 := 65536) (j 0) (0 : Fin 1)) :=
  concatenate_apply_piece 1 _ h j 3 (by simp) S65536x1 x3 rfl rfl 3 rfl (ix2 (n0 := 65536) (j 0) (0 : Fin 1))
    (fun b hb => match b with | ⟨0, _⟩ => rfl | ⟨1, _⟩ => absurd rfl hb) (by show 3 + 0 = (j 1).val; omega)

/-- The same along the last axis of a rank-3 array. -/
theorem cat3_0 (x0 x1 x2 x3 : S65536x100x1.Idx → α)
    (h : Shape.Concatenates (([⟨S65536x100x1, x0⟩, ⟨S65536x100x1, x1⟩, ⟨S65536x100x1, x2⟩, ⟨S65536x100x1, x3⟩] : List ((s : Shape) × (s.Idx → α))).map (·.1)) S65536x100x4 2)
    (j : S65536x100x4.Idx) (hj : (j 2).val = 0) :
    concatenate S65536x100x4 2 [⟨S65536x100x1, x0⟩, ⟨S65536x100x1, x1⟩, ⟨S65536x100x1, x2⟩, ⟨S65536x100x1, x3⟩] h j = x0 (ix3 (n0 := 65536) (n1 := 100) (j 0) (j 1) (0 : Fin 1)) :=
  concatenate_apply_piece 2 _ h j 0 (by simp) S65536x100x1 x0 rfl rfl 0 rfl (ix3 (n0 := 65536) (n1 := 100) (j 0) (j 1) (0 : Fin 1))
    (fun b hb => match b with | ⟨0, _⟩ => rfl | ⟨1, _⟩ => rfl | ⟨2, _⟩ => absurd rfl hb) (by show 0 + 0 = (j 2).val; omega)
theorem cat3_1 (x0 x1 x2 x3 : S65536x100x1.Idx → α)
    (h : Shape.Concatenates (([⟨S65536x100x1, x0⟩, ⟨S65536x100x1, x1⟩, ⟨S65536x100x1, x2⟩, ⟨S65536x100x1, x3⟩] : List ((s : Shape) × (s.Idx → α))).map (·.1)) S65536x100x4 2)
    (j : S65536x100x4.Idx) (hj : (j 2).val = 1) :
    concatenate S65536x100x4 2 [⟨S65536x100x1, x0⟩, ⟨S65536x100x1, x1⟩, ⟨S65536x100x1, x2⟩, ⟨S65536x100x1, x3⟩] h j = x1 (ix3 (n0 := 65536) (n1 := 100) (j 0) (j 1) (0 : Fin 1)) :=
  concatenate_apply_piece 2 _ h j 1 (by simp) S65536x100x1 x1 rfl rfl 1 rfl (ix3 (n0 := 65536) (n1 := 100) (j 0) (j 1) (0 : Fin 1))
    (fun b hb => match b with | ⟨0, _⟩ => rfl | ⟨1, _⟩ => rfl | ⟨2, _⟩ => absurd rfl hb) (by show 1 + 0 = (j 2).val; omega)
theorem cat3_2 (x0 x1 x2 x3 : S65536x100x1.Idx → α)
    (h : Shape.Concatenates (([⟨S65536x100x1, x0⟩, ⟨S65536x100x1, x1⟩, ⟨S65536x100x1, x2⟩, ⟨S65536x100x1, x3⟩] : List ((s : Shape) × (s.Idx → α))).map (·.1)) S65536x100x4 2)
    (j : S65536x100x4.Idx) (hj : (j 2).val = 2) :
    concatenate S65536x100x4 2 [⟨S65536x100x1, x0⟩, ⟨S65536x100x1, x1⟩, ⟨S65536x100x1, x2⟩, ⟨S65536x100x1, x3⟩] h j = x2 (ix3 (n0 := 65536) (n1 := 100) (j 0) (j 1) (0 : Fin 1)) :=
  concatenate_apply_piece 2 _ h j 2 (by simp) S65536x100x1 x2 rfl rfl 2 rfl (ix3 (n0 := 65536) (n1 := 100) (j 0) (j 1) (0 : Fin 1))
    (fun b hb => match b with | ⟨0, _⟩ => rfl | ⟨1, _⟩ => rfl | ⟨2, _⟩ => absurd rfl hb) (by show 2 + 0 = (j 2).val; omega)
theorem cat3_3 (x0 x1 x2 x3 : S65536x100x1.Idx → α)
    (h : Shape.Concatenates (([⟨S65536x100x1, x0⟩, ⟨S65536x100x1, x1⟩, ⟨S65536x100x1, x2⟩, ⟨S65536x100x1, x3⟩] : List ((s : Shape) × (s.Idx → α))).map (·.1)) S65536x100x4 2)
    (j : S65536x100x4.Idx) (hj : (j 2).val = 3) :
    concatenate S65536x100x4 2 [⟨S65536x100x1, x0⟩, ⟨S65536x100x1, x1⟩, ⟨S65536x100x1, x2⟩, ⟨S65536x100x1, x3⟩] h j = x3 (ix3 (n0 := 65536) (n1 := 100) (j 0) (j 1) (0 : Fin 1)) :=
  concatenate_apply_piece 2 _ h j 3 (by simp) S65536x100x1 x3 rfl rfl 3 rfl (ix3 (n0 := 65536) (n1 := 100) (j 0) (j 1) (0 : Fin 1))
    (fun b hb => match b with | ⟨0, _⟩ => rfl | ⟨1, _⟩ => rfl | ⟨2, _⟩ => absurd rfl hb) (by show 3 + 0 = (j 2).val; omega)

/-! ## The data of one row, and the heads' weights, as plain functions -/

/-- Row `r`'s features. -/
abbrev Fr (r : Fin 65536) : Fin 1024 → EReal := fun k => a0 (ix2 r k)
/-- Row `r`'s four raw box numbers. -/
abbrev Pr (r : Fin 65536) : Fin 4 → EReal := fun j => a1 (ix2 r j)
/-- Row `r`'s hundred noise vectors. -/
abbrev Er (r : Fin 65536) : Fin 100 → Fin 4 → EReal := fun s j => a2 (ix3 r s j)
/-- The score head's weights and bias. -/
abbrev W81 : Fin 81 → Fin 1024 → EReal := fun j k => a3 (ix2 j k)
abbrev B81 : Fin 81 → EReal := fun j => a4 (ix1 j)
/-- A four-row head's weights and bias. -/
abbrev W4 (w : (⟨S4x1024, .f32⟩ : BufTy).Contents (Elt Ideal)) : Fin 4 → Fin 1024 → EReal := fun j k => w (ix2 j k)
abbrev B4 (b : (⟨S4, .f32⟩ : BufTy).Contents (Elt Ideal)) : Fin 4 → EReal := fun j => b (ix1 j)
/-- Row `r`'s box delta `j`. -/
abbrev Dl (r : Fin 65536) (j : Fin 4) : EReal := head (Fr a0 r) (W4 a5) (B4 a6) j
/-- Row `r`'s variance `j`. -/
abbrev Vr (r : Fin 65536) (j : Fin 4) : EReal := vr (Fr a0 r) (W4 a7) (B4 a8) j
/-- Row `r`'s clipped box: x low, y low, x high, y high. -/
abbrev X0 (r : Fin 65536) : EReal := cx0 (Fr a0 r) (Pr a1 r) (W4 a5) (B4 a6)
abbrev Y0 (r : Fin 65536) : EReal := cy0 (Fr a0 r) (Pr a1 r) (W4 a5) (B4 a6)
abbrev X1 (r : Fin 65536) : EReal := cx1 (Fr a0 r) (Pr a1 r) (W4 a5) (B4 a6)
abbrev Y1 (r : Fin 65536) : EReal := cy1 (Fr a0 r) (Pr a1 r) (W4 a5) (B4 a6)
/-- Row `r`'s noise `(s, j)` scaled by the standard deviation `j`. -/
abbrev Nz (r : Fin 65536) (s : Fin 100) (j : Fin 4) : EReal := a2 (ix3 r s j) * Ideal.sqrt (Vr a0 a7 a8 r j)

/-! ## The three heads -/

/-- The class scores: the row's features against a row of the score weights, plus the bias. -/
theorem v4 (i : S65536x81.Idx) : val_main_v4 (F := Ideal) a0 a3 a4 i = head (Fr a0 (i 0)) (W81 a3) (B81 a4) (i 1) := by
  rw [val_main_v4_apply, val_main_v1_apply, val_main_v3_apply, val_main_v2_apply]
  simp only [val_main_v0_apply]
  show (∑ k : Fin 1024, a0 (lidx_main_v1 i k) * a3 (idx_main_v0 (ridx_main_v1 i k))) + a4 (idx_main_v2 (idx_main_v3 i))
    = (∑ k : Fin 1024, a0 (ix2 (i 0) k) * a3 (ix2 (i 1) k)) + a4 (ix1 (i 1))
  refine congrArg₂ (· + ·) (Finset.sum_congr rfl fun k _ => congrArg₂ (· * ·) (congrArg a0 ?_) (congrArg a3 ?_)) (congrArg a4 ?_)
  · idx_eq2
  · idx_eq2
  · idx_eq1

/-- The box deltas. -/
theorem v9 (i : S65536x4.Idx) : val_main_v9 (F := Ideal) a0 a5 a6 i = head (Fr a0 (i 0)) (W4 a5) (B4 a6) (i 1) := by
  rw [val_main_v9_apply, val_main_v6_apply, val_main_v8_apply, val_main_v7_apply]
  simp only [val_main_v5_apply]
  show (∑ k : Fin 1024, a0 (lidx_main_v6 i k) * a5 (idx_main_v5 (ridx_main_v6 i k))) + a6 (idx_main_v7 (idx_main_v8 i))
    = (∑ k : Fin 1024, a0 (ix2 (i 0) k) * a5 (ix2 (i 1) k)) + a6 (ix1 (i 1))
  refine congrArg₂ (· + ·) (Finset.sum_congr rfl fun k _ => congrArg₂ (· * ·) (congrArg a0 ?_) (congrArg a5 ?_)) (congrArg a6 ?_)
  · idx_eq2
  · idx_eq2
  · idx_eq1

/-- The raw log-variances. -/
theorem v14 (i : S65536x4.Idx) : val_main_v14 (F := Ideal) a0 a7 a8 i = head (Fr a0 (i 0)) (W4 a7) (B4 a8) (i 1) := by
  rw [val_main_v14_apply, val_main_v11_apply, val_main_v13_apply, val_main_v12_apply]
  simp only [val_main_v10_apply]
  show (∑ k : Fin 1024, a0 (lidx_main_v11 i k) * a7 (idx_main_v10 (ridx_main_v11 i k))) + a8 (idx_main_v12 (idx_main_v13 i))
    = (∑ k : Fin 1024, a0 (ix2 (i 0) k) * a7 (ix2 (i 1) k)) + a8 (ix1 (i 1))
  refine congrArg₂ (· + ·) (Finset.sum_congr rfl fun k _ => congrArg₂ (· * ·) (congrArg a0 ?_) (congrArg a7 ?_)) (congrArg a8 ?_)
  · idx_eq2
  · idx_eq2
  · idx_eq1
/-- The variances: the raw log-variance clipped to [-7, 7], exponentiated. -/
theorem v16 (i : S65536x4.Idx) :
    val_main_v16 (F := Ideal) a0 a7 a8 i = Vr a0 a7 a8 (i 0) (i 1) := by
  simp (disch := with_unfolding_all exact rfl) only [val_main_v16_apply, val_main_v15_apply, val_main_call0_v4_apply, val_main_call0_v3_apply, val_main_cst_0_apply, val_main_call0_v2_apply, val_main_call0_v1_apply, val_main_call0_v0_apply, val_main_cst_apply, v14] <;> rfl

/-- Raw box number 0 of the row. -/
theorem v18 (i : S65536.Idx) :
    val_main_v18 (F := Ideal) a1 i = Pr a1 (i 0) (0 : Fin 4) := by
  rw [val_main_v18_apply, val_main_v17_apply]
  exact congrArg a1 (funext fun a => Fin.ext (by match a with | ⟨0, _⟩ => (show (i 0).val / 1 = (i 0).val; omega) | ⟨1, _⟩ => rfl))

/-- Raw box number 1 of the row. -/
theorem v22 (i : S65536.Idx) :
    val_main_v22 (F := Ideal) a1 i = Pr a1 (i 0) (1 : Fin 4) := by
  rw [val_main_v22_apply, val_main_v21_apply]
  exact congrArg a1 (funext fun a => Fin.ext (by match a with | ⟨0, _⟩ => (show (i 0).val / 1 = (i 0).val; omega) | ⟨1, _⟩ => rfl))

/-- Raw box number 2 of the row. -/
theorem v26 (i : S65536.Idx) :
    val_main_v26 (F := Ideal) a1 i = Pr a1 (i 0) (2 : Fin 4) := by
  rw [val_main_v26_apply, val_main_v25_apply]
  exact congrArg a1 (funext fun a => Fin.ext (by match a with | ⟨0, _⟩ => (show (i 0).val / 1 = (i 0).val; omega) | ⟨1, _⟩ => rfl))

/-- Raw box number 3 of the row. -/
theorem v32 (i : S65536.Idx) :
    val_main_v32 (F := Ideal) a1 i = Pr a1 (i 0) (3 : Fin 4) := by
  rw [val_main_v32_apply, val_main_v31_apply]
  exact congrArg a1 (funext fun a => Fin.ext (by match a with | ⟨0, _⟩ => (show (i 0).val / 1 = (i 0).val; omega) | ⟨1, _⟩ => rfl))

/-- The proposal's low x corner. -/
theorem v20 (i : S65536.Idx) :
    val_main_v20 (F := Ideal) a1 i = lo (Pr a1 (i 0) 0) := by
  simp (disch := with_unfolding_all exact rfl) only [val_main_v20_apply, val_main_v19_apply, val_main_cst_1_apply, v18] <;> rfl

/-- The proposal's low y corner. -/
theorem v24 (i : S65536.Idx) :
    val_main_v24 (F := Ideal) a1 i = lo (Pr a1 (i 0) 1) := by
  simp (disch := with_unfolding_all exact rfl) only [val_main_v24_apply, val_main_v23_apply, val_main_cst_2_apply, v22] <;> rfl

/-- The proposal's x side. -/
theorem v30 (i : S65536.Idx) :
    val_main_v30 (F := Ideal) a1 i = ext (Pr a1 (i 0) 2) := by
  simp (disch := with_unfolding_all exact rfl) only [val_main_v30_apply, val_main_v28_apply, val_main_v27_apply, val_main_cst_3_apply, val_main_v29_apply, val_main_cst_4_apply, v26] <;> rfl

/-- The proposal's y side. -/
theorem v36 (i : S65536.Idx) :
    val_main_v36 (F := Ideal) a1 i = ext (Pr a1 (i 0) 3) := by
  simp (disch := with_unfolding_all exact rfl) only [val_main_v36_apply, val_main_v34_apply, val_main_v33_apply, val_main_cst_5_apply, val_main_v35_apply, val_main_cst_6_apply, v32] <;> rfl

/-- The proposal's high x corner. -/
theorem v37 (i : S65536.Idx) :
    val_main_v37 (F := Ideal) a1 i = lo (Pr a1 (i 0) 0) + ext (Pr a1 (i 0) 2) := by
  simp (disch := with_unfolding_all exact rfl) only [val_main_v37_apply, v20, v30] <;> rfl

/-- The proposal's high y corner. -/
theorem v38 (i : S65536.Idx) :
    val_main_v38 (F := Ideal) a1 i = lo (Pr a1 (i 0) 1) + ext (Pr a1 (i 0) 3) := by
  simp (disch := with_unfolding_all exact rfl) only [val_main_v38_apply, v24, v36] <;> rfl

/-! ## The proposal box and the predicted, clipped box -/

/-- The proposal box's four corners side by side (piece 0). -/
theorem v43_p0 (i : S65536x4.Idx) (hi : (i 1).val = 0) :
    val_main_v43 (F := Ideal) a1 i = lo (Pr a1 (i 0) 0) := by
  unfold val_main_v43
  rw [cat2_0 _ _ _ _ _ i hi]
  simp (disch := with_unfolding_all exact rfl) only [val_main_v39_apply, v20] <;> rfl

/-- The proposal box's four corners side by side (piece 1). -/
theorem v43_p1 (i : S65536x4.Idx) (hi : (i 1).val = 1) :
    val_main_v43 (F := Ideal) a1 i = lo (Pr a1 (i 0) 1) := by
  unfold val_main_v43
  rw [cat2_1 _ _ _ _ _ i hi]
  simp (disch := with_unfolding_all exact rfl) only [val_main_v40_apply, v24] <;> rfl

/-- The proposal box's four corners side by side (piece 2). -/
theorem v43_p2 (i : S65536x4.Idx) (hi : (i 1).val = 2) :
    val_main_v43 (F := Ideal) a1 i = lo (Pr a1 (i 0) 0) + ext (Pr a1 (i 0) 2) := by
  unfold val_main_v43
  rw [cat2_2 _ _ _ _ _ i hi]
  simp (disch := with_unfolding_all exact rfl) only [val_main_v41_apply, v37] <;> rfl

/-- The proposal box's four corners side by side (piece 3). -/
theorem v43_p3 (i : S65536x4.Idx) (hi : (i 1).val = 3) :
    val_main_v43 (F := Ideal) a1 i = lo (Pr a1 (i 0) 1) + ext (Pr a1 (i 0) 3) := by
  unfold val_main_v43
  rw [cat2_3 _ _ _ _ _ i hi]
  simp (disch := with_unfolding_all exact rfl) only [val_main_v42_apply, v38] <;> rfl
/-- The proposal's high x corner, read back from the box. -/
theorem v45 (i : S65536.Idx) :
    val_main_v45 (F := Ideal) a1 i = lo (Pr a1 (i 0) 0) + ext (Pr a1 (i 0) 2) := by
  rw [val_main_v45_apply, show idx_main_v45 i = ix2 (n0 := 65536) (i 0) (0 : Fin 1) from funext fun a => Fin.ext (by match a with | ⟨0, _⟩ => (show (i 0).val / 1 = (i 0).val; omega) | ⟨1, _⟩ => rfl)]
  simp (disch := with_unfolding_all exact rfl) only [val_main_v44_apply, v43_p0, v43_p1, v43_p2, v43_p3] <;> rfl

/-- The proposal's low x corner, read back from the box. -/
theorem v47 (i : S65536.Idx) :
    val_main_v47 (F := Ideal) a1 i = lo (Pr a1 (i 0) 0) := by
  rw [val_main_v47_apply, show idx_main_v47 i = ix2 (n0 := 65536) (i 0) (0 : Fin 1) from funext fun a => Fin.ext (by match a with | ⟨0, _⟩ => (show (i 0).val / 1 = (i 0).val; omega) | ⟨1, _⟩ => rfl)]
  simp (disch := with_unfolding_all exact rfl) only [val_main_v46_apply, v43_p0, v43_p1, v43_p2, v43_p3] <;> rfl

/-- The proposal's x side, as high corner minus low corner. -/
theorem v48 (i : S65536.Idx) :
    val_main_v48 (F := Ideal) a1 i = side (Pr a1 (i 0) 0) (Pr a1 (i 0) 2) := by
  simp (disch := with_unfolding_all exact rfl) only [val_main_v48_apply, v45, v47] <;> rfl

/-- The proposal's high y corner, read back from the box. -/
theorem v50 (i : S65536.Idx) :
    val_main_v50 (F := Ideal) a1 i = lo (Pr a1 (i 0) 1) + ext (Pr a1 (i 0) 3) := by
  rw [val_main_v50_apply, show idx_main_v50 i = ix2 (n0 := 65536) (i 0) (0 : Fin 1) from funext fun a => Fin.ext (by match a with | ⟨0, _⟩ => (show (i 0).val / 1 = (i 0).val; omega) | ⟨1, _⟩ => rfl)]
  simp (disch := with_unfolding_all exact rfl) only [val_main_v49_apply, v43_p0, v43_p1, v43_p2, v43_p3] <;> rfl

/-- The proposal's low y corner, read back from the box. -/
theorem v52 (i : S65536.Idx) :
    val_main_v52 (F := Ideal) a1 i = lo (Pr a1 (i 0) 1) := by
  rw [val_main_v52_apply, show idx_main_v52 i = ix2 (n0 := 65536) (i 0) (0 : Fin 1) from funext fun a => Fin.ext (by match a with | ⟨0, _⟩ => (show (i 0).val / 1 = (i 0).val; omega) | ⟨1, _⟩ => rfl)]
  simp (disch := with_unfolding_all exact rfl) only [val_main_v51_apply, v43_p0, v43_p1, v43_p2, v43_p3] <;> rfl

/-- The proposal's y side. -/
theorem v53 (i : S65536.Idx) :
    val_main_v53 (F := Ideal) a1 i = side (Pr a1 (i 0) 1) (Pr a1 (i 0) 3) := by
  simp (disch := with_unfolding_all exact rfl) only [val_main_v53_apply, v50, v52] <;> rfl

/-- The proposal's low x corner, read back once more. -/
theorem v55 (i : S65536.Idx) :
    val_main_v55 (F := Ideal) a1 i = lo (Pr a1 (i 0) 0) := by
  rw [val_main_v55_apply, show idx_main_v55 i = ix2 (n0 := 65536) (i 0) (0 : Fin 1) from funext fun a => Fin.ext (by match a with | ⟨0, _⟩ => (show (i 0).val / 1 = (i 0).val; omega) | ⟨1, _⟩ => rfl)]
  simp (disch := with_unfolding_all exact rfl) only [val_main_v54_apply, v43_p0, v43_p1, v43_p2, v43_p3] <;> rfl

/-- The proposal's x centre. -/
theorem v58 (i : S65536.Idx) :
    val_main_v58 (F := Ideal) a1 i = mid (Pr a1 (i 0) 0) (Pr a1 (i 0) 2) := by
  simp (disch := with_unfolding_all exact rfl) only [val_main_v58_apply, val_main_v57_apply, val_main_v56_apply, val_main_cst_7_apply, v55, v48] <;> rfl

/-- The proposal's low y corner, read back once more. -/
theorem v60 (i : S65536.Idx) :
    val_main_v60 (F := Ideal) a1 i = lo (Pr a1 (i 0) 1) := by
  rw [val_main_v60_apply, show idx_main_v60 i = ix2 (n0 := 65536) (i 0) (0 : Fin 1) from funext fun a => Fin.ext (by match a with | ⟨0, _⟩ => (show (i 0).val / 1 = (i 0).val; omega) | ⟨1, _⟩ => rfl)]
  simp (disch := with_unfolding_all exact rfl) only [val_main_v59_apply, v43_p0, v43_p1, v43_p2, v43_p3] <;> rfl

/-- The proposal's y centre. -/
theorem v63 (i : S65536.Idx) :
    val_main_v63 (F := Ideal) a1 i = mid (Pr a1 (i 0) 1) (Pr a1 (i 0) 3) := by
  simp (disch := with_unfolding_all exact rfl) only [val_main_v63_apply, val_main_v62_apply, val_main_v61_apply, val_main_cst_8_apply, v60, v53] <;> rfl

/-- Box delta 0 of the row. -/
theorem v65 (i : S65536.Idx) :
    val_main_v65 (F := Ideal) a0 a5 a6 i = (Dl a0 a5 a6 (i 0) 0) := by
  rw [val_main_v65_apply, show idx_main_v65 i = ix2 (n0 := 65536) (i 0) (0 : Fin 1) from funext fun a => Fin.ext (by match a with | ⟨0, _⟩ => (show (i 0).val / 1 = (i 0).val; omega) | ⟨1, _⟩ => rfl)]
  simp (disch := with_unfolding_all exact rfl) only [val_main_v64_apply, v9] <;> rfl

/-- Box delta 1 of the row. -/
theorem v69 (i : S65536.Idx) :
    val_main_v69 (F := Ideal) a0 a5 a6 i = (Dl a0 a5 a6 (i 0) 1) := by
  rw [val_main_v69_apply, show idx_main_v69 i = ix2 (n0 := 65536) (i 0) (0 : Fin 1) from funext fun a => Fin.ext (by match a with | ⟨0, _⟩ => (show (i 0).val / 1 = (i 0).val; omega) | ⟨1, _⟩ => rfl)]
  simp (disch := with_unfolding_all exact rfl) only [val_main_v68_apply, v9] <;> rfl

/-- Box delta 2 of the row. -/
theorem v73 (i : S65536.Idx) :
    val_main_v73 (F := Ideal) a0 a5 a6 i = (Dl a0 a5 a6 (i 0) 2) := by
  rw [val_main_v73_apply, show idx_main_v73 i = ix2 (n0 := 65536) (i 0) (0 : Fin 1) from funext fun a => Fin.ext (by match a with | ⟨0, _⟩ => (show (i 0).val / 1 = (i 0).val; omega) | ⟨1, _⟩ => rfl)]
  simp (disch := with_unfolding_all exact rfl) only [val_main_v72_apply, v9] <;> rfl

/-- Box delta 3 of the row. -/
theorem v79 (i : S65536.Idx) :
    val_main_v79 (F := Ideal) a0 a5 a6 i = (Dl a0 a5 a6 (i 0) 3) := by
  rw [val_main_v79_apply, show idx_main_v79 i = ix2 (n0 := 65536) (i 0) (0 : Fin 1) from funext fun a => Fin.ext (by match a with | ⟨0, _⟩ => (show (i 0).val / 1 = (i 0).val; omega) | ⟨1, _⟩ => rfl)]
  simp (disch := with_unfolding_all exact rfl) only [val_main_v78_apply, v9] <;> rfl

/-- The weighted x centre delta. -/
theorem v67 (i : S65536.Idx) :
    val_main_v67 (F := Ideal) a0 a5 a6 i = Ideal.div (Dl a0 a5 a6 (i 0) 0) k10 := by
  simp (disch := with_unfolding_all exact rfl) only [val_main_v67_apply, val_main_v66_apply, val_main_cst_9_apply, v65] <;> rfl

/-- The weighted y centre delta. -/
theorem v71 (i : S65536.Idx) :
    val_main_v71 (F := Ideal) a0 a5 a6 i = Ideal.div (Dl a0 a5 a6 (i 0) 1) k10 := by
  simp (disch := with_unfolding_all exact rfl) only [val_main_v71_apply, val_main_v70_apply, val_main_cst_10_apply, v69] <;> rfl

/-- The weighted, capped x size delta. -/
theorem v77 (i : S65536.Idx) :
    val_main_v77 (F := Ideal) a0 a5 a6 i = min (Ideal.div (Dl a0 a5 a6 (i 0) 2) k5) kcap := by
  simp (disch := with_unfolding_all exact rfl) only [val_main_v77_apply, val_main_v75_apply, val_main_v74_apply, val_main_cst_11_apply, val_main_v76_apply, val_main_cst_12_apply, v73] <;> rfl

/-- The weighted, capped y size delta. -/
theorem v83 (i : S65536.Idx) :
    val_main_v83 (F := Ideal) a0 a5 a6 i = min (Ideal.div (Dl a0 a5 a6 (i 0) 3) k5) kcap := by
  simp (disch := with_unfolding_all exact rfl) only [val_main_v83_apply, val_main_v81_apply, val_main_v80_apply, val_main_cst_13_apply, val_main_v82_apply, val_main_cst_14_apply, v79] <;> rfl

/-- The predicted x centre. -/
theorem v85 (i : S65536.Idx) :
    val_main_v85 (F := Ideal) a0 a1 a5 a6 i = ctr (Dl a0 a5 a6 (i 0) 0) (Pr a1 (i 0) 0) (Pr a1 (i 0) 2) := by
  simp (disch := with_unfolding_all exact rfl) only [val_main_v85_apply, val_main_v84_apply, v67, v48, v58] <;> rfl

/-- The predicted y centre. -/
theorem v87 (i : S65536.Idx) :
    val_main_v87 (F := Ideal) a0 a1 a5 a6 i = ctr (Dl a0 a5 a6 (i 0) 1) (Pr a1 (i 0) 1) (Pr a1 (i 0) 3) := by
  simp (disch := with_unfolding_all exact rfl) only [val_main_v87_apply, val_main_v86_apply, v71, v53, v63] <;> rfl

/-- The predicted x side. -/
theorem v89 (i : S65536.Idx) :
    val_main_v89 (F := Ideal) a0 a1 a5 a6 i = len (Dl a0 a5 a6 (i 0) 2) (Pr a1 (i 0) 0) (Pr a1 (i 0) 2) := by
  simp (disch := with_unfolding_all exact rfl) only [val_main_v89_apply, val_main_v88_apply, v77, v48] <;> rfl

/-- The predicted y side. -/
theorem v91 (i : S65536.Idx) :
    val_main_v91 (F := Ideal) a0 a1 a5 a6 i = len (Dl a0 a5 a6 (i 0) 3) (Pr a1 (i 0) 1) (Pr a1 (i 0) 3) := by
  simp (disch := with_unfolding_all exact rfl) only [val_main_v91_apply, val_main_v90_apply, v83, v53] <;> rfl

/-- The predicted box's low x corner, before clipping. -/
theorem v94 (i : S65536.Idx) :
    val_main_v94 (F := Ideal) a0 a1 a5 a6 i = ctr (Dl a0 a5 a6 (i 0) 0) (Pr a1 (i 0) 0) (Pr a1 (i 0) 2) - khalf * len (Dl a0 a5 a6 (i 0) 2) (Pr a1 (i 0) 0) (Pr a1 (i 0) 2) := by
  simp (disch := with_unfolding_all exact rfl) only [val_main_v94_apply, val_main_v93_apply, val_main_v92_apply, val_main_cst_15_apply, v85, v89] <;> rfl

/-- The predicted box's low y corner, before clipping. -/
theorem v97 (i : S65536.Idx) :
    val_main_v97 (F := Ideal) a0 a1 a5 a6 i = ctr (Dl a0 a5 a6 (i 0) 1) (Pr a1 (i 0) 1) (Pr a1 (i 0) 3) - khalf * len (Dl a0 a5 a6 (i 0) 3) (Pr a1 (i 0) 1) (Pr a1 (i 0) 3) := by
  simp (disch := with_unfolding_all exact rfl) only [val_main_v97_apply, val_main_v96_apply, val_main_v95_apply, val_main_cst_16_apply, v87, v91] <;> rfl

/-- The predicted box's high x corner, before clipping. -/
theorem v100 (i : S65536.Idx) :
    val_main_v100 (F := Ideal) a0 a1 a5 a6 i = ctr (Dl a0 a5 a6 (i 0) 0) (Pr a1 (i 0) 0) (Pr a1 (i 0) 2) + khalf * len (Dl a0 a5 a6 (i 0) 2) (Pr a1 (i 0) 0) (Pr a1 (i 0) 2) := by
  simp (disch := with_unfolding_all exact rfl) only [val_main_v100_apply, val_main_v99_apply, val_main_v98_apply, val_main_cst_17_apply, v85, v89] <;> rfl

/-- The predicted box's high y corner, before clipping. -/
theorem v103 (i : S65536.Idx) :
    val_main_v103 (F := Ideal) a0 a1 a5 a6 i = ctr (Dl a0 a5 a6 (i 0) 1) (Pr a1 (i 0) 1) (Pr a1 (i 0) 3) + khalf * len (Dl a0 a5 a6 (i 0) 3) (Pr a1 (i 0) 1) (Pr a1 (i 0) 3) := by
  simp (disch := with_unfolding_all exact rfl) only [val_main_v103_apply, val_main_v102_apply, val_main_v101_apply, val_main_cst_18_apply, v87, v91] <;> rfl
/-- The predicted box's four corners side by side, before clipping (piece 0). -/
theorem v108_p0 (i : S65536x4.Idx) (hi : (i 1).val = 0) :
    val_main_v108 (F := Ideal) a0 a1 a5 a6 i = ctr (Dl a0 a5 a6 (i 0) 0) (Pr a1 (i 0) 0) (Pr a1 (i 0) 2) - khalf * len (Dl a0 a5 a6 (i 0) 2) (Pr a1 (i 0) 0) (Pr a1 (i 0) 2) := by
  unfold val_main_v108
  rw [cat2_0 _ _ _ _ _ i hi]
  simp (disch := with_unfolding_all exact rfl) only [val_main_v104_apply, v94] <;> rfl

/-- The predicted box's four corners side by side, before clipping (piece 1). -/
theorem v108_p1 (i : S65536x4.Idx) (hi : (i 1).val = 1) :
    val_main_v108 (F := Ideal) a0 a1 a5 a6 i = ctr (Dl a0 a5 a6 (i 0) 1) (Pr a1 (i 0) 1) (Pr a1 (i 0) 3) - khalf * len (Dl a0 a5 a6 (i 0) 3) (Pr a1 (i 0) 1) (Pr a1 (i 0) 3) := by
  unfold val_main_v108
  rw [cat2_1 _ _ _ _ _ i hi]
  simp (disch := with_unfolding_all exact rfl) only [val_main_v105_apply, v97] <;> rfl

/-- The predicted box's four corners side by side, before clipping (piece 2). -/
theorem v108_p2 (i : S65536x4.Idx) (hi : (i 1).val = 2) :
    val_main_v108 (F := Ideal) a0 a1 a5 a6 i = ctr (Dl a0 a5 a6 (i 0) 0) (Pr a1 (i 0) 0) (Pr a1 (i 0) 2) + khalf * len (Dl a0 a5 a6 (i 0) 2) (Pr a1 (i 0) 0) (Pr a1 (i 0) 2) := by
  unfold val_main_v108
  rw [cat2_2 _ _ _ _ _ i hi]
  simp (disch := with_unfolding_all exact rfl) only [val_main_v106_apply, v100] <;> rfl

/-- The predicted box's four corners side by side, before clipping (piece 3). -/
theorem v108_p3 (i : S65536x4.Idx) (hi : (i 1).val = 3) :
    val_main_v108 (F := Ideal) a0 a1 a5 a6 i = ctr (Dl a0 a5 a6 (i 0) 1) (Pr a1 (i 0) 1) (Pr a1 (i 0) 3) + khalf * len (Dl a0 a5 a6 (i 0) 3) (Pr a1 (i 0) 1) (Pr a1 (i 0) 3) := by
  unfold val_main_v108
  rw [cat2_3 _ _ _ _ _ i hi]
  simp (disch := with_unfolding_all exact rfl) only [val_main_v107_apply, v103] <;> rfl
/-- The unclipped low x corner, read back. -/
theorem v110 (i : S65536.Idx) :
    val_main_v110 (F := Ideal) a0 a1 a5 a6 i = ctr (Dl a0 a5 a6 (i 0) 0) (Pr a1 (i 0) 0) (Pr a1 (i 0) 2) - khalf * len (Dl a0 a5 a6 (i 0) 2) (Pr a1 (i 0) 0) (Pr a1 (i 0) 2) := by
  rw [val_main_v110_apply, show idx_main_v110 i = ix2 (n0 := 65536) (i 0) (0 : Fin 1) from funext fun a => Fin.ext (by match a with | ⟨0, _⟩ => (show (i 0).val / 1 = (i 0).val; omega) | ⟨1, _⟩ => rfl)]
  simp (disch := with_unfolding_all exact rfl) only [val_main_v109_apply, v108_p0, v108_p1, v108_p2, v108_p3] <;> rfl

/-- The unclipped low y corner, read back. -/
theorem v113 (i : S65536.Idx) :
    val_main_v113 (F := Ideal) a0 a1 a5 a6 i = ctr (Dl a0 a5 a6 (i 0) 1) (Pr a1 (i 0) 1) (Pr a1 (i 0) 3) - khalf * len (Dl a0 a5 a6 (i 0) 3) (Pr a1 (i 0) 1) (Pr a1 (i 0) 3) := by
  rw [val_main_v113_apply, show idx_main_v113 i = ix2 (n0 := 65536) (i 0) (0 : Fin 1) from funext fun a => Fin.ext (by match a with | ⟨0, _⟩ => (show (i 0).val / 1 = (i 0).val; omega) | ⟨1, _⟩ => rfl)]
  simp (disch := with_unfolding_all exact rfl) only [val_main_v112_apply, v108_p0, v108_p1, v108_p2, v108_p3] <;> rfl

/-- The unclipped high x corner, read back. -/
theorem v116 (i : S65536.Idx) :
    val_main_v116 (F := Ideal) a0 a1 a5 a6 i = ctr (Dl a0 a5 a6 (i 0) 0) (Pr a1 (i 0) 0) (Pr a1 (i 0) 2) + khalf * len (Dl a0 a5 a6 (i 0) 2) (Pr a1 (i 0) 0) (Pr a1 (i 0) 2) := by
  rw [val_main_v116_apply, show idx_main_v116 i = ix2 (n0 := 65536) (i 0) (0 : Fin 1) from funext fun a => Fin.ext (by match a with | ⟨0, _⟩ => (show (i 0).val / 1 = (i 0).val; omega) | ⟨1, _⟩ => rfl)]
  simp (disch := with_unfolding_all exact rfl) only [val_main_v115_apply, v108_p0, v108_p1, v108_p2, v108_p3] <;> rfl

/-- The unclipped high y corner, read back. -/
theorem v119 (i : S65536.Idx) :
    val_main_v119 (F := Ideal) a0 a1 a5 a6 i = ctr (Dl a0 a5 a6 (i 0) 1) (Pr a1 (i 0) 1) (Pr a1 (i 0) 3) + khalf * len (Dl a0 a5 a6 (i 0) 3) (Pr a1 (i 0) 1) (Pr a1 (i 0) 3) := by
  rw [val_main_v119_apply, show idx_main_v119 i = ix2 (n0 := 65536) (i 0) (0 : Fin 1) from funext fun a => Fin.ext (by match a with | ⟨0, _⟩ => (show (i 0).val / 1 = (i 0).val; omega) | ⟨1, _⟩ => rfl)]
  simp (disch := with_unfolding_all exact rfl) only [val_main_v118_apply, v108_p0, v108_p1, v108_p2, v108_p3] <;> rfl

/-- The clipped box's low x corner. -/
theorem v111 (i : S65536.Idx) :
    val_main_v111 (F := Ideal) a0 a1 a5 a6 i = X0 a0 a1 a5 a6 (i 0) := by
  simp (disch := with_unfolding_all exact rfl) only [val_main_v111_apply, val_main_call1_v4_apply, val_main_call1_v3_apply, val_main_cst_20_apply, val_main_call1_v2_apply, val_main_call1_v1_apply, val_main_call1_v0_apply, val_main_cst_19_apply, v110] <;> rfl

/-- The clipped box's low y corner. -/
theorem v114 (i : S65536.Idx) :
    val_main_v114 (F := Ideal) a0 a1 a5 a6 i = Y0 a0 a1 a5 a6 (i 0) := by
  simp (disch := with_unfolding_all exact rfl) only [val_main_v114_apply, val_main_call2_v4_apply, val_main_call2_v3_apply, val_main_cst_22_apply, val_main_call2_v2_apply, val_main_call2_v1_apply, val_main_call2_v0_apply, val_main_cst_21_apply, v113] <;> rfl

/-- The clipped box's high x corner. -/
theorem v117 (i : S65536.Idx) :
    val_main_v117 (F := Ideal) a0 a1 a5 a6 i = X1 a0 a1 a5 a6 (i 0) := by
  simp (disch := with_unfolding_all exact rfl) only [val_main_v117_apply, val_main_call3_v4_apply, val_main_call3_v3_apply, val_main_cst_24_apply, val_main_call3_v2_apply, val_main_call3_v1_apply, val_main_call3_v0_apply, val_main_cst_23_apply, v116] <;> rfl

/-- The clipped box's high y corner. -/
theorem v120 (i : S65536.Idx) :
    val_main_v120 (F := Ideal) a0 a1 a5 a6 i = Y1 a0 a1 a5 a6 (i 0) := by
  simp (disch := with_unfolding_all exact rfl) only [val_main_v120_apply, val_main_call4_v4_apply, val_main_call4_v3_apply, val_main_cst_26_apply, val_main_call4_v2_apply, val_main_call4_v1_apply, val_main_call4_v0_apply, val_main_cst_25_apply, v119] <;> rfl
/-- The clipped box's four corners side by side (piece 0). -/
theorem v125_p0 (i : S65536x4.Idx) (hi : (i 1).val = 0) :
    val_main_v125 (F := Ideal) a0 a1 a5 a6 i = X0 a0 a1 a5 a6 (i 0) := by
  unfold val_main_v125
  rw [cat2_0 _ _ _ _ _ i hi]
  simp (disch := with_unfolding_all exact rfl) only [val_main_v121_apply, v111] <;> rfl

/-- The clipped box's four corners side by side (piece 1). -/
theorem v125_p1 (i : S65536x4.Idx) (hi : (i 1).val = 1) :
    val_main_v125 (F := Ideal) a0 a1 a5 a6 i = Y0 a0 a1 a5 a6 (i 0) := by
  unfold val_main_v125
  rw [cat2_1 _ _ _ _ _ i hi]
  simp (disch := with_unfolding_all exact rfl) only [val_main_v122_apply, v114] <;> rfl

/-- The clipped box's four corners side by side (piece 2). -/
theorem v125_p2 (i : S65536x4.Idx) (hi : (i 1).val = 2) :
    val_main_v125 (F := Ideal) a0 a1 a5 a6 i = X1 a0 a1 a5 a6 (i 0) := by
  unfold val_main_v125
  rw [cat2_2 _ _ _ _ _ i hi]
  simp (disch := with_unfolding_all exact rfl) only [val_main_v123_apply, v117] <;> rfl

/-- The clipped box's four corners side by side (piece 3). -/
theorem v125_p3 (i : S65536x4.Idx) (hi : (i 1).val = 3) :
    val_main_v125 (F := Ideal) a0 a1 a5 a6 i = Y1 a0 a1 a5 a6 (i 0) := by
  unfold val_main_v125
  rw [cat2_3 _ _ _ _ _ i hi]
  simp (disch := with_unfolding_all exact rfl) only [val_main_v124_apply, v120] <;> rfl

/-! ## The sampled boxes and their overlap with the clipped box -/

/-- The standard deviations. -/
theorem v126 (i : S65536x4.Idx) :
    val_main_v126 (F := Ideal) a0 a7 a8 i = Ideal.sqrt (Vr a0 a7 a8 (i 0) (i 1)) := by
  simp (disch := with_unfolding_all exact rfl) only [val_main_v126_apply, v16] <;> rfl

/-- The noise scaled by the standard deviations. -/
theorem v129 (i : S65536x100x4.Idx) :
    val_main_v129 (F := Ideal) a0 a2 a7 a8 i = a2 i * Ideal.sqrt (Vr a0 a7 a8 (i 0) (i 2)) := by
  simp (disch := with_unfolding_all exact rfl) only [val_main_v129_apply, val_main_v128_apply, val_main_v127_apply, v126] <;> rfl
/-- The clipped box's high x corner, as a column. -/
theorem v132 (i : S65536x1.Idx) :
    val_main_v132 (F := Ideal) a0 a1 a5 a6 i = (X1 a0 a1 a5 a6 (i 0)) := by
  rw [val_main_v132_apply, show idx_main_v132 i = ix3 (n0 := 65536) (i 0) (0 : Fin 1) (0 : Fin 1) from funext fun a => Fin.ext (by have h1 := idx2_lt1 i; match a with | ⟨0, _⟩ => (show ((i 0).val * 1 + (i 1).val) / 1 = (i 0).val; omega) | ⟨1, _⟩ => rfl | ⟨2, _⟩ => rfl)]
  simp (disch := with_unfolding_all exact rfl) only [val_main_v131_apply, val_main_v130_apply, v125_p0, v125_p1, v125_p2, v125_p3] <;> rfl

/-- The clipped box's low x corner, as a column. -/
theorem v134 (i : S65536x1.Idx) :
    val_main_v134 (F := Ideal) a0 a1 a5 a6 i = (X0 a0 a1 a5 a6 (i 0)) := by
  rw [val_main_v134_apply, show idx_main_v134 i = ix3 (n0 := 65536) (i 0) (0 : Fin 1) (0 : Fin 1) from funext fun a => Fin.ext (by have h1 := idx2_lt1 i; match a with | ⟨0, _⟩ => (show ((i 0).val * 1 + (i 1).val) / 1 = (i 0).val; omega) | ⟨1, _⟩ => rfl | ⟨2, _⟩ => rfl)]
  simp (disch := with_unfolding_all exact rfl) only [val_main_v133_apply, val_main_v130_apply, v125_p0, v125_p1, v125_p2, v125_p3] <;> rfl

/-- The clipped box's x side. -/
theorem v135 (i : S65536x1.Idx) :
    val_main_v135 (F := Ideal) a0 a1 a5 a6 i = (X1 a0 a1 a5 a6 (i 0)) - (X0 a0 a1 a5 a6 (i 0)) := by
  simp (disch := with_unfolding_all exact rfl) only [val_main_v135_apply, v132, v134] <;> rfl

/-- The clipped box's high y corner, as a column. -/
theorem v137 (i : S65536x1.Idx) :
    val_main_v137 (F := Ideal) a0 a1 a5 a6 i = (Y1 a0 a1 a5 a6 (i 0)) := by
  rw [val_main_v137_apply, show idx_main_v137 i = ix3 (n0 := 65536) (i 0) (0 : Fin 1) (0 : Fin 1) from funext fun a => Fin.ext (by have h1 := idx2_lt1 i; match a with | ⟨0, _⟩ => (show ((i 0).val * 1 + (i 1).val) / 1 = (i 0).val; omega) | ⟨1, _⟩ => rfl | ⟨2, _⟩ => rfl)]
  simp (disch := with_unfolding_all exact rfl) only [val_main_v136_apply, val_main_v130_apply, v125_p0, v125_p1, v125_p2, v125_p3] <;> rfl

/-- The clipped box's low y corner, as a column. -/
theorem v139 (i : S65536x1.Idx) :
    val_main_v139 (F := Ideal) a0 a1 a5 a6 i = (Y0 a0 a1 a5 a6 (i 0)) := by
  rw [val_main_v139_apply, show idx_main_v139 i = ix3 (n0 := 65536) (i 0) (0 : Fin 1) (0 : Fin 1) from funext fun a => Fin.ext (by have h1 := idx2_lt1 i; match a with | ⟨0, _⟩ => (show ((i 0).val * 1 + (i 1).val) / 1 = (i 0).val; omega) | ⟨1, _⟩ => rfl | ⟨2, _⟩ => rfl)]
  simp (disch := with_unfolding_all exact rfl) only [val_main_v138_apply, val_main_v130_apply, v125_p0, v125_p1, v125_p2, v125_p3] <;> rfl

/-- The clipped box's y side. -/
theorem v140 (i : S65536x1.Idx) :
    val_main_v140 (F := Ideal) a0 a1 a5 a6 i = (Y1 a0 a1 a5 a6 (i 0)) - (Y0 a0 a1 a5 a6 (i 0)) := by
  simp (disch := with_unfolding_all exact rfl) only [val_main_v140_apply, v137, v139] <;> rfl

/-- The clipped box's low x corner, as a column, once more. -/
theorem v142 (i : S65536x1.Idx) :
    val_main_v142 (F := Ideal) a0 a1 a5 a6 i = (X0 a0 a1 a5 a6 (i 0)) := by
  rw [val_main_v142_apply, show idx_main_v142 i = ix3 (n0 := 65536) (i 0) (0 : Fin 1) (0 : Fin 1) from funext fun a => Fin.ext (by have h1 := idx2_lt1 i; match a with | ⟨0, _⟩ => (show ((i 0).val * 1 + (i 1).val) / 1 = (i 0).val; omega) | ⟨1, _⟩ => rfl | ⟨2, _⟩ => rfl)]
  simp (disch := with_unfolding_all exact rfl) only [val_main_v141_apply, val_main_v130_apply, v125_p0, v125_p1, v125_p2, v125_p3] <;> rfl

/-- The clipped box's x centre. -/
theorem v145 (i : S65536x1.Idx) :
    val_main_v145 (F := Ideal) a0 a1 a5 a6 i = (X0 a0 a1 a5 a6 (i 0)) + khalf * ((X1 a0 a1 a5 a6 (i 0)) - (X0 a0 a1 a5 a6 (i 0))) := by
  simp (disch := with_unfolding_all exact rfl) only [val_main_v145_apply, val_main_v144_apply, val_main_v143_apply, val_main_cst_27_apply, v142, v135] <;> rfl

/-- The clipped box's low y corner, as a column, once more. -/
theorem v147 (i : S65536x1.Idx) :
    val_main_v147 (F := Ideal) a0 a1 a5 a6 i = (Y0 a0 a1 a5 a6 (i 0)) := by
  rw [val_main_v147_apply, show idx_main_v147 i = ix3 (n0 := 65536) (i 0) (0 : Fin 1) (0 : Fin 1) from funext fun a => Fin.ext (by have h1 := idx2_lt1 i; match a with | ⟨0, _⟩ => (show ((i 0).val * 1 + (i 1).val) / 1 = (i 0).val; omega) | ⟨1, _⟩ => rfl | ⟨2, _⟩ => rfl)]
  simp (disch := with_unfolding_all exact rfl) only [val_main_v146_apply, val_main_v130_apply, v125_p0, v125_p1, v125_p2, v125_p3] <;> rfl

/-- The clipped box's y centre. -/
theorem v150 (i : S65536x1.Idx) :
    val_main_v150 (F := Ideal) a0 a1 a5 a6 i = (Y0 a0 a1 a5 a6 (i 0)) + khalf * ((Y1 a0 a1 a5 a6 (i 0)) - (Y0 a0 a1 a5 a6 (i 0))) := by
  simp (disch := with_unfolding_all exact rfl) only [val_main_v150_apply, val_main_v149_apply, val_main_v148_apply, val_main_cst_28_apply, v147, v140] <;> rfl
/-- Scaled noise 0 of a sample. -/
theorem v152 (i : S65536x100.Idx) :
    val_main_v152 (F := Ideal) a0 a2 a7 a8 i = (Nz a0 a2 a7 a8 (i 0) (i 1) (0 : Fin 4)) := by
  rw [val_main_v152_apply, val_main_v151_apply, v129]
  rw [show idx_main_v151 (idx_main_v152 i) = ix3 (n0 := 65536) (n1 := 100) (i 0) (i 1) (0 : Fin 4) from funext fun a => Fin.ext (by
    have h1 := idx2_lt1 i
    match a with
    | ⟨0, _⟩ => (show ((i 0).val * 100 + (i 1).val) / 100 = (i 0).val; omega)
    | ⟨1, _⟩ => (show ((i 0).val * 100 + (i 1).val) / 1 % 100 = (i 1).val; omega)
    | ⟨2, _⟩ => rfl)]

/-- Scaled noise 1 of a sample. -/
theorem v156 (i : S65536x100.Idx) :
    val_main_v156 (F := Ideal) a0 a2 a7 a8 i = (Nz a0 a2 a7 a8 (i 0) (i 1) (1 : Fin 4)) := by
  rw [val_main_v156_apply, val_main_v155_apply, v129]
  rw [show idx_main_v155 (idx_main_v156 i) = ix3 (n0 := 65536) (n1 := 100) (i 0) (i 1) (1 : Fin 4) from funext fun a => Fin.ext (by
    have h1 := idx2_lt1 i
    match a with
    | ⟨0, _⟩ => (show ((i 0).val * 100 + (i 1).val) / 100 = (i 0).val; omega)
    | ⟨1, _⟩ => (show ((i 0).val * 100 + (i 1).val) / 1 % 100 = (i 1).val; omega)
    | ⟨2, _⟩ => rfl)]

/-- Scaled noise 2 of a sample. -/
theorem v160 (i : S65536x100.Idx) :
    val_main_v160 (F := Ideal) a0 a2 a7 a8 i = (Nz a0 a2 a7 a8 (i 0) (i 1) (2 : Fin 4)) := by
  rw [val_main_v160_apply, val_main_v159_apply, v129]
  rw [show idx_main_v159 (idx_main_v160 i) = ix3 (n0 := 65536) (n1 := 100) (i 0) (i 1) (2 : Fin 4) from funext fun a => Fin.ext (by
    have h1 := idx2_lt1 i
    match a with
    | ⟨0, _⟩ => (show ((i 0).val * 100 + (i 1).val) / 100 = (i 0).val; omega)
    | ⟨1, _⟩ => (show ((i 0).val * 100 + (i 1).val) / 1 % 100 = (i 1).val; omega)
    | ⟨2, _⟩ => rfl)]

/-- Scaled noise 3 of a sample. -/
theorem v166 (i : S65536x100.Idx) :
    val_main_v166 (F := Ideal) a0 a2 a7 a8 i = (Nz a0 a2 a7 a8 (i 0) (i 1) (3 : Fin 4)) := by
  rw [val_main_v166_apply, val_main_v165_apply, v129]
  rw [show idx_main_v165 (idx_main_v166 i) = ix3 (n0 := 65536) (n1 := 100) (i 0) (i 1) (3 : Fin 4) from funext fun a => Fin.ext (by
    have h1 := idx2_lt1 i
    match a with
    | ⟨0, _⟩ => (show ((i 0).val * 100 + (i 1).val) / 100 = (i 0).val; omega)
    | ⟨1, _⟩ => (show ((i 0).val * 100 + (i 1).val) / 1 % 100 = (i 1).val; omega)
    | ⟨2, _⟩ => rfl)]

/-- A sample's weighted x centre delta. -/
theorem v154 (i : S65536x100.Idx) :
    val_main_v154 (F := Ideal) a0 a2 a7 a8 i = Ideal.div (Nz a0 a2 a7 a8 (i 0) (i 1) 0) k10 := by
  simp (disch := with_unfolding_all exact rfl) only [val_main_v154_apply, val_main_v153_apply, val_main_cst_29_apply, v152] <;> rfl

/-- A sample's weighted y centre delta. -/
theorem v158 (i : S65536x100.Idx) :
    val_main_v158 (F := Ideal) a0 a2 a7 a8 i = Ideal.div (Nz a0 a2 a7 a8 (i 0) (i 1) 1) k10 := by
  simp (disch := with_unfolding_all exact rfl) only [val_main_v158_apply, val_main_v157_apply, val_main_cst_30_apply, v156] <;> rfl

/-- A sample's weighted, capped x size delta. -/
theorem v164 (i : S65536x100.Idx) :
    val_main_v164 (F := Ideal) a0 a2 a7 a8 i = min (Ideal.div (Nz a0 a2 a7 a8 (i 0) (i 1) 2) k5) kcap := by
  simp (disch := with_unfolding_all exact rfl) only [val_main_v164_apply, val_main_v162_apply, val_main_v161_apply, val_main_cst_31_apply, val_main_v163_apply, val_main_cst_32_apply, v160] <;> rfl

/-- A sample's weighted, capped y size delta. -/
theorem v170 (i : S65536x100.Idx) :
    val_main_v170 (F := Ideal) a0 a2 a7 a8 i = min (Ideal.div (Nz a0 a2 a7 a8 (i 0) (i 1) 3) k5) kcap := by
  simp (disch := with_unfolding_all exact rfl) only [val_main_v170_apply, val_main_v168_apply, val_main_v167_apply, val_main_cst_33_apply, val_main_v169_apply, val_main_cst_34_apply, v166] <;> rfl

/-- A sample's x centre. -/
theorem v174 (i : S65536x100.Idx) :
    val_main_v174 (F := Ideal) a0 a1 a2 a5 a6 a7 a8 i = sctr (Er a2 (i 0) (i 1) 0) (Vr a0 a7 a8 (i 0) 0) (X0 a0 a1 a5 a6 (i 0)) (X1 a0 a1 a5 a6 (i 0)) := by
  simp (disch := with_unfolding_all exact rfl) only [val_main_v174_apply, val_main_v172_apply, val_main_v171_apply, val_main_v173_apply, v154, v135, v145] <;> rfl

/-- A sample's y centre. -/
theorem v178 (i : S65536x100.Idx) :
    val_main_v178 (F := Ideal) a0 a1 a2 a5 a6 a7 a8 i = sctr (Er a2 (i 0) (i 1) 1) (Vr a0 a7 a8 (i 0) 1) (Y0 a0 a1 a5 a6 (i 0)) (Y1 a0 a1 a5 a6 (i 0)) := by
  simp (disch := with_unfolding_all exact rfl) only [val_main_v178_apply, val_main_v176_apply, val_main_v175_apply, val_main_v177_apply, v158, v140, v150] <;> rfl

/-- A sample's x side. -/
theorem v181 (i : S65536x100.Idx) :
    val_main_v181 (F := Ideal) a0 a1 a2 a5 a6 a7 a8 i = slen (Er a2 (i 0) (i 1) 2) (Vr a0 a7 a8 (i 0) 2) (X0 a0 a1 a5 a6 (i 0)) (X1 a0 a1 a5 a6 (i 0)) := by
  simp (disch := with_unfolding_all exact rfl) only [val_main_v181_apply, val_main_v179_apply, val_main_v180_apply, v164, v135] <;> rfl

/-- A sample's y side. -/
theorem v184 (i : S65536x100.Idx) :
    val_main_v184 (F := Ideal) a0 a1 a2 a5 a6 a7 a8 i = slen (Er a2 (i 0) (i 1) 3) (Vr a0 a7 a8 (i 0) 3) (Y0 a0 a1 a5 a6 (i 0)) (Y1 a0 a1 a5 a6 (i 0)) := by
  simp (disch := with_unfolding_all exact rfl) only [val_main_v184_apply, val_main_v182_apply, val_main_v183_apply, v170, v140] <;> rfl

/-- A sampled box's low x corner. -/
theorem v187 (i : S65536x100.Idx) :
    val_main_v187 (F := Ideal) a0 a1 a2 a5 a6 a7 a8 i = sLo (Er a2 (i 0) (i 1) 0) (Vr a0 a7 a8 (i 0) 0) (Er a2 (i 0) (i 1) 2) (Vr a0 a7 a8 (i 0) 2) (X0 a0 a1 a5 a6 (i 0)) (X1 a0 a1 a5 a6 (i 0)) := by
  simp (disch := with_unfolding_all exact rfl) only [val_main_v187_apply, val_main_v186_apply, val_main_v185_apply, val_main_cst_35_apply, v174, v181] <;> rfl

/-- A sampled box's low y corner. -/
theorem v190 (i : S65536x100.Idx) :
    val_main_v190 (F := Ideal) a0 a1 a2 a5 a6 a7 a8 i = sLo (Er a2 (i 0) (i 1) 1) (Vr a0 a7 a8 (i 0) 1) (Er a2 (i 0) (i 1) 3) (Vr a0 a7 a8 (i 0) 3) (Y0 a0 a1 a5 a6 (i 0)) (Y1 a0 a1 a5 a6 (i 0)) := by
  simp (disch := with_unfolding_all exact rfl) only [val_main_v190_apply, val_main_v189_apply, val_main_v188_apply, val_main_cst_36_apply, v178, v184] <;> rfl

/-- A sampled box's high x corner. -/
theorem v193 (i : S65536x100.Idx) :
    val_main_v193 (F := Ideal) a0 a1 a2 a5 a6 a7 a8 i = sHi (Er a2 (i 0) (i 1) 0) (Vr a0 a7 a8 (i 0) 0) (Er a2 (i 0) (i 1) 2) (Vr a0 a7 a8 (i 0) 2) (X0 a0 a1 a5 a6 (i 0)) (X1 a0 a1 a5 a6 (i 0)) := by
  simp (disch := with_unfolding_all exact rfl) only [val_main_v193_apply, val_main_v192_apply, val_main_v191_apply, val_main_cst_37_apply, v174, v181] <;> rfl

/-- A sampled box's high y corner. -/
theorem v196 (i : S65536x100.Idx) :
    val_main_v196 (F := Ideal) a0 a1 a2 a5 a6 a7 a8 i = sHi (Er a2 (i 0) (i 1) 1) (Vr a0 a7 a8 (i 0) 1) (Er a2 (i 0) (i 1) 3) (Vr a0 a7 a8 (i 0) 3) (Y0 a0 a1 a5 a6 (i 0)) (Y1 a0 a1 a5 a6 (i 0)) := by
  simp (disch := with_unfolding_all exact rfl) only [val_main_v196_apply, val_main_v195_apply, val_main_v194_apply, val_main_cst_38_apply, v178, v184] <;> rfl
/-- A sampled box's four corners side by side (piece 0). -/
theorem v201_p0 (i : S65536x100x4.Idx) (hi : (i 2).val = 0) :
    val_main_v201 (F := Ideal) a0 a1 a2 a5 a6 a7 a8 i = sLo (Er a2 (i 0) (i 1) 0) (Vr a0 a7 a8 (i 0) 0) (Er a2 (i 0) (i 1) 2) (Vr a0 a7 a8 (i 0) 2) (X0 a0 a1 a5 a6 (i 0)) (X1 a0 a1 a5 a6 (i 0)) := by
  unfold val_main_v201
  rw [cat3_0 _ _ _ _ _ i hi]
  simp (disch := with_unfolding_all exact rfl) only [val_main_v197_apply, v187] <;> rfl

/-- A sampled box's four corners side by side (piece 1). -/
theorem v201_p1 (i : S65536x100x4.Idx) (hi : (i 2).val = 1) :
    val_main_v201 (F := Ideal) a0 a1 a2 a5 a6 a7 a8 i = sLo (Er a2 (i 0) (i 1) 1) (Vr a0 a7 a8 (i 0) 1) (Er a2 (i 0) (i 1) 3) (Vr a0 a7 a8 (i 0) 3) (Y0 a0 a1 a5 a6 (i 0)) (Y1 a0 a1 a5 a6 (i 0)) := by
  unfold val_main_v201
  rw [cat3_1 _ _ _ _ _ i hi]
  simp (disch := with_unfolding_all exact rfl) only [val_main_v198_apply, v190] <;> rfl

/-- A sampled box's four corners side by side (piece 2). -/
theorem v201_p2 (i : S65536x100x4.Idx) (hi : (i 2).val = 2) :
    val_main_v201 (F := Ideal) a0 a1 a2 a5 a6 a7 a8 i = sHi (Er a2 (i 0) (i 1) 0) (Vr a0 a7 a8 (i 0) 0) (Er a2 (i 0) (i 1) 2) (Vr a0 a7 a8 (i 0) 2) (X0 a0 a1 a5 a6 (i 0)) (X1 a0 a1 a5 a6 (i 0)) := by
  unfold val_main_v201
  rw [cat3_2 _ _ _ _ _ i hi]
  simp (disch := with_unfolding_all exact rfl) only [val_main_v199_apply, v193] <;> rfl

/-- A sampled box's four corners side by side (piece 3). -/
theorem v201_p3 (i : S65536x100x4.Idx) (hi : (i 2).val = 3) :
    val_main_v201 (F := Ideal) a0 a1 a2 a5 a6 a7 a8 i = sHi (Er a2 (i 0) (i 1) 1) (Vr a0 a7 a8 (i 0) 1) (Er a2 (i 0) (i 1) 3) (Vr a0 a7 a8 (i 0) 3) (Y0 a0 a1 a5 a6 (i 0)) (Y1 a0 a1 a5 a6 (i 0)) := by
  unfold val_main_v201
  rw [cat3_3 _ _ _ _ _ i hi]
  simp (disch := with_unfolding_all exact rfl) only [val_main_v200_apply, v196] <;> rfl
/-- The x overlap of a sampled box with the clipped box. -/
theorem v214 (i : S65536x100.Idx) :
    val_main_v214 (F := Ideal) a0 a1 a2 a5 a6 a7 a8 i = overlap (sLo (Er a2 (i 0) (i 1) 0) (Vr a0 a7 a8 (i 0) 0) (Er a2 (i 0) (i 1) 2) (Vr a0 a7 a8 (i 0) 2) (X0 a0 a1 a5 a6 (i 0)) (X1 a0 a1 a5 a6 (i 0))) (sHi (Er a2 (i 0) (i 1) 0) (Vr a0 a7 a8 (i 0) 0) (Er a2 (i 0) (i 1) 2) (Vr a0 a7 a8 (i 0) 2) (X0 a0 a1 a5 a6 (i 0)) (X1 a0 a1 a5 a6 (i 0))) (X0 a0 a1 a5 a6 (i 0)) (X1 a0 a1 a5 a6 (i 0)) := by
  rw [val_main_v214_apply, show idx_main_v214 i = ix3 (n0 := 65536) (n1 := 100) (i 0) (i 1) (0 : Fin 1) from funext fun a => Fin.ext (by have h1 := idx2_lt1 i; match a with | ⟨0, _⟩ => (show ((i 0).val * 100 + (i 1).val) / 100 = (i 0).val; omega) | ⟨1, _⟩ => (show ((i 0).val * 100 + (i 1).val) / 1 % 100 = (i 1).val; omega) | ⟨2, _⟩ => rfl)]
  simp (disch := with_unfolding_all exact rfl) only [val_main_v213_apply, val_main_v212_apply, val_main_call5_v1_apply, val_main_call5_v0_apply, val_main_cst_39_apply, val_main_v211_apply, val_main_v210_apply, val_main_v207_apply, val_main_v209_apply, val_main_v208_apply, val_main_v202_apply, val_main_v206_apply, val_main_v203_apply, val_main_v205_apply, val_main_v204_apply, v201_p0, v201_p1, v201_p2, v201_p3, v125_p0, v125_p1, v125_p2, v125_p3] <;> rfl

/-- The y overlap of a sampled box with the clipped box. -/
theorem v216 (i : S65536x100.Idx) :
    val_main_v216 (F := Ideal) a0 a1 a2 a5 a6 a7 a8 i = overlap (sLo (Er a2 (i 0) (i 1) 1) (Vr a0 a7 a8 (i 0) 1) (Er a2 (i 0) (i 1) 3) (Vr a0 a7 a8 (i 0) 3) (Y0 a0 a1 a5 a6 (i 0)) (Y1 a0 a1 a5 a6 (i 0))) (sHi (Er a2 (i 0) (i 1) 1) (Vr a0 a7 a8 (i 0) 1) (Er a2 (i 0) (i 1) 3) (Vr a0 a7 a8 (i 0) 3) (Y0 a0 a1 a5 a6 (i 0)) (Y1 a0 a1 a5 a6 (i 0))) (Y0 a0 a1 a5 a6 (i 0)) (Y1 a0 a1 a5 a6 (i 0)) := by
  rw [val_main_v216_apply, show idx_main_v216 i = ix3 (n0 := 65536) (n1 := 100) (i 0) (i 1) (0 : Fin 1) from funext fun a => Fin.ext (by have h1 := idx2_lt1 i; match a with | ⟨0, _⟩ => (show ((i 0).val * 100 + (i 1).val) / 100 = (i 0).val; omega) | ⟨1, _⟩ => (show ((i 0).val * 100 + (i 1).val) / 1 % 100 = (i 1).val; omega) | ⟨2, _⟩ => rfl)]
  simp (disch := with_unfolding_all exact rfl) only [val_main_v215_apply, val_main_v212_apply, val_main_call5_v1_apply, val_main_call5_v0_apply, val_main_cst_39_apply, val_main_v211_apply, val_main_v210_apply, val_main_v207_apply, val_main_v209_apply, val_main_v208_apply, val_main_v202_apply, val_main_v206_apply, val_main_v203_apply, val_main_v205_apply, val_main_v204_apply, v201_p0, v201_p1, v201_p2, v201_p3, v125_p0, v125_p1, v125_p2, v125_p3] <;> rfl

/-- The intersection's area. -/
theorem v217 (i : S65536x100.Idx) :
    val_main_v217 (F := Ideal) a0 a1 a2 a5 a6 a7 a8 i = overlap (sLo (Er a2 (i 0) (i 1) 0) (Vr a0 a7 a8 (i 0) 0) (Er a2 (i 0) (i 1) 2) (Vr a0 a7 a8 (i 0) 2) (X0 a0 a1 a5 a6 (i 0)) (X1 a0 a1 a5 a6 (i 0))) (sHi (Er a2 (i 0) (i 1) 0) (Vr a0 a7 a8 (i 0) 0) (Er a2 (i 0) (i 1) 2) (Vr a0 a7 a8 (i 0) 2) (X0 a0 a1 a5 a6 (i 0)) (X1 a0 a1 a5 a6 (i 0))) (X0 a0 a1 a5 a6 (i 0)) (X1 a0 a1 a5 a6 (i 0)) * overlap (sLo (Er a2 (i 0) (i 1) 1) (Vr a0 a7 a8 (i 0) 1) (Er a2 (i 0) (i 1) 3) (Vr a0 a7 a8 (i 0) 3) (Y0 a0 a1 a5 a6 (i 0)) (Y1 a0 a1 a5 a6 (i 0))) (sHi (Er a2 (i 0) (i 1) 1) (Vr a0 a7 a8 (i 0) 1) (Er a2 (i 0) (i 1) 3) (Vr a0 a7 a8 (i 0) 3) (Y0 a0 a1 a5 a6 (i 0)) (Y1 a0 a1 a5 a6 (i 0))) (Y0 a0 a1 a5 a6 (i 0)) (Y1 a0 a1 a5 a6 (i 0)) := by
  simp (disch := with_unfolding_all exact rfl) only [val_main_v217_apply, v214, v216] <;> rfl

/-- A sampled box's high x corner, read back. -/
theorem v219 (i : S65536x100.Idx) :
    val_main_v219 (F := Ideal) a0 a1 a2 a5 a6 a7 a8 i = sHi (Er a2 (i 0) (i 1) 0) (Vr a0 a7 a8 (i 0) 0) (Er a2 (i 0) (i 1) 2) (Vr a0 a7 a8 (i 0) 2) (X0 a0 a1 a5 a6 (i 0)) (X1 a0 a1 a5 a6 (i 0)) := by
  rw [val_main_v219_apply, show idx_main_v219 i = ix3 (n0 := 65536) (n1 := 100) (i 0) (i 1) (0 : Fin 1) from funext fun a => Fin.ext (by have h1 := idx2_lt1 i; match a with | ⟨0, _⟩ => (show ((i 0).val * 100 + (i 1).val) / 100 = (i 0).val; omega) | ⟨1, _⟩ => (show ((i 0).val * 100 + (i 1).val) / 1 % 100 = (i 1).val; omega) | ⟨2, _⟩ => rfl)]
  simp (disch := with_unfolding_all exact rfl) only [val_main_v218_apply, v201_p0, v201_p1, v201_p2, v201_p3] <;> rfl

/-- A sampled box's low x corner, read back. -/
theorem v221 (i : S65536x100.Idx) :
    val_main_v221 (F := Ideal) a0 a1 a2 a5 a6 a7 a8 i = sLo (Er a2 (i 0) (i 1) 0) (Vr a0 a7 a8 (i 0) 0) (Er a2 (i 0) (i 1) 2) (Vr a0 a7 a8 (i 0) 2) (X0 a0 a1 a5 a6 (i 0)) (X1 a0 a1 a5 a6 (i 0)) := by
  rw [val_main_v221_apply, show idx_main_v221 i = ix3 (n0 := 65536) (n1 := 100) (i 0) (i 1) (0 : Fin 1) from funext fun a => Fin.ext (by have h1 := idx2_lt1 i; match a with | ⟨0, _⟩ => (show ((i 0).val * 100 + (i 1).val) / 100 = (i 0).val; omega) | ⟨1, _⟩ => (show ((i 0).val * 100 + (i 1).val) / 1 % 100 = (i 1).val; omega) | ⟨2, _⟩ => rfl)]
  simp (disch := with_unfolding_all exact rfl) only [val_main_v220_apply, v201_p0, v201_p1, v201_p2, v201_p3] <;> rfl

/-- A sampled box's high y corner, read back. -/
theorem v224 (i : S65536x100.Idx) :
    val_main_v224 (F := Ideal) a0 a1 a2 a5 a6 a7 a8 i = sHi (Er a2 (i 0) (i 1) 1) (Vr a0 a7 a8 (i 0) 1) (Er a2 (i 0) (i 1) 3) (Vr a0 a7 a8 (i 0) 3) (Y0 a0 a1 a5 a6 (i 0)) (Y1 a0 a1 a5 a6 (i 0)) := by
  rw [val_main_v224_apply, show idx_main_v224 i = ix3 (n0 := 65536) (n1 := 100) (i 0) (i 1) (0 : Fin 1) from funext fun a => Fin.ext (by have h1 := idx2_lt1 i; match a with | ⟨0, _⟩ => (show ((i 0).val * 100 + (i 1).val) / 100 = (i 0).val; omega) | ⟨1, _⟩ => (show ((i 0).val * 100 + (i 1).val) / 1 % 100 = (i 1).val; omega) | ⟨2, _⟩ => rfl)]
  simp (disch := with_unfolding_all exact rfl) only [val_main_v223_apply, v201_p0, v201_p1, v201_p2, v201_p3] <;> rfl

/-- A sampled box's low y corner, read back. -/
theorem v226 (i : S65536x100.Idx) :
    val_main_v226 (F := Ideal) a0 a1 a2 a5 a6 a7 a8 i = sLo (Er a2 (i 0) (i 1) 1) (Vr a0 a7 a8 (i 0) 1) (Er a2 (i 0) (i 1) 3) (Vr a0 a7 a8 (i 0) 3) (Y0 a0 a1 a5 a6 (i 0)) (Y1 a0 a1 a5 a6 (i 0)) := by
  rw [val_main_v226_apply, show idx_main_v226 i = ix3 (n0 := 65536) (n1 := 100) (i 0) (i 1) (0 : Fin 1) from funext fun a => Fin.ext (by have h1 := idx2_lt1 i; match a with | ⟨0, _⟩ => (show ((i 0).val * 100 + (i 1).val) / 100 = (i 0).val; omega) | ⟨1, _⟩ => (show ((i 0).val * 100 + (i 1).val) / 1 % 100 = (i 1).val; omega) | ⟨2, _⟩ => rfl)]
  simp (disch := with_unfolding_all exact rfl) only [val_main_v225_apply, v201_p0, v201_p1, v201_p2, v201_p3] <;> rfl

/-- A sampled box's area. -/
theorem v228 (i : S65536x100.Idx) :
    val_main_v228 (F := Ideal) a0 a1 a2 a5 a6 a7 a8 i = (sHi (Er a2 (i 0) (i 1) 0) (Vr a0 a7 a8 (i 0) 0) (Er a2 (i 0) (i 1) 2) (Vr a0 a7 a8 (i 0) 2) (X0 a0 a1 a5 a6 (i 0)) (X1 a0 a1 a5 a6 (i 0)) - sLo (Er a2 (i 0) (i 1) 0) (Vr a0 a7 a8 (i 0) 0) (Er a2 (i 0) (i 1) 2) (Vr a0 a7 a8 (i 0) 2) (X0 a0 a1 a5 a6 (i 0)) (X1 a0 a1 a5 a6 (i 0))) * (sHi (Er a2 (i 0) (i 1) 1) (Vr a0 a7 a8 (i 0) 1) (Er a2 (i 0) (i 1) 3) (Vr a0 a7 a8 (i 0) 3) (Y0 a0 a1 a5 a6 (i 0)) (Y1 a0 a1 a5 a6 (i 0)) - sLo (Er a2 (i 0) (i 1) 1) (Vr a0 a7 a8 (i 0) 1) (Er a2 (i 0) (i 1) 3) (Vr a0 a7 a8 (i 0) 3) (Y0 a0 a1 a5 a6 (i 0)) (Y1 a0 a1 a5 a6 (i 0))) := by
  simp (disch := with_unfolding_all exact rfl) only [val_main_v228_apply, val_main_v222_apply, val_main_v227_apply, v219, v221, v224, v226] <;> rfl

/-- The clipped box's high x corner, for its area. -/
theorem v230 (i : S65536x1.Idx) :
    val_main_v230 (F := Ideal) a0 a1 a5 a6 i = (X1 a0 a1 a5 a6 (i 0)) := by
  rw [val_main_v230_apply, show idx_main_v230 i = ix3 (n0 := 65536) (i 0) (0 : Fin 1) (0 : Fin 1) from funext fun a => Fin.ext (by have h1 := idx2_lt1 i; match a with | ⟨0, _⟩ => (show ((i 0).val * 1 + (i 1).val) / 1 = (i 0).val; omega) | ⟨1, _⟩ => rfl | ⟨2, _⟩ => rfl)]
  simp (disch := with_unfolding_all exact rfl) only [val_main_v229_apply, val_main_v202_apply, v125_p0, v125_p1, v125_p2, v125_p3] <;> rfl

/-- The clipped box's low x corner, for its area. -/
theorem v232 (i : S65536x1.Idx) :
    val_main_v232 (F := Ideal) a0 a1 a5 a6 i = (X0 a0 a1 a5 a6 (i 0)) := by
  rw [val_main_v232_apply, show idx_main_v232 i = ix3 (n0 := 65536) (i 0) (0 : Fin 1) (0 : Fin 1) from funext fun a => Fin.ext (by have h1 := idx2_lt1 i; match a with | ⟨0, _⟩ => (show ((i 0).val * 1 + (i 1).val) / 1 = (i 0).val; omega) | ⟨1, _⟩ => rfl | ⟨2, _⟩ => rfl)]
  simp (disch := with_unfolding_all exact rfl) only [val_main_v231_apply, val_main_v202_apply, v125_p0, v125_p1, v125_p2, v125_p3] <;> rfl

/-- The clipped box's high y corner, for its area. -/
theorem v235 (i : S65536x1.Idx) :
    val_main_v235 (F := Ideal) a0 a1 a5 a6 i = (Y1 a0 a1 a5 a6 (i 0)) := by
  rw [val_main_v235_apply, show idx_main_v235 i = ix3 (n0 := 65536) (i 0) (0 : Fin 1) (0 : Fin 1) from funext fun a => Fin.ext (by have h1 := idx2_lt1 i; match a with | ⟨0, _⟩ => (show ((i 0).val * 1 + (i 1).val) / 1 = (i 0).val; omega) | ⟨1, _⟩ => rfl | ⟨2, _⟩ => rfl)]
  simp (disch := with_unfolding_all exact rfl) only [val_main_v234_apply, val_main_v202_apply, v125_p0, v125_p1, v125_p2, v125_p3] <;> rfl

/-- The clipped box's low y corner, for its area. -/
theorem v237 (i : S65536x1.Idx) :
    val_main_v237 (F := Ideal) a0 a1 a5 a6 i = (Y0 a0 a1 a5 a6 (i 0)) := by
  rw [val_main_v237_apply, show idx_main_v237 i = ix3 (n0 := 65536) (i 0) (0 : Fin 1) (0 : Fin 1) from funext fun a => Fin.ext (by have h1 := idx2_lt1 i; match a with | ⟨0, _⟩ => (show ((i 0).val * 1 + (i 1).val) / 1 = (i 0).val; omega) | ⟨1, _⟩ => rfl | ⟨2, _⟩ => rfl)]
  simp (disch := with_unfolding_all exact rfl) only [val_main_v236_apply, val_main_v202_apply, v125_p0, v125_p1, v125_p2, v125_p3] <;> rfl

/-- The clipped box's area. -/
theorem v239 (i : S65536x1.Idx) :
    val_main_v239 (F := Ideal) a0 a1 a5 a6 i = ((X1 a0 a1 a5 a6 (i 0)) - (X0 a0 a1 a5 a6 (i 0))) * ((Y1 a0 a1 a5 a6 (i 0)) - (Y0 a0 a1 a5 a6 (i 0))) := by
  simp (disch := with_unfolding_all exact rfl) only [val_main_v239_apply, val_main_v233_apply, val_main_v238_apply, v230, v232, v235, v237] <;> rfl

/-- The union's area. -/
theorem v242 (i : S65536x100.Idx) :
    val_main_v242 (F := Ideal) a0 a1 a2 a5 a6 a7 a8 i = (sHi (Er a2 (i 0) (i 1) 0) (Vr a0 a7 a8 (i 0) 0) (Er a2 (i 0) (i 1) 2) (Vr a0 a7 a8 (i 0) 2) (X0 a0 a1 a5 a6 (i 0)) (X1 a0 a1 a5 a6 (i 0)) - sLo (Er a2 (i 0) (i 1) 0) (Vr a0 a7 a8 (i 0) 0) (Er a2 (i 0) (i 1) 2) (Vr a0 a7 a8 (i 0) 2) (X0 a0 a1 a5 a6 (i 0)) (X1 a0 a1 a5 a6 (i 0))) * (sHi (Er a2 (i 0) (i 1) 1) (Vr a0 a7 a8 (i 0) 1) (Er a2 (i 0) (i 1) 3) (Vr a0 a7 a8 (i 0) 3) (Y0 a0 a1 a5 a6 (i 0)) (Y1 a0 a1 a5 a6 (i 0)) - sLo (Er a2 (i 0) (i 1) 1) (Vr a0 a7 a8 (i 0) 1) (Er a2 (i 0) (i 1) 3) (Vr a0 a7 a8 (i 0) 3) (Y0 a0 a1 a5 a6 (i 0)) (Y1 a0 a1 a5 a6 (i 0))) + ((X1 a0 a1 a5 a6 (i 0)) - (X0 a0 a1 a5 a6 (i 0))) * ((Y1 a0 a1 a5 a6 (i 0)) - (Y0 a0 a1 a5 a6 (i 0))) - overlap (sLo (Er a2 (i 0) (i 1) 0) (Vr a0 a7 a8 (i 0) 0) (Er a2 (i 0) (i 1) 2) (Vr a0 a7 a8 (i 0) 2) (X0 a0 a1 a5 a6 (i 0)) (X1 a0 a1 a5 a6 (i 0))) (sHi (Er a2 (i 0) (i 1) 0) (Vr a0 a7 a8 (i 0) 0) (Er a2 (i 0) (i 1) 2) (Vr a0 a7 a8 (i 0) 2) (X0 a0 a1 a5 a6 (i 0)) (X1 a0 a1 a5 a6 (i 0))) (X0 a0 a1 a5 a6 (i 0)) (X1 a0 a1 a5 a6 (i 0)) * overlap (sLo (Er a2 (i 0) (i 1) 1) (Vr a0 a7 a8 (i 0) 1) (Er a2 (i 0) (i 1) 3) (Vr a0 a7 a8 (i 0) 3) (Y0 a0 a1 a5 a6 (i 0)) (Y1 a0 a1 a5 a6 (i 0))) (sHi (Er a2 (i 0) (i 1) 1) (Vr a0 a7 a8 (i 0) 1) (Er a2 (i 0) (i 1) 3) (Vr a0 a7 a8 (i 0) 3) (Y0 a0 a1 a5 a6 (i 0)) (Y1 a0 a1 a5 a6 (i 0))) (Y0 a0 a1 a5 a6 (i 0)) (Y1 a0 a1 a5 a6 (i 0)) := by
  simp (disch := with_unfolding_all exact rfl) only [val_main_v242_apply, val_main_v241_apply, val_main_v240_apply, v228, v239, v217] <;> rfl

/-- A sample's intersection over union with the clipped box. -/
theorem v248 (i : S65536x100.Idx) :
    val_main_v248 (F := Ideal) a0 a1 a2 a5 a6 a7 a8 i = sampleIou (Fr a0 (i 0)) (Pr a1 (i 0)) (Er a2 (i 0)) (W4 a5) (B4 a6) (W4 a7) (B4 a8) (i 1) := by
  simp (disch := with_unfolding_all exact rfl) only [val_main_v248_apply, val_main_v244_apply, val_main_v243_apply, val_main_cst_40_apply, val_main_v247_apply, val_main_v246_apply, val_main_v245_apply, val_main_cst_41_apply, val_main_call6_v1_apply, val_main_call6_v0_apply, val_main_cst_42_apply, v217, v242] <;> rfl

/-- The sum of the hundred samples' values (the sum starts from the zero word). -/
theorem v249 (i : S65536.Idx) :
    val_main_v249 (F := Ideal) a0 a1 a2 a5 a6 a7 a8 i = ∑ s : Fin 100, sampleIou (Fr a0 (i 0)) (Pr a1 (i 0)) (Er a2 (i 0)) (W4 a5) (B4 a6) (W4 a7) (B4 a8) s := by
  rw [val_main_v249_apply]
  simp only [v248, val_main_cst_43_apply]
  refine (congrArg (· + _) Ideal.ofBits_zero_f32).trans ((zero_add _).trans ?_)
  rfl

/-- The mean of the hundred samples' values. -/
theorem v251 (i : S65536.Idx) :
    val_main_v251 (F := Ideal) a0 a1 a2 a5 a6 a7 a8 i = meanIou (Fr a0 (i 0)) (Pr a1 (i 0)) (Er a2 (i 0)) (W4 a5) (B4 a6) (W4 a7) (B4 a8) := by
  simp only [val_main_v251_apply, val_main_v250_apply, val_main_cst_44_apply, v249] <;> rfl

/-! ## The result array -/

/-- The row's last entry: the mean of the hundred samples' values. -/
theorem v252_mean (r : Fin 65536) :
    val_main_v252 (F := Ideal) a0 a1 a2 a5 a6 a7 a8 (ix2 r (0 : Fin 1))
      = meanIou (fun k => a0 (ix2 r k)) (fun j => a1 (ix2 r j)) (fun s j => a2 (ix3 r s j))
          (fun j k => a5 (ix2 j k)) (fun j => a6 (ix1 j)) (fun j k => a7 (ix2 j k)) (fun j => a8 (ix1 j)) :=
  (val_main_v252_apply a0 a1 a2 a5 a6 a7 a8 (ix2 r (0 : Fin 1))).trans (v251 a0 a1 a2 a5 a6 a7 a8 _)

/-- The reference's result array, read at row `r` and column `c`, is the spec's row of that row's data: the scores in
    columns 0 to 80, the clipped box's corners in 81 to 84, the variances in 85 to 88, the mean in 89. -/
theorem ref_apply (a0 : (⟨S65536x1024, .f32⟩ : BufTy).Contents (Elt Ideal)) (a1 : (⟨S65536x4, .f32⟩ : BufTy).Contents (Elt Ideal)) (a2 : (⟨S65536x100x4, .f32⟩ : BufTy).Contents (Elt Ideal)) (a3 : (⟨S81x1024, .f32⟩ : BufTy).Contents (Elt Ideal)) (a4 : (⟨S81, .f32⟩ : BufTy).Contents (Elt Ideal)) (a5 : (⟨S4x1024, .f32⟩ : BufTy).Contents (Elt Ideal)) (a6 : (⟨S4, .f32⟩ : BufTy).Contents (Elt Ideal)) (a7 : (⟨S4x1024, .f32⟩ : BufTy).Contents (Elt Ideal)) (a8 : (⟨S4, .f32⟩ : BufTy).Contents (Elt Ideal)) (r : Fin 65536) (c : Fin 90) :
      val_main_v253 (F := Ideal) a0 a1 a2 a3 a4 a5 a6 a7 a8 (ix2 r c)
        = row (fun k => a0 (ix2 r k)) (fun j => a1 (ix2 r j)) (fun s j => a2 (ix3 r s j))
            (fun j k => a3 (ix2 j k)) (fun j => a4 (ix1 j)) (fun j k => a5 (ix2 j k)) (fun j => a6 (ix1 j))
            (fun j k => a7 (ix2 j k)) (fun j => a8 (ix1 j)) c := by
  have hc : c.val < 90 := c.isLt
  unfold row val_main_v253
  by_cases h : c.val < 81
  · rw [dif_pos h]
    exact (concatenate_apply_piece 1 _ _ (ix2 r c) 0 (by simp) S65536x81 _ rfl rfl 0 rfl (ix2 r (⟨c.val, h⟩ : Fin 81))
        (fun b hb => match b with | ⟨0, _⟩ => rfl | ⟨1, _⟩ => absurd rfl hb) (by show 0 + c.val = c.val; omega)).trans
      (v4 a0 a3 a4 (ix2 r (⟨c.val, h⟩ : Fin 81)))
  · rw [dif_neg h]
    by_cases h81 : c.val = 81
    · rw [if_pos h81]
      exact (concatenate_apply_piece 1 _ _ (ix2 r c) 1 (by simp) S65536x4 _ rfl rfl 81 rfl (ix2 r (0 : Fin 4))
        (fun b hb => match b with | ⟨0, _⟩ => rfl | ⟨1, _⟩ => absurd rfl hb) (by show 81 + 0 = c.val; omega)).trans
        (v125_p0 a0 a1 a5 a6 (ix2 r (0 : Fin 4)) rfl)
    · rw [if_neg h81]
      by_cases h82 : c.val = 82
      · rw [if_pos h82]
        exact (concatenate_apply_piece 1 _ _ (ix2 r c) 1 (by simp) S65536x4 _ rfl rfl 81 rfl (ix2 r (1 : Fin 4))
        (fun b hb => match b with | ⟨0, _⟩ => rfl | ⟨1, _⟩ => absurd rfl hb) (by show 81 + 1 = c.val; omega)).trans
          (v125_p1 a0 a1 a5 a6 (ix2 r (1 : Fin 4)) rfl)
      · rw [if_neg h82]
        by_cases h83 : c.val = 83
        · rw [if_pos h83]
          exact (concatenate_apply_piece 1 _ _ (ix2 r c) 1 (by simp) S65536x4 _ rfl rfl 81 rfl (ix2 r (2 : Fin 4))
        (fun b hb => match b with | ⟨0, _⟩ => rfl | ⟨1, _⟩ => absurd rfl hb) (by show 81 + 2 = c.val; omega)).trans
            (v125_p2 a0 a1 a5 a6 (ix2 r (2 : Fin 4)) rfl)
        · rw [if_neg h83]
          by_cases h84 : c.val = 84
          · rw [if_pos h84]
            exact (concatenate_apply_piece 1 _ _ (ix2 r c) 1 (by simp) S65536x4 _ rfl rfl 81 rfl (ix2 r (3 : Fin 4))
        (fun b hb => match b with | ⟨0, _⟩ => rfl | ⟨1, _⟩ => absurd rfl hb) (by show 81 + 3 = c.val; omega)).trans
              (v125_p3 a0 a1 a5 a6 (ix2 r (3 : Fin 4)) rfl)
          · rw [if_neg h84]
            by_cases h89 : c.val < 89
            · rw [dif_pos h89]
              exact (concatenate_apply_piece 1 _ _ (ix2 r c) 2 (by simp) S65536x4 _ rfl rfl 85 rfl (ix2 r (⟨c.val - 85, by omega⟩ : Fin 4))
        (fun b hb => match b with | ⟨0, _⟩ => rfl | ⟨1, _⟩ => absurd rfl hb) (by show 85 + (c.val - 85) = c.val; omega)).trans
                (v16 a0 a7 a8 (ix2 r (⟨c.val - 85, by omega⟩ : Fin 4)))
            · rw [dif_neg h89]
              exact (concatenate_apply_piece 1 _ _ (ix2 r c) 3 (by simp) S65536x1 _ rfl rfl 89 rfl (ix2 r (0 : Fin 1))
        (fun b hb => match b with | ⟨0, _⟩ => rfl | ⟨1, _⟩ => absurd rfl hb) (by show 89 + 0 = c.val; omega)).trans
                (v252_mean a0 a1 a2 a5 a6 a7 a8 r)

end Cert.ReferenceIdeal.RowValue

end
-- ==== Proof.RefStage0.lean ====
/-
  The reference's line of host operations, read in stages: the segments of its window 0.

  The reference is a straight line of 329 host operations. Each buffer it writes is one stage: a function of the
  arguments' contents at launch, defined from the stages of the buffers its operation reads (the read-at-an-index
  module's `val_<buffer>`). Written out as one term the last stage is astronomically large, because a buffer read by
  several later operations is repeated at each; kept as named stages it is small. So the line is run segment by
  segment: a lemma per segment says that, started from ANY contents holding the right stage at every buffer the rest
  of the line still reads, the segment ends in contents holding the right stage at every buffer read after it. Within
  a segment the operations' results are composed outright (a few operations deep), the contents found are replaced by
  the stages assumed, and what is left is the stages' own definitions. A concatenation is a segment by itself: its
  result is the concatenation of the contents found at its four operands.
-/
import proofs.«177437_j84602265797277_1_alg».proof.Proof.RefPart0
import proofs.«177437_j84602265797277_1_alg».proof.Proof.RefRead

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- The results of a short literal list of host operations at one buffer, by one simplification pass: each operation's
    result at its own buffer is its function of its operands' contents, and at any other buffer what was there; a
    four-operand concatenation reads its operands at their own buffers. -/
local macro "seg_results" : tactic =>
  `(tactic| (simp (disch := decide) only [after_cons, after_nil,
      nullary_result', unary_result', binary_result', ternary_result', quaternary_result', reshape_result', nary4_result',
      nullary_result_ne', unary_result_ne', binary_result_ne', ternary_result_ne', quaternary_result_ne', reshape_result_ne',
      nary_result_ne']))

set_option maxRecDepth 8192 in
set_option maxHeartbeats 4000000 in
/-- Operations 1 to 24. From contents `W` that hold, at every buffer still to be read, that buffer's stage of the
    arguments' launch contents `V` (an argument's stage is the argument), the contents after the segment hold the
    same at every buffer read later: the new ones are `main_v9`, `main_v16`, `main_v4`; the others are carried,
    the segment not writing them. -/
theorem stage1 (V W : Valuation τ sig (Elt F))
    (h_main_arg0 : W (Proc.devRef .tc main_arg0) = V (Proc.devRef .tc main_arg0))
    (h_main_arg1 : W (Proc.devRef .tc main_arg1) = V (Proc.devRef .tc main_arg1))
    (h_main_arg2 : W (Proc.devRef .tc main_arg2) = V (Proc.devRef .tc main_arg2))
    (h_main_arg3 : W (Proc.devRef .tc main_arg3) = V (Proc.devRef .tc main_arg3))
    (h_main_arg4 : W (Proc.devRef .tc main_arg4) = V (Proc.devRef .tc main_arg4))
    (h_main_arg5 : W (Proc.devRef .tc main_arg5) = V (Proc.devRef .tc main_arg5))
    (h_main_arg6 : W (Proc.devRef .tc main_arg6) = V (Proc.devRef .tc main_arg6))
    (h_main_arg7 : W (Proc.devRef .tc main_arg7) = V (Proc.devRef .tc main_arg7))
    (h_main_arg8 : W (Proc.devRef .tc main_arg8) = V (Proc.devRef .tc main_arg8)) :
    (after seg1 W (Proc.devRef .tc main_arg3) = V (Proc.devRef .tc main_arg3))
    ∧ (after seg1 W (Proc.devRef .tc main_arg0) = V (Proc.devRef .tc main_arg0))
    ∧ (after seg1 W (Proc.devRef .tc main_arg4) = V (Proc.devRef .tc main_arg4))
    ∧ (after seg1 W (Proc.devRef .tc main_arg5) = V (Proc.devRef .tc main_arg5))
    ∧ (after seg1 W (Proc.devRef .tc main_arg6) = V (Proc.devRef .tc main_arg6))
    ∧ (after seg1 W (Proc.devRef .tc main_arg7) = V (Proc.devRef .tc main_arg7))
    ∧ (after seg1 W (Proc.devRef .tc main_arg8) = V (Proc.devRef .tc main_arg8))
    ∧ (after seg1 W (Proc.devRef .tc main_arg1) = V (Proc.devRef .tc main_arg1))
    ∧ (after seg1 W (Proc.devRef .tc main_v9) = ReadP.val_main_v9 (F := F) (V (Proc.devRef .tc main_arg0)) (V (Proc.devRef .tc main_arg5)) (V (Proc.devRef .tc main_arg6)))
    ∧ (after seg1 W (Proc.devRef .tc main_v16) = ReadP.val_main_v16 (F := F) (V (Proc.devRef .tc main_arg0)) (V (Proc.devRef .tc main_arg7)) (V (Proc.devRef .tc main_arg8)))
    ∧ (after seg1 W (Proc.devRef .tc main_arg2) = V (Proc.devRef .tc main_arg2))
    ∧ (after seg1 W (Proc.devRef .tc main_v4) = ReadP.val_main_v4 (F := F) (V (Proc.devRef .tc main_arg0)) (V (Proc.devRef .tc main_arg3)) (V (Proc.devRef .tc main_arg4))) := by
  refine ⟨?_, ?_, ?_, ?_, ?_, ?_, ?_, ?_, ?_, ?_, ?_, ?_⟩
  · (seg_results <;> (try simp only [h_main_arg0, h_main_arg1, h_main_arg2, h_main_arg3, h_main_arg4, h_main_arg5, h_main_arg6, h_main_arg7, h_main_arg8]) <;> rfl)
  · (seg_results <;> (try simp only [h_main_arg0, h_main_arg1, h_main_arg2, h_main_arg3, h_main_arg4, h_main_arg5, h_main_arg6, h_main_arg7, h_main_arg8]) <;> rfl)
  · (seg_results <;> (try simp only [h_main_arg0, h_main_arg1, h_main_arg2, h_main_arg3, h_main_arg4, h_main_arg5, h_main_arg6, h_main_arg7, h_main_arg8]) <;> rfl)
  · (seg_results <;> (try simp only [h_main_arg0, h_main_arg1, h_main_arg2, h_main_arg3, h_main_arg4, h_main_arg5, h_main_arg6, h_main_arg7, h_main_arg8]) <;> rfl)
  · (seg_results <;> (try simp only [h_main_arg0, h_main_arg1, h_main_arg2, h_main_arg3, h_main_arg4, h_main_arg5, h_main_arg6, h_main_arg7, h_main_arg8]) <;> rfl)
  · (seg_results <;> (try simp only [h_main_arg0, h_main_arg1, h_main_arg2, h_main_arg3, h_main_arg4, h_main_arg5, h_main_arg6, h_main_arg7, h_main_arg8]) <;> rfl)
  · (seg_results <;> (try simp only [h_main_arg0, h_main_arg1, h_main_arg2, h_main_arg3, h_main_arg4, h_main_arg5, h_main_arg6, h_main_arg7, h_main_arg8]) <;> rfl)
  · (seg_results <;> (try simp only [h_main_arg0, h_main_arg1, h_main_arg2, h_main_arg3, h_main_arg4, h_main_arg5, h_main_arg6, h_main_arg7, h_main_arg8]) <;> rfl)
  · (seg_results <;> (try simp only [h_main_arg0, h_main_arg1, h_main_arg2, h_main_arg3, h_main_arg4, h_main_arg5, h_main_arg6, h_main_arg7, h_main_arg8]) <;> rfl)
  · (seg_results <;> (try simp only [h_main_arg0, h_main_arg1, h_main_arg2, h_main_arg3, h_main_arg4, h_main_arg5, h_main_arg6, h_main_arg7, h_main_arg8]) <;> rfl)
  · (seg_results <;> (try simp only [h_main_arg0, h_main_arg1, h_main_arg2, h_main_arg3, h_main_arg4, h_main_arg5, h_main_arg6, h_main_arg7, h_main_arg8]) <;> rfl)
  · (seg_results <;> (try simp only [h_main_arg0, h_main_arg1, h_main_arg2, h_main_arg3, h_main_arg4, h_main_arg5, h_main_arg6, h_main_arg7, h_main_arg8]) <;> rfl)

set_option maxRecDepth 8192 in
set_option maxHeartbeats 4000000 in
/-- Operations 25 to 42. From contents `W` that hold, at every buffer still to be read, that buffer's stage of the
    arguments' launch contents `V` (an argument's stage is the argument), the contents after the segment hold the
    same at every buffer read later: the new ones are `main_v20`, `main_v30`, `main_v24`; the others are carried,
    the segment not writing them. -/
theorem stage2 (V W : Valuation τ sig (Elt F))
    (h_main_arg3 : W (Proc.devRef .tc main_arg3) = V (Proc.devRef .tc main_arg3))
    (h_main_arg0 : W (Proc.devRef .tc main_arg0) = V (Proc.devRef .tc main_arg0))
    (h_main_arg4 : W (Proc.devRef .tc main_arg4) = V (Proc.devRef .tc main_arg4))
    (h_main_arg5 : W (Proc.devRef .tc main_arg5) = V (Proc.devRef .tc main_arg5))
    (h_main_arg6 : W (Proc.devRef .tc main_arg6) = V (Proc.devRef .tc main_arg6))
    (h_main_arg7 : W (Proc.devRef .tc main_arg7) = V (Proc.devRef .tc main_arg7))
    (h_main_arg8 : W (Proc.devRef .tc main_arg8) = V (Proc.devRef .tc main_arg8))
    (h_main_arg1 : W (Proc.devRef .tc main_arg1) = V (Proc.devRef .tc main_arg1))
    (h_main_v9 : W (Proc.devRef .tc main_v9) = ReadP.val_main_v9 (F := F) (V (Proc.devRef .tc main_arg0)) (V (Proc.devRef .tc main_arg5)) (V (Proc.devRef .tc main_arg6)))
    (h_main_v16 : W (Proc.devRef .tc main_v16) = ReadP.val_main_v16 (F := F) (V (Proc.devRef .tc main_arg0)) (V (Proc.devRef .tc main_arg7)) (V (Proc.devRef .tc main_arg8)))
    (h_main_arg2 : W (Proc.devRef .tc main_arg2) = V (Proc.devRef .tc main_arg2))
    (h_main_v4 : W (Proc.devRef .tc main_v4) = ReadP.val_main_v4 (F := F) (V (Proc.devRef .tc main_arg0)) (V (Proc.devRef .tc main_arg3)) (V (Proc.devRef .tc main_arg4))) :
    (after seg2 W (Proc.devRef .tc main_arg3) = V (Proc.devRef .tc main_arg3))
    ∧ (after seg2 W (Proc.devRef .tc main_arg0) = V (Proc.devRef .tc main_arg0))
    ∧ (after seg2 W (Proc.devRef .tc main_arg4) = V (Proc.devRef .tc main_arg4))
    ∧ (after seg2 W (Proc.devRef .tc main_arg5) = V (Proc.devRef .tc main_arg5))
    ∧ (after seg2 W (Proc.devRef .tc main_arg6) = V (Proc.devRef .tc main_arg6))
    ∧ (after seg2 W (Proc.devRef .tc main_arg7) = V (Proc.devRef .tc main_arg7))
    ∧ (after seg2 W (Proc.devRef .tc main_arg8) = V (Proc.devRef .tc main_arg8))
    ∧ (after seg2 W (Proc.devRef .tc main_arg1) = V (Proc.devRef .tc main_arg1))
    ∧ (after seg2 W (Proc.devRef .tc main_v20) = ReadP.val_main_v20 (F := F) (V (Proc.devRef .tc main_arg1)))
    ∧ (after seg2 W (Proc.devRef .tc main_v30) = ReadP.val_main_v30 (F := F) (V (Proc.devRef .tc main_arg1)))
    ∧ (after seg2 W (Proc.devRef .tc main_v24) = ReadP.val_main_v24 (F := F) (V (Proc.devRef .tc main_arg1)))
    ∧ (after seg2 W (Proc.devRef .tc main_v9) = ReadP.val_main_v9 (F := F) (V (Proc.devRef .tc main_arg0)) (V (Proc.devRef .tc main_arg5)) (V (Proc.devRef .tc main_arg6)))
    ∧ (after seg2 W (Proc.devRef .tc main_v16) = ReadP.val_main_v16 (F := F) (V (Proc.devRef .tc main_arg0)) (V (Proc.devRef .tc main_arg7)) (V (Proc.devRef .tc main_arg8)))
    ∧ (after seg2 W (Proc.devRef .tc main_arg2) = V (Proc.devRef .tc main_arg2))
    ∧ (after seg2 W (Proc.devRef .tc main_v4) = ReadP.val_main_v4 (F := F) (V (Proc.devRef .tc main_arg0)) (V (Proc.devRef .tc main_arg3)) (V (Proc.devRef .tc main_arg4))) := by
  refine ⟨?_, ?_, ?_, ?_, ?_, ?_, ?_, ?_, ?_, ?_, ?_, ?_, ?_, ?_, ?_⟩
  · (seg_results <;> (try simp only [h_main_arg3, h_main_arg0, h_main_arg4, h_main_arg5, h_main_arg6, h_main_arg7, h_main_arg8, h_main_arg1, h_main_v9, h_main_v16, h_main_arg2, h_main_v4]) <;> rfl)
  · (seg_results <;> (try simp only [h_main_arg3, h_main_arg0, h_main_arg4, h_main_arg5, h_main_arg6, h_main_arg7, h_main_arg8, h_main_arg1, h_main_v9, h_main_v16, h_main_arg2, h_main_v4]) <;> rfl)
  · (seg_results <;> (try simp only [h_main_arg3, h_main_arg0, h_main_arg4, h_main_arg5, h_main_arg6, h_main_arg7, h_main_arg8, h_main_arg1, h_main_v9, h_main_v16, h_main_arg2, h_main_v4]) <;> rfl)
  · (seg_results <;> (try simp only [h_main_arg3, h_main_arg0, h_main_arg4, h_main_arg5, h_main_arg6, h_main_arg7, h_main_arg8, h_main_arg1, h_main_v9, h_main_v16, h_main_arg2, h_main_v4]) <;> rfl)
  · (seg_results <;> (try simp only [h_main_arg3, h_main_arg0, h_main_arg4, h_main_arg5, h_main_arg6, h_main_arg7, h_main_arg8, h_main_arg1, h_main_v9, h_main_v16, h_main_arg2, h_main_v4]) <;> rfl)
  · (seg_results <;> (try simp only [h_main_arg3, h_main_arg0, h_main_arg4, h_main_arg5, h_main_arg6, h_main_arg7, h_main_arg8, h_main_arg1, h_main_v9, h_main_v16, h_main_arg2, h_main_v4]) <;> rfl)
  · (seg_results <;> (try simp only [h_main_arg3, h_main_arg0, h_main_arg4, h_main_arg5, h_main_arg6, h_main_arg7, h_main_arg8, h_main_arg1, h_main_v9, h_main_v16, h_main_arg2, h_main_v4]) <;> rfl)
  · (seg_results <;> (try simp only [h_main_arg3, h_main_arg0, h_main_arg4, h_main_arg5, h_main_arg6, h_main_arg7, h_main_arg8, h_main_arg1, h_main_v9, h_main_v16, h_main_arg2, h_main_v4]) <;> rfl)
  · (seg_results <;> (try simp only [h_main_arg3, h_main_arg0, h_main_arg4, h_main_arg5, h_main_arg6, h_main_arg7, h_main_arg8, h_main_arg1, h_main_v9, h_main_v16, h_main_arg2, h_main_v4]) <;> rfl)
  · (seg_results <;> (try simp only [h_main_arg3, h_main_arg0, h_main_arg4, h_main_arg5, h_main_arg6, h_main_arg7, h_main_arg8, h_main_arg1, h_main_v9, h_main_v16, h_main_arg2, h_main_v4]) <;> rfl)
  · (seg_results <;> (try simp only [h_main_arg3, h_main_arg0, h_main_arg4, h_main_arg5, h_main_arg6, h_main_arg7, h_main_arg8, h_main_arg1, h_main_v9, h_main_v16, h_main_arg2, h_main_v4]) <;> rfl)
  · (seg_results <;> (try simp only [h_main_arg3, h_main_arg0, h_main_arg4, h_main_arg5, h_main_arg6, h_main_arg7, h_main_arg8, h_main_arg1, h_main_v9, h_main_v16, h_main_arg2, h_main_v4]) <;> rfl)
  · (seg_results <;> (try simp only [h_main_arg3, h_main_arg0, h_main_arg4, h_main_arg5, h_main_arg6, h_main_arg7, h_main_arg8, h_main_arg1, h_main_v9, h_main_v16, h_main_arg2, h_main_v4]) <;> rfl)
  · (seg_results <;> (try simp only [h_main_arg3, h_main_arg0, h_main_arg4, h_main_arg5, h_main_arg6, h_main_arg7, h_main_arg8, h_main_arg1, h_main_v9, h_main_v16, h_main_arg2, h_main_v4]) <;> rfl)
  · (seg_results <;> (try simp only [h_main_arg3, h_main_arg0, h_main_arg4, h_main_arg5, h_main_arg6, h_main_arg7, h_main_arg8, h_main_arg1, h_main_v9, h_main_v16, h_main_arg2, h_main_v4]) <;> rfl)

set_option maxRecDepth 8192 in
set_option maxHeartbeats 4000000 in
/-- Operations 43 to 56. From contents `W` that hold, at every buffer still to be read, that buffer's stage of the
    arguments' launch contents `V` (an argument's stage is the argument), the contents after the segment hold the
    same at every buffer read later: the new ones are `main_v39`, `main_v40`, `main_v41`, `main_v42`; the others are carried,
    the segment not writing them. -/
theorem stage3 (V W : Valuation τ sig (Elt F))
    (h_main_arg3 : W (Proc.devRef .tc main_arg3) = V (Proc.devRef .tc main_arg3))
    (h_main_arg0 : W (Proc.devRef .tc main_arg0) = V (Proc.devRef .tc main_arg0))
    (h_main_arg4 : W (Proc.devRef .tc main_arg4) = V (Proc.devRef .tc main_arg4))
    (h_main_arg5 : W (Proc.devRef .tc main_arg5) = V (Proc.devRef .tc main_arg5))
    (h_main_arg6 : W (Proc.devRef .tc main_arg6) = V (Proc.devRef .tc main_arg6))
    (h_main_arg7 : W (Proc.devRef .tc main_arg7) = V (Proc.devRef .tc main_arg7))
    (h_main_arg8 : W (Proc.devRef .tc main_arg8) = V (Proc.devRef .tc main_arg8))
    (h_main_arg1 : W (Proc.devRef .tc main_arg1) = V (Proc.devRef .tc main_arg1))
    (h_main_v20 : W (Proc.devRef .tc main_v20) = ReadP.val_main_v20 (F := F) (V (Proc.devRef .tc main_arg1)))
    (h_main_v30 : W (Proc.devRef .tc main_v30) = ReadP.val_main_v30 (F := F) (V (Proc.devRef .tc main_arg1)))
    (h_main_v24 : W (Proc.devRef .tc main_v24) = ReadP.val_main_v24 (F := F) (V (Proc.devRef .tc main_arg1)))
    (h_main_v9 : W (Proc.devRef .tc main_v9) = ReadP.val_main_v9 (F := F) (V (Proc.devRef .tc main_arg0)) (V (Proc.devRef .tc main_arg5)) (V (Proc.devRef .tc main_arg6)))
    (h_main_v16 : W (Proc.devRef .tc main_v16) = ReadP.val_main_v16 (F := F) (V (Proc.devRef .tc main_arg0)) (V (Proc.devRef .tc main_arg7)) (V (Proc.devRef .tc main_arg8)))
    (h_main_arg2 : W (Proc.devRef .tc main_arg2) = V (Proc.devRef .tc main_arg2))
    (h_main_v4 : W (Proc.devRef .tc main_v4) = ReadP.val_main_v4 (F := F) (V (Proc.devRef .tc main_arg0)) (V (Proc.devRef .tc main_arg3)) (V (Proc.devRef .tc main_arg4))) :
    (after seg3 W (Proc.devRef .tc main_arg3) = V (Proc.devRef .tc main_arg3))
    ∧ (after seg3 W (Proc.devRef .tc main_arg0) = V (Proc.devRef .tc main_arg0))
    ∧ (after seg3 W (Proc.devRef .tc main_arg4) = V (Proc.devRef .tc main_arg4))
    ∧ (after seg3 W (Proc.devRef .tc main_arg5) = V (Proc.devRef .tc main_arg5))
    ∧ (after seg3 W (Proc.devRef .tc main_arg6) = V (Proc.devRef .tc main_arg6))
    ∧ (after seg3 W (Proc.devRef .tc main_arg7) = V (Proc.devRef .tc main_arg7))
    ∧ (after seg3 W (Proc.devRef .tc main_arg8) = V (Proc.devRef .tc main_arg8))
    ∧ (after seg3 W (Proc.devRef .tc main_arg1) = V (Proc.devRef .tc main_arg1))
    ∧ (after seg3 W (Proc.devRef .tc main_v39) = ReadP.val_main_v39 (F := F) (V (Proc.devRef .tc main_arg1)))
    ∧ (after seg3 W (Proc.devRef .tc main_v40) = ReadP.val_main_v40 (F := F) (V (Proc.devRef .tc main_arg1)))
    ∧ (after seg3 W (Proc.devRef .tc main_v41) = ReadP.val_main_v41 (F := F) (V (Proc.devRef .tc main_arg1)))
    ∧ (after seg3 W (Proc.devRef .tc main_v42) = ReadP.val_main_v42 (F := F) (V (Proc.devRef .tc main_arg1)))
    ∧ (after seg3 W (Proc.devRef .tc main_v9) = ReadP.val_main_v9 (F := F) (V (Proc.devRef .tc main_arg0)) (V (Proc.devRef .tc main_arg5)) (V (Proc.devRef .tc main_arg6)))
    ∧ (after seg3 W (Proc.devRef .tc main_v16) = ReadP.val_main_v16 (F := F) (V (Proc.devRef .tc main_arg0)) (V (Proc.devRef .tc main_arg7)) (V (Proc.devRef .tc main_arg8)))
    ∧ (after seg3 W (Proc.devRef .tc main_arg2) = V (Proc.devRef .tc main_arg2))
    ∧ (after seg3 W (Proc.devRef .tc main_v4) = ReadP.val_main_v4 (F := F) (V (Proc.devRef .tc main_arg0)) (V (Proc.devRef .tc main_arg3)) (V (Proc.devRef .tc main_arg4))) := by
  refine ⟨?_, ?_, ?_, ?_, ?_, ?_, ?_, ?_, ?_, ?_, ?_, ?_, ?_, ?_, ?_, ?_⟩
  · (seg_results <;> (try simp only [h_main_arg3, h_main_arg0, h_main_arg4, h_main_arg5, h_main_arg6, h_main_arg7, h_main_arg8, h_main_arg1, h_main_v20, h_main_v30, h_main_v24, h_main_v9, h_main_v16, h_main_arg2, h_main_v4]) <;> rfl)
  · (seg_results <;> (try simp only [h_main_arg3, h_main_arg0, h_main_arg4, h_main_arg5, h_main_arg6, h_main_arg7, h_main_arg8, h_main_arg1, h_main_v20, h_main_v30, h_main_v24, h_main_v9, h_main_v16, h_main_arg2, h_main_v4]) <;> rfl)
  · (seg_results <;> (try simp only [h_main_arg3, h_main_arg0, h_main_arg4, h_main_arg5, h_main_arg6, h_main_arg7, h_main_arg8, h_main_arg1, h_main_v20, h_main_v30, h_main_v24, h_main_v9, h_main_v16, h_main_arg2, h_main_v4]) <;> rfl)
  · (seg_results <;> (try simp only [h_main_arg3, h_main_arg0, h_main_arg4, h_main_arg5, h_main_arg6, h_main_arg7, h_main_arg8, h_main_arg1, h_main_v20, h_main_v30, h_main_v24, h_main_v9, h_main_v16, h_main_arg2, h_main_v4]) <;> rfl)
  · (seg_results <;> (try simp only [h_main_arg3, h_main_arg0, h_main_arg4, h_main_arg5, h_main_arg6, h_main_arg7, h_main_arg8, h_main_arg1, h_main_v20, h_main_v30, h_main_v24, h_main_v9, h_main_v16, h_main_arg2, h_main_v4]) <;> rfl)
  · (seg_results <;> (try simp only [h_main_arg3, h_main_arg0, h_main_arg4, h_main_arg5, h_main_arg6, h_main_arg7, h_main_arg8, h_main_arg1, h_main_v20, h_main_v30, h_main_v24, h_main_v9, h_main_v16, h_main_arg2, h_main_v4]) <;> rfl)
  · (seg_results <;> (try simp only [h_main_arg3, h_main_arg0, h_main_arg4, h_main_arg5, h_main_arg6, h_main_arg7, h_main_arg8, h_main_arg1, h_main_v20, h_main_v30, h_main_v24, h_main_v9, h_main_v16, h_main_arg2, h_main_v4]) <;> rfl)
  · (seg_results <;> (try simp only [h_main_arg3, h_main_arg0, h_main_arg4, h_main_arg5, h_main_arg6, h_main_arg7, h_main_arg8, h_main_arg1, h_main_v20, h_main_v30, h_main_v24, h_main_v9, h_main_v16, h_main_arg2, h_main_v4]) <;> rfl)
  · (seg_results <;> (try simp only [h_main_arg3, h_main_arg0, h_main_arg4, h_main_arg5, h_main_arg6, h_main_arg7, h_main_arg8, h_main_arg1, h_main_v20, h_main_v30, h_main_v24, h_main_v9, h_main_v16, h_main_arg2, h_main_v4]) <;> rfl)
  · (seg_results <;> (try simp only [h_main_arg3, h_main_arg0, h_main_arg4, h_main_arg5, h_main_arg6, h_main_arg7, h_main_arg8, h_main_arg1, h_main_v20, h_main_v30, h_main_v24, h_main_v9, h_main_v16, h_main_arg2, h_main_v4]) <;> rfl)
  · (seg_results <;> (try simp only [h_main_arg3, h_main_arg0, h_main_arg4, h_main_arg5, h_main_arg6, h_main_arg7, h_main_arg8, h_main_arg1, h_main_v20, h_main_v30, h_main_v24, h_main_v9, h_main_v16, h_main_arg2, h_main_v4]) <;> rfl)
  · (seg_results <;> (try simp only [h_main_arg3, h_main_arg0, h_main_arg4, h_main_arg5, h_main_arg6, h_main_arg7, h_main_arg8, h_main_arg1, h_main_v20, h_main_v30, h_main_v24, h_main_v9, h_main_v16, h_main_arg2, h_main_v4]) <;> rfl)
  · (seg_results <;> (try simp only [h_main_arg3, h_main_arg0, h_main_arg4, h_main_arg5, h_main_arg6, h_main_arg7, h_main_arg8, h_main_arg1, h_main_v20, h_main_v30, h_main_v24, h_main_v9, h_main_v16, h_main_arg2, h_main_v4]) <;> rfl)
  · (seg_results <;> (try simp only [h_main_arg3, h_main_arg0, h_main_arg4, h_main_arg5, h_main_arg6, h_main_arg7, h_main_arg8, h_main_arg1, h_main_v20, h_main_v30, h_main_v24, h_main_v9, h_main_v16, h_main_arg2, h_main_v4]) <;> rfl)
  · (seg_results <;> (try simp only [h_main_arg3, h_main_arg0, h_main_arg4, h_main_arg5, h_main_arg6, h_main_arg7, h_main_arg8, h_main_arg1, h_main_v20, h_main_v30, h_main_v24, h_main_v9, h_main_v16, h_main_arg2, h_main_v4]) <;> rfl)
  · (seg_results <;> (try simp only [h_main_arg3, h_main_arg0, h_main_arg4, h_main_arg5, h_main_arg6, h_main_arg7, h_main_arg8, h_main_arg1, h_main_v20, h_main_v30, h_main_v24, h_main_v9, h_main_v16, h_main_arg2, h_main_v4]) <;> rfl)

set_option maxRecDepth 8192 in
set_option maxHeartbeats 4000000 in
/-- Operation 57, a concatenation of four buffers. From contents `W` that hold, at every buffer still to be read, that buffer's stage of the
    arguments' launch contents `V` (an argument's stage is the argument), the contents after the segment hold the
    same at every buffer read later: the new ones are `main_v43`; the others are carried,
    the segment not writing them. -/
theorem stage4 (V W : Valuation τ sig (Elt F))
    (h_main_arg3 : W (Proc.devRef .tc main_arg3) = V (Proc.devRef .tc main_arg3))
    (h_main_arg0 : W (Proc.devRef .tc main_arg0) = V (Proc.devRef .tc main_arg0))
    (h_main_arg4 : W (Proc.devRef .tc main_arg4) = V (Proc.devRef .tc main_arg4))
    (h_main_arg5 : W (Proc.devRef .tc main_arg5) = V (Proc.devRef .tc main_arg5))
    (h_main_arg6 : W (Proc.devRef .tc main_arg6) = V (Proc.devRef .tc main_arg6))
    (h_main_arg7 : W (Proc.devRef .tc main_arg7) = V (Proc.devRef .tc main_arg7))
    (h_main_arg8 : W (Proc.devRef .tc main_arg8) = V (Proc.devRef .tc main_arg8))
    (h_main_arg1 : W (Proc.devRef .tc main_arg1) = V (Proc.devRef .tc main_arg1))
    (h_main_v39 : W (Proc.devRef .tc main_v39) = ReadP.val_main_v39 (F := F) (V (Proc.devRef .tc main_arg1)))
    (h_main_v40 : W (Proc.devRef .tc main_v40) = ReadP.val_main_v40 (F := F) (V (Proc.devRef .tc main_arg1)))
    (h_main_v41 : W (Proc.devRef .tc main_v41) = ReadP.val_main_v41 (F := F) (V (Proc.devRef .tc main_arg1)))
    (h_main_v42 : W (Proc.devRef .tc main_v42) = ReadP.val_main_v42 (F := F) (V (Proc.devRef .tc main_arg1)))
    (h_main_v9 : W (Proc.devRef .tc main_v9) = ReadP.val_main_v9 (F := F) (V (Proc.devRef .tc main_arg0)) (V (Proc.devRef .tc main_arg5)) (V (Proc.devRef .tc main_arg6)))
    (h_main_v16 : W (Proc.devRef .tc main_v16) = ReadP.val_main_v16 (F := F) (V (Proc.devRef .tc main_arg0)) (V (Proc.devRef .tc main_arg7)) (V (Proc.devRef .tc main_arg8)))
    (h_main_arg2 : W (Proc.devRef .tc main_arg2) = V (Proc.devRef .tc main_arg2))
    (h_main_v4 : W (Proc.devRef .tc main_v4) = ReadP.val_main_v4 (F := F) (V (Proc.devRef .tc main_arg0)) (V (Proc.devRef .tc main_arg3)) (V (Proc.devRef .tc main_arg4))) :
    (after seg4 W (Proc.devRef .tc main_arg3) = V (Proc.devRef .tc main_arg3))
    ∧ (after seg4 W (Proc.devRef .tc main_arg0) = V (Proc.devRef .tc main_arg0))
    ∧ (after seg4 W (Proc.devRef .tc main_arg4) = V (Proc.devRef .tc main_arg4))
    ∧ (after seg4 W (Proc.devRef .tc main_arg5) = V (Proc.devRef .tc main_arg5))
    ∧ (after seg4 W (Proc.devRef .tc main_arg6) = V (Proc.devRef .tc main_arg6))
    ∧ (after seg4 W (Proc.devRef .tc main_arg7) = V (Proc.devRef .tc main_arg7))
    ∧ (after seg4 W (Proc.devRef .tc main_arg8) = V (Proc.devRef .tc main_arg8))
    ∧ (after seg4 W (Proc.devRef .tc main_arg1) = V (Proc.devRef .tc main_arg1))
    ∧ (after seg4 W (Proc.devRef .tc main_v43) = ReadP.val_main_v43 (F := F) (V (Proc.devRef .tc main_arg1)))
    ∧ (after seg4 W (Proc.devRef .tc main_v9) = ReadP.val_main_v9 (F := F) (V (Proc.devRef .tc main_arg0)) (V (Proc.devRef .tc main_arg5)) (V (Proc.devRef .tc main_arg6)))
    ∧ (after seg4 W (Proc.devRef .tc main_v16) = ReadP.val_main_v16 (F := F) (V (Proc.devRef .tc main_arg0)) (V (Proc.devRef .tc main_arg7)) (V (Proc.devRef .tc main_arg8)))
    ∧ (after seg4 W (Proc.devRef .tc main_arg2) = V (Proc.devRef .tc main_arg2))
    ∧ (after seg4 W (Proc.devRef .tc main_v4) = ReadP.val_main_v4 (F := F) (V (Proc.devRef .tc main_arg0)) (V (Proc.devRef .tc main_arg3)) (V (Proc.devRef .tc main_arg4))) := by
  refine ⟨?_, ?_, ?_, ?_, ?_, ?_, ?_, ?_, ?_, ?_, ?_, ?_, ?_⟩
  · (seg_results <;> (try simp only [h_main_arg3, h_main_arg0, h_main_arg4, h_main_arg5, h_main_arg6, h_main_arg7, h_main_arg8, h_main_arg1, h_main_v39, h_main_v40, h_main_v41, h_main_v42, h_main_v9, h_main_v16, h_main_arg2, h_main_v4]) <;> rfl)
  · (seg_results <;> (try simp only [h_main_arg3, h_main_arg0, h_main_arg4, h_main_arg5, h_main_arg6, h_main_arg7, h_main_arg8, h_main_arg1, h_main_v39, h_main_v40, h_main_v41, h_main_v42, h_main_v9, h_main_v16, h_main_arg2, h_main_v4]) <;> rfl)
  · (seg_results <;> (try simp only [h_main_arg3, h_main_arg0, h_main_arg4, h_main_arg5, h_main_arg6, h_main_arg7, h_main_arg8, h_main_arg1, h_main_v39, h_main_v40, h_main_v41, h_main_v42, h_main_v9, h_main_v16, h_main_arg2, h_main_v4]) <;> rfl)
  · (seg_results <;> (try simp only [h_main_arg3, h_main_arg0, h_main_arg4, h_main_arg5, h_main_arg6, h_main_arg7, h_main_arg8, h_main_arg1, h_main_v39, h_main_v40, h_main_v41, h_main_v42, h_main_v9, h_main_v16, h_main_arg2, h_main_v4]) <;> rfl)
  · (seg_results <;> (try simp only [h_main_arg3, h_main_arg0, h_main_arg4, h_main_arg5, h_main_arg6, h_main_arg7, h_main_arg8, h_main_arg1, h_main_v39, h_main_v40, h_main_v41, h_main_v42, h_main_v9, h_main_v16, h_main_arg2, h_main_v4]) <;> rfl)
  · (seg_results <;> (try simp only [h_main_arg3, h_main_arg0, h_main_arg4, h_main_arg5, h_main_arg6, h_main_arg7, h_main_arg8, h_main_arg1, h_main_v39, h_main_v40, h_main_v41, h_main_v42, h_main_v9, h_main_v16, h_main_arg2, h_main_v4]) <;> rfl)
  · (seg_results <;> (try simp only [h_main_arg3, h_main_arg0, h_main_arg4, h_main_arg5, h_main_arg6, h_main_arg7, h_main_arg8, h_main_arg1, h_main_v39, h_main_v40, h_main_v41, h_main_v42, h_main_v9, h_main_v16, h_main_arg2, h_main_v4]) <;> rfl)
  · (seg_results <;> (try simp only [h_main_arg3, h_main_arg0, h_main_arg4, h_main_arg5, h_main_arg6, h_main_arg7, h_main_arg8, h_main_arg1, h_main_v39, h_main_v40, h_main_v41, h_main_v42, h_main_v9, h_main_v16, h_main_arg2, h_main_v4]) <;> rfl)
  · simp only [after_cons, after_nil]
    rw [nary4_result, h_main_v39, h_main_v40, h_main_v41, h_main_v42]
    rfl
  · (seg_results <;> (try simp only [h_main_arg3, h_main_arg0, h_main_arg4, h_main_arg5, h_main_arg6, h_main_arg7, h_main_arg8, h_main_arg1, h_main_v39, h_main_v40, h_main_v41, h_main_v42, h_main_v9, h_main_v16, h_main_arg2, h_main_v4]) <;> rfl)
  · (seg_results <;> (try simp only [h_main_arg3, h_main_arg0, h_main_arg4, h_main_arg5, h_main_arg6, h_main_arg7, h_main_arg8, h_main_arg1, h_main_v39, h_main_v40, h_main_v41, h_main_v42, h_main_v9, h_main_v16, h_main_arg2, h_main_v4]) <;> rfl)
  · (seg_results <;> (try simp only [h_main_arg3, h_main_arg0, h_main_arg4, h_main_arg5, h_main_arg6, h_main_arg7, h_main_arg8, h_main_arg1, h_main_v39, h_main_v40, h_main_v41, h_main_v42, h_main_v9, h_main_v16, h_main_arg2, h_main_v4]) <;> rfl)
  · (seg_results <;> (try simp only [h_main_arg3, h_main_arg0, h_main_arg4, h_main_arg5, h_main_arg6, h_main_arg7, h_main_arg8, h_main_arg1, h_main_v39, h_main_v40, h_main_v41, h_main_v42, h_main_v9, h_main_v16, h_main_arg2, h_main_v4]) <;> rfl)

set_option maxRecDepth 8192 in
set_option maxHeartbeats 4000000 in
/-- Operations 58 to 65. From contents `W` that hold, at every buffer still to be read, that buffer's stage of the
    arguments' launch contents `V` (an argument's stage is the argument), the contents after the segment hold the
    same at every buffer read later: the new ones are `main_v51`, `main_v50`, `main_v48`; the others are carried,
    the segment not writing them. -/
theorem stage5 (V W : Valuation τ sig (Elt F))
    (h_main_arg3 : W (Proc.devRef .tc main_arg3) = V (Proc.devRef .tc main_arg3))
    (h_main_arg0 : W (Proc.devRef .tc main_arg0) = V (Proc.devRef .tc main_arg0))
    (h_main_arg4 : W (Proc.devRef .tc main_arg4) = V (Proc.devRef .tc main_arg4))
    (h_main_arg5 : W (Proc.devRef .tc main_arg5) = V (Proc.devRef .tc main_arg5))
    (h_main_arg6 : W (Proc.devRef .tc main_arg6) = V (Proc.devRef .tc main_arg6))
    (h_main_arg7 : W (Proc.devRef .tc main_arg7) = V (Proc.devRef .tc main_arg7))
    (h_main_arg8 : W (Proc.devRef .tc main_arg8) = V (Proc.devRef .tc main_arg8))
    (h_main_arg1 : W (Proc.devRef .tc main_arg1) = V (Proc.devRef .tc main_arg1))
    (h_main_v43 : W (Proc.devRef .tc main_v43) = ReadP.val_main_v43 (F := F) (V (Proc.devRef .tc main_arg1)))
    (h_main_v9 : W (Proc.devRef .tc main_v9) = ReadP.val_main_v9 (F := F) (V (Proc.devRef .tc main_arg0)) (V (Proc.devRef .tc main_arg5)) (V (Proc.devRef .tc main_arg6)))
    (h_main_v16 : W (Proc.devRef .tc main_v16) = ReadP.val_main_v16 (F := F) (V (Proc.devRef .tc main_arg0)) (V (Proc.devRef .tc main_arg7)) (V (Proc.devRef .tc main_arg8)))
    (h_main_arg2 : W (Proc.devRef .tc main_arg2) = V (Proc.devRef .tc main_arg2))
    (h_main_v4 : W (Proc.devRef .tc main_v4) = ReadP.val_main_v4 (F := F) (V (Proc.devRef .tc main_arg0)) (V (Proc.devRef .tc main_arg3)) (V (Proc.devRef .tc main_arg4))) :
    (after seg5 W (Proc.devRef .tc main_arg3) = V (Proc.devRef .tc main_arg3))
    ∧ (after seg5 W (Proc.devRef .tc main_arg0) = V (Proc.devRef .tc main_arg0))
    ∧ (after seg5 W (Proc.devRef .tc main_arg4) = V (Proc.devRef .tc main_arg4))
    ∧ (after seg5 W (Proc.devRef .tc main_arg5) = V (Proc.devRef .tc main_arg5))
    ∧ (after seg5 W (Proc.devRef .tc main_arg6) = V (Proc.devRef .tc main_arg6))
    ∧ (after seg5 W (Proc.devRef .tc main_arg7) = V (Proc.devRef .tc main_arg7))
    ∧ (after seg5 W (Proc.devRef .tc main_arg8) = V (Proc.devRef .tc main_arg8))
    ∧ (after seg5 W (Proc.devRef .tc main_arg1) = V (Proc.devRef .tc main_arg1))
    ∧ (after seg5 W (Proc.devRef .tc main_v43) = ReadP.val_main_v43 (F := F) (V (Proc.devRef .tc main_arg1)))
    ∧ (after seg5 W (Proc.devRef .tc main_v51) = ReadP.val_main_v51 (F := F) (V (Proc.devRef .tc main_arg1)))
    ∧ (after seg5 W (Proc.devRef .tc main_v50) = ReadP.val_main_v50 (F := F) (V (Proc.devRef .tc main_arg1)))
    ∧ (after seg5 W (Proc.devRef .tc main_v48) = ReadP.val_main_v48 (F := F) (V (Proc.devRef .tc main_arg1)))
    ∧ (after seg5 W (Proc.devRef .tc main_v9) = ReadP.val_main_v9 (F := F) (V (Proc.devRef .tc main_arg0)) (V (Proc.devRef .tc main_arg5)) (V (Proc.devRef .tc main_arg6)))
    ∧ (after seg5 W (Proc.devRef .tc main_v16) = ReadP.val_main_v16 (F := F) (V (Proc.devRef .tc main_arg0)) (V (Proc.devRef .tc main_arg7)) (V (Proc.devRef .tc main_arg8)))
    ∧ (after seg5 W (Proc.devRef .tc main_arg2) = V (Proc.devRef .tc main_arg2))
    ∧ (after seg5 W (Proc.devRef .tc main_v4) = ReadP.val_main_v4 (F := F) (V (Proc.devRef .tc main_arg0)) (V (Proc.devRef .tc main_arg3)) (V (Proc.devRef .tc main_arg4))) := by
  refine ⟨?_, ?_, ?_, ?_, ?_, ?_, ?_, ?_, ?_, ?_, ?_, ?_, ?_, ?_, ?_, ?_⟩
  · (seg_results <;> (try simp only [h_main_arg3, h_main_arg0, h_main_arg4, h_main_arg5, h_main_arg6, h_main_arg7, h_main_arg8, h_main_arg1, h_main_v43, h_main_v9, h_main_v16, h_main_arg2, h_main_v4]) <;> rfl)
  · (seg_results <;> (try simp only [h_main_arg3, h_main_arg0, h_main_arg4, h_main_arg5, h_main_arg6, h_main_arg7, h_main_arg8, h_main_arg1, h_main_v43, h_main_v9, h_main_v16, h_main_arg2, h_main_v4]) <;> rfl)
  · (seg_results <;> (try simp only [h_main_arg3, h_main_arg0, h_main_arg4, h_main_arg5, h_main_arg6, h_main_arg7, h_main_arg8, h_main_arg1, h_main_v43, h_main_v9, h_main_v16, h_main_arg2, h_main_v4]) <;> rfl)
  · (seg_results <;> (try simp only [h_main_arg3, h_main_arg0, h_main_arg4, h_main_arg5, h_main_arg6, h_main_arg7, h_main_arg8, h_main_arg1, h_main_v43, h_main_v9, h_main_v16, h_main_arg2, h_main_v4]) <;> rfl)
  · (seg_results <;> (try simp only [h_main_arg3, h_main_arg0, h_main_arg4, h_main_arg5, h_main_arg6, h_main_arg7, h_main_arg8, h_main_arg1, h_main_v43, h_main_v9, h_main_v16, h_main_arg2, h_main_v4]) <;> rfl)
  · (seg_results <;> (try simp only [h_main_arg3, h_main_arg0, h_main_arg4, h_main_arg5, h_main_arg6, h_main_arg7, h_main_arg8, h_main_arg1, h_main_v43, h_main_v9, h_main_v16, h_main_arg2, h_main_v4]) <;> rfl)
  · (seg_results <;> (try simp only [h_main_arg3, h_main_arg0, h_main_arg4, h_main_arg5, h_main_arg6, h_main_arg7, h_main_arg8, h_main_arg1, h_main_v43, h_main_v9, h_main_v16, h_main_arg2, h_main_v4]) <;> rfl)
  · (seg_results <;> (try simp only [h_main_arg3, h_main_arg0, h_main_arg4, h_main_arg5, h_main_arg6, h_main_arg7, h_main_arg8, h_main_arg1, h_main_v43, h_main_v9, h_main_v16, h_main_arg2, h_main_v4]) <;> rfl)
  · (seg_results <;> (try simp only [h_main_arg3, h_main_arg0, h_main_arg4, h_main_arg5, h_main_arg6, h_main_arg7, h_main_arg8, h_main_arg1, h_main_v43, h_main_v9, h_main_v16, h_main_arg2, h_main_v4]) <;> rfl)
  · (seg_results <;> (try simp only [h_main_arg3, h_main_arg0, h_main_arg4, h_main_arg5, h_main_arg6, h_main_arg7, h_main_arg8, h_main_arg1, h_main_v43, h_main_v9, h_main_v16, h_main_arg2, h_main_v4]) <;> rfl)
  · (seg_results <;> (try simp only [h_main_arg3, h_main_arg0, h_main_arg4, h_main_arg5, h_main_arg6, h_main_arg7, h_main_arg8, h_main_arg1, h_main_v43, h_main_v9, h_main_v16, h_main_arg2, h_main_v4]) <;> rfl)
  · (seg_results <;> (try simp only [h_main_arg3, h_main_arg0, h_main_arg4, h_main_arg5, h_main_arg6, h_main_arg7, h_main_arg8, h_main_arg1, h_main_v43, h_main_v9, h_main_v16, h_main_arg2, h_main_v4]) <;> rfl)
  · (seg_results <;> (try simp only [h_main_arg3, h_main_arg0, h_main_arg4, h_main_arg5, h_main_arg6, h_main_arg7, h_main_arg8, h_main_arg1, h_main_v43, h_main_v9, h_main_v16, h_main_arg2, h_main_v4]) <;> rfl)
  · (seg_results <;> (try simp only [h_main_arg3, h_main_arg0, h_main_arg4, h_main_arg5, h_main_arg6, h_main_arg7, h_main_arg8, h_main_arg1, h_main_v43, h_main_v9, h_main_v16, h_main_arg2, h_main_v4]) <;> rfl)
  · (seg_results <;> (try simp only [h_main_arg3, h_main_arg0, h_main_arg4, h_main_arg5, h_main_arg6, h_main_arg7, h_main_arg8, h_main_arg1, h_main_v43, h_main_v9, h_main_v16, h_main_arg2, h_main_v4]) <;> rfl)
  · (seg_results <;> (try simp only [h_main_arg3, h_main_arg0, h_main_arg4, h_main_arg5, h_main_arg6, h_main_arg7, h_main_arg8, h_main_arg1, h_main_v43, h_main_v9, h_main_v16, h_main_arg2, h_main_v4]) <;> rfl)

end Cert.ReferenceIdeal.ValueP

end
-- ==== Proof.RefStage1.lean ====
/-
  The reference's line of host operations, read in stages: the segments of its window 1.

  The reference is a straight line of 329 host operations. Each buffer it writes is one stage: a function of the
  arguments' contents at launch, defined from the stages of the buffers its operation reads (the read-at-an-index
  module's `val_<buffer>`). Written out as one term the last stage is astronomically large, because a buffer read by
  several later operations is repeated at each; kept as named stages it is small. So the line is run segment by
  segment: a lemma per segment says that, started from ANY contents holding the right stage at every buffer the rest
  of the line still reads, the segment ends in contents holding the right stage at every buffer read after it. Within
  a segment the operations' results are composed outright (a few operations deep), the contents found are replaced by
  the stages assumed, and what is left is the stages' own definitions. A concatenation is a segment by itself: its
  result is the concatenation of the contents found at its four operands.
-/
import proofs.«177437_j84602265797277_1_alg».proof.Proof.RefPart1
import proofs.«177437_j84602265797277_1_alg».proof.Proof.RefRead

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- The results of a short literal list of host operations at one buffer, by one simplification pass: each operation's
    result at its own buffer is its function of its operands' contents, and at any other buffer what was there; a
    four-operand concatenation reads its operands at their own buffers. -/
local macro "seg_results" : tactic =>
  `(tactic| (simp (disch := decide) only [after_cons, after_nil,
      nullary_result', unary_result', binary_result', ternary_result', quaternary_result', reshape_result', nary4_result',
      nullary_result_ne', unary_result_ne', binary_result_ne', ternary_result_ne', quaternary_result_ne', reshape_result_ne',
      nary_result_ne']))

set_option maxRecDepth 8192 in
set_option maxHeartbeats 4000000 in
/-- Operations 66 to 79. From contents `W` that hold, at every buffer still to be read, that buffer's stage of the
    arguments' launch contents `V` (an argument's stage is the argument), the contents after the segment hold the
    same at every buffer read later: the new ones are `main_v53`, `main_v58`, `main_v63`; the others are carried,
    the segment not writing them. -/
theorem stage6 (V W : Valuation τ sig (Elt F))
    (h_main_arg3 : W (Proc.devRef .tc main_arg3) = V (Proc.devRef .tc main_arg3))
    (h_main_arg0 : W (Proc.devRef .tc main_arg0) = V (Proc.devRef .tc main_arg0))
    (h_main_arg4 : W (Proc.devRef .tc main_arg4) = V (Proc.devRef .tc main_arg4))
    (h_main_arg5 : W (Proc.devRef .tc main_arg5) = V (Proc.devRef .tc main_arg5))
    (h_main_arg6 : W (Proc.devRef .tc main_arg6) = V (Proc.devRef .tc main_arg6))
    (h_main_arg7 : W (Proc.devRef .tc main_arg7) = V (Proc.devRef .tc main_arg7))
    (h_main_arg8 : W (Proc.devRef .tc main_arg8) = V (Proc.devRef .tc main_arg8))
    (h_main_arg1 : W (Proc.devRef .tc main_arg1) = V (Proc.devRef .tc main_arg1))
    (h_main_v43 : W (Proc.devRef .tc main_v43) = ReadP.val_main_v43 (F := F) (V (Proc.devRef .tc main_arg1)))
    (h_main_v51 : W (Proc.devRef .tc main_v51) = ReadP.val_main_v51 (F := F) (V (Proc.devRef .tc main_arg1)))
    (h_main_v50 : W (Proc.devRef .tc main_v50) = ReadP.val_main_v50 (F := F) (V (Proc.devRef .tc main_arg1)))
    (h_main_v48 : W (Proc.devRef .tc main_v48) = ReadP.val_main_v48 (F := F) (V (Proc.devRef .tc main_arg1)))
    (h_main_v9 : W (Proc.devRef .tc main_v9) = ReadP.val_main_v9 (F := F) (V (Proc.devRef .tc main_arg0)) (V (Proc.devRef .tc main_arg5)) (V (Proc.devRef .tc main_arg6)))
    (h_main_v16 : W (Proc.devRef .tc main_v16) = ReadP.val_main_v16 (F := F) (V (Proc.devRef .tc main_arg0)) (V (Proc.devRef .tc main_arg7)) (V (Proc.devRef .tc main_arg8)))
    (h_main_arg2 : W (Proc.devRef .tc main_arg2) = V (Proc.devRef .tc main_arg2))
    (h_main_v4 : W (Proc.devRef .tc main_v4) = ReadP.val_main_v4 (F := F) (V (Proc.devRef .tc main_arg0)) (V (Proc.devRef .tc main_arg3)) (V (Proc.devRef .tc main_arg4))) :
    (after seg6 W (Proc.devRef .tc main_arg3) = V (Proc.devRef .tc main_arg3))
    ∧ (after seg6 W (Proc.devRef .tc main_arg0) = V (Proc.devRef .tc main_arg0))
    ∧ (after seg6 W (Proc.devRef .tc main_arg4) = V (Proc.devRef .tc main_arg4))
    ∧ (after seg6 W (Proc.devRef .tc main_arg5) = V (Proc.devRef .tc main_arg5))
    ∧ (after seg6 W (Proc.devRef .tc main_arg6) = V (Proc.devRef .tc main_arg6))
    ∧ (after seg6 W (Proc.devRef .tc main_arg7) = V (Proc.devRef .tc main_arg7))
    ∧ (after seg6 W (Proc.devRef .tc main_arg8) = V (Proc.devRef .tc main_arg8))
    ∧ (after seg6 W (Proc.devRef .tc main_arg1) = V (Proc.devRef .tc main_arg1))
    ∧ (after seg6 W (Proc.devRef .tc main_v48) = ReadP.val_main_v48 (F := F) (V (Proc.devRef .tc main_arg1)))
    ∧ (after seg6 W (Proc.devRef .tc main_v53) = ReadP.val_main_v53 (F := F) (V (Proc.devRef .tc main_arg1)))
    ∧ (after seg6 W (Proc.devRef .tc main_v9) = ReadP.val_main_v9 (F := F) (V (Proc.devRef .tc main_arg0)) (V (Proc.devRef .tc main_arg5)) (V (Proc.devRef .tc main_arg6)))
    ∧ (after seg6 W (Proc.devRef .tc main_v58) = ReadP.val_main_v58 (F := F) (V (Proc.devRef .tc main_arg1)))
    ∧ (after seg6 W (Proc.devRef .tc main_v63) = ReadP.val_main_v63 (F := F) (V (Proc.devRef .tc main_arg1)))
    ∧ (after seg6 W (Proc.devRef .tc main_v16) = ReadP.val_main_v16 (F := F) (V (Proc.devRef .tc main_arg0)) (V (Proc.devRef .tc main_arg7)) (V (Proc.devRef .tc main_arg8)))
    ∧ (after seg6 W (Proc.devRef .tc main_arg2) = V (Proc.devRef .tc main_arg2))
    ∧ (after seg6 W (Proc.devRef .tc main_v4) = ReadP.val_main_v4 (F := F) (V (Proc.devRef .tc main_arg0)) (V (Proc.devRef .tc main_arg3)) (V (Proc.devRef .tc main_arg4))) := by
  refine ⟨?_, ?_, ?_, ?_, ?_, ?_, ?_, ?_, ?_, ?_, ?_, ?_, ?_, ?_, ?_, ?_⟩
  · (seg_results <;> (try simp only [h_main_arg3, h_main_arg0, h_main_arg4, h_main_arg5, h_main_arg6, h_main_arg7, h_main_arg8, h_main_arg1, h_main_v43, h_main_v51, h_main_v50, h_main_v48, h_main_v9, h_main_v16, h_main_arg2, h_main_v4]) <;> rfl)
  · (seg_results <;> (try simp only [h_main_arg3, h_main_arg0, h_main_arg4, h_main_arg5, h_main_arg6, h_main_arg7, h_main_arg8, h_main_arg1, h_main_v43, h_main_v51, h_main_v50, h_main_v48, h_main_v9, h_main_v16, h_main_arg2, h_main_v4]) <;> rfl)
  · (seg_results <;> (try simp only [h_main_arg3, h_main_arg0, h_main_arg4, h_main_arg5, h_main_arg6, h_main_arg7, h_main_arg8, h_main_arg1, h_main_v43, h_main_v51, h_main_v50, h_main_v48, h_main_v9, h_main_v16, h_main_arg2, h_main_v4]) <;> rfl)
  · (seg_results <;> (try simp only [h_main_arg3, h_main_arg0, h_main_arg4, h_main_arg5, h_main_arg6, h_main_arg7, h_main_arg8, h_main_arg1, h_main_v43, h_main_v51, h_main_v50, h_main_v48, h_main_v9, h_main_v16, h_main_arg2, h_main_v4]) <;> rfl)
  · (seg_results <;> (try simp only [h_main_arg3, h_main_arg0, h_main_arg4, h_main_arg5, h_main_arg6, h_main_arg7, h_main_arg8, h_main_arg1, h_main_v43, h_main_v51, h_main_v50, h_main_v48, h_main_v9, h_main_v16, h_main_arg2, h_main_v4]) <;> rfl)
  · (seg_results <;> (try simp only [h_main_arg3, h_main_arg0, h_main_arg4, h_main_arg5, h_main_arg6, h_main_arg7, h_main_arg8, h_main_arg1, h_main_v43, h_main_v51, h_main_v50, h_main_v48, h_main_v9, h_main_v16, h_main_arg2, h_main_v4]) <;> rfl)
  · (seg_results <;> (try simp only [h_main_arg3, h_main_arg0, h_main_arg4, h_main_arg5, h_main_arg6, h_main_arg7, h_main_arg8, h_main_arg1, h_main_v43, h_main_v51, h_main_v50, h_main_v48, h_main_v9, h_main_v16, h_main_arg2, h_main_v4]) <;> rfl)
  · (seg_results <;> (try simp only [h_main_arg3, h_main_arg0, h_main_arg4, h_main_arg5, h_main_arg6, h_main_arg7, h_main_arg8, h_main_arg1, h_main_v43, h_main_v51, h_main_v50, h_main_v48, h_main_v9, h_main_v16, h_main_arg2, h_main_v4]) <;> rfl)
  · (seg_results <;> (try simp only [h_main_arg3, h_main_arg0, h_main_arg4, h_main_arg5, h_main_arg6, h_main_arg7, h_main_arg8, h_main_arg1, h_main_v43, h_main_v51, h_main_v50, h_main_v48, h_main_v9, h_main_v16, h_main_arg2, h_main_v4]) <;> rfl)
  · (seg_results <;> (try simp only [h_main_arg3, h_main_arg0, h_main_arg4, h_main_arg5, h_main_arg6, h_main_arg7, h_main_arg8, h_main_arg1, h_main_v43, h_main_v51, h_main_v50, h_main_v48, h_main_v9, h_main_v16, h_main_arg2, h_main_v4]) <;> rfl)
  · (seg_results <;> (try simp only [h_main_arg3, h_main_arg0, h_main_arg4, h_main_arg5, h_main_arg6, h_main_arg7, h_main_arg8, h_main_arg1, h_main_v43, h_main_v51, h_main_v50, h_main_v48, h_main_v9, h_main_v16, h_main_arg2, h_main_v4]) <;> rfl)
  · (seg_results <;> (try simp only [h_main_arg3, h_main_arg0, h_main_arg4, h_main_arg5, h_main_arg6, h_main_arg7, h_main_arg8, h_main_arg1, h_main_v43, h_main_v51, h_main_v50, h_main_v48, h_main_v9, h_main_v16, h_main_arg2, h_main_v4]) <;> rfl)
  · (seg_results <;> (try simp only [h_main_arg3, h_main_arg0, h_main_arg4, h_main_arg5, h_main_arg6, h_main_arg7, h_main_arg8, h_main_arg1, h_main_v43, h_main_v51, h_main_v50, h_main_v48, h_main_v9, h_main_v16, h_main_arg2, h_main_v4]) <;> rfl)
  · (seg_results <;> (try simp only [h_main_arg3, h_main_arg0, h_main_arg4, h_main_arg5, h_main_arg6, h_main_arg7, h_main_arg8, h_main_arg1, h_main_v43, h_main_v51, h_main_v50, h_main_v48, h_main_v9, h_main_v16, h_main_arg2, h_main_v4]) <;> rfl)
  · (seg_results <;> (try simp only [h_main_arg3, h_main_arg0, h_main_arg4, h_main_arg5, h_main_arg6, h_main_arg7, h_main_arg8, h_main_arg1, h_main_v43, h_main_v51, h_main_v50, h_main_v48, h_main_v9, h_main_v16, h_main_arg2, h_main_v4]) <;> rfl)
  · (seg_results <;> (try simp only [h_main_arg3, h_main_arg0, h_main_arg4, h_main_arg5, h_main_arg6, h_main_arg7, h_main_arg8, h_main_arg1, h_main_v43, h_main_v51, h_main_v50, h_main_v48, h_main_v9, h_main_v16, h_main_arg2, h_main_v4]) <;> rfl)

set_option maxRecDepth 8192 in
set_option maxHeartbeats 4000000 in
/-- Operations 80 to 105. From contents `W` that hold, at every buffer still to be read, that buffer's stage of the
    arguments' launch contents `V` (an argument's stage is the argument), the contents after the segment hold the
    same at every buffer read later: the new ones are `main_v67`, `main_v71`, `main_v77`, `main_v83`; the others are carried,
    the segment not writing them. -/
theorem stage7 (V W : Valuation τ sig (Elt F))
    (h_main_arg3 : W (Proc.devRef .tc main_arg3) = V (Proc.devRef .tc main_arg3))
    (h_main_arg0 : W (Proc.devRef .tc main_arg0) = V (Proc.devRef .tc main_arg0))
    (h_main_arg4 : W (Proc.devRef .tc main_arg4) = V (Proc.devRef .tc main_arg4))
    (h_main_arg5 : W (Proc.devRef .tc main_arg5) = V (Proc.devRef .tc main_arg5))
    (h_main_arg6 : W (Proc.devRef .tc main_arg6) = V (Proc.devRef .tc main_arg6))
    (h_main_arg7 : W (Proc.devRef .tc main_arg7) = V (Proc.devRef .tc main_arg7))
    (h_main_arg8 : W (Proc.devRef .tc main_arg8) = V (Proc.devRef .tc main_arg8))
    (h_main_arg1 : W (Proc.devRef .tc main_arg1) = V (Proc.devRef .tc main_arg1))
    (h_main_v48 : W (Proc.devRef .tc main_v48) = ReadP.val_main_v48 (F := F) (V (Proc.devRef .tc main_arg1)))
    (h_main_v53 : W (Proc.devRef .tc main_v53) = ReadP.val_main_v53 (F := F) (V (Proc.devRef .tc main_arg1)))
    (h_main_v9 : W (Proc.devRef .tc main_v9) = ReadP.val_main_v9 (F := F) (V (Proc.devRef .tc main_arg0)) (V (Proc.devRef .tc main_arg5)) (V (Proc.devRef .tc main_arg6)))
    (h_main_v58 : W (Proc.devRef .tc main_v58) = ReadP.val_main_v58 (F := F) (V (Proc.devRef .tc main_arg1)))
    (h_main_v63 : W (Proc.devRef .tc main_v63) = ReadP.val_main_v63 (F := F) (V (Proc.devRef .tc main_arg1)))
    (h_main_v16 : W (Proc.devRef .tc main_v16) = ReadP.val_main_v16 (F := F) (V (Proc.devRef .tc main_arg0)) (V (Proc.devRef .tc main_arg7)) (V (Proc.devRef .tc main_arg8)))
    (h_main_arg2 : W (Proc.devRef .tc main_arg2) = V (Proc.devRef .tc main_arg2))
    (h_main_v4 : W (Proc.devRef .tc main_v4) = ReadP.val_main_v4 (F := F) (V (Proc.devRef .tc main_arg0)) (V (Proc.devRef .tc main_arg3)) (V (Proc.devRef .tc main_arg4))) :
    (after seg7 W (Proc.devRef .tc main_arg3) = V (Proc.devRef .tc main_arg3))
    ∧ (after seg7 W (Proc.devRef .tc main_arg0) = V (Proc.devRef .tc main_arg0))
    ∧ (after seg7 W (Proc.devRef .tc main_arg4) = V (Proc.devRef .tc main_arg4))
    ∧ (after seg7 W (Proc.devRef .tc main_arg5) = V (Proc.devRef .tc main_arg5))
    ∧ (after seg7 W (Proc.devRef .tc main_arg6) = V (Proc.devRef .tc main_arg6))
    ∧ (after seg7 W (Proc.devRef .tc main_arg7) = V (Proc.devRef .tc main_arg7))
    ∧ (after seg7 W (Proc.devRef .tc main_arg8) = V (Proc.devRef .tc main_arg8))
    ∧ (after seg7 W (Proc.devRef .tc main_arg1) = V (Proc.devRef .tc main_arg1))
    ∧ (after seg7 W (Proc.devRef .tc main_v48) = ReadP.val_main_v48 (F := F) (V (Proc.devRef .tc main_arg1)))
    ∧ (after seg7 W (Proc.devRef .tc main_v53) = ReadP.val_main_v53 (F := F) (V (Proc.devRef .tc main_arg1)))
    ∧ (after seg7 W (Proc.devRef .tc main_v67) = ReadP.val_main_v67 (F := F) (V (Proc.devRef .tc main_arg0)) (V (Proc.devRef .tc main_arg5)) (V (Proc.devRef .tc main_arg6)))
    ∧ (after seg7 W (Proc.devRef .tc main_v58) = ReadP.val_main_v58 (F := F) (V (Proc.devRef .tc main_arg1)))
    ∧ (after seg7 W (Proc.devRef .tc main_v71) = ReadP.val_main_v71 (F := F) (V (Proc.devRef .tc main_arg0)) (V (Proc.devRef .tc main_arg5)) (V (Proc.devRef .tc main_arg6)))
    ∧ (after seg7 W (Proc.devRef .tc main_v63) = ReadP.val_main_v63 (F := F) (V (Proc.devRef .tc main_arg1)))
    ∧ (after seg7 W (Proc.devRef .tc main_v77) = ReadP.val_main_v77 (F := F) (V (Proc.devRef .tc main_arg0)) (V (Proc.devRef .tc main_arg5)) (V (Proc.devRef .tc main_arg6)))
    ∧ (after seg7 W (Proc.devRef .tc main_v83) = ReadP.val_main_v83 (F := F) (V (Proc.devRef .tc main_arg0)) (V (Proc.devRef .tc main_arg5)) (V (Proc.devRef .tc main_arg6)))
    ∧ (after seg7 W (Proc.devRef .tc main_v16) = ReadP.val_main_v16 (F := F) (V (Proc.devRef .tc main_arg0)) (V (Proc.devRef .tc main_arg7)) (V (Proc.devRef .tc main_arg8)))
    ∧ (after seg7 W (Proc.devRef .tc main_arg2) = V (Proc.devRef .tc main_arg2))
    ∧ (after seg7 W (Proc.devRef .tc main_v4) = ReadP.val_main_v4 (F := F) (V (Proc.devRef .tc main_arg0)) (V (Proc.devRef .tc main_arg3)) (V (Proc.devRef .tc main_arg4))) := by
  refine ⟨?_, ?_, ?_, ?_, ?_, ?_, ?_, ?_, ?_, ?_, ?_, ?_, ?_, ?_, ?_, ?_, ?_, ?_, ?_⟩
  · (seg_results <;> (try simp only [h_main_arg3, h_main_arg0, h_main_arg4, h_main_arg5, h_main_arg6, h_main_arg7, h_main_arg8, h_main_arg1, h_main_v48, h_main_v53, h_main_v9, h_main_v58, h_main_v63, h_main_v16, h_main_arg2, h_main_v4]) <;> rfl)
  · (seg_results <;> (try simp only [h_main_arg3, h_main_arg0, h_main_arg4, h_main_arg5, h_main_arg6, h_main_arg7, h_main_arg8, h_main_arg1, h_main_v48, h_main_v53, h_main_v9, h_main_v58, h_main_v63, h_main_v16, h_main_arg2, h_main_v4]) <;> rfl)
  · (seg_results <;> (try simp only [h_main_arg3, h_main_arg0, h_main_arg4, h_main_arg5, h_main_arg6, h_main_arg7, h_main_arg8, h_main_arg1, h_main_v48, h_main_v53, h_main_v9, h_main_v58, h_main_v63, h_main_v16, h_main_arg2, h_main_v4]) <;> rfl)
  · (seg_results <;> (try simp only [h_main_arg3, h_main_arg0, h_main_arg4, h_main_arg5, h_main_arg6, h_main_arg7, h_main_arg8, h_main_arg1, h_main_v48, h_main_v53, h_main_v9, h_main_v58, h_main_v63, h_main_v16, h_main_arg2, h_main_v4]) <;> rfl)
  · (seg_results <;> (try simp only [h_main_arg3, h_main_arg0, h_main_arg4, h_main_arg5, h_main_arg6, h_main_arg7, h_main_arg8, h_main_arg1, h_main_v48, h_main_v53, h_main_v9, h_main_v58, h_main_v63, h_main_v16, h_main_arg2, h_main_v4]) <;> rfl)
  · (seg_results <;> (try simp only [h_main_arg3, h_main_arg0, h_main_arg4, h_main_arg5, h_main_arg6, h_main_arg7, h_main_arg8, h_main_arg1, h_main_v48, h_main_v53, h_main_v9, h_main_v58, h_main_v63, h_main_v16, h_main_arg2, h_main_v4]) <;> rfl)
  · (seg_results <;> (try simp only [h_main_arg3, h_main_arg0, h_main_arg4, h_main_arg5, h_main_arg6, h_main_arg7, h_main_arg8, h_main_arg1, h_main_v48, h_main_v53, h_main_v9, h_main_v58, h_main_v63, h_main_v16, h_main_arg2, h_main_v4]) <;> rfl)
  · (seg_results <;> (try simp only [h_main_arg3, h_main_arg0, h_main_arg4, h_main_arg5, h_main_arg6, h_main_arg7, h_main_arg8, h_main_arg1, h_main_v48, h_main_v53, h_main_v9, h_main_v58, h_main_v63, h_main_v16, h_main_arg2, h_main_v4]) <;> rfl)
  · (seg_results <;> (try simp only [h_main_arg3, h_main_arg0, h_main_arg4, h_main_arg5, h_main_arg6, h_main_arg7, h_main_arg8, h_main_arg1, h_main_v48, h_main_v53, h_main_v9, h_main_v58, h_main_v63, h_main_v16, h_main_arg2, h_main_v4]) <;> rfl)
  · (seg_results <;> (try simp only [h_main_arg3, h_main_arg0, h_main_arg4, h_main_arg5, h_main_arg6, h_main_arg7, h_main_arg8, h_main_arg1, h_main_v48, h_main_v53, h_main_v9, h_main_v58, h_main_v63, h_main_v16, h_main_arg2, h_main_v4]) <;> rfl)
  · (seg_results <;> (try simp only [h_main_arg3, h_main_arg0, h_main_arg4, h_main_arg5, h_main_arg6, h_main_arg7, h_main_arg8, h_main_arg1, h_main_v48, h_main_v53, h_main_v9, h_main_v58, h_main_v63, h_main_v16, h_main_arg2, h_main_v4]) <;> rfl)
  · (seg_results <;> (try simp only [h_main_arg3, h_main_arg0, h_main_arg4, h_main_arg5, h_main_arg6, h_main_arg7, h_main_arg8, h_main_arg1, h_main_v48, h_main_v53, h_main_v9, h_main_v58, h_main_v63, h_main_v16, h_main_arg2, h_main_v4]) <;> rfl)
  · (seg_results <;> (try simp only [h_main_arg3, h_main_arg0, h_main_arg4, h_main_arg5, h_main_arg6, h_main_arg7, h_main_arg8, h_main_arg1, h_main_v48, h_main_v53, h_main_v9, h_main_v58, h_main_v63, h_main_v16, h_main_arg2, h_main_v4]) <;> rfl)
  · (seg_results <;> (try simp only [h_main_arg3, h_main_arg0, h_main_arg4, h_main_arg5, h_main_arg6, h_main_arg7, h_main_arg8, h_main_arg1, h_main_v48, h_main_v53, h_main_v9, h_main_v58, h_main_v63, h_main_v16, h_main_arg2, h_main_v4]) <;> rfl)
  · (seg_results <;> (try simp only [h_main_arg3, h_main_arg0, h_main_arg4, h_main_arg5, h_main_arg6, h_main_arg7, h_main_arg8, h_main_arg1, h_main_v48, h_main_v53, h_main_v9, h_main_v58, h_main_v63, h_main_v16, h_main_arg2, h_main_v4]) <;> rfl)
  · (seg_results <;> (try simp only [h_main_arg3, h_main_arg0, h_main_arg4, h_main_arg5, h_main_arg6, h_main_arg7, h_main_arg8, h_main_arg1, h_main_v48, h_main_v53, h_main_v9, h_main_v58, h_main_v63, h_main_v16, h_main_arg2, h_main_v4]) <;> rfl)
  · (seg_results <;> (try simp only [h_main_arg3, h_main_arg0, h_main_arg4, h_main_arg5, h_main_arg6, h_main_arg7, h_main_arg8, h_main_arg1, h_main_v48, h_main_v53, h_main_v9, h_main_v58, h_main_v63, h_main_v16, h_main_arg2, h_main_v4]) <;> rfl)
  · (seg_results <;> (try simp only [h_main_arg3, h_main_arg0, h_main_arg4, h_main_arg5, h_main_arg6, h_main_arg7, h_main_arg8, h_main_arg1, h_main_v48, h_main_v53, h_main_v9, h_main_v58, h_main_v63, h_main_v16, h_main_arg2, h_main_v4]) <;> rfl)
  · (seg_results <;> (try simp only [h_main_arg3, h_main_arg0, h_main_arg4, h_main_arg5, h_main_arg6, h_main_arg7, h_main_arg8, h_main_arg1, h_main_v48, h_main_v53, h_main_v9, h_main_v58, h_main_v63, h_main_v16, h_main_arg2, h_main_v4]) <;> rfl)

set_option maxRecDepth 8192 in
set_option maxHeartbeats 4000000 in
/-- Operations 106 to 125. From contents `W` that hold, at every buffer still to be read, that buffer's stage of the
    arguments' launch contents `V` (an argument's stage is the argument), the contents after the segment hold the
    same at every buffer read later: the new ones are `main_v91`, `main_v87`, `main_v94`, `main_v97`, `main_v100`; the others are carried,
    the segment not writing them. -/
theorem stage8 (V W : Valuation τ sig (Elt F))
    (h_main_arg3 : W (Proc.devRef .tc main_arg3) = V (Proc.devRef .tc main_arg3))
    (h_main_arg0 : W (Proc.devRef .tc main_arg0) = V (Proc.devRef .tc main_arg0))
    (h_main_arg4 : W (Proc.devRef .tc main_arg4) = V (Proc.devRef .tc main_arg4))
    (h_main_arg5 : W (Proc.devRef .tc main_arg5) = V (Proc.devRef .tc main_arg5))
    (h_main_arg6 : W (Proc.devRef .tc main_arg6) = V (Proc.devRef .tc main_arg6))
    (h_main_arg7 : W (Proc.devRef .tc main_arg7) = V (Proc.devRef .tc main_arg7))
    (h_main_arg8 : W (Proc.devRef .tc main_arg8) = V (Proc.devRef .tc main_arg8))
    (h_main_arg1 : W (Proc.devRef .tc main_arg1) = V (Proc.devRef .tc main_arg1))
    (h_main_v48 : W (Proc.devRef .tc main_v48) = ReadP.val_main_v48 (F := F) (V (Proc.devRef .tc main_arg1)))
    (h_main_v53 : W (Proc.devRef .tc main_v53) = ReadP.val_main_v53 (F := F) (V (Proc.devRef .tc main_arg1)))
    (h_main_v67 : W (Proc.devRef .tc main_v67) = ReadP.val_main_v67 (F := F) (V (Proc.devRef .tc main_arg0)) (V (Proc.devRef .tc main_arg5)) (V (Proc.devRef .tc main_arg6)))
    (h_main_v58 : W (Proc.devRef .tc main_v58) = ReadP.val_main_v58 (F := F) (V (Proc.devRef .tc main_arg1)))
    (h_main_v71 : W (Proc.devRef .tc main_v71) = ReadP.val_main_v71 (F := F) (V (Proc.devRef .tc main_arg0)) (V (Proc.devRef .tc main_arg5)) (V (Proc.devRef .tc main_arg6)))
    (h_main_v63 : W (Proc.devRef .tc main_v63) = ReadP.val_main_v63 (F := F) (V (Proc.devRef .tc main_arg1)))
    (h_main_v77 : W (Proc.devRef .tc main_v77) = ReadP.val_main_v77 (F := F) (V (Proc.devRef .tc main_arg0)) (V (Proc.devRef .tc main_arg5)) (V (Proc.devRef .tc main_arg6)))
    (h_main_v83 : W (Proc.devRef .tc main_v83) = ReadP.val_main_v83 (F := F) (V (Proc.devRef .tc main_arg0)) (V (Proc.devRef .tc main_arg5)) (V (Proc.devRef .tc main_arg6)))
    (h_main_v16 : W (Proc.devRef .tc main_v16) = ReadP.val_main_v16 (F := F) (V (Proc.devRef .tc main_arg0)) (V (Proc.devRef .tc main_arg7)) (V (Proc.devRef .tc main_arg8)))
    (h_main_arg2 : W (Proc.devRef .tc main_arg2) = V (Proc.devRef .tc main_arg2))
    (h_main_v4 : W (Proc.devRef .tc main_v4) = ReadP.val_main_v4 (F := F) (V (Proc.devRef .tc main_arg0)) (V (Proc.devRef .tc main_arg3)) (V (Proc.devRef .tc main_arg4))) :
    (after seg8 W (Proc.devRef .tc main_arg3) = V (Proc.devRef .tc main_arg3))
    ∧ (after seg8 W (Proc.devRef .tc main_arg0) = V (Proc.devRef .tc main_arg0))
    ∧ (after seg8 W (Proc.devRef .tc main_arg4) = V (Proc.devRef .tc main_arg4))
    ∧ (after seg8 W (Proc.devRef .tc main_arg5) = V (Proc.devRef .tc main_arg5))
    ∧ (after seg8 W (Proc.devRef .tc main_arg6) = V (Proc.devRef .tc main_arg6))
    ∧ (after seg8 W (Proc.devRef .tc main_arg7) = V (Proc.devRef .tc main_arg7))
    ∧ (after seg8 W (Proc.devRef .tc main_arg8) = V (Proc.devRef .tc main_arg8))
    ∧ (after seg8 W (Proc.devRef .tc main_arg1) = V (Proc.devRef .tc main_arg1))
    ∧ (after seg8 W (Proc.devRef .tc main_v91) = ReadP.val_main_v91 (F := F) (V (Proc.devRef .tc main_arg0)) (V (Proc.devRef .tc main_arg1)) (V (Proc.devRef .tc main_arg5)) (V (Proc.devRef .tc main_arg6)))
    ∧ (after seg8 W (Proc.devRef .tc main_v87) = ReadP.val_main_v87 (F := F) (V (Proc.devRef .tc main_arg0)) (V (Proc.devRef .tc main_arg1)) (V (Proc.devRef .tc main_arg5)) (V (Proc.devRef .tc main_arg6)))
    ∧ (after seg8 W (Proc.devRef .tc main_v94) = ReadP.val_main_v94 (F := F) (V (Proc.devRef .tc main_arg0)) (V (Proc.devRef .tc main_arg1)) (V (Proc.devRef .tc main_arg5)) (V (Proc.devRef .tc main_arg6)))
    ∧ (after seg8 W (Proc.devRef .tc main_v97) = ReadP.val_main_v97 (F := F) (V (Proc.devRef .tc main_arg0)) (V (Proc.devRef .tc main_arg1)) (V (Proc.devRef .tc main_arg5)) (V (Proc.devRef .tc main_arg6)))
    ∧ (after seg8 W (Proc.devRef .tc main_v100) = ReadP.val_main_v100 (F := F) (V (Proc.devRef .tc main_arg0)) (V (Proc.devRef .tc main_arg1)) (V (Proc.devRef .tc main_arg5)) (V (Proc.devRef .tc main_arg6)))
    ∧ (after seg8 W (Proc.devRef .tc main_v16) = ReadP.val_main_v16 (F := F) (V (Proc.devRef .tc main_arg0)) (V (Proc.devRef .tc main_arg7)) (V (Proc.devRef .tc main_arg8)))
    ∧ (after seg8 W (Proc.devRef .tc main_arg2) = V (Proc.devRef .tc main_arg2))
    ∧ (after seg8 W (Proc.devRef .tc main_v4) = ReadP.val_main_v4 (F := F) (V (Proc.devRef .tc main_arg0)) (V (Proc.devRef .tc main_arg3)) (V (Proc.devRef .tc main_arg4))) := by
  refine ⟨?_, ?_, ?_, ?_, ?_, ?_, ?_, ?_, ?_, ?_, ?_, ?_, ?_, ?_, ?_, ?_⟩
  · (seg_results <;> (try simp only [h_main_arg3, h_main_arg0, h_main_arg4, h_main_arg5, h_main_arg6, h_main_arg7, h_main_arg8, h_main_arg1, h_main_v48, h_main_v53, h_main_v67, h_main_v58, h_main_v71, h_main_v63, h_main_v77, h_main_v83, h_main_v16, h_main_arg2, h_main_v4]) <;> rfl)
  · (seg_results <;> (try simp only [h_main_arg3, h_main_arg0, h_main_arg4, h_main_arg5, h_main_arg6, h_main_arg7, h_main_arg8, h_main_arg1, h_main_v48, h_main_v53, h_main_v67, h_main_v58, h_main_v71, h_main_v63, h_main_v77, h_main_v83, h_main_v16, h_main_arg2, h_main_v4]) <;> rfl)
  · (seg_results <;> (try simp only [h_main_arg3, h_main_arg0, h_main_arg4, h_main_arg5, h_main_arg6, h_main_arg7, h_main_arg8, h_main_arg1, h_main_v48, h_main_v53, h_main_v67, h_main_v58, h_main_v71, h_main_v63, h_main_v77, h_main_v83, h_main_v16, h_main_arg2, h_main_v4]) <;> rfl)
  · (seg_results <;> (try simp only [h_main_arg3, h_main_arg0, h_main_arg4, h_main_arg5, h_main_arg6, h_main_arg7, h_main_arg8, h_main_arg1, h_main_v48, h_main_v53, h_main_v67, h_main_v58, h_main_v71, h_main_v63, h_main_v77, h_main_v83, h_main_v16, h_main_arg2, h_main_v4]) <;> rfl)
  · (seg_results <;> (try simp only [h_main_arg3, h_main_arg0, h_main_arg4, h_main_arg5, h_main_arg6, h_main_arg7, h_main_arg8, h_main_arg1, h_main_v48, h_main_v53, h_main_v67, h_main_v58, h_main_v71, h_main_v63, h_main_v77, h_main_v83, h_main_v16, h_main_arg2, h_main_v4]) <;> rfl)
  · (seg_results <;> (try simp only [h_main_arg3, h_main_arg0, h_main_arg4, h_main_arg5, h_main_arg6, h_main_arg7, h_main_arg8, h_main_arg1, h_main_v48, h_main_v53, h_main_v67, h_main_v58, h_main_v71, h_main_v63, h_main_v77, h_main_v83, h_main_v16, h_main_arg2, h_main_v4]) <;> rfl)
  · (seg_results <;> (try simp only [h_main_arg3, h_main_arg0, h_main_arg4, h_main_arg5, h_main_arg6, h_main_arg7, h_main_arg8, h_main_arg1, h_main_v48, h_main_v53, h_main_v67, h_main_v58, h_main_v71, h_main_v63, h_main_v77, h_main_v83, h_main_v16, h_main_arg2, h_main_v4]) <;> rfl)
  · (seg_results <;> (try simp only [h_main_arg3, h_main_arg0, h_main_arg4, h_main_arg5, h_main_arg6, h_main_arg7, h_main_arg8, h_main_arg1, h_main_v48, h_main_v53, h_main_v67, h_main_v58, h_main_v71, h_main_v63, h_main_v77, h_main_v83, h_main_v16, h_main_arg2, h_main_v4]) <;> rfl)
  · (seg_results <;> (try simp only [h_main_arg3, h_main_arg0, h_main_arg4, h_main_arg5, h_main_arg6, h_main_arg7, h_main_arg8, h_main_arg1, h_main_v48, h_main_v53, h_main_v67, h_main_v58, h_main_v71, h_main_v63, h_main_v77, h_main_v83, h_main_v16, h_main_arg2, h_main_v4]) <;> rfl)
  · (seg_results <;> (try simp only [h_main_arg3, h_main_arg0, h_main_arg4, h_main_arg5, h_main_arg6, h_main_arg7, h_main_arg8, h_main_arg1, h_main_v48, h_main_v53, h_main_v67, h_main_v58, h_main_v71, h_main_v63, h_main_v77, h_main_v83, h_main_v16, h_main_arg2, h_main_v4]) <;> rfl)
  · (seg_results <;> (try simp only [h_main_arg3, h_main_arg0, h_main_arg4, h_main_arg5, h_main_arg6, h_main_arg7, h_main_arg8, h_main_arg1, h_main_v48, h_main_v53, h_main_v67, h_main_v58, h_main_v71, h_main_v63, h_main_v77, h_main_v83, h_main_v16, h_main_arg2, h_main_v4]) <;> rfl)
  · (seg_results <;> (try simp only [h_main_arg3, h_main_arg0, h_main_arg4, h_main_arg5, h_main_arg6, h_main_arg7, h_main_arg8, h_main_arg1, h_main_v48, h_main_v53, h_main_v67, h_main_v58, h_main_v71, h_main_v63, h_main_v77, h_main_v83, h_main_v16, h_main_arg2, h_main_v4]) <;> rfl)
  · (seg_results <;> (try simp only [h_main_arg3, h_main_arg0, h_main_arg4, h_main_arg5, h_main_arg6, h_main_arg7, h_main_arg8, h_main_arg1, h_main_v48, h_main_v53, h_main_v67, h_main_v58, h_main_v71, h_main_v63, h_main_v77, h_main_v83, h_main_v16, h_main_arg2, h_main_v4]) <;> rfl)
  · (seg_results <;> (try simp only [h_main_arg3, h_main_arg0, h_main_arg4, h_main_arg5, h_main_arg6, h_main_arg7, h_main_arg8, h_main_arg1, h_main_v48, h_main_v53, h_main_v67, h_main_v58, h_main_v71, h_main_v63, h_main_v77, h_main_v83, h_main_v16, h_main_arg2, h_main_v4]) <;> rfl)
  · (seg_results <;> (try simp only [h_main_arg3, h_main_arg0, h_main_arg4, h_main_arg5, h_main_arg6, h_main_arg7, h_main_arg8, h_main_arg1, h_main_v48, h_main_v53, h_main_v67, h_main_v58, h_main_v71, h_main_v63, h_main_v77, h_main_v83, h_main_v16, h_main_arg2, h_main_v4]) <;> rfl)
  · (seg_results <;> (try simp only [h_main_arg3, h_main_arg0, h_main_arg4, h_main_arg5, h_main_arg6, h_main_arg7, h_main_arg8, h_main_arg1, h_main_v48, h_main_v53, h_main_v67, h_main_v58, h_main_v71, h_main_v63, h_main_v77, h_main_v83, h_main_v16, h_main_arg2, h_main_v4]) <;> rfl)

end Cert.ReferenceIdeal.ValueP

end
-- ==== Proof.RefStage2.lean ====
/-
  The reference's line of host operations, read in stages: the segments of its window 2.

  The reference is a straight line of 329 host operations. Each buffer it writes is one stage: a function of the
  arguments' contents at launch, defined from the stages of the buffers its operation reads (the read-at-an-index
  module's `val_<buffer>`). Written out as one term the last stage is astronomically large, because a buffer read by
  several later operations is repeated at each; kept as named stages it is small. So the line is run segment by
  segment: a lemma per segment says that, started from ANY contents holding the right stage at every buffer the rest
  of the line still reads, the segment ends in contents holding the right stage at every buffer read after it. Within
  a segment the operations' results are composed outright (a few operations deep), the contents found are replaced by
  the stages assumed, and what is left is the stages' own definitions. A concatenation is a segment by itself: its
  result is the concatenation of the contents found at its four operands.
-/
import proofs.«177437_j84602265797277_1_alg».proof.Proof.RefPart2
import proofs.«177437_j84602265797277_1_alg».proof.Proof.RefRead

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- The results of a short literal list of host operations at one buffer, by one simplification pass: each operation's
    result at its own buffer is its function of its operands' contents, and at any other buffer what was there; a
    four-operand concatenation reads its operands at their own buffers. -/
local macro "seg_results" : tactic =>
  `(tactic| (simp (disch := decide) only [after_cons, after_nil,
      nullary_result', unary_result', binary_result', ternary_result', quaternary_result', reshape_result', nary4_result',
      nullary_result_ne', unary_result_ne', binary_result_ne', ternary_result_ne', quaternary_result_ne', reshape_result_ne',
      nary_result_ne']))

set_option maxRecDepth 8192 in
set_option maxHeartbeats 4000000 in
/-- Operations 126 to 133. From contents `W` that hold, at every buffer still to be read, that buffer's stage of the
    arguments' launch contents `V` (an argument's stage is the argument), the contents after the segment hold the
    same at every buffer read later: the new ones are `main_v104`, `main_v105`, `main_v106`, `main_v107`; the others are carried,
    the segment not writing them. -/
theorem stage9 (V W : Valuation τ sig (Elt F))
    (h_main_arg3 : W (Proc.devRef .tc main_arg3) = V (Proc.devRef .tc main_arg3))
    (h_main_arg0 : W (Proc.devRef .tc main_arg0) = V (Proc.devRef .tc main_arg0))
    (h_main_arg4 : W (Proc.devRef .tc main_arg4) = V (Proc.devRef .tc main_arg4))
    (h_main_arg5 : W (Proc.devRef .tc main_arg5) = V (Proc.devRef .tc main_arg5))
    (h_main_arg6 : W (Proc.devRef .tc main_arg6) = V (Proc.devRef .tc main_arg6))
    (h_main_arg7 : W (Proc.devRef .tc main_arg7) = V (Proc.devRef .tc main_arg7))
    (h_main_arg8 : W (Proc.devRef .tc main_arg8) = V (Proc.devRef .tc main_arg8))
    (h_main_arg1 : W (Proc.devRef .tc main_arg1) = V (Proc.devRef .tc main_arg1))
    (h_main_v91 : W (Proc.devRef .tc main_v91) = ReadP.val_main_v91 (F := F) (V (Proc.devRef .tc main_arg0)) (V (Proc.devRef .tc main_arg1)) (V (Proc.devRef .tc main_arg5)) (V (Proc.devRef .tc main_arg6)))
    (h_main_v87 : W (Proc.devRef .tc main_v87) = ReadP.val_main_v87 (F := F) (V (Proc.devRef .tc main_arg0)) (V (Proc.devRef .tc main_arg1)) (V (Proc.devRef .tc main_arg5)) (V (Proc.devRef .tc main_arg6)))
    (h_main_v94 : W (Proc.devRef .tc main_v94) = ReadP.val_main_v94 (F := F) (V (Proc.devRef .tc main_arg0)) (V (Proc.devRef .tc main_arg1)) (V (Proc.devRef .tc main_arg5)) (V (Proc.devRef .tc main_arg6)))
    (h_main_v97 : W (Proc.devRef .tc main_v97) = ReadP.val_main_v97 (F := F) (V (Proc.devRef .tc main_arg0)) (V (Proc.devRef .tc main_arg1)) (V (Proc.devRef .tc main_arg5)) (V (Proc.devRef .tc main_arg6)))
    (h_main_v100 : W (Proc.devRef .tc main_v100) = ReadP.val_main_v100 (F := F) (V (Proc.devRef .tc main_arg0)) (V (Proc.devRef .tc main_arg1)) (V (Proc.devRef .tc main_arg5)) (V (Proc.devRef .tc main_arg6)))
    (h_main_v16 : W (Proc.devRef .tc main_v16) = ReadP.val_main_v16 (F := F) (V (Proc.devRef .tc main_arg0)) (V (Proc.devRef .tc main_arg7)) (V (Proc.devRef .tc main_arg8)))
    (h_main_arg2 : W (Proc.devRef .tc main_arg2) = V (Proc.devRef .tc main_arg2))
    (h_main_v4 : W (Proc.devRef .tc main_v4) = ReadP.val_main_v4 (F := F) (V (Proc.devRef .tc main_arg0)) (V (Proc.devRef .tc main_arg3)) (V (Proc.devRef .tc main_arg4))) :
    (after seg9 W (Proc.devRef .tc main_arg3) = V (Proc.devRef .tc main_arg3))
    ∧ (after seg9 W (Proc.devRef .tc main_arg0) = V (Proc.devRef .tc main_arg0))
    ∧ (after seg9 W (Proc.devRef .tc main_arg4) = V (Proc.devRef .tc main_arg4))
    ∧ (after seg9 W (Proc.devRef .tc main_arg5) = V (Proc.devRef .tc main_arg5))
    ∧ (after seg9 W (Proc.devRef .tc main_arg6) = V (Proc.devRef .tc main_arg6))
    ∧ (after seg9 W (Proc.devRef .tc main_arg7) = V (Proc.devRef .tc main_arg7))
    ∧ (after seg9 W (Proc.devRef .tc main_arg8) = V (Proc.devRef .tc main_arg8))
    ∧ (after seg9 W (Proc.devRef .tc main_arg1) = V (Proc.devRef .tc main_arg1))
    ∧ (after seg9 W (Proc.devRef .tc main_v104) = ReadP.val_main_v104 (F := F) (V (Proc.devRef .tc main_arg0)) (V (Proc.devRef .tc main_arg1)) (V (Proc.devRef .tc main_arg5)) (V (Proc.devRef .tc main_arg6)))
    ∧ (after seg9 W (Proc.devRef .tc main_v105) = ReadP.val_main_v105 (F := F) (V (Proc.devRef .tc main_arg0)) (V (Proc.devRef .tc main_arg1)) (V (Proc.devRef .tc main_arg5)) (V (Proc.devRef .tc main_arg6)))
    ∧ (after seg9 W (Proc.devRef .tc main_v106) = ReadP.val_main_v106 (F := F) (V (Proc.devRef .tc main_arg0)) (V (Proc.devRef .tc main_arg1)) (V (Proc.devRef .tc main_arg5)) (V (Proc.devRef .tc main_arg6)))
    ∧ (after seg9 W (Proc.devRef .tc main_v107) = ReadP.val_main_v107 (F := F) (V (Proc.devRef .tc main_arg0)) (V (Proc.devRef .tc main_arg1)) (V (Proc.devRef .tc main_arg5)) (V (Proc.devRef .tc main_arg6)))
    ∧ (after seg9 W (Proc.devRef .tc main_v16) = ReadP.val_main_v16 (F := F) (V (Proc.devRef .tc main_arg0)) (V (Proc.devRef .tc main_arg7)) (V (Proc.devRef .tc main_arg8)))
    ∧ (after seg9 W (Proc.devRef .tc main_arg2) = V (Proc.devRef .tc main_arg2))
    ∧ (after seg9 W (Proc.devRef .tc main_v4) = ReadP.val_main_v4 (F := F) (V (Proc.devRef .tc main_arg0)) (V (Proc.devRef .tc main_arg3)) (V (Proc.devRef .tc main_arg4))) := by
  refine ⟨?_, ?_, ?_, ?_, ?_, ?_, ?_, ?_, ?_, ?_, ?_, ?_, ?_, ?_, ?_⟩
  · (seg_results <;> (try simp only [h_main_arg3, h_main_arg0, h_main_arg4, h_main_arg5, h_main_arg6, h_main_arg7, h_main_arg8, h_main_arg1, h_main_v91, h_main_v87, h_main_v94, h_main_v97, h_main_v100, h_main_v16, h_main_arg2, h_main_v4]) <;> rfl)
  · (seg_results <;> (try simp only [h_main_arg3, h_main_arg0, h_main_arg4, h_main_arg5, h_main_arg6, h_main_arg7, h_main_arg8, h_main_arg1, h_main_v91, h_main_v87, h_main_v94, h_main_v97, h_main_v100, h_main_v16, h_main_arg2, h_main_v4]) <;> rfl)
  · (seg_results <;> (try simp only [h_main_arg3, h_main_arg0, h_main_arg4, h_main_arg5, h_main_arg6, h_main_arg7, h_main_arg8, h_main_arg1, h_main_v91, h_main_v87, h_main_v94, h_main_v97, h_main_v100, h_main_v16, h_main_arg2, h_main_v4]) <;> rfl)
  · (seg_results <;> (try simp only [h_main_arg3, h_main_arg0, h_main_arg4, h_main_arg5, h_main_arg6, h_main_arg7, h_main_arg8, h_main_arg1, h_main_v91, h_main_v87, h_main_v94, h_main_v97, h_main_v100, h_main_v16, h_main_arg2, h_main_v4]) <;> rfl)
  · (seg_results <;> (try simp only [h_main_arg3, h_main_arg0, h_main_arg4, h_main_arg5, h_main_arg6, h_main_arg7, h_main_arg8, h_main_arg1, h_main_v91, h_main_v87, h_main_v94, h_main_v97, h_main_v100, h_main_v16, h_main_arg2, h_main_v4]) <;> rfl)
  · (seg_results <;> (try simp only [h_main_arg3, h_main_arg0, h_main_arg4, h_main_arg5, h_main_arg6, h_main_arg7, h_main_arg8, h_main_arg1, h_main_v91, h_main_v87, h_main_v94, h_main_v97, h_main_v100, h_main_v16, h_main_arg2, h_main_v4]) <;> rfl)
  · (seg_results <;> (try simp only [h_main_arg3, h_main_arg0, h_main_arg4, h_main_arg5, h_main_arg6, h_main_arg7, h_main_arg8, h_main_arg1, h_main_v91, h_main_v87, h_main_v94, h_main_v97, h_main_v100, h_main_v16, h_main_arg2, h_main_v4]) <;> rfl)
  · (seg_results <;> (try simp only [h_main_arg3, h_main_arg0, h_main_arg4, h_main_arg5, h_main_arg6, h_main_arg7, h_main_arg8, h_main_arg1, h_main_v91, h_main_v87, h_main_v94, h_main_v97, h_main_v100, h_main_v16, h_main_arg2, h_main_v4]) <;> rfl)
  · (seg_results <;> (try simp only [h_main_arg3, h_main_arg0, h_main_arg4, h_main_arg5, h_main_arg6, h_main_arg7, h_main_arg8, h_main_arg1, h_main_v91, h_main_v87, h_main_v94, h_main_v97, h_main_v100, h_main_v16, h_main_arg2, h_main_v4]) <;> rfl)
  · (seg_results <;> (try simp only [h_main_arg3, h_main_arg0, h_main_arg4, h_main_arg5, h_main_arg6, h_main_arg7, h_main_arg8, h_main_arg1, h_main_v91, h_main_v87, h_main_v94, h_main_v97, h_main_v100, h_main_v16, h_main_arg2, h_main_v4]) <;> rfl)
  · (seg_results <;> (try simp only [h_main_arg3, h_main_arg0, h_main_arg4, h_main_arg5, h_main_arg6, h_main_arg7, h_main_arg8, h_main_arg1, h_main_v91, h_main_v87, h_main_v94, h_main_v97, h_main_v100, h_main_v16, h_main_arg2, h_main_v4]) <;> rfl)
  · (seg_results <;> (try simp only [h_main_arg3, h_main_arg0, h_main_arg4, h_main_arg5, h_main_arg6, h_main_arg7, h_main_arg8, h_main_arg1, h_main_v91, h_main_v87, h_main_v94, h_main_v97, h_main_v100, h_main_v16, h_main_arg2, h_main_v4]) <;> rfl)
  · (seg_results <;> (try simp only [h_main_arg3, h_main_arg0, h_main_arg4, h_main_arg5, h_main_arg6, h_main_arg7, h_main_arg8, h_main_arg1, h_main_v91, h_main_v87, h_main_v94, h_main_v97, h_main_v100, h_main_v16, h_main_arg2, h_main_v4]) <;> rfl)
  · (seg_results <;> (try simp only [h_main_arg3, h_main_arg0, h_main_arg4, h_main_arg5, h_main_arg6, h_main_arg7, h_main_arg8, h_main_arg1, h_main_v91, h_main_v87, h_main_v94, h_main_v97, h_main_v100, h_main_v16, h_main_arg2, h_main_v4]) <;> rfl)
  · (seg_results <;> (try simp only [h_main_arg3, h_main_arg0, h_main_arg4, h_main_arg5, h_main_arg6, h_main_arg7, h_main_arg8, h_main_arg1, h_main_v91, h_main_v87, h_main_v94, h_main_v97, h_main_v100, h_main_v16, h_main_arg2, h_main_v4]) <;> rfl)

set_option maxRecDepth 8192 in
set_option maxHeartbeats 4000000 in
/-- Operation 134, a concatenation of four buffers. From contents `W` that hold, at every buffer still to be read, that buffer's stage of the
    arguments' launch contents `V` (an argument's stage is the argument), the contents after the segment hold the
    same at every buffer read later: the new ones are `main_v108`; the others are carried,
    the segment not writing them. -/
theorem stage10 (V W : Valuation τ sig (Elt F))
    (h_main_arg3 : W (Proc.devRef .tc main_arg3) = V (Proc.devRef .tc main_arg3))
    (h_main_arg0 : W (Proc.devRef .tc main_arg0) = V (Proc.devRef .tc main_arg0))
    (h_main_arg4 : W (Proc.devRef .tc main_arg4) = V (Proc.devRef .tc main_arg4))
    (h_main_arg5 : W (Proc.devRef .tc main_arg5) = V (Proc.devRef .tc main_arg5))
    (h_main_arg6 : W (Proc.devRef .tc main_arg6) = V (Proc.devRef .tc main_arg6))
    (h_main_arg7 : W (Proc.devRef .tc main_arg7) = V (Proc.devRef .tc main_arg7))
    (h_main_arg8 : W (Proc.devRef .tc main_arg8) = V (Proc.devRef .tc main_arg8))
    (h_main_arg1 : W (Proc.devRef .tc main_arg1) = V (Proc.devRef .tc main_arg1))
    (h_main_v104 : W (Proc.devRef .tc main_v104) = ReadP.val_main_v104 (F := F) (V (Proc.devRef .tc main_arg0)) (V (Proc.devRef .tc main_arg1)) (V (Proc.devRef .tc main_arg5)) (V (Proc.devRef .tc main_arg6)))
    (h_main_v105 : W (Proc.devRef .tc main_v105) = ReadP.val_main_v105 (F := F) (V (Proc.devRef .tc main_arg0)) (V (Proc.devRef .tc main_arg1)) (V (Proc.devRef .tc main_arg5)) (V (Proc.devRef .tc main_arg6)))
    (h_main_v106 : W (Proc.devRef .tc main_v106) = ReadP.val_main_v106 (F := F) (V (Proc.devRef .tc main_arg0)) (V (Proc.devRef .tc main_arg1)) (V (Proc.devRef .tc main_arg5)) (V (Proc.devRef .tc main_arg6)))
    (h_main_v107 : W (Proc.devRef .tc main_v107) = ReadP.val_main_v107 (F := F) (V (Proc.devRef .tc main_arg0)) (V (Proc.devRef .tc main_arg1)) (V (Proc.devRef .tc main_arg5)) (V (Proc.devRef .tc main_arg6)))
    (h_main_v16 : W (Proc.devRef .tc main_v16) = ReadP.val_main_v16 (F := F) (V (Proc.devRef .tc main_arg0)) (V (Proc.devRef .tc main_arg7)) (V (Proc.devRef .tc main_arg8)))
    (h_main_arg2 : W (Proc.devRef .tc main_arg2) = V (Proc.devRef .tc main_arg2))
    (h_main_v4 : W (Proc.devRef .tc main_v4) = ReadP.val_main_v4 (F := F) (V (Proc.devRef .tc main_arg0)) (V (Proc.devRef .tc main_arg3)) (V (Proc.devRef .tc main_arg4))) :
    (after seg10 W (Proc.devRef .tc main_arg3) = V (Proc.devRef .tc main_arg3))
    ∧ (after seg10 W (Proc.devRef .tc main_arg0) = V (Proc.devRef .tc main_arg0))
    ∧ (after seg10 W (Proc.devRef .tc main_arg4) = V (Proc.devRef .tc main_arg4))
    ∧ (after seg10 W (Proc.devRef .tc main_arg5) = V (Proc.devRef .tc main_arg5))
    ∧ (after seg10 W (Proc.devRef .tc main_arg6) = V (Proc.devRef .tc main_arg6))
    ∧ (after seg10 W (Proc.devRef .tc main_arg7) = V (Proc.devRef .tc main_arg7))
    ∧ (after seg10 W (Proc.devRef .tc main_arg8) = V (Proc.devRef .tc main_arg8))
    ∧ (after seg10 W (Proc.devRef .tc main_arg1) = V (Proc.devRef .tc main_arg1))
    ∧ (after seg10 W (Proc.devRef .tc main_v108) = ReadP.val_main_v108 (F := F) (V (Proc.devRef .tc main_arg0)) (V (Proc.devRef .tc main_arg1)) (V (Proc.devRef .tc main_arg5)) (V (Proc.devRef .tc main_arg6)))
    ∧ (after seg10 W (Proc.devRef .tc main_v16) = ReadP.val_main_v16 (F := F) (V (Proc.devRef .tc main_arg0)) (V (Proc.devRef .tc main_arg7)) (V (Proc.devRef .tc main_arg8)))
    ∧ (after seg10 W (Proc.devRef .tc main_arg2) = V (Proc.devRef .tc main_arg2))
    ∧ (after seg10 W (Proc.devRef .tc main_v4) = ReadP.val_main_v4 (F := F) (V (Proc.devRef .tc main_arg0)) (V (Proc.devRef .tc main_arg3)) (V (Proc.devRef .tc main_arg4))) := by
  refine ⟨?_, ?_, ?_, ?_, ?_, ?_, ?_, ?_, ?_, ?_, ?_, ?_⟩
  · (seg_results <;> (try simp only [h_main_arg3, h_main_arg0, h_main_arg4, h_main_arg5, h_main_arg6, h_main_arg7, h_main_arg8, h_main_arg1, h_main_v104, h_main_v105, h_main_v106, h_main_v107, h_main_v16, h_main_arg2, h_main_v4]) <;> rfl)
  · (seg_results <;> (try simp only [h_main_arg3, h_main_arg0, h_main_arg4, h_main_arg5, h_main_arg6, h_main_arg7, h_main_arg8, h_main_arg1, h_main_v104, h_main_v105, h_main_v106, h_main_v107, h_main_v16, h_main_arg2, h_main_v4]) <;> rfl)
  · (seg_results <;> (try simp only [h_main_arg3, h_main_arg0, h_main_arg4, h_main_arg5, h_main_arg6, h_main_arg7, h_main_arg8, h_main_arg1, h_main_v104, h_main_v105, h_main_v106, h_main_v107, h_main_v16, h_main_arg2, h_main_v4]) <;> rfl)
  · (seg_results <;> (try simp only [h_main_arg3, h_main_arg0, h_main_arg4, h_main_arg5, h_main_arg6, h_main_arg7, h_main_arg8, h_main_arg1, h_main_v104, h_main_v105, h_main_v106, h_main_v107, h_main_v16, h_main_arg2, h_main_v4]) <;> rfl)
  · (seg_results <;> (try simp only [h_main_arg3, h_main_arg0, h_main_arg4, h_main_arg5, h_main_arg6, h_main_arg7, h_main_arg8, h_main_arg1, h_main_v104, h_main_v105, h_main_v106, h_main_v107, h_main_v16, h_main_arg2, h_main_v4]) <;> rfl)
  · (seg_results <;> (try simp only [h_main_arg3, h_main_arg0, h_main_arg4, h_main_arg5, h_main_arg6, h_main_arg7, h_main_arg8, h_main_arg1, h_main_v104, h_main_v105, h_main_v106, h_main_v107, h_main_v16, h_main_arg2, h_main_v4]) <;> rfl)
  · (seg_results <;> (try simp only [h_main_arg3, h_main_arg0, h_main_arg4, h_main_arg5, h_main_arg6, h_main_arg7, h_main_arg8, h_main_arg1, h_main_v104, h_main_v105, h_main_v106, h_main_v107, h_main_v16, h_main_arg2, h_main_v4]) <;> rfl)
  · (seg_results <;> (try simp only [h_main_arg3, h_main_arg0, h_main_arg4, h_main_arg5, h_main_arg6, h_main_arg7, h_main_arg8, h_main_arg1, h_main_v104, h_main_v105, h_main_v106, h_main_v107, h_main_v16, h_main_arg2, h_main_v4]) <;> rfl)
  · simp only [after_cons, after_nil]
    rw [nary4_result, h_main_v104, h_main_v105, h_main_v106, h_main_v107]
    rfl
  · (seg_results <;> (try simp only [h_main_arg3, h_main_arg0, h_main_arg4, h_main_arg5, h_main_arg6, h_main_arg7, h_main_arg8, h_main_arg1, h_main_v104, h_main_v105, h_main_v106, h_main_v107, h_main_v16, h_main_arg2, h_main_v4]) <;> rfl)
  · (seg_results <;> (try simp only [h_main_arg3, h_main_arg0, h_main_arg4, h_main_arg5, h_main_arg6, h_main_arg7, h_main_arg8, h_main_arg1, h_main_v104, h_main_v105, h_main_v106, h_main_v107, h_main_v16, h_main_arg2, h_main_v4]) <;> rfl)
  · (seg_results <;> (try simp only [h_main_arg3, h_main_arg0, h_main_arg4, h_main_arg5, h_main_arg6, h_main_arg7, h_main_arg8, h_main_arg1, h_main_v104, h_main_v105, h_main_v106, h_main_v107, h_main_v16, h_main_arg2, h_main_v4]) <;> rfl)

set_option maxRecDepth 8192 in
set_option maxHeartbeats 4000000 in
/-- Operations 135 to 154. From contents `W` that hold, at every buffer still to be read, that buffer's stage of the
    arguments' launch contents `V` (an argument's stage is the argument), the contents after the segment hold the
    same at every buffer read later: the new ones are `main_v111`, `main_v114`; the others are carried,
    the segment not writing them. -/
theorem stage11 (V W : Valuation τ sig (Elt F))
    (h_main_arg3 : W (Proc.devRef .tc main_arg3) = V (Proc.devRef .tc main_arg3))
    (h_main_arg0 : W (Proc.devRef .tc main_arg0) = V (Proc.devRef .tc main_arg0))
    (h_main_arg4 : W (Proc.devRef .tc main_arg4) = V (Proc.devRef .tc main_arg4))
    (h_main_arg5 : W (Proc.devRef .tc main_arg5) = V (Proc.devRef .tc main_arg5))
    (h_main_arg6 : W (Proc.devRef .tc main_arg6) = V (Proc.devRef .tc main_arg6))
    (h_main_arg7 : W (Proc.devRef .tc main_arg7) = V (Proc.devRef .tc main_arg7))
    (h_main_arg8 : W (Proc.devRef .tc main_arg8) = V (Proc.devRef .tc main_arg8))
    (h_main_arg1 : W (Proc.devRef .tc main_arg1) = V (Proc.devRef .tc main_arg1))
    (h_main_v108 : W (Proc.devRef .tc main_v108) = ReadP.val_main_v108 (F := F) (V (Proc.devRef .tc main_arg0)) (V (Proc.devRef .tc main_arg1)) (V (Proc.devRef .tc main_arg5)) (V (Proc.devRef .tc main_arg6)))
    (h_main_v16 : W (Proc.devRef .tc main_v16) = ReadP.val_main_v16 (F := F) (V (Proc.devRef .tc main_arg0)) (V (Proc.devRef .tc main_arg7)) (V (Proc.devRef .tc main_arg8)))
    (h_main_arg2 : W (Proc.devRef .tc main_arg2) = V (Proc.devRef .tc main_arg2))
    (h_main_v4 : W (Proc.devRef .tc main_v4) = ReadP.val_main_v4 (F := F) (V (Proc.devRef .tc main_arg0)) (V (Proc.devRef .tc main_arg3)) (V (Proc.devRef .tc main_arg4))) :
    (after seg11 W (Proc.devRef .tc main_arg3) = V (Proc.devRef .tc main_arg3))
    ∧ (after seg11 W (Proc.devRef .tc main_arg0) = V (Proc.devRef .tc main_arg0))
    ∧ (after seg11 W (Proc.devRef .tc main_arg4) = V (Proc.devRef .tc main_arg4))
    ∧ (after seg11 W (Proc.devRef .tc main_arg5) = V (Proc.devRef .tc main_arg5))
    ∧ (after seg11 W (Proc.devRef .tc main_arg6) = V (Proc.devRef .tc main_arg6))
    ∧ (after seg11 W (Proc.devRef .tc main_arg7) = V (Proc.devRef .tc main_arg7))
    ∧ (after seg11 W (Proc.devRef .tc main_arg8) = V (Proc.devRef .tc main_arg8))
    ∧ (after seg11 W (Proc.devRef .tc main_arg1) = V (Proc.devRef .tc main_arg1))
    ∧ (after seg11 W (Proc.devRef .tc main_v108) = ReadP.val_main_v108 (F := F) (V (Proc.devRef .tc main_arg0)) (V (Proc.devRef .tc main_arg1)) (V (Proc.devRef .tc main_arg5)) (V (Proc.devRef .tc main_arg6)))
    ∧ (after seg11 W (Proc.devRef .tc main_v111) = ReadP.val_main_v111 (F := F) (V (Proc.devRef .tc main_arg0)) (V (Proc.devRef .tc main_arg1)) (V (Proc.devRef .tc main_arg5)) (V (Proc.devRef .tc main_arg6)))
    ∧ (after seg11 W (Proc.devRef .tc main_v114) = ReadP.val_main_v114 (F := F) (V (Proc.devRef .tc main_arg0)) (V (Proc.devRef .tc main_arg1)) (V (Proc.devRef .tc main_arg5)) (V (Proc.devRef .tc main_arg6)))
    ∧ (after seg11 W (Proc.devRef .tc main_v16) = ReadP.val_main_v16 (F := F) (V (Proc.devRef .tc main_arg0)) (V (Proc.devRef .tc main_arg7)) (V (Proc.devRef .tc main_arg8)))
    ∧ (after seg11 W (Proc.devRef .tc main_arg2) = V (Proc.devRef .tc main_arg2))
    ∧ (after seg11 W (Proc.devRef .tc main_v4) = ReadP.val_main_v4 (F := F) (V (Proc.devRef .tc main_arg0)) (V (Proc.devRef .tc main_arg3)) (V (Proc.devRef .tc main_arg4))) := by
  refine ⟨?_, ?_, ?_, ?_, ?_, ?_, ?_, ?_, ?_, ?_, ?_, ?_, ?_, ?_⟩
  · (seg_results <;> (try simp only [h_main_arg3, h_main_arg0, h_main_arg4, h_main_arg5, h_main_arg6, h_main_arg7, h_main_arg8, h_main_arg1, h_main_v108, h_main_v16, h_main_arg2, h_main_v4]) <;> rfl)
  · (seg_results <;> (try simp only [h_main_arg3, h_main_arg0, h_main_arg4, h_main_arg5, h_main_arg6, h_main_arg7, h_main_arg8, h_main_arg1, h_main_v108, h_main_v16, h_main_arg2, h_main_v4]) <;> rfl)
  · (seg_results <;> (try simp only [h_main_arg3, h_main_arg0, h_main_arg4, h_main_arg5, h_main_arg6, h_main_arg7, h_main_arg8, h_main_arg1, h_main_v108, h_main_v16, h_main_arg2, h_main_v4]) <;> rfl)
  · (seg_results <;> (try simp only [h_main_arg3, h_main_arg0, h_main_arg4, h_main_arg5, h_main_arg6, h_main_arg7, h_main_arg8, h_main_arg1, h_main_v108, h_main_v16, h_main_arg2, h_main_v4]) <;> rfl)
  · (seg_results <;> (try simp only [h_main_arg3, h_main_arg0, h_main_arg4, h_main_arg5, h_main_arg6, h_main_arg7, h_main_arg8, h_main_arg1, h_main_v108, h_main_v16, h_main_arg2, h_main_v4]) <;> rfl)
  · (seg_results <;> (try simp only [h_main_arg3, h_main_arg0, h_main_arg4, h_main_arg5, h_main_arg6, h_main_arg7, h_main_arg8, h_main_arg1, h_main_v108, h_main_v16, h_main_arg2, h_main_v4]) <;> rfl)
  · (seg_results <;> (try simp only [h_main_arg3, h_main_arg0, h_main_arg4, h_main_arg5, h_main_arg6, h_main_arg7, h_main_arg8, h_main_arg1, h_main_v108, h_main_v16, h_main_arg2, h_main_v4]) <;> rfl)
  · (seg_results <;> (try simp only [h_main_arg3, h_main_arg0, h_main_arg4, h_main_arg5, h_main_arg6, h_main_arg7, h_main_arg8, h_main_arg1, h_main_v108, h_main_v16, h_main_arg2, h_main_v4]) <;> rfl)
  · (seg_results <;> (try simp only [h_main_arg3, h_main_arg0, h_main_arg4, h_main_arg5, h_main_arg6, h_main_arg7, h_main_arg8, h_main_arg1, h_main_v108, h_main_v16, h_main_arg2, h_main_v4]) <;> rfl)
  · (seg_results <;> (try simp only [h_main_arg3, h_main_arg0, h_main_arg4, h_main_arg5, h_main_arg6, h_main_arg7, h_main_arg8, h_main_arg1, h_main_v108, h_main_v16, h_main_arg2, h_main_v4]) <;> rfl)
  · (seg_results <;> (try simp only [h_main_arg3, h_main_arg0, h_main_arg4, h_main_arg5, h_main_arg6, h_main_arg7, h_main_arg8, h_main_arg1, h_main_v108, h_main_v16, h_main_arg2, h_main_v4]) <;> rfl)
  · (seg_results <;> (try simp only [h_main_arg3, h_main_arg0, h_main_arg4, h_main_arg5, h_main_arg6, h_main_arg7, h_main_arg8, h_main_arg1, h_main_v108, h_main_v16, h_main_arg2, h_main_v4]) <;> rfl)
  · (seg_results <;> (try simp only [h_main_arg3, h_main_arg0, h_main_arg4, h_main_arg5, h_main_arg6, h_main_arg7, h_main_arg8, h_main_arg1, h_main_v108, h_main_v16, h_main_arg2, h_main_v4]) <;> rfl)
  · (seg_results <;> (try simp only [h_main_arg3, h_main_arg0, h_main_arg4, h_main_arg5, h_main_arg6, h_main_arg7, h_main_arg8, h_main_arg1, h_main_v108, h_main_v16, h_main_arg2, h_main_v4]) <;> rfl)

set_option maxRecDepth 8192 in
set_option maxHeartbeats 4000000 in
/-- Operations 155 to 178. From contents `W` that hold, at every buffer still to be read, that buffer's stage of the
    arguments' launch contents `V` (an argument's stage is the argument), the contents after the segment hold the
    same at every buffer read later: the new ones are `main_v121`, `main_v122`, `main_v123`, `main_v124`; the others are carried,
    the segment not writing them. -/
theorem stage12 (V W : Valuation τ sig (Elt F))
    (h_main_arg3 : W (Proc.devRef .tc main_arg3) = V (Proc.devRef .tc main_arg3))
    (h_main_arg0 : W (Proc.devRef .tc main_arg0) = V (Proc.devRef .tc main_arg0))
    (h_main_arg4 : W (Proc.devRef .tc main_arg4) = V (Proc.devRef .tc main_arg4))
    (h_main_arg5 : W (Proc.devRef .tc main_arg5) = V (Proc.devRef .tc main_arg5))
    (h_main_arg6 : W (Proc.devRef .tc main_arg6) = V (Proc.devRef .tc main_arg6))
    (h_main_arg7 : W (Proc.devRef .tc main_arg7) = V (Proc.devRef .tc main_arg7))
    (h_main_arg8 : W (Proc.devRef .tc main_arg8) = V (Proc.devRef .tc main_arg8))
    (h_main_arg1 : W (Proc.devRef .tc main_arg1) = V (Proc.devRef .tc main_arg1))
    (h_main_v108 : W (Proc.devRef .tc main_v108) = ReadP.val_main_v108 (F := F) (V (Proc.devRef .tc main_arg0)) (V (Proc.devRef .tc main_arg1)) (V (Proc.devRef .tc main_arg5)) (V (Proc.devRef .tc main_arg6)))
    (h_main_v111 : W (Proc.devRef .tc main_v111) = ReadP.val_main_v111 (F := F) (V (Proc.devRef .tc main_arg0)) (V (Proc.devRef .tc main_arg1)) (V (Proc.devRef .tc main_arg5)) (V (Proc.devRef .tc main_arg6)))
    (h_main_v114 : W (Proc.devRef .tc main_v114) = ReadP.val_main_v114 (F := F) (V (Proc.devRef .tc main_arg0)) (V (Proc.devRef .tc main_arg1)) (V (Proc.devRef .tc main_arg5)) (V (Proc.devRef .tc main_arg6)))
    (h_main_v16 : W (Proc.devRef .tc main_v16) = ReadP.val_main_v16 (F := F) (V (Proc.devRef .tc main_arg0)) (V (Proc.devRef .tc main_arg7)) (V (Proc.devRef .tc main_arg8)))
    (h_main_arg2 : W (Proc.devRef .tc main_arg2) = V (Proc.devRef .tc main_arg2))
    (h_main_v4 : W (Proc.devRef .tc main_v4) = ReadP.val_main_v4 (F := F) (V (Proc.devRef .tc main_arg0)) (V (Proc.devRef .tc main_arg3)) (V (Proc.devRef .tc main_arg4))) :
    (after seg12 W (Proc.devRef .tc main_arg3) = V (Proc.devRef .tc main_arg3))
    ∧ (after seg12 W (Proc.devRef .tc main_arg0) = V (Proc.devRef .tc main_arg0))
    ∧ (after seg12 W (Proc.devRef .tc main_arg4) = V (Proc.devRef .tc main_arg4))
    ∧ (after seg12 W (Proc.devRef .tc main_arg5) = V (Proc.devRef .tc main_arg5))
    ∧ (after seg12 W (Proc.devRef .tc main_arg6) = V (Proc.devRef .tc main_arg6))
    ∧ (after seg12 W (Proc.devRef .tc main_arg7) = V (Proc.devRef .tc main_arg7))
    ∧ (after seg12 W (Proc.devRef .tc main_arg8) = V (Proc.devRef .tc main_arg8))
    ∧ (after seg12 W (Proc.devRef .tc main_arg1) = V (Proc.devRef .tc main_arg1))
    ∧ (after seg12 W (Proc.devRef .tc main_v121) = ReadP.val_main_v121 (F := F) (V (Proc.devRef .tc main_arg0)) (V (Proc.devRef .tc main_arg1)) (V (Proc.devRef .tc main_arg5)) (V (Proc.devRef .tc main_arg6)))
    ∧ (after seg12 W (Proc.devRef .tc main_v122) = ReadP.val_main_v122 (F := F) (V (Proc.devRef .tc main_arg0)) (V (Proc.devRef .tc main_arg1)) (V (Proc.devRef .tc main_arg5)) (V (Proc.devRef .tc main_arg6)))
    ∧ (after seg12 W (Proc.devRef .tc main_v123) = ReadP.val_main_v123 (F := F) (V (Proc.devRef .tc main_arg0)) (V (Proc.devRef .tc main_arg1)) (V (Proc.devRef .tc main_arg5)) (V (Proc.devRef .tc main_arg6)))
    ∧ (after seg12 W (Proc.devRef .tc main_v124) = ReadP.val_main_v124 (F := F) (V (Proc.devRef .tc main_arg0)) (V (Proc.devRef .tc main_arg1)) (V (Proc.devRef .tc main_arg5)) (V (Proc.devRef .tc main_arg6)))
    ∧ (after seg12 W (Proc.devRef .tc main_v16) = ReadP.val_main_v16 (F := F) (V (Proc.devRef .tc main_arg0)) (V (Proc.devRef .tc main_arg7)) (V (Proc.devRef .tc main_arg8)))
    ∧ (after seg12 W (Proc.devRef .tc main_arg2) = V (Proc.devRef .tc main_arg2))
    ∧ (after seg12 W (Proc.devRef .tc main_v4) = ReadP.val_main_v4 (F := F) (V (Proc.devRef .tc main_arg0)) (V (Proc.devRef .tc main_arg3)) (V (Proc.devRef .tc main_arg4))) := by
  refine ⟨?_, ?_, ?_, ?_, ?_, ?_, ?_, ?_, ?_, ?_, ?_, ?_, ?_, ?_, ?_⟩
  · (seg_results <;> (try simp only [h_main_arg3, h_main_arg0, h_main_arg4, h_main_arg5, h_main_arg6, h_main_arg7, h_main_arg8, h_main_arg1, h_main_v108, h_main_v111, h_main_v114, h_main_v16, h_main_arg2, h_main_v4]) <;> rfl)
  · (seg_results <;> (try simp only [h_main_arg3, h_main_arg0, h_main_arg4, h_main_arg5, h_main_arg6, h_main_arg7, h_main_arg8, h_main_arg1, h_main_v108, h_main_v111, h_main_v114, h_main_v16, h_main_arg2, h_main_v4]) <;> rfl)
  · (seg_results <;> (try simp only [h_main_arg3, h_main_arg0, h_main_arg4, h_main_arg5, h_main_arg6, h_main_arg7, h_main_arg8, h_main_arg1, h_main_v108, h_main_v111, h_main_v114, h_main_v16, h_main_arg2, h_main_v4]) <;> rfl)
  · (seg_results <;> (try simp only [h_main_arg3, h_main_arg0, h_main_arg4, h_main_arg5, h_main_arg6, h_main_arg7, h_main_arg8, h_main_arg1, h_main_v108, h_main_v111, h_main_v114, h_main_v16, h_main_arg2, h_main_v4]) <;> rfl)
  · (seg_results <;> (try simp only [h_main_arg3, h_main_arg0, h_main_arg4, h_main_arg5, h_main_arg6, h_main_arg7, h_main_arg8, h_main_arg1, h_main_v108, h_main_v111, h_main_v114, h_main_v16, h_main_arg2, h_main_v4]) <;> rfl)
  · (seg_results <;> (try simp only [h_main_arg3, h_main_arg0, h_main_arg4, h_main_arg5, h_main_arg6, h_main_arg7, h_main_arg8, h_main_arg1, h_main_v108, h_main_v111, h_main_v114, h_main_v16, h_main_arg2, h_main_v4]) <;> rfl)
  · (seg_results <;> (try simp only [h_main_arg3, h_main_arg0, h_main_arg4, h_main_arg5, h_main_arg6, h_main_arg7, h_main_arg8, h_main_arg1, h_main_v108, h_main_v111, h_main_v114, h_main_v16, h_main_arg2, h_main_v4]) <;> rfl)
  · (seg_results <;> (try simp only [h_main_arg3, h_main_arg0, h_main_arg4, h_main_arg5, h_main_arg6, h_main_arg7, h_main_arg8, h_main_arg1, h_main_v108, h_main_v111, h_main_v114, h_main_v16, h_main_arg2, h_main_v4]) <;> rfl)
  · (seg_results <;> (try simp only [h_main_arg3, h_main_arg0, h_main_arg4, h_main_arg5, h_main_arg6, h_main_arg7, h_main_arg8, h_main_arg1, h_main_v108, h_main_v111, h_main_v114, h_main_v16, h_main_arg2, h_main_v4]) <;> rfl)
  · (seg_results <;> (try simp only [h_main_arg3, h_main_arg0, h_main_arg4, h_main_arg5, h_main_arg6, h_main_arg7, h_main_arg8, h_main_arg1, h_main_v108, h_main_v111, h_main_v114, h_main_v16, h_main_arg2, h_main_v4]) <;> rfl)
  · (seg_results <;> (try simp only [h_main_arg3, h_main_arg0, h_main_arg4, h_main_arg5, h_main_arg6, h_main_arg7, h_main_arg8, h_main_arg1, h_main_v108, h_main_v111, h_main_v114, h_main_v16, h_main_arg2, h_main_v4]) <;> rfl)
  · (seg_results <;> (try simp only [h_main_arg3, h_main_arg0, h_main_arg4, h_main_arg5, h_main_arg6, h_main_arg7, h_main_arg8, h_main_arg1, h_main_v108, h_main_v111, h_main_v114, h_main_v16, h_main_arg2, h_main_v4]) <;> rfl)
  · (seg_results <;> (try simp only [h_main_arg3, h_main_arg0, h_main_arg4, h_main_arg5, h_main_arg6, h_main_arg7, h_main_arg8, h_main_arg1, h_main_v108, h_main_v111, h_main_v114, h_main_v16, h_main_arg2, h_main_v4]) <;> rfl)
  · (seg_results <;> (try simp only [h_main_arg3, h_main_arg0, h_main_arg4, h_main_arg5, h_main_arg6, h_main_arg7, h_main_arg8, h_main_arg1, h_main_v108, h_main_v111, h_main_v114, h_main_v16, h_main_arg2, h_main_v4]) <;> rfl)
  · (seg_results <;> (try simp only [h_main_arg3, h_main_arg0, h_main_arg4, h_main_arg5, h_main_arg6, h_main_arg7, h_main_arg8, h_main_arg1, h_main_v108, h_main_v111, h_main_v114, h_main_v16, h_main_arg2, h_main_v4]) <;> rfl)

set_option maxRecDepth 8192 in
set_option maxHeartbeats 4000000 in
/-- Operation 179, a concatenation of four buffers. From contents `W` that hold, at every buffer still to be read, that buffer's stage of the
    arguments' launch contents `V` (an argument's stage is the argument), the contents after the segment hold the
    same at every buffer read later: the new ones are `main_v125`; the others are carried,
    the segment not writing them. -/
theorem stage13 (V W : Valuation τ sig (Elt F))
    (h_main_arg3 : W (Proc.devRef .tc main_arg3) = V (Proc.devRef .tc main_arg3))
    (h_main_arg0 : W (Proc.devRef .tc main_arg0) = V (Proc.devRef .tc main_arg0))
    (h_main_arg4 : W (Proc.devRef .tc main_arg4) = V (Proc.devRef .tc main_arg4))
    (h_main_arg5 : W (Proc.devRef .tc main_arg5) = V (Proc.devRef .tc main_arg5))
    (h_main_arg6 : W (Proc.devRef .tc main_arg6) = V (Proc.devRef .tc main_arg6))
    (h_main_arg7 : W (Proc.devRef .tc main_arg7) = V (Proc.devRef .tc main_arg7))
    (h_main_arg8 : W (Proc.devRef .tc main_arg8) = V (Proc.devRef .tc main_arg8))
    (h_main_arg1 : W (Proc.devRef .tc main_arg1) = V (Proc.devRef .tc main_arg1))
    (h_main_v121 : W (Proc.devRef .tc main_v121) = ReadP.val_main_v121 (F := F) (V (Proc.devRef .tc main_arg0)) (V (Proc.devRef .tc main_arg1)) (V (Proc.devRef .tc main_arg5)) (V (Proc.devRef .tc main_arg6)))
    (h_main_v122 : W (Proc.devRef .tc main_v122) = ReadP.val_main_v122 (F := F) (V (Proc.devRef .tc main_arg0)) (V (Proc.devRef .tc main_arg1)) (V (Proc.devRef .tc main_arg5)) (V (Proc.devRef .tc main_arg6)))
    (h_main_v123 : W (Proc.devRef .tc main_v123) = ReadP.val_main_v123 (F := F) (V (Proc.devRef .tc main_arg0)) (V (Proc.devRef .tc main_arg1)) (V (Proc.devRef .tc main_arg5)) (V (Proc.devRef .tc main_arg6)))
    (h_main_v124 : W (Proc.devRef .tc main_v124) = ReadP.val_main_v124 (F := F) (V (Proc.devRef .tc main_arg0)) (V (Proc.devRef .tc main_arg1)) (V (Proc.devRef .tc main_arg5)) (V (Proc.devRef .tc main_arg6)))
    (h_main_v16 : W (Proc.devRef .tc main_v16) = ReadP.val_main_v16 (F := F) (V (Proc.devRef .tc main_arg0)) (V (Proc.devRef .tc main_arg7)) (V (Proc.devRef .tc main_arg8)))
    (h_main_arg2 : W (Proc.devRef .tc main_arg2) = V (Proc.devRef .tc main_arg2))
    (h_main_v4 : W (Proc.devRef .tc main_v4) = ReadP.val_main_v4 (F := F) (V (Proc.devRef .tc main_arg0)) (V (Proc.devRef .tc main_arg3)) (V (Proc.devRef .tc main_arg4))) :
    (after seg13 W (Proc.devRef .tc main_arg3) = V (Proc.devRef .tc main_arg3))
    ∧ (after seg13 W (Proc.devRef .tc main_arg0) = V (Proc.devRef .tc main_arg0))
    ∧ (after seg13 W (Proc.devRef .tc main_arg4) = V (Proc.devRef .tc main_arg4))
    ∧ (after seg13 W (Proc.devRef .tc main_arg5) = V (Proc.devRef .tc main_arg5))
    ∧ (after seg13 W (Proc.devRef .tc main_arg6) = V (Proc.devRef .tc main_arg6))
    ∧ (after seg13 W (Proc.devRef .tc main_arg7) = V (Proc.devRef .tc main_arg7))
    ∧ (after seg13 W (Proc.devRef .tc main_arg8) = V (Proc.devRef .tc main_arg8))
    ∧ (after seg13 W (Proc.devRef .tc main_arg1) = V (Proc.devRef .tc main_arg1))
    ∧ (after seg13 W (Proc.devRef .tc main_v16) = ReadP.val_main_v16 (F := F) (V (Proc.devRef .tc main_arg0)) (V (Proc.devRef .tc main_arg7)) (V (Proc.devRef .tc main_arg8)))
    ∧ (after seg13 W (Proc.devRef .tc main_arg2) = V (Proc.devRef .tc main_arg2))
    ∧ (after seg13 W (Proc.devRef .tc main_v125) = ReadP.val_main_v125 (F := F) (V (Proc.devRef .tc main_arg0)) (V (Proc.devRef .tc main_arg1)) (V (Proc.devRef .tc main_arg5)) (V (Proc.devRef .tc main_arg6)))
    ∧ (after seg13 W (Proc.devRef .tc main_v4) = ReadP.val_main_v4 (F := F) (V (Proc.devRef .tc main_arg0)) (V (Proc.devRef .tc main_arg3)) (V (Proc.devRef .tc main_arg4))) := by
  refine ⟨?_, ?_, ?_, ?_, ?_, ?_, ?_, ?_, ?_, ?_, ?_, ?_⟩
  · (seg_results <;> (try simp only [h_main_arg3, h_main_arg0, h_main_arg4, h_main_arg5, h_main_arg6, h_main_arg7, h_main_arg8, h_main_arg1, h_main_v121, h_main_v122, h_main_v123, h_main_v124, h_main_v16, h_main_arg2, h_main_v4]) <;> rfl)
  · (seg_results <;> (try simp only [h_main_arg3, h_main_arg0, h_main_arg4, h_main_arg5, h_main_arg6, h_main_arg7, h_main_arg8, h_main_arg1, h_main_v121, h_main_v122, h_main_v123, h_main_v124, h_main_v16, h_main_arg2, h_main_v4]) <;> rfl)
  · (seg_results <;> (try simp only [h_main_arg3, h_main_arg0, h_main_arg4, h_main_arg5, h_main_arg6, h_main_arg7, h_main_arg8, h_main_arg1, h_main_v121, h_main_v122, h_main_v123, h_main_v124, h_main_v16, h_main_arg2, h_main_v4]) <;> rfl)
  · (seg_results <;> (try simp only [h_main_arg3, h_main_arg0, h_main_arg4, h_main_arg5, h_main_arg6, h_main_arg7, h_main_arg8, h_main_arg1, h_main_v121, h_main_v122, h_main_v123, h_main_v124, h_main_v16, h_main_arg2, h_main_v4]) <;> rfl)
  · (seg_results <;> (try simp only [h_main_arg3, h_main_arg0, h_main_arg4, h_main_arg5, h_main_arg6, h_main_arg7, h_main_arg8, h_main_arg1, h_main_v121, h_main_v122, h_main_v123, h_main_v124, h_main_v16, h_main_arg2, h_main_v4]) <;> rfl)
  · (seg_results <;> (try simp only [h_main_arg3, h_main_arg0, h_main_arg4, h_main_arg5, h_main_arg6, h_main_arg7, h_main_arg8, h_main_arg1, h_main_v121, h_main_v122, h_main_v123, h_main_v124, h_main_v16, h_main_arg2, h_main_v4]) <;> rfl)
  · (seg_results <;> (try simp only [h_main_arg3, h_main_arg0, h_main_arg4, h_main_arg5, h_main_arg6, h_main_arg7, h_main_arg8, h_main_arg1, h_main_v121, h_main_v122, h_main_v123, h_main_v124, h_main_v16, h_main_arg2, h_main_v4]) <;> rfl)
  · (seg_results <;> (try simp only [h_main_arg3, h_main_arg0, h_main_arg4, h_main_arg5, h_main_arg6, h_main_arg7, h_main_arg8, h_main_arg1, h_main_v121, h_main_v122, h_main_v123, h_main_v124, h_main_v16, h_main_arg2, h_main_v4]) <;> rfl)
  · (seg_results <;> (try simp only [h_main_arg3, h_main_arg0, h_main_arg4, h_main_arg5, h_main_arg6, h_main_arg7, h_main_arg8, h_main_arg1, h_main_v121, h_main_v122, h_main_v123, h_main_v124, h_main_v16, h_main_arg2, h_main_v4]) <;> rfl)
  · (seg_results <;> (try simp only [h_main_arg3, h_main_arg0, h_main_arg4, h_main_arg5, h_main_arg6, h_main_arg7, h_main_arg8, h_main_arg1, h_main_v121, h_main_v122, h_main_v123, h_main_v124, h_main_v16, h_main_arg2, h_main_v4]) <;> rfl)
  · simp only [after_cons, after_nil]
    rw [nary4_result, h_main_v121, h_main_v122, h_main_v123, h_main_v124]
    rfl
  · (seg_results <;> (try simp only [h_main_arg3, h_main_arg0, h_main_arg4, h_main_arg5, h_main_arg6, h_main_arg7, h_main_arg8, h_main_arg1, h_main_v121, h_main_v122, h_main_v123, h_main_v124, h_main_v16, h_main_arg2, h_main_v4]) <;> rfl)

set_option maxRecDepth 8192 in
set_option maxHeartbeats 4000000 in
/-- Operations 180 to 205. From contents `W` that hold, at every buffer still to be read, that buffer's stage of the
    arguments' launch contents `V` (an argument's stage is the argument), the contents after the segment hold the
    same at every buffer read later: the new ones are `main_v135`, `main_v140`, `main_v147`, `main_v149`, `main_v129`, `main_v145`; the others are carried,
    the segment not writing them. -/
theorem stage14 (V W : Valuation τ sig (Elt F))
    (h_main_arg3 : W (Proc.devRef .tc main_arg3) = V (Proc.devRef .tc main_arg3))
    (h_main_arg0 : W (Proc.devRef .tc main_arg0) = V (Proc.devRef .tc main_arg0))
    (h_main_arg4 : W (Proc.devRef .tc main_arg4) = V (Proc.devRef .tc main_arg4))
    (h_main_arg5 : W (Proc.devRef .tc main_arg5) = V (Proc.devRef .tc main_arg5))
    (h_main_arg6 : W (Proc.devRef .tc main_arg6) = V (Proc.devRef .tc main_arg6))
    (h_main_arg7 : W (Proc.devRef .tc main_arg7) = V (Proc.devRef .tc main_arg7))
    (h_main_arg8 : W (Proc.devRef .tc main_arg8) = V (Proc.devRef .tc main_arg8))
    (h_main_arg1 : W (Proc.devRef .tc main_arg1) = V (Proc.devRef .tc main_arg1))
    (h_main_v16 : W (Proc.devRef .tc main_v16) = ReadP.val_main_v16 (F := F) (V (Proc.devRef .tc main_arg0)) (V (Proc.devRef .tc main_arg7)) (V (Proc.devRef .tc main_arg8)))
    (h_main_arg2 : W (Proc.devRef .tc main_arg2) = V (Proc.devRef .tc main_arg2))
    (h_main_v125 : W (Proc.devRef .tc main_v125) = ReadP.val_main_v125 (F := F) (V (Proc.devRef .tc main_arg0)) (V (Proc.devRef .tc main_arg1)) (V (Proc.devRef .tc main_arg5)) (V (Proc.devRef .tc main_arg6)))
    (h_main_v4 : W (Proc.devRef .tc main_v4) = ReadP.val_main_v4 (F := F) (V (Proc.devRef .tc main_arg0)) (V (Proc.devRef .tc main_arg3)) (V (Proc.devRef .tc main_arg4))) :
    (after seg14 W (Proc.devRef .tc main_arg3) = V (Proc.devRef .tc main_arg3))
    ∧ (after seg14 W (Proc.devRef .tc main_arg0) = V (Proc.devRef .tc main_arg0))
    ∧ (after seg14 W (Proc.devRef .tc main_arg4) = V (Proc.devRef .tc main_arg4))
    ∧ (after seg14 W (Proc.devRef .tc main_arg5) = V (Proc.devRef .tc main_arg5))
    ∧ (after seg14 W (Proc.devRef .tc main_arg6) = V (Proc.devRef .tc main_arg6))
    ∧ (after seg14 W (Proc.devRef .tc main_arg7) = V (Proc.devRef .tc main_arg7))
    ∧ (after seg14 W (Proc.devRef .tc main_arg8) = V (Proc.devRef .tc main_arg8))
    ∧ (after seg14 W (Proc.devRef .tc main_arg1) = V (Proc.devRef .tc main_arg1))
    ∧ (after seg14 W (Proc.devRef .tc main_v16) = ReadP.val_main_v16 (F := F) (V (Proc.devRef .tc main_arg0)) (V (Proc.devRef .tc main_arg7)) (V (Proc.devRef .tc main_arg8)))
    ∧ (after seg14 W (Proc.devRef .tc main_arg2) = V (Proc.devRef .tc main_arg2))
    ∧ (after seg14 W (Proc.devRef .tc main_v125) = ReadP.val_main_v125 (F := F) (V (Proc.devRef .tc main_arg0)) (V (Proc.devRef .tc main_arg1)) (V (Proc.devRef .tc main_arg5)) (V (Proc.devRef .tc main_arg6)))
    ∧ (after seg14 W (Proc.devRef .tc main_v135) = ReadP.val_main_v135 (F := F) (V (Proc.devRef .tc main_arg0)) (V (Proc.devRef .tc main_arg1)) (V (Proc.devRef .tc main_arg5)) (V (Proc.devRef .tc main_arg6)))
    ∧ (after seg14 W (Proc.devRef .tc main_v140) = ReadP.val_main_v140 (F := F) (V (Proc.devRef .tc main_arg0)) (V (Proc.devRef .tc main_arg1)) (V (Proc.devRef .tc main_arg5)) (V (Proc.devRef .tc main_arg6)))
    ∧ (after seg14 W (Proc.devRef .tc main_v147) = ReadP.val_main_v147 (F := F) (V (Proc.devRef .tc main_arg0)) (V (Proc.devRef .tc main_arg1)) (V (Proc.devRef .tc main_arg5)) (V (Proc.devRef .tc main_arg6)))
    ∧ (after seg14 W (Proc.devRef .tc main_v149) = ReadP.val_main_v149 (F := F) (V (Proc.devRef .tc main_arg0)) (V (Proc.devRef .tc main_arg1)) (V (Proc.devRef .tc main_arg5)) (V (Proc.devRef .tc main_arg6)))
    ∧ (after seg14 W (Proc.devRef .tc main_v129) = ReadP.val_main_v129 (F := F) (V (Proc.devRef .tc main_arg0)) (V (Proc.devRef .tc main_arg2)) (V (Proc.devRef .tc main_arg7)) (V (Proc.devRef .tc main_arg8)))
    ∧ (after seg14 W (Proc.devRef .tc main_v145) = ReadP.val_main_v145 (F := F) (V (Proc.devRef .tc main_arg0)) (V (Proc.devRef .tc main_arg1)) (V (Proc.devRef .tc main_arg5)) (V (Proc.devRef .tc main_arg6)))
    ∧ (after seg14 W (Proc.devRef .tc main_v4) = ReadP.val_main_v4 (F := F) (V (Proc.devRef .tc main_arg0)) (V (Proc.devRef .tc main_arg3)) (V (Proc.devRef .tc main_arg4))) := by
  refine ⟨?_, ?_, ?_, ?_, ?_, ?_, ?_, ?_, ?_, ?_, ?_, ?_, ?_, ?_, ?_, ?_, ?_, ?_⟩
  · (seg_results <;> (try simp only [h_main_arg3, h_main_arg0, h_main_arg4, h_main_arg5, h_main_arg6, h_main_arg7, h_main_arg8, h_main_arg1, h_main_v16, h_main_arg2, h_main_v125, h_main_v4]) <;> rfl)
  · (seg_results <;> (try simp only [h_main_arg3, h_main_arg0, h_main_arg4, h_main_arg5, h_main_arg6, h_main_arg7, h_main_arg8, h_main_arg1, h_main_v16, h_main_arg2, h_main_v125, h_main_v4]) <;> rfl)
  · (seg_results <;> (try simp only [h_main_arg3, h_main_arg0, h_main_arg4, h_main_arg5, h_main_arg6, h_main_arg7, h_main_arg8, h_main_arg1, h_main_v16, h_main_arg2, h_main_v125, h_main_v4]) <;> rfl)
  · (seg_results <;> (try simp only [h_main_arg3, h_main_arg0, h_main_arg4, h_main_arg5, h_main_arg6, h_main_arg7, h_main_arg8, h_main_arg1, h_main_v16, h_main_arg2, h_main_v125, h_main_v4]) <;> rfl)
  · (seg_results <;> (try simp only [h_main_arg3, h_main_arg0, h_main_arg4, h_main_arg5, h_main_arg6, h_main_arg7, h_main_arg8, h_main_arg1, h_main_v16, h_main_arg2, h_main_v125, h_main_v4]) <;> rfl)
  · (seg_results <;> (try simp only [h_main_arg3, h_main_arg0, h_main_arg4, h_main_arg5, h_main_arg6, h_main_arg7, h_main_arg8, h_main_arg1, h_main_v16, h_main_arg2, h_main_v125, h_main_v4]) <;> rfl)
  · (seg_results <;> (try simp only [h_main_arg3, h_main_arg0, h_main_arg4, h_main_arg5, h_main_arg6, h_main_arg7, h_main_arg8, h_main_arg1, h_main_v16, h_main_arg2, h_main_v125, h_main_v4]) <;> rfl)
  · (seg_results <;> (try simp only [h_main_arg3, h_main_arg0, h_main_arg4, h_main_arg5, h_main_arg6, h_main_arg7, h_main_arg8, h_main_arg1, h_main_v16, h_main_arg2, h_main_v125, h_main_v4]) <;> rfl)
  · (seg_results <;> (try simp only [h_main_arg3, h_main_arg0, h_main_arg4, h_main_arg5, h_main_arg6, h_main_arg7, h_main_arg8, h_main_arg1, h_main_v16, h_main_arg2, h_main_v125, h_main_v4]) <;> rfl)
  · (seg_results <;> (try simp only [h_main_arg3, h_main_arg0, h_main_arg4, h_main_arg5, h_main_arg6, h_main_arg7, h_main_arg8, h_main_arg1, h_main_v16, h_main_arg2, h_main_v125, h_main_v4]) <;> rfl)
  · (seg_results <;> (try simp only [h_main_arg3, h_main_arg0, h_main_arg4, h_main_arg5, h_main_arg6, h_main_arg7, h_main_arg8, h_main_arg1, h_main_v16, h_main_arg2, h_main_v125, h_main_v4]) <;> rfl)
  · (seg_results <;> (try simp only [h_main_arg3, h_main_arg0, h_main_arg4, h_main_arg5, h_main_arg6, h_main_arg7, h_main_arg8, h_main_arg1, h_main_v16, h_main_arg2, h_main_v125, h_main_v4]) <;> rfl)
  · (seg_results <;> (try simp only [h_main_arg3, h_main_arg0, h_main_arg4, h_main_arg5, h_main_arg6, h_main_arg7, h_main_arg8, h_main_arg1, h_main_v16, h_main_arg2, h_main_v125, h_main_v4]) <;> rfl)
  · (seg_results <;> (try simp only [h_main_arg3, h_main_arg0, h_main_arg4, h_main_arg5, h_main_arg6, h_main_arg7, h_main_arg8, h_main_arg1, h_main_v16, h_main_arg2, h_main_v125, h_main_v4]) <;> rfl)
  · (seg_results <;> (try simp only [h_main_arg3, h_main_arg0, h_main_arg4, h_main_arg5, h_main_arg6, h_main_arg7, h_main_arg8, h_main_arg1, h_main_v16, h_main_arg2, h_main_v125, h_main_v4]) <;> rfl)
  · (seg_results <;> (try simp only [h_main_arg3, h_main_arg0, h_main_arg4, h_main_arg5, h_main_arg6, h_main_arg7, h_main_arg8, h_main_arg1, h_main_v16, h_main_arg2, h_main_v125, h_main_v4]) <;> rfl)
  · (seg_results <;> (try simp only [h_main_arg3, h_main_arg0, h_main_arg4, h_main_arg5, h_main_arg6, h_main_arg7, h_main_arg8, h_main_arg1, h_main_v16, h_main_arg2, h_main_v125, h_main_v4]) <;> rfl)
  · (seg_results <;> (try simp only [h_main_arg3, h_main_arg0, h_main_arg4, h_main_arg5, h_main_arg6, h_main_arg7, h_main_arg8, h_main_arg1, h_main_v16, h_main_arg2, h_main_v125, h_main_v4]) <;> rfl)

end Cert.ReferenceIdeal.ValueP

end
-- ==== Proof.RefStage3.lean ====
/-
  The reference's line of host operations, read in stages: the segments of its window 3.

  The reference is a straight line of 329 host operations. Each buffer it writes is one stage: a function of the
  arguments' contents at launch, defined from the stages of the buffers its operation reads (the read-at-an-index
  module's `val_<buffer>`). Written out as one term the last stage is astronomically large, because a buffer read by
  several later operations is repeated at each; kept as named stages it is small. So the line is run segment by
  segment: a lemma per segment says that, started from ANY contents holding the right stage at every buffer the rest
  of the line still reads, the segment ends in contents holding the right stage at every buffer read after it. Within
  a segment the operations' results are composed outright (a few operations deep), the contents found are replaced by
  the stages assumed, and what is left is the stages' own definitions. A concatenation is a segment by itself: its
  result is the concatenation of the contents found at its four operands.
-/
import proofs.«177437_j84602265797277_1_alg».proof.Proof.RefPart3
import proofs.«177437_j84602265797277_1_alg».proof.Proof.RefRead

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- The results of a short literal list of host operations at one buffer, by one simplification pass: each operation's
    result at its own buffer is its function of its operands' contents, and at any other buffer what was there; a
    four-operand concatenation reads its operands at their own buffers. -/
local macro "seg_results" : tactic =>
  `(tactic| (simp (disch := decide) only [after_cons, after_nil,
      nullary_result', unary_result', binary_result', ternary_result', quaternary_result', reshape_result', nary4_result',
      nullary_result_ne', unary_result_ne', binary_result_ne', ternary_result_ne', quaternary_result_ne', reshape_result_ne',
      nary_result_ne']))

set_option maxRecDepth 8192 in
set_option maxHeartbeats 4000000 in
/-- Operations 206 to 229. From contents `W` that hold, at every buffer still to be read, that buffer's stage of the
    arguments' launch contents `V` (an argument's stage is the argument), the contents after the segment hold the
    same at every buffer read later: the new ones are `main_v168`, `main_v154`, `main_v158`, `main_v150`, `main_v164`; the others are carried,
    the segment not writing them. -/
theorem stage15 (V W : Valuation τ sig (Elt F))
    (h_main_arg3 : W (Proc.devRef .tc main_arg3) = V (Proc.devRef .tc main_arg3))
    (h_main_arg0 : W (Proc.devRef .tc main_arg0) = V (Proc.devRef .tc main_arg0))
    (h_main_arg4 : W (Proc.devRef .tc main_arg4) = V (Proc.devRef .tc main_arg4))
    (h_main_arg5 : W (Proc.devRef .tc main_arg5) = V (Proc.devRef .tc main_arg5))
    (h_main_arg6 : W (Proc.devRef .tc main_arg6) = V (Proc.devRef .tc main_arg6))
    (h_main_arg7 : W (Proc.devRef .tc main_arg7) = V (Proc.devRef .tc main_arg7))
    (h_main_arg8 : W (Proc.devRef .tc main_arg8) = V (Proc.devRef .tc main_arg8))
    (h_main_arg1 : W (Proc.devRef .tc main_arg1) = V (Proc.devRef .tc main_arg1))
    (h_main_v16 : W (Proc.devRef .tc main_v16) = ReadP.val_main_v16 (F := F) (V (Proc.devRef .tc main_arg0)) (V (Proc.devRef .tc main_arg7)) (V (Proc.devRef .tc main_arg8)))
    (h_main_arg2 : W (Proc.devRef .tc main_arg2) = V (Proc.devRef .tc main_arg2))
    (h_main_v125 : W (Proc.devRef .tc main_v125) = ReadP.val_main_v125 (F := F) (V (Proc.devRef .tc main_arg0)) (V (Proc.devRef .tc main_arg1)) (V (Proc.devRef .tc main_arg5)) (V (Proc.devRef .tc main_arg6)))
    (h_main_v135 : W (Proc.devRef .tc main_v135) = ReadP.val_main_v135 (F := F) (V (Proc.devRef .tc main_arg0)) (V (Proc.devRef .tc main_arg1)) (V (Proc.devRef .tc main_arg5)) (V (Proc.devRef .tc main_arg6)))
    (h_main_v140 : W (Proc.devRef .tc main_v140) = ReadP.val_main_v140 (F := F) (V (Proc.devRef .tc main_arg0)) (V (Proc.devRef .tc main_arg1)) (V (Proc.devRef .tc main_arg5)) (V (Proc.devRef .tc main_arg6)))
    (h_main_v147 : W (Proc.devRef .tc main_v147) = ReadP.val_main_v147 (F := F) (V (Proc.devRef .tc main_arg0)) (V (Proc.devRef .tc main_arg1)) (V (Proc.devRef .tc main_arg5)) (V (Proc.devRef .tc main_arg6)))
    (h_main_v149 : W (Proc.devRef .tc main_v149) = ReadP.val_main_v149 (F := F) (V (Proc.devRef .tc main_arg0)) (V (Proc.devRef .tc main_arg1)) (V (Proc.devRef .tc main_arg5)) (V (Proc.devRef .tc main_arg6)))
    (h_main_v129 : W (Proc.devRef .tc main_v129) = ReadP.val_main_v129 (F := F) (V (Proc.devRef .tc main_arg0)) (V (Proc.devRef .tc main_arg2)) (V (Proc.devRef .tc main_arg7)) (V (Proc.devRef .tc main_arg8)))
    (h_main_v145 : W (Proc.devRef .tc main_v145) = ReadP.val_main_v145 (F := F) (V (Proc.devRef .tc main_arg0)) (V (Proc.devRef .tc main_arg1)) (V (Proc.devRef .tc main_arg5)) (V (Proc.devRef .tc main_arg6)))
    (h_main_v4 : W (Proc.devRef .tc main_v4) = ReadP.val_main_v4 (F := F) (V (Proc.devRef .tc main_arg0)) (V (Proc.devRef .tc main_arg3)) (V (Proc.devRef .tc main_arg4))) :
    (after seg15 W (Proc.devRef .tc main_arg3) = V (Proc.devRef .tc main_arg3))
    ∧ (after seg15 W (Proc.devRef .tc main_arg0) = V (Proc.devRef .tc main_arg0))
    ∧ (after seg15 W (Proc.devRef .tc main_arg4) = V (Proc.devRef .tc main_arg4))
    ∧ (after seg15 W (Proc.devRef .tc main_arg5) = V (Proc.devRef .tc main_arg5))
    ∧ (after seg15 W (Proc.devRef .tc main_arg6) = V (Proc.devRef .tc main_arg6))
    ∧ (after seg15 W (Proc.devRef .tc main_arg7) = V (Proc.devRef .tc main_arg7))
    ∧ (after seg15 W (Proc.devRef .tc main_arg8) = V (Proc.devRef .tc main_arg8))
    ∧ (after seg15 W (Proc.devRef .tc main_arg1) = V (Proc.devRef .tc main_arg1))
    ∧ (after seg15 W (Proc.devRef .tc main_v16) = ReadP.val_main_v16 (F := F) (V (Proc.devRef .tc main_arg0)) (V (Proc.devRef .tc main_arg7)) (V (Proc.devRef .tc main_arg8)))
    ∧ (after seg15 W (Proc.devRef .tc main_arg2) = V (Proc.devRef .tc main_arg2))
    ∧ (after seg15 W (Proc.devRef .tc main_v125) = ReadP.val_main_v125 (F := F) (V (Proc.devRef .tc main_arg0)) (V (Proc.devRef .tc main_arg1)) (V (Proc.devRef .tc main_arg5)) (V (Proc.devRef .tc main_arg6)))
    ∧ (after seg15 W (Proc.devRef .tc main_v135) = ReadP.val_main_v135 (F := F) (V (Proc.devRef .tc main_arg0)) (V (Proc.devRef .tc main_arg1)) (V (Proc.devRef .tc main_arg5)) (V (Proc.devRef .tc main_arg6)))
    ∧ (after seg15 W (Proc.devRef .tc main_v140) = ReadP.val_main_v140 (F := F) (V (Proc.devRef .tc main_arg0)) (V (Proc.devRef .tc main_arg1)) (V (Proc.devRef .tc main_arg5)) (V (Proc.devRef .tc main_arg6)))
    ∧ (after seg15 W (Proc.devRef .tc main_v168) = ReadP.val_main_v168 (F := F) (V (Proc.devRef .tc main_arg0)) (V (Proc.devRef .tc main_arg2)) (V (Proc.devRef .tc main_arg7)) (V (Proc.devRef .tc main_arg8)))
    ∧ (after seg15 W (Proc.devRef .tc main_v154) = ReadP.val_main_v154 (F := F) (V (Proc.devRef .tc main_arg0)) (V (Proc.devRef .tc main_arg2)) (V (Proc.devRef .tc main_arg7)) (V (Proc.devRef .tc main_arg8)))
    ∧ (after seg15 W (Proc.devRef .tc main_v145) = ReadP.val_main_v145 (F := F) (V (Proc.devRef .tc main_arg0)) (V (Proc.devRef .tc main_arg1)) (V (Proc.devRef .tc main_arg5)) (V (Proc.devRef .tc main_arg6)))
    ∧ (after seg15 W (Proc.devRef .tc main_v158) = ReadP.val_main_v158 (F := F) (V (Proc.devRef .tc main_arg0)) (V (Proc.devRef .tc main_arg2)) (V (Proc.devRef .tc main_arg7)) (V (Proc.devRef .tc main_arg8)))
    ∧ (after seg15 W (Proc.devRef .tc main_v150) = ReadP.val_main_v150 (F := F) (V (Proc.devRef .tc main_arg0)) (V (Proc.devRef .tc main_arg1)) (V (Proc.devRef .tc main_arg5)) (V (Proc.devRef .tc main_arg6)))
    ∧ (after seg15 W (Proc.devRef .tc main_v164) = ReadP.val_main_v164 (F := F) (V (Proc.devRef .tc main_arg0)) (V (Proc.devRef .tc main_arg2)) (V (Proc.devRef .tc main_arg7)) (V (Proc.devRef .tc main_arg8)))
    ∧ (after seg15 W (Proc.devRef .tc main_v4) = ReadP.val_main_v4 (F := F) (V (Proc.devRef .tc main_arg0)) (V (Proc.devRef .tc main_arg3)) (V (Proc.devRef .tc main_arg4))) := by
  refine ⟨?_, ?_, ?_, ?_, ?_, ?_, ?_, ?_, ?_, ?_, ?_, ?_, ?_, ?_, ?_, ?_, ?_, ?_, ?_, ?_⟩
  · (seg_results <;> (try simp only [h_main_arg3, h_main_arg0, h_main_arg4, h_main_arg5, h_main_arg6, h_main_arg7, h_main_arg8, h_main_arg1, h_main_v16, h_main_arg2, h_main_v125, h_main_v135, h_main_v140, h_main_v147, h_main_v149, h_main_v129, h_main_v145, h_main_v4]) <;> rfl)
  · (seg_results <;> (try simp only [h_main_arg3, h_main_arg0, h_main_arg4, h_main_arg5, h_main_arg6, h_main_arg7, h_main_arg8, h_main_arg1, h_main_v16, h_main_arg2, h_main_v125, h_main_v135, h_main_v140, h_main_v147, h_main_v149, h_main_v129, h_main_v145, h_main_v4]) <;> rfl)
  · (seg_results <;> (try simp only [h_main_arg3, h_main_arg0, h_main_arg4, h_main_arg5, h_main_arg6, h_main_arg7, h_main_arg8, h_main_arg1, h_main_v16, h_main_arg2, h_main_v125, h_main_v135, h_main_v140, h_main_v147, h_main_v149, h_main_v129, h_main_v145, h_main_v4]) <;> rfl)
  · (seg_results <;> (try simp only [h_main_arg3, h_main_arg0, h_main_arg4, h_main_arg5, h_main_arg6, h_main_arg7, h_main_arg8, h_main_arg1, h_main_v16, h_main_arg2, h_main_v125, h_main_v135, h_main_v140, h_main_v147, h_main_v149, h_main_v129, h_main_v145, h_main_v4]) <;> rfl)
  · (seg_results <;> (try simp only [h_main_arg3, h_main_arg0, h_main_arg4, h_main_arg5, h_main_arg6, h_main_arg7, h_main_arg8, h_main_arg1, h_main_v16, h_main_arg2, h_main_v125, h_main_v135, h_main_v140, h_main_v147, h_main_v149, h_main_v129, h_main_v145, h_main_v4]) <;> rfl)
  · (seg_results <;> (try simp only [h_main_arg3, h_main_arg0, h_main_arg4, h_main_arg5, h_main_arg6, h_main_arg7, h_main_arg8, h_main_arg1, h_main_v16, h_main_arg2, h_main_v125, h_main_v135, h_main_v140, h_main_v147, h_main_v149, h_main_v129, h_main_v145, h_main_v4]) <;> rfl)
  · (seg_results <;> (try simp only [h_main_arg3, h_main_arg0, h_main_arg4, h_main_arg5, h_main_arg6, h_main_arg7, h_main_arg8, h_main_arg1, h_main_v16, h_main_arg2, h_main_v125, h_main_v135, h_main_v140, h_main_v147, h_main_v149, h_main_v129, h_main_v145, h_main_v4]) <;> rfl)
  · (seg_results <;> (try simp only [h_main_arg3, h_main_arg0, h_main_arg4, h_main_arg5, h_main_arg6, h_main_arg7, h_main_arg8, h_main_arg1, h_main_v16, h_main_arg2, h_main_v125, h_main_v135, h_main_v140, h_main_v147, h_main_v149, h_main_v129, h_main_v145, h_main_v4]) <;> rfl)
  · (seg_results <;> (try simp only [h_main_arg3, h_main_arg0, h_main_arg4, h_main_arg5, h_main_arg6, h_main_arg7, h_main_arg8, h_main_arg1, h_main_v16, h_main_arg2, h_main_v125, h_main_v135, h_main_v140, h_main_v147, h_main_v149, h_main_v129, h_main_v145, h_main_v4]) <;> rfl)
  · (seg_results <;> (try simp only [h_main_arg3, h_main_arg0, h_main_arg4, h_main_arg5, h_main_arg6, h_main_arg7, h_main_arg8, h_main_arg1, h_main_v16, h_main_arg2, h_main_v125, h_main_v135, h_main_v140, h_main_v147, h_main_v149, h_main_v129, h_main_v145, h_main_v4]) <;> rfl)
  · (seg_results <;> (try simp only [h_main_arg3, h_main_arg0, h_main_arg4, h_main_arg5, h_main_arg6, h_main_arg7, h_main_arg8, h_main_arg1, h_main_v16, h_main_arg2, h_main_v125, h_main_v135, h_main_v140, h_main_v147, h_main_v149, h_main_v129, h_main_v145, h_main_v4]) <;> rfl)
  · (seg_results <;> (try simp only [h_main_arg3, h_main_arg0, h_main_arg4, h_main_arg5, h_main_arg6, h_main_arg7, h_main_arg8, h_main_arg1, h_main_v16, h_main_arg2, h_main_v125, h_main_v135, h_main_v140, h_main_v147, h_main_v149, h_main_v129, h_main_v145, h_main_v4]) <;> rfl)
  · (seg_results <;> (try simp only [h_main_arg3, h_main_arg0, h_main_arg4, h_main_arg5, h_main_arg6, h_main_arg7, h_main_arg8, h_main_arg1, h_main_v16, h_main_arg2, h_main_v125, h_main_v135, h_main_v140, h_main_v147, h_main_v149, h_main_v129, h_main_v145, h_main_v4]) <;> rfl)
  · (seg_results <;> (try simp only [h_main_arg3, h_main_arg0, h_main_arg4, h_main_arg5, h_main_arg6, h_main_arg7, h_main_arg8, h_main_arg1, h_main_v16, h_main_arg2, h_main_v125, h_main_v135, h_main_v140, h_main_v147, h_main_v149, h_main_v129, h_main_v145, h_main_v4]) <;> rfl)
  · (seg_results <;> (try simp only [h_main_arg3, h_main_arg0, h_main_arg4, h_main_arg5, h_main_arg6, h_main_arg7, h_main_arg8, h_main_arg1, h_main_v16, h_main_arg2, h_main_v125, h_main_v135, h_main_v140, h_main_v147, h_main_v149, h_main_v129, h_main_v145, h_main_v4]) <;> rfl)
  · (seg_results <;> (try simp only [h_main_arg3, h_main_arg0, h_main_arg4, h_main_arg5, h_main_arg6, h_main_arg7, h_main_arg8, h_main_arg1, h_main_v16, h_main_arg2, h_main_v125, h_main_v135, h_main_v140, h_main_v147, h_main_v149, h_main_v129, h_main_v145, h_main_v4]) <;> rfl)
  · (seg_results <;> (try simp only [h_main_arg3, h_main_arg0, h_main_arg4, h_main_arg5, h_main_arg6, h_main_arg7, h_main_arg8, h_main_arg1, h_main_v16, h_main_arg2, h_main_v125, h_main_v135, h_main_v140, h_main_v147, h_main_v149, h_main_v129, h_main_v145, h_main_v4]) <;> rfl)
  · (seg_results <;> (try simp only [h_main_arg3, h_main_arg0, h_main_arg4, h_main_arg5, h_main_arg6, h_main_arg7, h_main_arg8, h_main_arg1, h_main_v16, h_main_arg2, h_main_v125, h_main_v135, h_main_v140, h_main_v147, h_main_v149, h_main_v129, h_main_v145, h_main_v4]) <;> rfl)
  · (seg_results <;> (try simp only [h_main_arg3, h_main_arg0, h_main_arg4, h_main_arg5, h_main_arg6, h_main_arg7, h_main_arg8, h_main_arg1, h_main_v16, h_main_arg2, h_main_v125, h_main_v135, h_main_v140, h_main_v147, h_main_v149, h_main_v129, h_main_v145, h_main_v4]) <;> rfl)
  · (seg_results <;> (try simp only [h_main_arg3, h_main_arg0, h_main_arg4, h_main_arg5, h_main_arg6, h_main_arg7, h_main_arg8, h_main_arg1, h_main_v16, h_main_arg2, h_main_v125, h_main_v135, h_main_v140, h_main_v147, h_main_v149, h_main_v129, h_main_v145, h_main_v4]) <;> rfl)

set_option maxRecDepth 8192 in
set_option maxHeartbeats 4000000 in
/-- Operations 230 to 246. From contents `W` that hold, at every buffer still to be read, that buffer's stage of the
    arguments' launch contents `V` (an argument's stage is the argument), the contents after the segment hold the
    same at every buffer read later: the new ones are `main_v181`, `main_v174`, `main_v184`, `main_v178`; the others are carried,
    the segment not writing them. -/
theorem stage16 (V W : Valuation τ sig (Elt F))
    (h_main_arg3 : W (Proc.devRef .tc main_arg3) = V (Proc.devRef .tc main_arg3))
    (h_main_arg0 : W (Proc.devRef .tc main_arg0) = V (Proc.devRef .tc main_arg0))
    (h_main_arg4 : W (Proc.devRef .tc main_arg4) = V (Proc.devRef .tc main_arg4))
    (h_main_arg5 : W (Proc.devRef .tc main_arg5) = V (Proc.devRef .tc main_arg5))
    (h_main_arg6 : W (Proc.devRef .tc main_arg6) = V (Proc.devRef .tc main_arg6))
    (h_main_arg7 : W (Proc.devRef .tc main_arg7) = V (Proc.devRef .tc main_arg7))
    (h_main_arg8 : W (Proc.devRef .tc main_arg8) = V (Proc.devRef .tc main_arg8))
    (h_main_arg1 : W (Proc.devRef .tc main_arg1) = V (Proc.devRef .tc main_arg1))
    (h_main_v16 : W (Proc.devRef .tc main_v16) = ReadP.val_main_v16 (F := F) (V (Proc.devRef .tc main_arg0)) (V (Proc.devRef .tc main_arg7)) (V (Proc.devRef .tc main_arg8)))
    (h_main_arg2 : W (Proc.devRef .tc main_arg2) = V (Proc.devRef .tc main_arg2))
    (h_main_v125 : W (Proc.devRef .tc main_v125) = ReadP.val_main_v125 (F := F) (V (Proc.devRef .tc main_arg0)) (V (Proc.devRef .tc main_arg1)) (V (Proc.devRef .tc main_arg5)) (V (Proc.devRef .tc main_arg6)))
    (h_main_v135 : W (Proc.devRef .tc main_v135) = ReadP.val_main_v135 (F := F) (V (Proc.devRef .tc main_arg0)) (V (Proc.devRef .tc main_arg1)) (V (Proc.devRef .tc main_arg5)) (V (Proc.devRef .tc main_arg6)))
    (h_main_v140 : W (Proc.devRef .tc main_v140) = ReadP.val_main_v140 (F := F) (V (Proc.devRef .tc main_arg0)) (V (Proc.devRef .tc main_arg1)) (V (Proc.devRef .tc main_arg5)) (V (Proc.devRef .tc main_arg6)))
    (h_main_v168 : W (Proc.devRef .tc main_v168) = ReadP.val_main_v168 (F := F) (V (Proc.devRef .tc main_arg0)) (V (Proc.devRef .tc main_arg2)) (V (Proc.devRef .tc main_arg7)) (V (Proc.devRef .tc main_arg8)))
    (h_main_v154 : W (Proc.devRef .tc main_v154) = ReadP.val_main_v154 (F := F) (V (Proc.devRef .tc main_arg0)) (V (Proc.devRef .tc main_arg2)) (V (Proc.devRef .tc main_arg7)) (V (Proc.devRef .tc main_arg8)))
    (h_main_v145 : W (Proc.devRef .tc main_v145) = ReadP.val_main_v145 (F := F) (V (Proc.devRef .tc main_arg0)) (V (Proc.devRef .tc main_arg1)) (V (Proc.devRef .tc main_arg5)) (V (Proc.devRef .tc main_arg6)))
    (h_main_v158 : W (Proc.devRef .tc main_v158) = ReadP.val_main_v158 (F := F) (V (Proc.devRef .tc main_arg0)) (V (Proc.devRef .tc main_arg2)) (V (Proc.devRef .tc main_arg7)) (V (Proc.devRef .tc main_arg8)))
    (h_main_v150 : W (Proc.devRef .tc main_v150) = ReadP.val_main_v150 (F := F) (V (Proc.devRef .tc main_arg0)) (V (Proc.devRef .tc main_arg1)) (V (Proc.devRef .tc main_arg5)) (V (Proc.devRef .tc main_arg6)))
    (h_main_v164 : W (Proc.devRef .tc main_v164) = ReadP.val_main_v164 (F := F) (V (Proc.devRef .tc main_arg0)) (V (Proc.devRef .tc main_arg2)) (V (Proc.devRef .tc main_arg7)) (V (Proc.devRef .tc main_arg8)))
    (h_main_v4 : W (Proc.devRef .tc main_v4) = ReadP.val_main_v4 (F := F) (V (Proc.devRef .tc main_arg0)) (V (Proc.devRef .tc main_arg3)) (V (Proc.devRef .tc main_arg4))) :
    (after seg16 W (Proc.devRef .tc main_arg3) = V (Proc.devRef .tc main_arg3))
    ∧ (after seg16 W (Proc.devRef .tc main_arg0) = V (Proc.devRef .tc main_arg0))
    ∧ (after seg16 W (Proc.devRef .tc main_arg4) = V (Proc.devRef .tc main_arg4))
    ∧ (after seg16 W (Proc.devRef .tc main_arg5) = V (Proc.devRef .tc main_arg5))
    ∧ (after seg16 W (Proc.devRef .tc main_arg6) = V (Proc.devRef .tc main_arg6))
    ∧ (after seg16 W (Proc.devRef .tc main_arg7) = V (Proc.devRef .tc main_arg7))
    ∧ (after seg16 W (Proc.devRef .tc main_arg8) = V (Proc.devRef .tc main_arg8))
    ∧ (after seg16 W (Proc.devRef .tc main_arg1) = V (Proc.devRef .tc main_arg1))
    ∧ (after seg16 W (Proc.devRef .tc main_v16) = ReadP.val_main_v16 (F := F) (V (Proc.devRef .tc main_arg0)) (V (Proc.devRef .tc main_arg7)) (V (Proc.devRef .tc main_arg8)))
    ∧ (after seg16 W (Proc.devRef .tc main_arg2) = V (Proc.devRef .tc main_arg2))
    ∧ (after seg16 W (Proc.devRef .tc main_v125) = ReadP.val_main_v125 (F := F) (V (Proc.devRef .tc main_arg0)) (V (Proc.devRef .tc main_arg1)) (V (Proc.devRef .tc main_arg5)) (V (Proc.devRef .tc main_arg6)))
    ∧ (after seg16 W (Proc.devRef .tc main_v181) = ReadP.val_main_v181 (F := F) (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)))
    ∧ (after seg16 W (Proc.devRef .tc main_v174) = ReadP.val_main_v174 (F := F) (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)))
    ∧ (after seg16 W (Proc.devRef .tc main_v184) = ReadP.val_main_v184 (F := F) (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)))
    ∧ (after seg16 W (Proc.devRef .tc main_v178) = ReadP.val_main_v178 (F := F) (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)))
    ∧ (after seg16 W (Proc.devRef .tc main_v4) = ReadP.val_main_v4 (F := F) (V (Proc.devRef .tc main_arg0)) (V (Proc.devRef .tc main_arg3)) (V (Proc.devRef .tc main_arg4))) := by
  refine ⟨?_, ?_, ?_, ?_, ?_, ?_, ?_, ?_, ?_, ?_, ?_, ?_, ?_, ?_, ?_, ?_⟩
  · (seg_results <;> (try simp only [h_main_arg3, h_main_arg0, h_main_arg4, h_main_arg5, h_main_arg6, h_main_arg7, h_main_arg8, h_main_arg1, h_main_v16, h_main_arg2, h_main_v125, h_main_v135, h_main_v140, h_main_v168, h_main_v154, h_main_v145, h_main_v158, h_main_v150, h_main_v164, h_main_v4]) <;> rfl)
  · (seg_results <;> (try simp only [h_main_arg3, h_main_arg0, h_main_arg4, h_main_arg5, h_main_arg6, h_main_arg7, h_main_arg8, h_main_arg1, h_main_v16, h_main_arg2, h_main_v125, h_main_v135, h_main_v140, h_main_v168, h_main_v154, h_main_v145, h_main_v158, h_main_v150, h_main_v164, h_main_v4]) <;> rfl)
  · (seg_results <;> (try simp only [h_main_arg3, h_main_arg0, h_main_arg4, h_main_arg5, h_main_arg6, h_main_arg7, h_main_arg8, h_main_arg1, h_main_v16, h_main_arg2, h_main_v125, h_main_v135, h_main_v140, h_main_v168, h_main_v154, h_main_v145, h_main_v158, h_main_v150, h_main_v164, h_main_v4]) <;> rfl)
  · (seg_results <;> (try simp only [h_main_arg3, h_main_arg0, h_main_arg4, h_main_arg5, h_main_arg6, h_main_arg7, h_main_arg8, h_main_arg1, h_main_v16, h_main_arg2, h_main_v125, h_main_v135, h_main_v140, h_main_v168, h_main_v154, h_main_v145, h_main_v158, h_main_v150, h_main_v164, h_main_v4]) <;> rfl)
  · (seg_results <;> (try simp only [h_main_arg3, h_main_arg0, h_main_arg4, h_main_arg5, h_main_arg6, h_main_arg7, h_main_arg8, h_main_arg1, h_main_v16, h_main_arg2, h_main_v125, h_main_v135, h_main_v140, h_main_v168, h_main_v154, h_main_v145, h_main_v158, h_main_v150, h_main_v164, h_main_v4]) <;> rfl)
  · (seg_results <;> (try simp only [h_main_arg3, h_main_arg0, h_main_arg4, h_main_arg5, h_main_arg6, h_main_arg7, h_main_arg8, h_main_arg1, h_main_v16, h_main_arg2, h_main_v125, h_main_v135, h_main_v140, h_main_v168, h_main_v154, h_main_v145, h_main_v158, h_main_v150, h_main_v164, h_main_v4]) <;> rfl)
  · (seg_results <;> (try simp only [h_main_arg3, h_main_arg0, h_main_arg4, h_main_arg5, h_main_arg6, h_main_arg7, h_main_arg8, h_main_arg1, h_main_v16, h_main_arg2, h_main_v125, h_main_v135, h_main_v140, h_main_v168, h_main_v154, h_main_v145, h_main_v158, h_main_v150, h_main_v164, h_main_v4]) <;> rfl)
  · (seg_results <;> (try simp only [h_main_arg3, h_main_arg0, h_main_arg4, h_main_arg5, h_main_arg6, h_main_arg7, h_main_arg8, h_main_arg1, h_main_v16, h_main_arg2, h_main_v125, h_main_v135, h_main_v140, h_main_v168, h_main_v154, h_main_v145, h_main_v158, h_main_v150, h_main_v164, h_main_v4]) <;> rfl)
  · (seg_results <;> (try simp only [h_main_arg3, h_main_arg0, h_main_arg4, h_main_arg5, h_main_arg6, h_main_arg7, h_main_arg8, h_main_arg1, h_main_v16, h_main_arg2, h_main_v125, h_main_v135, h_main_v140, h_main_v168, h_main_v154, h_main_v145, h_main_v158, h_main_v150, h_main_v164, h_main_v4]) <;> rfl)
  · (seg_results <;> (try simp only [h_main_arg3, h_main_arg0, h_main_arg4, h_main_arg5, h_main_arg6, h_main_arg7, h_main_arg8, h_main_arg1, h_main_v16, h_main_arg2, h_main_v125, h_main_v135, h_main_v140, h_main_v168, h_main_v154, h_main_v145, h_main_v158, h_main_v150, h_main_v164, h_main_v4]) <;> rfl)
  · (seg_results <;> (try simp only [h_main_arg3, h_main_arg0, h_main_arg4, h_main_arg5, h_main_arg6, h_main_arg7, h_main_arg8, h_main_arg1, h_main_v16, h_main_arg2, h_main_v125, h_main_v135, h_main_v140, h_main_v168, h_main_v154, h_main_v145, h_main_v158, h_main_v150, h_main_v164, h_main_v4]) <;> rfl)
  · (seg_results <;> (try simp only [h_main_arg3, h_main_arg0, h_main_arg4, h_main_arg5, h_main_arg6, h_main_arg7, h_main_arg8, h_main_arg1, h_main_v16, h_main_arg2, h_main_v125, h_main_v135, h_main_v140, h_main_v168, h_main_v154, h_main_v145, h_main_v158, h_main_v150, h_main_v164, h_main_v4]) <;> rfl)
  · (seg_results <;> (try simp only [h_main_arg3, h_main_arg0, h_main_arg4, h_main_arg5, h_main_arg6, h_main_arg7, h_main_arg8, h_main_arg1, h_main_v16, h_main_arg2, h_main_v125, h_main_v135, h_main_v140, h_main_v168, h_main_v154, h_main_v145, h_main_v158, h_main_v150, h_main_v164, h_main_v4]) <;> rfl)
  · (seg_results <;> (try simp only [h_main_arg3, h_main_arg0, h_main_arg4, h_main_arg5, h_main_arg6, h_main_arg7, h_main_arg8, h_main_arg1, h_main_v16, h_main_arg2, h_main_v125, h_main_v135, h_main_v140, h_main_v168, h_main_v154, h_main_v145, h_main_v158, h_main_v150, h_main_v164, h_main_v4]) <;> rfl)
  · (seg_results <;> (try simp only [h_main_arg3, h_main_arg0, h_main_arg4, h_main_arg5, h_main_arg6, h_main_arg7, h_main_arg8, h_main_arg1, h_main_v16, h_main_arg2, h_main_v125, h_main_v135, h_main_v140, h_main_v168, h_main_v154, h_main_v145, h_main_v158, h_main_v150, h_main_v164, h_main_v4]) <;> rfl)
  · (seg_results <;> (try simp only [h_main_arg3, h_main_arg0, h_main_arg4, h_main_arg5, h_main_arg6, h_main_arg7, h_main_arg8, h_main_arg1, h_main_v16, h_main_arg2, h_main_v125, h_main_v135, h_main_v140, h_main_v168, h_main_v154, h_main_v145, h_main_v158, h_main_v150, h_main_v164, h_main_v4]) <;> rfl)

set_option maxRecDepth 8192 in
set_option maxHeartbeats 4000000 in
/-- Operations 247 to 265. From contents `W` that hold, at every buffer still to be read, that buffer's stage of the
    arguments' launch contents `V` (an argument's stage is the argument), the contents after the segment hold the
    same at every buffer read later: the new ones are `main_v196`, `main_v197`, `main_v198`, `main_v199`; the others are carried,
    the segment not writing them. -/
theorem stage17 (V W : Valuation τ sig (Elt F))
    (h_main_arg3 : W (Proc.devRef .tc main_arg3) = V (Proc.devRef .tc main_arg3))
    (h_main_arg0 : W (Proc.devRef .tc main_arg0) = V (Proc.devRef .tc main_arg0))
    (h_main_arg4 : W (Proc.devRef .tc main_arg4) = V (Proc.devRef .tc main_arg4))
    (h_main_arg5 : W (Proc.devRef .tc main_arg5) = V (Proc.devRef .tc main_arg5))
    (h_main_arg6 : W (Proc.devRef .tc main_arg6) = V (Proc.devRef .tc main_arg6))
    (h_main_arg7 : W (Proc.devRef .tc main_arg7) = V (Proc.devRef .tc main_arg7))
    (h_main_arg8 : W (Proc.devRef .tc main_arg8) = V (Proc.devRef .tc main_arg8))
    (h_main_arg1 : W (Proc.devRef .tc main_arg1) = V (Proc.devRef .tc main_arg1))
    (h_main_v16 : W (Proc.devRef .tc main_v16) = ReadP.val_main_v16 (F := F) (V (Proc.devRef .tc main_arg0)) (V (Proc.devRef .tc main_arg7)) (V (Proc.devRef .tc main_arg8)))
    (h_main_arg2 : W (Proc.devRef .tc main_arg2) = V (Proc.devRef .tc main_arg2))
    (h_main_v125 : W (Proc.devRef .tc main_v125) = ReadP.val_main_v125 (F := F) (V (Proc.devRef .tc main_arg0)) (V (Proc.devRef .tc main_arg1)) (V (Proc.devRef .tc main_arg5)) (V (Proc.devRef .tc main_arg6)))
    (h_main_v181 : W (Proc.devRef .tc main_v181) = ReadP.val_main_v181 (F := F) (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)))
    (h_main_v174 : W (Proc.devRef .tc main_v174) = ReadP.val_main_v174 (F := F) (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)))
    (h_main_v184 : W (Proc.devRef .tc main_v184) = ReadP.val_main_v184 (F := F) (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)))
    (h_main_v178 : W (Proc.devRef .tc main_v178) = ReadP.val_main_v178 (F := F) (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)))
    (h_main_v4 : W (Proc.devRef .tc main_v4) = ReadP.val_main_v4 (F := F) (V (Proc.devRef .tc main_arg0)) (V (Proc.devRef .tc main_arg3)) (V (Proc.devRef .tc main_arg4))) :
    (after seg17 W (Proc.devRef .tc main_arg3) = V (Proc.devRef .tc main_arg3))
    ∧ (after seg17 W (Proc.devRef .tc main_arg0) = V (Proc.devRef .tc main_arg0))
    ∧ (after seg17 W (Proc.devRef .tc main_arg4) = V (Proc.devRef .tc main_arg4))
    ∧ (after seg17 W (Proc.devRef .tc main_arg5) = V (Proc.devRef .tc main_arg5))
    ∧ (after seg17 W (Proc.devRef .tc main_arg6) = V (Proc.devRef .tc main_arg6))
    ∧ (after seg17 W (Proc.devRef .tc main_arg7) = V (Proc.devRef .tc main_arg7))
    ∧ (after seg17 W (Proc.devRef .tc main_arg8) = V (Proc.devRef .tc main_arg8))
    ∧ (after seg17 W (Proc.devRef .tc main_arg1) = V (Proc.devRef .tc main_arg1))
    ∧ (after seg17 W (Proc.devRef .tc main_v16) = ReadP.val_main_v16 (F := F) (V (Proc.devRef .tc main_arg0)) (V (Proc.devRef .tc main_arg7)) (V (Proc.devRef .tc main_arg8)))
    ∧ (after seg17 W (Proc.devRef .tc main_arg2) = V (Proc.devRef .tc main_arg2))
    ∧ (after seg17 W (Proc.devRef .tc main_v125) = ReadP.val_main_v125 (F := F) (V (Proc.devRef .tc main_arg0)) (V (Proc.devRef .tc main_arg1)) (V (Proc.devRef .tc main_arg5)) (V (Proc.devRef .tc main_arg6)))
    ∧ (after seg17 W (Proc.devRef .tc main_v196) = ReadP.val_main_v196 (F := F) (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)))
    ∧ (after seg17 W (Proc.devRef .tc main_v197) = ReadP.val_main_v197 (F := F) (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)))
    ∧ (after seg17 W (Proc.devRef .tc main_v198) = ReadP.val_main_v198 (F := F) (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)))
    ∧ (after seg17 W (Proc.devRef .tc main_v199) = ReadP.val_main_v199 (F := F) (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)))
    ∧ (after seg17 W (Proc.devRef .tc main_v4) = ReadP.val_main_v4 (F := F) (V (Proc.devRef .tc main_arg0)) (V (Proc.devRef .tc main_arg3)) (V (Proc.devRef .tc main_arg4))) := by
  refine ⟨?_, ?_, ?_, ?_, ?_, ?_, ?_, ?_, ?_, ?_, ?_, ?_, ?_, ?_, ?_, ?_⟩
  · (seg_results <;> (try simp only [h_main_arg3, h_main_arg0, h_main_arg4, h_main_arg5, h_main_arg6, h_main_arg7, h_main_arg8, h_main_arg1, h_main_v16, h_main_arg2, h_main_v125, h_main_v181, h_main_v174, h_main_v184, h_main_v178, h_main_v4]) <;> rfl)
  · (seg_results <;> (try simp only [h_main_arg3, h_main_arg0, h_main_arg4, h_main_arg5, h_main_arg6, h_main_arg7, h_main_arg8, h_main_arg1, h_main_v16, h_main_arg2, h_main_v125, h_main_v181, h_main_v174, h_main_v184, h_main_v178, h_main_v4]) <;> rfl)
  · (seg_results <;> (try simp only [h_main_arg3, h_main_arg0, h_main_arg4, h_main_arg5, h_main_arg6, h_main_arg7, h_main_arg8, h_main_arg1, h_main_v16, h_main_arg2, h_main_v125, h_main_v181, h_main_v174, h_main_v184, h_main_v178, h_main_v4]) <;> rfl)
  · (seg_results <;> (try simp only [h_main_arg3, h_main_arg0, h_main_arg4, h_main_arg5, h_main_arg6, h_main_arg7, h_main_arg8, h_main_arg1, h_main_v16, h_main_arg2, h_main_v125, h_main_v181, h_main_v174, h_main_v184, h_main_v178, h_main_v4]) <;> rfl)
  · (seg_results <;> (try simp only [h_main_arg3, h_main_arg0, h_main_arg4, h_main_arg5, h_main_arg6, h_main_arg7, h_main_arg8, h_main_arg1, h_main_v16, h_main_arg2, h_main_v125, h_main_v181, h_main_v174, h_main_v184, h_main_v178, h_main_v4]) <;> rfl)
  · (seg_results <;> (try simp only [h_main_arg3, h_main_arg0, h_main_arg4, h_main_arg5, h_main_arg6, h_main_arg7, h_main_arg8, h_main_arg1, h_main_v16, h_main_arg2, h_main_v125, h_main_v181, h_main_v174, h_main_v184, h_main_v178, h_main_v4]) <;> rfl)
  · (seg_results <;> (try simp only [h_main_arg3, h_main_arg0, h_main_arg4, h_main_arg5, h_main_arg6, h_main_arg7, h_main_arg8, h_main_arg1, h_main_v16, h_main_arg2, h_main_v125, h_main_v181, h_main_v174, h_main_v184, h_main_v178, h_main_v4]) <;> rfl)
  · (seg_results <;> (try simp only [h_main_arg3, h_main_arg0, h_main_arg4, h_main_arg5, h_main_arg6, h_main_arg7, h_main_arg8, h_main_arg1, h_main_v16, h_main_arg2, h_main_v125, h_main_v181, h_main_v174, h_main_v184, h_main_v178, h_main_v4]) <;> rfl)
  · (seg_results <;> (try simp only [h_main_arg3, h_main_arg0, h_main_arg4, h_main_arg5, h_main_arg6, h_main_arg7, h_main_arg8, h_main_arg1, h_main_v16, h_main_arg2, h_main_v125, h_main_v181, h_main_v174, h_main_v184, h_main_v178, h_main_v4]) <;> rfl)
  · (seg_results <;> (try simp only [h_main_arg3, h_main_arg0, h_main_arg4, h_main_arg5, h_main_arg6, h_main_arg7, h_main_arg8, h_main_arg1, h_main_v16, h_main_arg2, h_main_v125, h_main_v181, h_main_v174, h_main_v184, h_main_v178, h_main_v4]) <;> rfl)
  · (seg_results <;> (try simp only [h_main_arg3, h_main_arg0, h_main_arg4, h_main_arg5, h_main_arg6, h_main_arg7, h_main_arg8, h_main_arg1, h_main_v16, h_main_arg2, h_main_v125, h_main_v181, h_main_v174, h_main_v184, h_main_v178, h_main_v4]) <;> rfl)
  · (seg_results <;> (try simp only [h_main_arg3, h_main_arg0, h_main_arg4, h_main_arg5, h_main_arg6, h_main_arg7, h_main_arg8, h_main_arg1, h_main_v16, h_main_arg2, h_main_v125, h_main_v181, h_main_v174, h_main_v184, h_main_v178, h_main_v4]) <;> rfl)
  · (seg_results <;> (try simp only [h_main_arg3, h_main_arg0, h_main_arg4, h_main_arg5, h_main_arg6, h_main_arg7, h_main_arg8, h_main_arg1, h_main_v16, h_main_arg2, h_main_v125, h_main_v181, h_main_v174, h_main_v184, h_main_v178, h_main_v4]) <;> rfl)
  · (seg_results <;> (try simp only [h_main_arg3, h_main_arg0, h_main_arg4, h_main_arg5, h_main_arg6, h_main_arg7, h_main_arg8, h_main_arg1, h_main_v16, h_main_arg2, h_main_v125, h_main_v181, h_main_v174, h_main_v184, h_main_v178, h_main_v4]) <;> rfl)
  · (seg_results <;> (try simp only [h_main_arg3, h_main_arg0, h_main_arg4, h_main_arg5, h_main_arg6, h_main_arg7, h_main_arg8, h_main_arg1, h_main_v16, h_main_arg2, h_main_v125, h_main_v181, h_main_v174, h_main_v184, h_main_v178, h_main_v4]) <;> rfl)
  · (seg_results <;> (try simp only [h_main_arg3, h_main_arg0, h_main_arg4, h_main_arg5, h_main_arg6, h_main_arg7, h_main_arg8, h_main_arg1, h_main_v16, h_main_arg2, h_main_v125, h_main_v181, h_main_v174, h_main_v184, h_main_v178, h_main_v4]) <;> rfl)

end Cert.ReferenceIdeal.ValueP

end
-- ==== Proof.RefStage4.lean ====
/-
  The reference's line of host operations, read in stages: the segments of its window 4.

  The reference is a straight line of 329 host operations. Each buffer it writes is one stage: a function of the
  arguments' contents at launch, defined from the stages of the buffers its operation reads (the read-at-an-index
  module's `val_<buffer>`). Written out as one term the last stage is astronomically large, because a buffer read by
  several later operations is repeated at each; kept as named stages it is small. So the line is run segment by
  segment: a lemma per segment says that, started from ANY contents holding the right stage at every buffer the rest
  of the line still reads, the segment ends in contents holding the right stage at every buffer read after it. Within
  a segment the operations' results are composed outright (a few operations deep), the contents found are replaced by
  the stages assumed, and what is left is the stages' own definitions. A concatenation is a segment by itself: its
  result is the concatenation of the contents found at its four operands.
-/
import proofs.«177437_j84602265797277_1_alg».proof.Proof.RefPart4
import proofs.«177437_j84602265797277_1_alg».proof.Proof.RefRead

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- The results of a short literal list of host operations at one buffer, by one simplification pass: each operation's
    result at its own buffer is its function of its operands' contents, and at any other buffer what was there; a
    four-operand concatenation reads its operands at their own buffers. -/
local macro "seg_results" : tactic =>
  `(tactic| (simp (disch := decide) only [after_cons, after_nil,
      nullary_result', unary_result', binary_result', ternary_result', quaternary_result', reshape_result', nary4_result',
      nullary_result_ne', unary_result_ne', binary_result_ne', ternary_result_ne', quaternary_result_ne', reshape_result_ne',
      nary_result_ne']))

set_option maxRecDepth 8192 in
set_option maxHeartbeats 4000000 in
/-- Operations 266 to 266. From contents `W` that hold, at every buffer still to be read, that buffer's stage of the
    arguments' launch contents `V` (an argument's stage is the argument), the contents after the segment hold the
    same at every buffer read later: the new ones are `main_v200`; the others are carried,
    the segment not writing them. -/
theorem stage18 (V W : Valuation τ sig (Elt F))
    (h_main_arg3 : W (Proc.devRef .tc main_arg3) = V (Proc.devRef .tc main_arg3))
    (h_main_arg0 : W (Proc.devRef .tc main_arg0) = V (Proc.devRef .tc main_arg0))
    (h_main_arg4 : W (Proc.devRef .tc main_arg4) = V (Proc.devRef .tc main_arg4))
    (h_main_arg5 : W (Proc.devRef .tc main_arg5) = V (Proc.devRef .tc main_arg5))
    (h_main_arg6 : W (Proc.devRef .tc main_arg6) = V (Proc.devRef .tc main_arg6))
    (h_main_arg7 : W (Proc.devRef .tc main_arg7) = V (Proc.devRef .tc main_arg7))
    (h_main_arg8 : W (Proc.devRef .tc main_arg8) = V (Proc.devRef .tc main_arg8))
    (h_main_arg1 : W (Proc.devRef .tc main_arg1) = V (Proc.devRef .tc main_arg1))
    (h_main_v16 : W (Proc.devRef .tc main_v16) = ReadP.val_main_v16 (F := F) (V (Proc.devRef .tc main_arg0)) (V (Proc.devRef .tc main_arg7)) (V (Proc.devRef .tc main_arg8)))
    (h_main_arg2 : W (Proc.devRef .tc main_arg2) = V (Proc.devRef .tc main_arg2))
    (h_main_v125 : W (Proc.devRef .tc main_v125) = ReadP.val_main_v125 (F := F) (V (Proc.devRef .tc main_arg0)) (V (Proc.devRef .tc main_arg1)) (V (Proc.devRef .tc main_arg5)) (V (Proc.devRef .tc main_arg6)))
    (h_main_v196 : W (Proc.devRef .tc main_v196) = ReadP.val_main_v196 (F := F) (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)))
    (h_main_v197 : W (Proc.devRef .tc main_v197) = ReadP.val_main_v197 (F := F) (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)))
    (h_main_v198 : W (Proc.devRef .tc main_v198) = ReadP.val_main_v198 (F := F) (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)))
    (h_main_v199 : W (Proc.devRef .tc main_v199) = ReadP.val_main_v199 (F := F) (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)))
    (h_main_v4 : W (Proc.devRef .tc main_v4) = ReadP.val_main_v4 (F := F) (V (Proc.devRef .tc main_arg0)) (V (Proc.devRef .tc main_arg3)) (V (Proc.devRef .tc main_arg4))) :
    (after seg18 W (Proc.devRef .tc main_arg3) = V (Proc.devRef .tc main_arg3))
    ∧ (after seg18 W (Proc.devRef .tc main_arg0) = V (Proc.devRef .tc main_arg0))
    ∧ (after seg18 W (Proc.devRef .tc main_arg4) = V (Proc.devRef .tc main_arg4))
    ∧ (after seg18 W (Proc.devRef .tc main_arg5) = V (Proc.devRef .tc main_arg5))
    ∧ (after seg18 W (Proc.devRef .tc main_arg6) = V (Proc.devRef .tc main_arg6))
    ∧ (after seg18 W (Proc.devRef .tc main_arg7) = V (Proc.devRef .tc main_arg7))
    ∧ (after seg18 W (Proc.devRef .tc main_arg8) = V (Proc.devRef .tc main_arg8))
    ∧ (after seg18 W (Proc.devRef .tc main_arg1) = V (Proc.devRef .tc main_arg1))
    ∧ (after seg18 W (Proc.devRef .tc main_v16) = ReadP.val_main_v16 (F := F) (V (Proc.devRef .tc main_arg0)) (V (Proc.devRef .tc main_arg7)) (V (Proc.devRef .tc main_arg8)))
    ∧ (after seg18 W (Proc.devRef .tc main_arg2) = V (Proc.devRef .tc main_arg2))
    ∧ (after seg18 W (Proc.devRef .tc main_v125) = ReadP.val_main_v125 (F := F) (V (Proc.devRef .tc main_arg0)) (V (Proc.devRef .tc main_arg1)) (V (Proc.devRef .tc main_arg5)) (V (Proc.devRef .tc main_arg6)))
    ∧ (after seg18 W (Proc.devRef .tc main_v197) = ReadP.val_main_v197 (F := F) (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)))
    ∧ (after seg18 W (Proc.devRef .tc main_v198) = ReadP.val_main_v198 (F := F) (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)))
    ∧ (after seg18 W (Proc.devRef .tc main_v199) = ReadP.val_main_v199 (F := F) (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)))
    ∧ (after seg18 W (Proc.devRef .tc main_v200) = ReadP.val_main_v200 (F := F) (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)))
    ∧ (after seg18 W (Proc.devRef .tc main_v4) = ReadP.val_main_v4 (F := F) (V (Proc.devRef .tc main_arg0)) (V (Proc.devRef .tc main_arg3)) (V (Proc.devRef .tc main_arg4))) := by
  refine ⟨?_, ?_, ?_, ?_, ?_, ?_, ?_, ?_, ?_, ?_, ?_, ?_, ?_, ?_, ?_, ?_⟩
  · (seg_results <;> (try simp only [h_main_arg3, h_main_arg0, h_main_arg4, h_main_arg5, h_main_arg6, h_main_arg7, h_main_arg8, h_main_arg1, h_main_v16, h_main_arg2, h_main_v125, h_main_v196, h_main_v197, h_main_v198, h_main_v199, h_main_v4]) <;> rfl)
  · (seg_results <;> (try simp only [h_main_arg3, h_main_arg0, h_main_arg4, h_main_arg5, h_main_arg6, h_main_arg7, h_main_arg8, h_main_arg1, h_main_v16, h_main_arg2, h_main_v125, h_main_v196, h_main_v197, h_main_v198, h_main_v199, h_main_v4]) <;> rfl)
  · (seg_results <;> (try simp only [h_main_arg3, h_main_arg0, h_main_arg4, h_main_arg5, h_main_arg6, h_main_arg7, h_main_arg8, h_main_arg1, h_main_v16, h_main_arg2, h_main_v125, h_main_v196, h_main_v197, h_main_v198, h_main_v199, h_main_v4]) <;> rfl)
  · (seg_results <;> (try simp only [h_main_arg3, h_main_arg0, h_main_arg4, h_main_arg5, h_main_arg6, h_main_arg7, h_main_arg8, h_main_arg1, h_main_v16, h_main_arg2, h_main_v125, h_main_v196, h_main_v197, h_main_v198, h_main_v199, h_main_v4]) <;> rfl)
  · (seg_results <;> (try simp only [h_main_arg3, h_main_arg0, h_main_arg4, h_main_arg5, h_main_arg6, h_main_arg7, h_main_arg8, h_main_arg1, h_main_v16, h_main_arg2, h_main_v125, h_main_v196, h_main_v197, h_main_v198, h_main_v199, h_main_v4]) <;> rfl)
  · (seg_results <;> (try simp only [h_main_arg3, h_main_arg0, h_main_arg4, h_main_arg5, h_main_arg6, h_main_arg7, h_main_arg8, h_main_arg1, h_main_v16, h_main_arg2, h_main_v125, h_main_v196, h_main_v197, h_main_v198, h_main_v199, h_main_v4]) <;> rfl)
  · (seg_results <;> (try simp only [h_main_arg3, h_main_arg0, h_main_arg4, h_main_arg5, h_main_arg6, h_main_arg7, h_main_arg8, h_main_arg1, h_main_v16, h_main_arg2, h_main_v125, h_main_v196, h_main_v197, h_main_v198, h_main_v199, h_main_v4]) <;> rfl)
  · (seg_results <;> (try simp only [h_main_arg3, h_main_arg0, h_main_arg4, h_main_arg5, h_main_arg6, h_main_arg7, h_main_arg8, h_main_arg1, h_main_v16, h_main_arg2, h_main_v125, h_main_v196, h_main_v197, h_main_v198, h_main_v199, h_main_v4]) <;> rfl)
  · (seg_results <;> (try simp only [h_main_arg3, h_main_arg0, h_main_arg4, h_main_arg5, h_main_arg6, h_main_arg7, h_main_arg8, h_main_arg1, h_main_v16, h_main_arg2, h_main_v125, h_main_v196, h_main_v197, h_main_v198, h_main_v199, h_main_v4]) <;> rfl)
  · (seg_results <;> (try simp only [h_main_arg3, h_main_arg0, h_main_arg4, h_main_arg5, h_main_arg6, h_main_arg7, h_main_arg8, h_main_arg1, h_main_v16, h_main_arg2, h_main_v125, h_main_v196, h_main_v197, h_main_v198, h_main_v199, h_main_v4]) <;> rfl)
  · (seg_results <;> (try simp only [h_main_arg3, h_main_arg0, h_main_arg4, h_main_arg5, h_main_arg6, h_main_arg7, h_main_arg8, h_main_arg1, h_main_v16, h_main_arg2, h_main_v125, h_main_v196, h_main_v197, h_main_v198, h_main_v199, h_main_v4]) <;> rfl)
  · (seg_results <;> (try simp only [h_main_arg3, h_main_arg0, h_main_arg4, h_main_arg5, h_main_arg6, h_main_arg7, h_main_arg8, h_main_arg1, h_main_v16, h_main_arg2, h_main_v125, h_main_v196, h_main_v197, h_main_v198, h_main_v199, h_main_v4]) <;> rfl)
  · (seg_results <;> (try simp only [h_main_arg3, h_main_arg0, h_main_arg4, h_main_arg5, h_main_arg6, h_main_arg7, h_main_arg8, h_main_arg1, h_main_v16, h_main_arg2, h_main_v125, h_main_v196, h_main_v197, h_main_v198, h_main_v199, h_main_v4]) <;> rfl)
  · (seg_results <;> (try simp only [h_main_arg3, h_main_arg0, h_main_arg4, h_main_arg5, h_main_arg6, h_main_arg7, h_main_arg8, h_main_arg1, h_main_v16, h_main_arg2, h_main_v125, h_main_v196, h_main_v197, h_main_v198, h_main_v199, h_main_v4]) <;> rfl)
  · (seg_results <;> (try simp only [h_main_arg3, h_main_arg0, h_main_arg4, h_main_arg5, h_main_arg6, h_main_arg7, h_main_arg8, h_main_arg1, h_main_v16, h_main_arg2, h_main_v125, h_main_v196, h_main_v197, h_main_v198, h_main_v199, h_main_v4]) <;> rfl)
  · (seg_results <;> (try simp only [h_main_arg3, h_main_arg0, h_main_arg4, h_main_arg5, h_main_arg6, h_main_arg7, h_main_arg8, h_main_arg1, h_main_v16, h_main_arg2, h_main_v125, h_main_v196, h_main_v197, h_main_v198, h_main_v199, h_main_v4]) <;> rfl)

set_option maxRecDepth 8192 in
set_option maxHeartbeats 4000000 in
/-- Operation 267, a concatenation of four buffers. From contents `W` that hold, at every buffer still to be read, that buffer's stage of the
    arguments' launch contents `V` (an argument's stage is the argument), the contents after the segment hold the
    same at every buffer read later: the new ones are `main_v201`; the others are carried,
    the segment not writing them. -/
theorem stage19 (V W : Valuation τ sig (Elt F))
    (h_main_arg3 : W (Proc.devRef .tc main_arg3) = V (Proc.devRef .tc main_arg3))
    (h_main_arg0 : W (Proc.devRef .tc main_arg0) = V (Proc.devRef .tc main_arg0))
    (h_main_arg4 : W (Proc.devRef .tc main_arg4) = V (Proc.devRef .tc main_arg4))
    (h_main_arg5 : W (Proc.devRef .tc main_arg5) = V (Proc.devRef .tc main_arg5))
    (h_main_arg6 : W (Proc.devRef .tc main_arg6) = V (Proc.devRef .tc main_arg6))
    (h_main_arg7 : W (Proc.devRef .tc main_arg7) = V (Proc.devRef .tc main_arg7))
    (h_main_arg8 : W (Proc.devRef .tc main_arg8) = V (Proc.devRef .tc main_arg8))
    (h_main_arg1 : W (Proc.devRef .tc main_arg1) = V (Proc.devRef .tc main_arg1))
    (h_main_v16 : W (Proc.devRef .tc main_v16) = ReadP.val_main_v16 (F := F) (V (Proc.devRef .tc main_arg0)) (V (Proc.devRef .tc main_arg7)) (V (Proc.devRef .tc main_arg8)))
    (h_main_arg2 : W (Proc.devRef .tc main_arg2) = V (Proc.devRef .tc main_arg2))
    (h_main_v125 : W (Proc.devRef .tc main_v125) = ReadP.val_main_v125 (F := F) (V (Proc.devRef .tc main_arg0)) (V (Proc.devRef .tc main_arg1)) (V (Proc.devRef .tc main_arg5)) (V (Proc.devRef .tc main_arg6)))
    (h_main_v197 : W (Proc.devRef .tc main_v197) = ReadP.val_main_v197 (F := F) (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)))
    (h_main_v198 : W (Proc.devRef .tc main_v198) = ReadP.val_main_v198 (F := F) (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)))
    (h_main_v199 : W (Proc.devRef .tc main_v199) = ReadP.val_main_v199 (F := F) (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)))
    (h_main_v200 : W (Proc.devRef .tc main_v200) = ReadP.val_main_v200 (F := F) (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)))
    (h_main_v4 : W (Proc.devRef .tc main_v4) = ReadP.val_main_v4 (F := F) (V (Proc.devRef .tc main_arg0)) (V (Proc.devRef .tc main_arg3)) (V (Proc.devRef .tc main_arg4))) :
    (after seg19 W (Proc.devRef .tc main_arg3) = V (Proc.devRef .tc main_arg3))
    ∧ (after seg19 W (Proc.devRef .tc main_arg0) = V (Proc.devRef .tc main_arg0))
    ∧ (after seg19 W (Proc.devRef .tc main_arg4) = V (Proc.devRef .tc main_arg4))
    ∧ (after seg19 W (Proc.devRef .tc main_arg5) = V (Proc.devRef .tc main_arg5))
    ∧ (after seg19 W (Proc.devRef .tc main_arg6) = V (Proc.devRef .tc main_arg6))
    ∧ (after seg19 W (Proc.devRef .tc main_arg7) = V (Proc.devRef .tc main_arg7))
    ∧ (after seg19 W (Proc.devRef .tc main_arg8) = V (Proc.devRef .tc main_arg8))
    ∧ (after seg19 W (Proc.devRef .tc main_arg1) = V (Proc.devRef .tc main_arg1))
    ∧ (after seg19 W (Proc.devRef .tc main_v16) = ReadP.val_main_v16 (F := F) (V (Proc.devRef .tc main_arg0)) (V (Proc.devRef .tc main_arg7)) (V (Proc.devRef .tc main_arg8)))
    ∧ (after seg19 W (Proc.devRef .tc main_arg2) = V (Proc.devRef .tc main_arg2))
    ∧ (after seg19 W (Proc.devRef .tc main_v125) = ReadP.val_main_v125 (F := F) (V (Proc.devRef .tc main_arg0)) (V (Proc.devRef .tc main_arg1)) (V (Proc.devRef .tc main_arg5)) (V (Proc.devRef .tc main_arg6)))
    ∧ (after seg19 W (Proc.devRef .tc main_v201) = ReadP.val_main_v201 (F := F) (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)))
    ∧ (after seg19 W (Proc.devRef .tc main_v4) = ReadP.val_main_v4 (F := F) (V (Proc.devRef .tc main_arg0)) (V (Proc.devRef .tc main_arg3)) (V (Proc.devRef .tc main_arg4))) := by
  refine ⟨?_, ?_, ?_, ?_, ?_, ?_, ?_, ?_, ?_, ?_, ?_, ?_, ?_⟩
  · (seg_results <;> (try simp only [h_main_arg3, h_main_arg0, h_main_arg4, h_main_arg5, h_main_arg6, h_main_arg7, h_main_arg8, h_main_arg1, h_main_v16, h_main_arg2, h_main_v125, h_main_v197, h_main_v198, h_main_v199, h_main_v200, h_main_v4]) <;> rfl)
  · (seg_results <;> (try simp only [h_main_arg3, h_main_arg0, h_main_arg4, h_main_arg5, h_main_arg6, h_main_arg7, h_main_arg8, h_main_arg1, h_main_v16, h_main_arg2, h_main_v125, h_main_v197, h_main_v198, h_main_v199, h_main_v200, h_main_v4]) <;> rfl)
  · (seg_results <;> (try simp only [h_main_arg3, h_main_arg0, h_main_arg4, h_main_arg5, h_main_arg6, h_main_arg7, h_main_arg8, h_main_arg1, h_main_v16, h_main_arg2, h_main_v125, h_main_v197, h_main_v198, h_main_v199, h_main_v200, h_main_v4]) <;> rfl)
  · (seg_results <;> (try simp only [h_main_arg3, h_main_arg0, h_main_arg4, h_main_arg5, h_main_arg6, h_main_arg7, h_main_arg8, h_main_arg1, h_main_v16, h_main_arg2, h_main_v125, h_main_v197, h_main_v198, h_main_v199, h_main_v200, h_main_v4]) <;> rfl)
  · (seg_results <;> (try simp only [h_main_arg3, h_main_arg0, h_main_arg4, h_main_arg5, h_main_arg6, h_main_arg7, h_main_arg8, h_main_arg1, h_main_v16, h_main_arg2, h_main_v125, h_main_v197, h_main_v198, h_main_v199, h_main_v200, h_main_v4]) <;> rfl)
  · (seg_results <;> (try simp only [h_main_arg3, h_main_arg0, h_main_arg4, h_main_arg5, h_main_arg6, h_main_arg7, h_main_arg8, h_main_arg1, h_main_v16, h_main_arg2, h_main_v125, h_main_v197, h_main_v198, h_main_v199, h_main_v200, h_main_v4]) <;> rfl)
  · (seg_results <;> (try simp only [h_main_arg3, h_main_arg0, h_main_arg4, h_main_arg5, h_main_arg6, h_main_arg7, h_main_arg8, h_main_arg1, h_main_v16, h_main_arg2, h_main_v125, h_main_v197, h_main_v198, h_main_v199, h_main_v200, h_main_v4]) <;> rfl)
  · (seg_results <;> (try simp only [h_main_arg3, h_main_arg0, h_main_arg4, h_main_arg5, h_main_arg6, h_main_arg7, h_main_arg8, h_main_arg1, h_main_v16, h_main_arg2, h_main_v125, h_main_v197, h_main_v198, h_main_v199, h_main_v200, h_main_v4]) <;> rfl)
  · (seg_results <;> (try simp only [h_main_arg3, h_main_arg0, h_main_arg4, h_main_arg5, h_main_arg6, h_main_arg7, h_main_arg8, h_main_arg1, h_main_v16, h_main_arg2, h_main_v125, h_main_v197, h_main_v198, h_main_v199, h_main_v200, h_main_v4]) <;> rfl)
  · (seg_results <;> (try simp only [h_main_arg3, h_main_arg0, h_main_arg4, h_main_arg5, h_main_arg6, h_main_arg7, h_main_arg8, h_main_arg1, h_main_v16, h_main_arg2, h_main_v125, h_main_v197, h_main_v198, h_main_v199, h_main_v200, h_main_v4]) <;> rfl)
  · (seg_results <;> (try simp only [h_main_arg3, h_main_arg0, h_main_arg4, h_main_arg5, h_main_arg6, h_main_arg7, h_main_arg8, h_main_arg1, h_main_v16, h_main_arg2, h_main_v125, h_main_v197, h_main_v198, h_main_v199, h_main_v200, h_main_v4]) <;> rfl)
  · simp only [after_cons, after_nil]
    rw [nary4_result, h_main_v197, h_main_v198, h_main_v199, h_main_v200]
    rfl
  · (seg_results <;> (try simp only [h_main_arg3, h_main_arg0, h_main_arg4, h_main_arg5, h_main_arg6, h_main_arg7, h_main_arg8, h_main_arg1, h_main_v16, h_main_arg2, h_main_v125, h_main_v197, h_main_v198, h_main_v199, h_main_v200, h_main_v4]) <;> rfl)

set_option maxRecDepth 8192 in
set_option maxHeartbeats 4000000 in
/-- Operations 268 to 286. From contents `W` that hold, at every buffer still to be read, that buffer's stage of the
    arguments' launch contents `V` (an argument's stage is the argument), the contents after the segment hold the
    same at every buffer read later: the new ones are `main_v202`, `main_v217`; the others are carried,
    the segment not writing them. -/
theorem stage20 (V W : Valuation τ sig (Elt F))
    (h_main_arg3 : W (Proc.devRef .tc main_arg3) = V (Proc.devRef .tc main_arg3))
    (h_main_arg0 : W (Proc.devRef .tc main_arg0) = V (Proc.devRef .tc main_arg0))
    (h_main_arg4 : W (Proc.devRef .tc main_arg4) = V (Proc.devRef .tc main_arg4))
    (h_main_arg5 : W (Proc.devRef .tc main_arg5) = V (Proc.devRef .tc main_arg5))
    (h_main_arg6 : W (Proc.devRef .tc main_arg6) = V (Proc.devRef .tc main_arg6))
    (h_main_arg7 : W (Proc.devRef .tc main_arg7) = V (Proc.devRef .tc main_arg7))
    (h_main_arg8 : W (Proc.devRef .tc main_arg8) = V (Proc.devRef .tc main_arg8))
    (h_main_arg1 : W (Proc.devRef .tc main_arg1) = V (Proc.devRef .tc main_arg1))
    (h_main_v16 : W (Proc.devRef .tc main_v16) = ReadP.val_main_v16 (F := F) (V (Proc.devRef .tc main_arg0)) (V (Proc.devRef .tc main_arg7)) (V (Proc.devRef .tc main_arg8)))
    (h_main_arg2 : W (Proc.devRef .tc main_arg2) = V (Proc.devRef .tc main_arg2))
    (h_main_v125 : W (Proc.devRef .tc main_v125) = ReadP.val_main_v125 (F := F) (V (Proc.devRef .tc main_arg0)) (V (Proc.devRef .tc main_arg1)) (V (Proc.devRef .tc main_arg5)) (V (Proc.devRef .tc main_arg6)))
    (h_main_v201 : W (Proc.devRef .tc main_v201) = ReadP.val_main_v201 (F := F) (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)))
    (h_main_v4 : W (Proc.devRef .tc main_v4) = ReadP.val_main_v4 (F := F) (V (Proc.devRef .tc main_arg0)) (V (Proc.devRef .tc main_arg3)) (V (Proc.devRef .tc main_arg4))) :
    (after seg20 W (Proc.devRef .tc main_arg3) = V (Proc.devRef .tc main_arg3))
    ∧ (after seg20 W (Proc.devRef .tc main_arg0) = V (Proc.devRef .tc main_arg0))
    ∧ (after seg20 W (Proc.devRef .tc main_arg4) = V (Proc.devRef .tc main_arg4))
    ∧ (after seg20 W (Proc.devRef .tc main_arg5) = V (Proc.devRef .tc main_arg5))
    ∧ (after seg20 W (Proc.devRef .tc main_arg6) = V (Proc.devRef .tc main_arg6))
    ∧ (after seg20 W (Proc.devRef .tc main_arg7) = V (Proc.devRef .tc main_arg7))
    ∧ (after seg20 W (Proc.devRef .tc main_arg8) = V (Proc.devRef .tc main_arg8))
    ∧ (after seg20 W (Proc.devRef .tc main_arg1) = V (Proc.devRef .tc main_arg1))
    ∧ (after seg20 W (Proc.devRef .tc main_v16) = ReadP.val_main_v16 (F := F) (V (Proc.devRef .tc main_arg0)) (V (Proc.devRef .tc main_arg7)) (V (Proc.devRef .tc main_arg8)))
    ∧ (after seg20 W (Proc.devRef .tc main_arg2) = V (Proc.devRef .tc main_arg2))
    ∧ (after seg20 W (Proc.devRef .tc main_v125) = ReadP.val_main_v125 (F := F) (V (Proc.devRef .tc main_arg0)) (V (Proc.devRef .tc main_arg1)) (V (Proc.devRef .tc main_arg5)) (V (Proc.devRef .tc main_arg6)))
    ∧ (after seg20 W (Proc.devRef .tc main_v201) = ReadP.val_main_v201 (F := F) (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)))
    ∧ (after seg20 W (Proc.devRef .tc main_v202) = ReadP.val_main_v202 (F := F) (V (Proc.devRef .tc main_arg0)) (V (Proc.devRef .tc main_arg1)) (V (Proc.devRef .tc main_arg5)) (V (Proc.devRef .tc main_arg6)))
    ∧ (after seg20 W (Proc.devRef .tc main_v217) = ReadP.val_main_v217 (F := F) (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)))
    ∧ (after seg20 W (Proc.devRef .tc main_v4) = ReadP.val_main_v4 (F := F) (V (Proc.devRef .tc main_arg0)) (V (Proc.devRef .tc main_arg3)) (V (Proc.devRef .tc main_arg4))) := by
  refine ⟨?_, ?_, ?_, ?_, ?_, ?_, ?_, ?_, ?_, ?_, ?_, ?_, ?_, ?_, ?_⟩
  · (seg_results <;> (try simp only [h_main_arg3, h_main_arg0, h_main_arg4, h_main_arg5, h_main_arg6, h_main_arg7, h_main_arg8, h_main_arg1, h_main_v16, h_main_arg2, h_main_v125, h_main_v201, h_main_v4]) <;> rfl)
  · (seg_results <;> (try simp only [h_main_arg3, h_main_arg0, h_main_arg4, h_main_arg5, h_main_arg6, h_main_arg7, h_main_arg8, h_main_arg1, h_main_v16, h_main_arg2, h_main_v125, h_main_v201, h_main_v4]) <;> rfl)
  · (seg_results <;> (try simp only [h_main_arg3, h_main_arg0, h_main_arg4, h_main_arg5, h_main_arg6, h_main_arg7, h_main_arg8, h_main_arg1, h_main_v16, h_main_arg2, h_main_v125, h_main_v201, h_main_v4]) <;> rfl)
  · (seg_results <;> (try simp only [h_main_arg3, h_main_arg0, h_main_arg4, h_main_arg5, h_main_arg6, h_main_arg7, h_main_arg8, h_main_arg1, h_main_v16, h_main_arg2, h_main_v125, h_main_v201, h_main_v4]) <;> rfl)
  · (seg_results <;> (try simp only [h_main_arg3, h_main_arg0, h_main_arg4, h_main_arg5, h_main_arg6, h_main_arg7, h_main_arg8, h_main_arg1, h_main_v16, h_main_arg2, h_main_v125, h_main_v201, h_main_v4]) <;> rfl)
  · (seg_results <;> (try simp only [h_main_arg3, h_main_arg0, h_main_arg4, h_main_arg5, h_main_arg6, h_main_arg7, h_main_arg8, h_main_arg1, h_main_v16, h_main_arg2, h_main_v125, h_main_v201, h_main_v4]) <;> rfl)
  · (seg_results <;> (try simp only [h_main_arg3, h_main_arg0, h_main_arg4, h_main_arg5, h_main_arg6, h_main_arg7, h_main_arg8, h_main_arg1, h_main_v16, h_main_arg2, h_main_v125, h_main_v201, h_main_v4]) <;> rfl)
  · (seg_results <;> (try simp only [h_main_arg3, h_main_arg0, h_main_arg4, h_main_arg5, h_main_arg6, h_main_arg7, h_main_arg8, h_main_arg1, h_main_v16, h_main_arg2, h_main_v125, h_main_v201, h_main_v4]) <;> rfl)
  · (seg_results <;> (try simp only [h_main_arg3, h_main_arg0, h_main_arg4, h_main_arg5, h_main_arg6, h_main_arg7, h_main_arg8, h_main_arg1, h_main_v16, h_main_arg2, h_main_v125, h_main_v201, h_main_v4]) <;> rfl)
  · (seg_results <;> (try simp only [h_main_arg3, h_main_arg0, h_main_arg4, h_main_arg5, h_main_arg6, h_main_arg7, h_main_arg8, h_main_arg1, h_main_v16, h_main_arg2, h_main_v125, h_main_v201, h_main_v4]) <;> rfl)
  · (seg_results <;> (try simp only [h_main_arg3, h_main_arg0, h_main_arg4, h_main_arg5, h_main_arg6, h_main_arg7, h_main_arg8, h_main_arg1, h_main_v16, h_main_arg2, h_main_v125, h_main_v201, h_main_v4]) <;> rfl)
  · (seg_results <;> (try simp only [h_main_arg3, h_main_arg0, h_main_arg4, h_main_arg5, h_main_arg6, h_main_arg7, h_main_arg8, h_main_arg1, h_main_v16, h_main_arg2, h_main_v125, h_main_v201, h_main_v4]) <;> rfl)
  · (seg_results <;> (try simp only [h_main_arg3, h_main_arg0, h_main_arg4, h_main_arg5, h_main_arg6, h_main_arg7, h_main_arg8, h_main_arg1, h_main_v16, h_main_arg2, h_main_v125, h_main_v201, h_main_v4]) <;> rfl)
  · (seg_results <;> (try simp only [h_main_arg3, h_main_arg0, h_main_arg4, h_main_arg5, h_main_arg6, h_main_arg7, h_main_arg8, h_main_arg1, h_main_v16, h_main_arg2, h_main_v125, h_main_v201, h_main_v4]) <;> rfl)
  · (seg_results <;> (try simp only [h_main_arg3, h_main_arg0, h_main_arg4, h_main_arg5, h_main_arg6, h_main_arg7, h_main_arg8, h_main_arg1, h_main_v16, h_main_arg2, h_main_v125, h_main_v201, h_main_v4]) <;> rfl)

set_option maxRecDepth 8192 in
set_option maxHeartbeats 4000000 in
/-- Operations 287 to 311. From contents `W` that hold, at every buffer still to be read, that buffer's stage of the
    arguments' launch contents `V` (an argument's stage is the argument), the contents after the segment hold the
    same at every buffer read later: the new ones are `main_v242`; the others are carried,
    the segment not writing them. -/
theorem stage21 (V W : Valuation τ sig (Elt F))
    (h_main_arg3 : W (Proc.devRef .tc main_arg3) = V (Proc.devRef .tc main_arg3))
    (h_main_arg0 : W (Proc.devRef .tc main_arg0) = V (Proc.devRef .tc main_arg0))
    (h_main_arg4 : W (Proc.devRef .tc main_arg4) = V (Proc.devRef .tc main_arg4))
    (h_main_arg5 : W (Proc.devRef .tc main_arg5) = V (Proc.devRef .tc main_arg5))
    (h_main_arg6 : W (Proc.devRef .tc main_arg6) = V (Proc.devRef .tc main_arg6))
    (h_main_arg7 : W (Proc.devRef .tc main_arg7) = V (Proc.devRef .tc main_arg7))
    (h_main_arg8 : W (Proc.devRef .tc main_arg8) = V (Proc.devRef .tc main_arg8))
    (h_main_arg1 : W (Proc.devRef .tc main_arg1) = V (Proc.devRef .tc main_arg1))
    (h_main_v16 : W (Proc.devRef .tc main_v16) = ReadP.val_main_v16 (F := F) (V (Proc.devRef .tc main_arg0)) (V (Proc.devRef .tc main_arg7)) (V (Proc.devRef .tc main_arg8)))
    (h_main_arg2 : W (Proc.devRef .tc main_arg2) = V (Proc.devRef .tc main_arg2))
    (h_main_v125 : W (Proc.devRef .tc main_v125) = ReadP.val_main_v125 (F := F) (V (Proc.devRef .tc main_arg0)) (V (Proc.devRef .tc main_arg1)) (V (Proc.devRef .tc main_arg5)) (V (Proc.devRef .tc main_arg6)))
    (h_main_v201 : W (Proc.devRef .tc main_v201) = ReadP.val_main_v201 (F := F) (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)))
    (h_main_v202 : W (Proc.devRef .tc main_v202) = ReadP.val_main_v202 (F := F) (V (Proc.devRef .tc main_arg0)) (V (Proc.devRef .tc main_arg1)) (V (Proc.devRef .tc main_arg5)) (V (Proc.devRef .tc main_arg6)))
    (h_main_v217 : W (Proc.devRef .tc main_v217) = ReadP.val_main_v217 (F := F) (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)))
    (h_main_v4 : W (Proc.devRef .tc main_v4) = ReadP.val_main_v4 (F := F) (V (Proc.devRef .tc main_arg0)) (V (Proc.devRef .tc main_arg3)) (V (Proc.devRef .tc main_arg4))) :
    (after seg21 W (Proc.devRef .tc main_arg3) = V (Proc.devRef .tc main_arg3))
    ∧ (after seg21 W (Proc.devRef .tc main_arg0) = V (Proc.devRef .tc main_arg0))
    ∧ (after seg21 W (Proc.devRef .tc main_arg4) = V (Proc.devRef .tc main_arg4))
    ∧ (after seg21 W (Proc.devRef .tc main_arg5) = V (Proc.devRef .tc main_arg5))
    ∧ (after seg21 W (Proc.devRef .tc main_arg6) = V (Proc.devRef .tc main_arg6))
    ∧ (after seg21 W (Proc.devRef .tc main_arg7) = V (Proc.devRef .tc main_arg7))
    ∧ (after seg21 W (Proc.devRef .tc main_arg8) = V (Proc.devRef .tc main_arg8))
    ∧ (after seg21 W (Proc.devRef .tc main_arg1) = V (Proc.devRef .tc main_arg1))
    ∧ (after seg21 W (Proc.devRef .tc main_v16) = ReadP.val_main_v16 (F := F) (V (Proc.devRef .tc main_arg0)) (V (Proc.devRef .tc main_arg7)) (V (Proc.devRef .tc main_arg8)))
    ∧ (after seg21 W (Proc.devRef .tc main_arg2) = V (Proc.devRef .tc main_arg2))
    ∧ (after seg21 W (Proc.devRef .tc main_v125) = ReadP.val_main_v125 (F := F) (V (Proc.devRef .tc main_arg0)) (V (Proc.devRef .tc main_arg1)) (V (Proc.devRef .tc main_arg5)) (V (Proc.devRef .tc main_arg6)))
    ∧ (after seg21 W (Proc.devRef .tc main_v217) = ReadP.val_main_v217 (F := F) (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)))
    ∧ (after seg21 W (Proc.devRef .tc main_v242) = ReadP.val_main_v242 (F := F) (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)))
    ∧ (after seg21 W (Proc.devRef .tc main_v4) = ReadP.val_main_v4 (F := F) (V (Proc.devRef .tc main_arg0)) (V (Proc.devRef .tc main_arg3)) (V (Proc.devRef .tc main_arg4))) := by
  refine ⟨?_, ?_, ?_, ?_, ?_, ?_, ?_, ?_, ?_, ?_, ?_, ?_, ?_, ?_⟩
  · (seg_results <;> (try simp only [h_main_arg3, h_main_arg0, h_main_arg4, h_main_arg5, h_main_arg6, h_main_arg7, h_main_arg8, h_main_arg1, h_main_v16, h_main_arg2, h_main_v125, h_main_v201, h_main_v202, h_main_v217, h_main_v4]) <;> rfl)
  · (seg_results <;> (try simp only [h_main_arg3, h_main_arg0, h_main_arg4, h_main_arg5, h_main_arg6, h_main_arg7, h_main_arg8, h_main_arg1, h_main_v16, h_main_arg2, h_main_v125, h_main_v201, h_main_v202, h_main_v217, h_main_v4]) <;> rfl)
  · (seg_results <;> (try simp only [h_main_arg3, h_main_arg0, h_main_arg4, h_main_arg5, h_main_arg6, h_main_arg7, h_main_arg8, h_main_arg1, h_main_v16, h_main_arg2, h_main_v125, h_main_v201, h_main_v202, h_main_v217, h_main_v4]) <;> rfl)
  · (seg_results <;> (try simp only [h_main_arg3, h_main_arg0, h_main_arg4, h_main_arg5, h_main_arg6, h_main_arg7, h_main_arg8, h_main_arg1, h_main_v16, h_main_arg2, h_main_v125, h_main_v201, h_main_v202, h_main_v217, h_main_v4]) <;> rfl)
  · (seg_results <;> (try simp only [h_main_arg3, h_main_arg0, h_main_arg4, h_main_arg5, h_main_arg6, h_main_arg7, h_main_arg8, h_main_arg1, h_main_v16, h_main_arg2, h_main_v125, h_main_v201, h_main_v202, h_main_v217, h_main_v4]) <;> rfl)
  · (seg_results <;> (try simp only [h_main_arg3, h_main_arg0, h_main_arg4, h_main_arg5, h_main_arg6, h_main_arg7, h_main_arg8, h_main_arg1, h_main_v16, h_main_arg2, h_main_v125, h_main_v201, h_main_v202, h_main_v217, h_main_v4]) <;> rfl)
  · (seg_results <;> (try simp only [h_main_arg3, h_main_arg0, h_main_arg4, h_main_arg5, h_main_arg6, h_main_arg7, h_main_arg8, h_main_arg1, h_main_v16, h_main_arg2, h_main_v125, h_main_v201, h_main_v202, h_main_v217, h_main_v4]) <;> rfl)
  · (seg_results <;> (try simp only [h_main_arg3, h_main_arg0, h_main_arg4, h_main_arg5, h_main_arg6, h_main_arg7, h_main_arg8, h_main_arg1, h_main_v16, h_main_arg2, h_main_v125, h_main_v201, h_main_v202, h_main_v217, h_main_v4]) <;> rfl)
  · (seg_results <;> (try simp only [h_main_arg3, h_main_arg0, h_main_arg4, h_main_arg5, h_main_arg6, h_main_arg7, h_main_arg8, h_main_arg1, h_main_v16, h_main_arg2, h_main_v125, h_main_v201, h_main_v202, h_main_v217, h_main_v4]) <;> rfl)
  · (seg_results <;> (try simp only [h_main_arg3, h_main_arg0, h_main_arg4, h_main_arg5, h_main_arg6, h_main_arg7, h_main_arg8, h_main_arg1, h_main_v16, h_main_arg2, h_main_v125, h_main_v201, h_main_v202, h_main_v217, h_main_v4]) <;> rfl)
  · (seg_results <;> (try simp only [h_main_arg3, h_main_arg0, h_main_arg4, h_main_arg5, h_main_arg6, h_main_arg7, h_main_arg8, h_main_arg1, h_main_v16, h_main_arg2, h_main_v125, h_main_v201, h_main_v202, h_main_v217, h_main_v4]) <;> rfl)
  · (seg_results <;> (try simp only [h_main_arg3, h_main_arg0, h_main_arg4, h_main_arg5, h_main_arg6, h_main_arg7, h_main_arg8, h_main_arg1, h_main_v16, h_main_arg2, h_main_v125, h_main_v201, h_main_v202, h_main_v217, h_main_v4]) <;> rfl)
  · (seg_results <;> (try simp only [h_main_arg3, h_main_arg0, h_main_arg4, h_main_arg5, h_main_arg6, h_main_arg7, h_main_arg8, h_main_arg1, h_main_v16, h_main_arg2, h_main_v125, h_main_v201, h_main_v202, h_main_v217, h_main_v4]) <;> rfl)
  · (seg_results <;> (try simp only [h_main_arg3, h_main_arg0, h_main_arg4, h_main_arg5, h_main_arg6, h_main_arg7, h_main_arg8, h_main_arg1, h_main_v16, h_main_arg2, h_main_v125, h_main_v201, h_main_v202, h_main_v217, h_main_v4]) <;> rfl)

set_option maxRecDepth 8192 in
set_option maxHeartbeats 4000000 in
/-- Operations 312 to 328. From contents `W` that hold, at every buffer still to be read, that buffer's stage of the
    arguments' launch contents `V` (an argument's stage is the argument), the contents after the segment hold the
    same at every buffer read later: the new ones are `main_v252`; the others are carried,
    the segment not writing them. -/
theorem stage22 (V W : Valuation τ sig (Elt F))
    (h_main_arg3 : W (Proc.devRef .tc main_arg3) = V (Proc.devRef .tc main_arg3))
    (h_main_arg0 : W (Proc.devRef .tc main_arg0) = V (Proc.devRef .tc main_arg0))
    (h_main_arg4 : W (Proc.devRef .tc main_arg4) = V (Proc.devRef .tc main_arg4))
    (h_main_arg5 : W (Proc.devRef .tc main_arg5) = V (Proc.devRef .tc main_arg5))
    (h_main_arg6 : W (Proc.devRef .tc main_arg6) = V (Proc.devRef .tc main_arg6))
    (h_main_arg7 : W (Proc.devRef .tc main_arg7) = V (Proc.devRef .tc main_arg7))
    (h_main_arg8 : W (Proc.devRef .tc main_arg8) = V (Proc.devRef .tc main_arg8))
    (h_main_arg1 : W (Proc.devRef .tc main_arg1) = V (Proc.devRef .tc main_arg1))
    (h_main_v16 : W (Proc.devRef .tc main_v16) = ReadP.val_main_v16 (F := F) (V (Proc.devRef .tc main_arg0)) (V (Proc.devRef .tc main_arg7)) (V (Proc.devRef .tc main_arg8)))
    (h_main_arg2 : W (Proc.devRef .tc main_arg2) = V (Proc.devRef .tc main_arg2))
    (h_main_v125 : W (Proc.devRef .tc main_v125) = ReadP.val_main_v125 (F := F) (V (Proc.devRef .tc main_arg0)) (V (Proc.devRef .tc main_arg1)) (V (Proc.devRef .tc main_arg5)) (V (Proc.devRef .tc main_arg6)))
    (h_main_v217 : W (Proc.devRef .tc main_v217) = ReadP.val_main_v217 (F := F) (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)))
    (h_main_v242 : W (Proc.devRef .tc main_v242) = ReadP.val_main_v242 (F := F) (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)))
    (h_main_v4 : W (Proc.devRef .tc main_v4) = ReadP.val_main_v4 (F := F) (V (Proc.devRef .tc main_arg0)) (V (Proc.devRef .tc main_arg3)) (V (Proc.devRef .tc main_arg4))) :
    (after seg22 W (Proc.devRef .tc main_arg3) = V (Proc.devRef .tc main_arg3))
    ∧ (after seg22 W (Proc.devRef .tc main_arg0) = V (Proc.devRef .tc main_arg0))
    ∧ (after seg22 W (Proc.devRef .tc main_arg4) = V (Proc.devRef .tc main_arg4))
    ∧ (after seg22 W (Proc.devRef .tc main_arg5) = V (Proc.devRef .tc main_arg5))
    ∧ (after seg22 W (Proc.devRef .tc main_arg6) = V (Proc.devRef .tc main_arg6))
    ∧ (after seg22 W (Proc.devRef .tc main_arg7) = V (Proc.devRef .tc main_arg7))
    ∧ (after seg22 W (Proc.devRef .tc main_arg8) = V (Proc.devRef .tc main_arg8))
    ∧ (after seg22 W (Proc.devRef .tc main_arg1) = V (Proc.devRef .tc main_arg1))
    ∧ (after seg22 W (Proc.devRef .tc main_v16) = ReadP.val_main_v16 (F := F) (V (Proc.devRef .tc main_arg0)) (V (Proc.devRef .tc main_arg7)) (V (Proc.devRef .tc main_arg8)))
    ∧ (after seg22 W (Proc.devRef .tc main_arg2) = V (Proc.devRef .tc main_arg2))
    ∧ (after seg22 W (Proc.devRef .tc main_v125) = ReadP.val_main_v125 (F := F) (V (Proc.devRef .tc main_arg0)) (V (Proc.devRef .tc main_arg1)) (V (Proc.devRef .tc main_arg5)) (V (Proc.devRef .tc main_arg6)))
    ∧ (after seg22 W (Proc.devRef .tc main_v4) = ReadP.val_main_v4 (F := F) (V (Proc.devRef .tc main_arg0)) (V (Proc.devRef .tc main_arg3)) (V (Proc.devRef .tc main_arg4)))
    ∧ (after seg22 W (Proc.devRef .tc main_v252) = ReadP.val_main_v252 (F := F) (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8))) := by
  refine ⟨?_, ?_, ?_, ?_, ?_, ?_, ?_, ?_, ?_, ?_, ?_, ?_, ?_⟩
  · (seg_results <;> (try simp only [h_main_arg3, h_main_arg0, h_main_arg4, h_main_arg5, h_main_arg6, h_main_arg7, h_main_arg8, h_main_arg1, h_main_v16, h_main_arg2, h_main_v125, h_main_v217, h_main_v242, h_main_v4]) <;> rfl)
  · (seg_results <;> (try simp only [h_main_arg3, h_main_arg0, h_main_arg4, h_main_arg5, h_main_arg6, h_main_arg7, h_main_arg8, h_main_arg1, h_main_v16, h_main_arg2, h_main_v125, h_main_v217, h_main_v242, h_main_v4]) <;> rfl)
  · (seg_results <;> (try simp only [h_main_arg3, h_main_arg0, h_main_arg4, h_main_arg5, h_main_arg6, h_main_arg7, h_main_arg8, h_main_arg1, h_main_v16, h_main_arg2, h_main_v125, h_main_v217, h_main_v242, h_main_v4]) <;> rfl)
  · (seg_results <;> (try simp only [h_main_arg3, h_main_arg0, h_main_arg4, h_main_arg5, h_main_arg6, h_main_arg7, h_main_arg8, h_main_arg1, h_main_v16, h_main_arg2, h_main_v125, h_main_v217, h_main_v242, h_main_v4]) <;> rfl)
  · (seg_results <;> (try simp only [h_main_arg3, h_main_arg0, h_main_arg4, h_main_arg5, h_main_arg6, h_main_arg7, h_main_arg8, h_main_arg1, h_main_v16, h_main_arg2, h_main_v125, h_main_v217, h_main_v242, h_main_v4]) <;> rfl)
  · (seg_results <;> (try simp only [h_main_arg3, h_main_arg0, h_main_arg4, h_main_arg5, h_main_arg6, h_main_arg7, h_main_arg8, h_main_arg1, h_main_v16, h_main_arg2, h_main_v125, h_main_v217, h_main_v242, h_main_v4]) <;> rfl)
  · (seg_results <;> (try simp only [h_main_arg3, h_main_arg0, h_main_arg4, h_main_arg5, h_main_arg6, h_main_arg7, h_main_arg8, h_main_arg1, h_main_v16, h_main_arg2, h_main_v125, h_main_v217, h_main_v242, h_main_v4]) <;> rfl)
  · (seg_results <;> (try simp only [h_main_arg3, h_main_arg0, h_main_arg4, h_main_arg5, h_main_arg6, h_main_arg7, h_main_arg8, h_main_arg1, h_main_v16, h_main_arg2, h_main_v125, h_main_v217, h_main_v242, h_main_v4]) <;> rfl)
  · (seg_results <;> (try simp only [h_main_arg3, h_main_arg0, h_main_arg4, h_main_arg5, h_main_arg6, h_main_arg7, h_main_arg8, h_main_arg1, h_main_v16, h_main_arg2, h_main_v125, h_main_v217, h_main_v242, h_main_v4]) <;> rfl)
  · (seg_results <;> (try simp only [h_main_arg3, h_main_arg0, h_main_arg4, h_main_arg5, h_main_arg6, h_main_arg7, h_main_arg8, h_main_arg1, h_main_v16, h_main_arg2, h_main_v125, h_main_v217, h_main_v242, h_main_v4]) <;> rfl)
  · (seg_results <;> (try simp only [h_main_arg3, h_main_arg0, h_main_arg4, h_main_arg5, h_main_arg6, h_main_arg7, h_main_arg8, h_main_arg1, h_main_v16, h_main_arg2, h_main_v125, h_main_v217, h_main_v242, h_main_v4]) <;> rfl)
  · (seg_results <;> (try simp only [h_main_arg3, h_main_arg0, h_main_arg4, h_main_arg5, h_main_arg6, h_main_arg7, h_main_arg8, h_main_arg1, h_main_v16, h_main_arg2, h_main_v125, h_main_v217, h_main_v242, h_main_v4]) <;> rfl)
  · (seg_results <;> (try simp only [h_main_arg3, h_main_arg0, h_main_arg4, h_main_arg5, h_main_arg6, h_main_arg7, h_main_arg8, h_main_arg1, h_main_v16, h_main_arg2, h_main_v125, h_main_v217, h_main_v242, h_main_v4]) <;> rfl)

set_option maxRecDepth 8192 in
set_option maxHeartbeats 4000000 in
/-- Operation 329, a concatenation of four buffers. From contents `W` that hold, at every buffer still to be read, that buffer's stage of the
    arguments' launch contents `V` (an argument's stage is the argument), the contents after the segment hold the
    same at every buffer read later: the new ones are `main_v253`; the others are carried,
    the segment not writing them. -/
theorem stage23 (V W : Valuation τ sig (Elt F))
    (h_main_arg3 : W (Proc.devRef .tc main_arg3) = V (Proc.devRef .tc main_arg3))
    (h_main_arg0 : W (Proc.devRef .tc main_arg0) = V (Proc.devRef .tc main_arg0))
    (h_main_arg4 : W (Proc.devRef .tc main_arg4) = V (Proc.devRef .tc main_arg4))
    (h_main_arg5 : W (Proc.devRef .tc main_arg5) = V (Proc.devRef .tc main_arg5))
    (h_main_arg6 : W (Proc.devRef .tc main_arg6) = V (Proc.devRef .tc main_arg6))
    (h_main_arg7 : W (Proc.devRef .tc main_arg7) = V (Proc.devRef .tc main_arg7))
    (h_main_arg8 : W (Proc.devRef .tc main_arg8) = V (Proc.devRef .tc main_arg8))
    (h_main_arg1 : W (Proc.devRef .tc main_arg1) = V (Proc.devRef .tc main_arg1))
    (h_main_v16 : W (Proc.devRef .tc main_v16) = ReadP.val_main_v16 (F := F) (V (Proc.devRef .tc main_arg0)) (V (Proc.devRef .tc main_arg7)) (V (Proc.devRef .tc main_arg8)))
    (h_main_arg2 : W (Proc.devRef .tc main_arg2) = V (Proc.devRef .tc main_arg2))
    (h_main_v125 : W (Proc.devRef .tc main_v125) = ReadP.val_main_v125 (F := F) (V (Proc.devRef .tc main_arg0)) (V (Proc.devRef .tc main_arg1)) (V (Proc.devRef .tc main_arg5)) (V (Proc.devRef .tc main_arg6)))
    (h_main_v4 : W (Proc.devRef .tc main_v4) = ReadP.val_main_v4 (F := F) (V (Proc.devRef .tc main_arg0)) (V (Proc.devRef .tc main_arg3)) (V (Proc.devRef .tc main_arg4)))
    (h_main_v252 : W (Proc.devRef .tc main_v252) = ReadP.val_main_v252 (F := F) (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8))) :
    (after seg23 W (Proc.devRef .tc main_arg3) = V (Proc.devRef .tc main_arg3))
    ∧ (after seg23 W (Proc.devRef .tc main_arg0) = V (Proc.devRef .tc main_arg0))
    ∧ (after seg23 W (Proc.devRef .tc main_arg4) = V (Proc.devRef .tc main_arg4))
    ∧ (after seg23 W (Proc.devRef .tc main_arg5) = V (Proc.devRef .tc main_arg5))
    ∧ (after seg23 W (Proc.devRef .tc main_arg6) = V (Proc.devRef .tc main_arg6))
    ∧ (after seg23 W (Proc.devRef .tc main_arg7) = V (Proc.devRef .tc main_arg7))
    ∧ (after seg23 W (Proc.devRef .tc main_arg8) = V (Proc.devRef .tc main_arg8))
    ∧ (after seg23 W (Proc.devRef .tc main_arg1) = V (Proc.devRef .tc main_arg1))
    ∧ (after seg23 W (Proc.devRef .tc main_arg2) = V (Proc.devRef .tc main_arg2))
    ∧ (after seg23 W (Proc.devRef .tc main_v253) = ReadP.val_main_v253 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8))) := by
  refine ⟨?_, ?_, ?_, ?_, ?_, ?_, ?_, ?_, ?_, ?_⟩
  · (seg_results <;> (try simp only [h_main_arg3, h_main_arg0, h_main_arg4, h_main_arg5, h_main_arg6, h_main_arg7, h_main_arg8, h_main_arg1, h_main_v16, h_main_arg2, h_main_v125, h_main_v4, h_main_v252]) <;> rfl)
  · (seg_results <;> (try simp only [h_main_arg3, h_main_arg0, h_main_arg4, h_main_arg5, h_main_arg6, h_main_arg7, h_main_arg8, h_main_arg1, h_main_v16, h_main_arg2, h_main_v125, h_main_v4, h_main_v252]) <;> rfl)
  · (seg_results <;> (try simp only [h_main_arg3, h_main_arg0, h_main_arg4, h_main_arg5, h_main_arg6, h_main_arg7, h_main_arg8, h_main_arg1, h_main_v16, h_main_arg2, h_main_v125, h_main_v4, h_main_v252]) <;> rfl)
  · (seg_results <;> (try simp only [h_main_arg3, h_main_arg0, h_main_arg4, h_main_arg5, h_main_arg6, h_main_arg7, h_main_arg8, h_main_arg1, h_main_v16, h_main_arg2, h_main_v125, h_main_v4, h_main_v252]) <;> rfl)
  · (seg_results <;> (try simp only [h_main_arg3, h_main_arg0, h_main_arg4, h_main_arg5, h_main_arg6, h_main_arg7, h_main_arg8, h_main_arg1, h_main_v16, h_main_arg2, h_main_v125, h_main_v4, h_main_v252]) <;> rfl)
  · (seg_results <;> (try simp only [h_main_arg3, h_main_arg0, h_main_arg4, h_main_arg5, h_main_arg6, h_main_arg7, h_main_arg8, h_main_arg1, h_main_v16, h_main_arg2, h_main_v125, h_main_v4, h_main_v252]) <;> rfl)
  · (seg_results <;> (try simp only [h_main_arg3, h_main_arg0, h_main_arg4, h_main_arg5, h_main_arg6, h_main_arg7, h_main_arg8, h_main_arg1, h_main_v16, h_main_arg2, h_main_v125, h_main_v4, h_main_v252]) <;> rfl)
  · (seg_results <;> (try simp only [h_main_arg3, h_main_arg0, h_main_arg4, h_main_arg5, h_main_arg6, h_main_arg7, h_main_arg8, h_main_arg1, h_main_v16, h_main_arg2, h_main_v125, h_main_v4, h_main_v252]) <;> rfl)
  · (seg_results <;> (try simp only [h_main_arg3, h_main_arg0, h_main_arg4, h_main_arg5, h_main_arg6, h_main_arg7, h_main_arg8, h_main_arg1, h_main_v16, h_main_arg2, h_main_v125, h_main_v4, h_main_v252]) <;> rfl)
  · simp only [after_cons, after_nil]
    rw [nary4_result, h_main_v4, h_main_v125, h_main_v16, h_main_v252]
    rfl

end Cert.ReferenceIdeal.ValueP

end
-- ==== Proof.RefRun.lean ====
/-
  The reference's run: every weakly fair execution of its line of 329 host operations terminates with the result
  buffer at its stage of the arguments — the read-at-an-index module's `val_main_v253`, the concatenation of the
  scores, the clipped boxes, the variances and the mean overlap, each a named stage of the stages before it — and
  with the nine arguments unchanged.

  The printed program runs five windows one after the other; each window is the run of its list of operations,
  so the whole is the run of the five lists laid end to end (a list laid after another runs after it). The
  result is the segment lemmas chained: the first starts from the launch contents, where an argument's
  stage is the argument itself; each later one starts from the contents the segments before it left, with their
  conclusions as its assumptions; the last one's conclusions are the result buffer's stage and the arguments.
-/
import proofs.«177437_j84602265797277_1_alg».proof.Proof.RefStage0
import proofs.«177437_j84602265797277_1_alg».proof.Proof.RefStage1
import proofs.«177437_j84602265797277_1_alg».proof.Proof.RefStage2
import proofs.«177437_j84602265797277_1_alg».proof.Proof.RefStage3
import proofs.«177437_j84602265797277_1_alg».proof.Proof.RefStage4

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- The reference's line: its five windows laid end to end. -/
abbrev ops : List (HloOp τ sig (Elt F)) := p0 ++ (p1 ++ (p2 ++ (p3 ++ (p4 ++ []))))

/-- Running two lines laid end to end is running the first, then the second from what the first left. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-- @main is the run of the line: each window is the run of its list, and lists laid end to end run in order. -/
theorem main_eq (c : Dev nD) : main (F := F) c = seq ops := by
  have h5 : main_part5 (F := F) c = seq [] := rfl
  unfold main
  simp only [ops, seq_append]
  rw [part0_eq c, part1_eq c, part2_eq c, part3_eq c, part4_eq c, h5]

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore buffers only: each window's operations do. -/
theorem ops_sub : (ops : List (HloOp τ sig (Elt F))).Forall fun op => op.bufs ⊆ tcRefs τ sig := by
  rw [List.forall_iff_forall_mem]
  intro op h
  simp only [ops, List.mem_append, List.not_mem_nil, or_false] at h
  rcases h with h | h | h | h | h
  · exact List.forall_iff_forall_mem.mp p0_sub op h
  · exact List.forall_iff_forall_mem.mp p1_sub op h
  · exact List.forall_iff_forall_mem.mp p2_sub op h
  · exact List.forall_iff_forall_mem.mp p3_sub op h
  · exact List.forall_iff_forall_mem.mp p4_sub op h

/-- No operation of the line allocates: none of any window does. -/
theorem ops_fresh : ∀ op ∈ (ops : List (HloOp τ sig (Elt F))), op.fresh = ∅ := by
  intro op h
  simp only [ops, List.mem_append, List.not_mem_nil, or_false] at h
  rcases h with h | h | h | h | h
  · exact p0_fresh op h
  · exact p1_fresh op h
  · exact p2_fresh op h
  · exact p3_fresh op h
  · exact p4_fresh op h

/-- After the whole line, from any contents `V`: the nine arguments are as in `V`, and the result buffer holds its
    stage of the arguments' contents in `V`. -/
theorem after_all (V : Valuation τ sig (Elt F)) :
    (after ops V (Proc.devRef .tc main_arg0) = V (Proc.devRef .tc main_arg0))
    ∧ (after ops V (Proc.devRef .tc main_arg1) = V (Proc.devRef .tc main_arg1))
    ∧ (after ops V (Proc.devRef .tc main_arg2) = V (Proc.devRef .tc main_arg2))
    ∧ (after ops V (Proc.devRef .tc main_arg3) = V (Proc.devRef .tc main_arg3))
    ∧ (after ops V (Proc.devRef .tc main_arg4) = V (Proc.devRef .tc main_arg4))
    ∧ (after ops V (Proc.devRef .tc main_arg5) = V (Proc.devRef .tc main_arg5))
    ∧ (after ops V (Proc.devRef .tc main_arg6) = V (Proc.devRef .tc main_arg6))
    ∧ (after ops V (Proc.devRef .tc main_arg7) = V (Proc.devRef .tc main_arg7))
    ∧ (after ops V (Proc.devRef .tc main_arg8) = V (Proc.devRef .tc main_arg8))
    ∧ (after ops V (Proc.devRef .tc main_v253) = ReadP.val_main_v253 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8))) := by
  simp only [ops, after_append, after_nil]
  rw [p0_segs, p1_segs, p2_segs, p3_segs, p4_segs]
  simp only [after_append]
  obtain ⟨f1_main_arg3, f1_main_arg0, f1_main_arg4, f1_main_arg5, f1_main_arg6, f1_main_arg7, f1_main_arg8, f1_main_arg1, f1_main_v9, f1_main_v16, f1_main_arg2, f1_main_v4⟩ := stage1 V V rfl rfl rfl rfl rfl rfl rfl rfl rfl
  obtain ⟨f2_main_arg3, f2_main_arg0, f2_main_arg4, f2_main_arg5, f2_main_arg6, f2_main_arg7, f2_main_arg8, f2_main_arg1, f2_main_v20, f2_main_v30, f2_main_v24, f2_main_v9, f2_main_v16, f2_main_arg2, f2_main_v4⟩ := stage2 V (after seg1 V) f1_main_arg3 f1_main_arg0 f1_main_arg4 f1_main_arg5 f1_main_arg6 f1_main_arg7 f1_main_arg8 f1_main_arg1 f1_main_v9 f1_main_v16 f1_main_arg2 f1_main_v4
  obtain ⟨f3_main_arg3, f3_main_arg0, f3_main_arg4, f3_main_arg5, f3_main_arg6, f3_main_arg7, f3_main_arg8, f3_main_arg1, f3_main_v39, f3_main_v40, f3_main_v41, f3_main_v42, f3_main_v9, f3_main_v16, f3_main_arg2, f3_main_v4⟩ := stage3 V (after seg2 (after seg1 V)) f2_main_arg3 f2_main_arg0 f2_main_arg4 f2_main_arg5 f2_main_arg6 f2_main_arg7 f2_main_arg8 f2_main_arg1 f2_main_v20 f2_main_v30 f2_main_v24 f2_main_v9 f2_main_v16 f2_main_arg2 f2_main_v4
  obtain ⟨f4_main_arg3, f4_main_arg0, f4_main_arg4, f4_main_arg5, f4_main_arg6, f4_main_arg7, f4_main_arg8, f4_main_arg1, f4_main_v43, f4_main_v9, f4_main_v16, f4_main_arg2, f4_main_v4⟩ := stage4 V (after seg3 (after seg2 (after seg1 V))) f3_main_arg3 f3_main_arg0 f3_main_arg4 f3_main_arg5 f3_main_arg6 f3_main_arg7 f3_main_arg8 f3_main_arg1 f3_main_v39 f3_main_v40 f3_main_v41 f3_main_v42 f3_main_v9 f3_main_v16 f3_main_arg2 f3_main_v4
  obtain ⟨f5_main_arg3, f5_main_arg0, f5_main_arg4, f5_main_arg5, f5_main_arg6, f5_main_arg7, f5_main_arg8, f5_main_arg1, f5_main_v43, f5_main_v51, f5_main_v50, f5_main_v48, f5_main_v9, f5_main_v16, f5_main_arg2, f5_main_v4⟩ := stage5 V (after seg4 (after seg3 (after seg2 (after seg1 V)))) f4_main_arg3 f4_main_arg0 f4_main_arg4 f4_main_arg5 f4_main_arg6 f4_main_arg7 f4_main_arg8 f4_main_arg1 f4_main_v43 f4_main_v9 f4_main_v16 f4_main_arg2 f4_main_v4
  obtain ⟨f6_main_arg3, f6_main_arg0, f6_main_arg4, f6_main_arg5, f6_main_arg6, f6_main_arg7, f6_main_arg8, f6_main_arg1, f6_main_v48, f6_main_v53, f6_main_v9, f6_main_v58, f6_main_v63, f6_main_v16, f6_main_arg2, f6_main_v4⟩ := stage6 V (after seg5 (after seg4 (after seg3 (after seg2 (after seg1 V))))) f5_main_arg3 f5_main_arg0 f5_main_arg4 f5_main_arg5 f5_main_arg6 f5_main_arg7 f5_main_arg8 f5_main_arg1 f5_main_v43 f5_main_v51 f5_main_v50 f5_main_v48 f5_main_v9 f5_main_v16 f5_main_arg2 f5_main_v4
  obtain ⟨f7_main_arg3, f7_main_arg0, f7_main_arg4, f7_main_arg5, f7_main_arg6, f7_main_arg7, f7_main_arg8, f7_main_arg1, f7_main_v48, f7_main_v53, f7_main_v67, f7_main_v58, f7_main_v71, f7_main_v63, f7_main_v77, f7_main_v83, f7_main_v16, f7_main_arg2, f7_main_v4⟩ := stage7 V (after seg6 (after seg5 (after seg4 (after seg3 (after seg2 (after seg1 V)))))) f6_main_arg3 f6_main_arg0 f6_main_arg4 f6_main_arg5 f6_main_arg6 f6_main_arg7 f6_main_arg8 f6_main_arg1 f6_main_v48 f6_main_v53 f6_main_v9 f6_main_v58 f6_main_v63 f6_main_v16 f6_main_arg2 f6_main_v4
  obtain ⟨f8_main_arg3, f8_main_arg0, f8_main_arg4, f8_main_arg5, f8_main_arg6, f8_main_arg7, f8_main_arg8, f8_main_arg1, f8_main_v91, f8_main_v87, f8_main_v94, f8_main_v97, f8_main_v100, f8_main_v16, f8_main_arg2, f8_main_v4⟩ := stage8 V (after seg7 (after seg6 (after seg5 (after seg4 (after seg3 (after seg2 (after seg1 V))))))) f7_main_arg3 f7_main_arg0 f7_main_arg4 f7_main_arg5 f7_main_arg6 f7_main_arg7 f7_main_arg8 f7_main_arg1 f7_main_v48 f7_main_v53 f7_main_v67 f7_main_v58 f7_main_v71 f7_main_v63 f7_main_v77 f7_main_v83 f7_main_v16 f7_main_arg2 f7_main_v4
  obtain ⟨f9_main_arg3, f9_main_arg0, f9_main_arg4, f9_main_arg5, f9_main_arg6, f9_main_arg7, f9_main_arg8, f9_main_arg1, f9_main_v104, f9_main_v105, f9_main_v106, f9_main_v107, f9_main_v16, f9_main_arg2, f9_main_v4⟩ := stage9 V (after seg8 (after seg7 (after seg6 (after seg5 (after seg4 (after seg3 (after seg2 (after seg1 V)))))))) f8_main_arg3 f8_main_arg0 f8_main_arg4 f8_main_arg5 f8_main_arg6 f8_main_arg7 f8_main_arg8 f8_main_arg1 f8_main_v91 f8_main_v87 f8_main_v94 f8_main_v97 f8_main_v100 f8_main_v16 f8_main_arg2 f8_main_v4
  obtain ⟨f10_main_arg3, f10_main_arg0, f10_main_arg4, f10_main_arg5, f10_main_arg6, f10_main_arg7, f10_main_arg8, f10_main_arg1, f10_main_v108, f10_main_v16, f10_main_arg2, f10_main_v4⟩ := stage10 V (after seg9 (after seg8 (after seg7 (after seg6 (after seg5 (after seg4 (after seg3 (after seg2 (after seg1 V))))))))) f9_main_arg3 f9_main_arg0 f9_main_arg4 f9_main_arg5 f9_main_arg6 f9_main_arg7 f9_main_arg8 f9_main_arg1 f9_main_v104 f9_main_v105 f9_main_v106 f9_main_v107 f9_main_v16 f9_main_arg2 f9_main_v4
  obtain ⟨f11_main_arg3, f11_main_arg0, f11_main_arg4, f11_main_arg5, f11_main_arg6, f11_main_arg7, f11_main_arg8, f11_main_arg1, f11_main_v108, f11_main_v111, f11_main_v114, f11_main_v16, f11_main_arg2, f11_main_v4⟩ := stage11 V (after seg10 (after seg9 (after seg8 (after seg7 (after seg6 (after seg5 (after seg4 (after seg3 (after seg2 (after seg1 V)))))))))) f10_main_arg3 f10_main_arg0 f10_main_arg4 f10_main_arg5 f10_main_arg6 f10_main_arg7 f10_main_arg8 f10_main_arg1 f10_main_v108 f10_main_v16 f10_main_arg2 f10_main_v4
  obtain ⟨f12_main_arg3, f12_main_arg0, f12_main_arg4, f12_main_arg5, f12_main_arg6, f12_main_arg7, f12_main_arg8, f12_main_arg1, f12_main_v121, f12_main_v122, f12_main_v123, f12_main_v124, f12_main_v16, f12_main_arg2, f12_main_v4⟩ := stage12 V (after seg11 (after seg10 (after seg9 (after seg8 (after seg7 (after seg6 (after seg5 (after seg4 (after seg3 (after seg2 (after seg1 V))))))))))) f11_main_arg3 f11_main_arg0 f11_main_arg4 f11_main_arg5 f11_main_arg6 f11_main_arg7 f11_main_arg8 f11_main_arg1 f11_main_v108 f11_main_v111 f11_main_v114 f11_main_v16 f11_main_arg2 f11_main_v4
  obtain ⟨f13_main_arg3, f13_main_arg0, f13_main_arg4, f13_main_arg5, f13_main_arg6, f13_main_arg7, f13_main_arg8, f13_main_arg1, f13_main_v16, f13_main_arg2, f13_main_v125, f13_main_v4⟩ := stage13 V (after seg12 (after seg11 (after seg10 (after seg9 (after seg8 (after seg7 (after seg6 (after seg5 (after seg4 (after seg3 (after seg2 (after seg1 V)))))))))))) f12_main_arg3 f12_main_arg0 f12_main_arg4 f12_main_arg5 f12_main_arg6 f12_main_arg7 f12_main_arg8 f12_main_arg1 f12_main_v121 f12_main_v122 f12_main_v123 f12_main_v124 f12_main_v16 f12_main_arg2 f12_main_v4
  obtain ⟨f14_main_arg3, f14_main_arg0, f14_main_arg4, f14_main_arg5, f14_main_arg6, f14_main_arg7, f14_main_arg8, f14_main_arg1, f14_main_v16, f14_main_arg2, f14_main_v125, f14_main_v135, f14_main_v140, f14_main_v147, f14_main_v149, f14_main_v129, f14_main_v145, f14_main_v4⟩ := stage14 V (after seg13 (after seg12 (after seg11 (after seg10 (after seg9 (after seg8 (after seg7 (after seg6 (after seg5 (after seg4 (after seg3 (after seg2 (after seg1 V))))))))))))) f13_main_arg3 f13_main_arg0 f13_main_arg4 f13_main_arg5 f13_main_arg6 f13_main_arg7 f13_main_arg8 f13_main_arg1 f13_main_v16 f13_main_arg2 f13_main_v125 f13_main_v4
  obtain ⟨f15_main_arg3, f15_main_arg0, f15_main_arg4, f15_main_arg5, f15_main_arg6, f15_main_arg7, f15_main_arg8, f15_main_arg1, f15_main_v16, f15_main_arg2, f15_main_v125, f15_main_v135, f15_main_v140, f15_main_v168, f15_main_v154, f15_main_v145, f15_main_v158, f15_main_v150, f15_main_v164, f15_main_v4⟩ := stage15 V (after seg14 (after seg13 (after seg12 (after seg11 (after seg10 (after seg9 (after seg8 (after seg7 (after seg6 (after seg5 (after seg4 (after seg3 (after seg2 (after seg1 V)))))))))))))) f14_main_arg3 f14_main_arg0 f14_main_arg4 f14_main_arg5 f14_main_arg6 f14_main_arg7 f14_main_arg8 f14_main_arg1 f14_main_v16 f14_main_arg2 f14_main_v125 f14_main_v135 f14_main_v140 f14_main_v147 f14_main_v149 f14_main_v129 f14_main_v145 f14_main_v4
  obtain ⟨f23_main_arg3, f23_main_arg0, f23_main_arg4, f23_main_arg5, f23_main_arg6, f23_main_arg7, f23_main_arg8, f23_main_arg1, f23_main_v16, f23_main_arg2, f23_main_v125, f23_main_v181, f23_main_v174, f23_main_v184, f23_main_v178, f23_main_v4⟩ := stage16 V (after seg15 (after seg14 (after seg13 (after seg12 (after seg11 (after seg10 (after seg9 (after seg8 (after seg7 (after seg6 (after seg5 (after seg4 (after seg3 (after seg2 (after seg1 V))))))))))))))) f15_main_arg3 f15_main_arg0 f15_main_arg4 f15_main_arg5 f15_main_arg6 f15_main_arg7 f15_main_arg8 f15_main_arg1 f15_main_v16 f15_main_arg2 f15_main_v125 f15_main_v135 f15_main_v140 f15_main_v168 f15_main_v154 f15_main_v145 f15_main_v158 f15_main_v150 f15_main_v164 f15_main_v4
  obtain ⟨f17_main_arg3, f17_main_arg0, f17_main_arg4, f17_main_arg5, f17_main_arg6, f17_main_arg7, f17_main_arg8, f17_main_arg1, f17_main_v16, f17_main_arg2, f17_main_v125, f17_main_v196, f17_main_v197, f17_main_v198, f17_main_v199, f17_main_v4⟩ := stage17 V (after seg16 (after seg15 (after seg14 (after seg13 (after seg12 (after seg11 (after seg10 (after seg9 (after seg8 (after seg7 (after seg6 (after seg5 (after seg4 (after seg3 (after seg2 (after seg1 V)))))))))))))))) f23_main_arg3 f23_main_arg0 f23_main_arg4 f23_main_arg5 f23_main_arg6 f23_main_arg7 f23_main_arg8 f23_main_arg1 f23_main_v16 f23_main_arg2 f23_main_v125 f23_main_v181 f23_main_v174 f23_main_v184 f23_main_v178 f23_main_v4
  obtain ⟨f18_main_arg3, f18_main_arg0, f18_main_arg4, f18_main_arg5, f18_main_arg6, f18_main_arg7, f18_main_arg8, f18_main_arg1, f18_main_v16, f18_main_arg2, f18_main_v125, f18_main_v197, f18_main_v198, f18_main_v199, f18_main_v200, f18_main_v4⟩ := stage18 V (after seg17 (after seg16 (after seg15 (after seg14 (after seg13 (after seg12 (after seg11 (after seg10 (after seg9 (after seg8 (after seg7 (after seg6 (after seg5 (after seg4 (after seg3 (after seg2 (after seg1 V))))))))))))))))) f17_main_arg3 f17_main_arg0 f17_main_arg4 f17_main_arg5 f17_main_arg6 f17_main_arg7 f17_main_arg8 f17_main_arg1 f17_main_v16 f17_main_arg2 f17_main_v125 f17_main_v196 f17_main_v197 f17_main_v198 f17_main_v199 f17_main_v4
  obtain ⟨f19_main_arg3, f19_main_arg0, f19_main_arg4, f19_main_arg5, f19_main_arg6, f19_main_arg7, f19_main_arg8, f19_main_arg1, f19_main_v16, f19_main_arg2, f19_main_v125, f19_main_v201, f19_main_v4⟩ := stage19 V (after seg18 (after seg17 (after seg16 (after seg15 (after seg14 (after seg13 (after seg12 (after seg11 (after seg10 (after seg9 (after seg8 (after seg7 (after seg6 (after seg5 (after seg4 (after seg3 (after seg2 (after seg1 V)))))))))))))))))) f18_main_arg3 f18_main_arg0 f18_main_arg4 f18_main_arg5 f18_main_arg6 f18_main_arg7 f18_main_arg8 f18_main_arg1 f18_main_v16 f18_main_arg2 f18_main_v125 f18_main_v197 f18_main_v198 f18_main_v199 f18_main_v200 f18_main_v4
  obtain ⟨f20_main_arg3, f20_main_arg0, f20_main_arg4, f20_main_arg5, f20_main_arg6, f20_main_arg7, f20_main_arg8, f20_main_arg1, f20_main_v16, f20_main_arg2, f20_main_v125, f20_main_v201, f20_main_v202, f20_main_v217, f20_main_v4⟩ := stage20 V (after seg19 (after seg18 (after seg17 (after seg16 (after seg15 (after seg14 (after seg13 (after seg12 (after seg11 (after seg10 (after seg9 (after seg8 (after seg7 (after seg6 (after seg5 (after seg4 (after seg3 (after seg2 (after seg1 V))))))))))))))))))) f19_main_arg3 f19_main_arg0 f19_main_arg4 f19_main_arg5 f19_main_arg6 f19_main_arg7 f19_main_arg8 f19_main_arg1 f19_main_v16 f19_main_arg2 f19_main_v125 f19_main_v201 f19_main_v4
  obtain ⟨f21_main_arg3, f21_main_arg0, f21_main_arg4, f21_main_arg5, f21_main_arg6, f21_main_arg7, f21_main_arg8, f21_main_arg1, f21_main_v16, f21_main_arg2, f21_main_v125, f21_main_v217, f21_main_v242, f21_main_v4⟩ := stage21 V (after seg20 (after seg19 (after seg18 (after seg17 (after seg16 (after seg15 (after seg14 (after seg13 (after seg12 (after seg11 (after seg10 (after seg9 (after seg8 (after seg7 (after seg6 (after seg5 (after seg4 (after seg3 (after seg2 (after seg1 V)))))))))))))))))))) f20_main_arg3 f20_main_arg0 f20_main_arg4 f20_main_arg5 f20_main_arg6 f20_main_arg7 f20_main_arg8 f20_main_arg1 f20_main_v16 f20_main_arg2 f20_main_v125 f20_main_v201 f20_main_v202 f20_main_v217 f20_main_v4
  obtain ⟨f22_main_arg3, f22_main_arg0, f22_main_arg4, f22_main_arg5, f22_main_arg6, f22_main_arg7, f22_main_arg8, f22_main_arg1, f22_main_v16, f22_main_arg2, f22_main_v125, f22_main_v4, f22_main_v252⟩ := stage22 V (after seg21 (after seg20 (after seg19 (after seg18 (after seg17 (after seg16 (after seg15 (after seg14 (after seg13 (after seg12 (after seg11 (after seg10 (after seg9 (after seg8 (after seg7 (after seg6 (after seg5 (after seg4 (after seg3 (after seg2 (after seg1 V))))))))))))))))))))) f21_main_arg3 f21_main_arg0 f21_main_arg4 f21_main_arg5 f21_main_arg6 f21_main_arg7 f21_main_arg8 f21_main_arg1 f21_main_v16 f21_main_arg2 f21_main_v125 f21_main_v217 f21_main_v242 f21_main_v4
  obtain ⟨f23_main_arg3, f23_main_arg0, f23_main_arg4, f23_main_arg5, f23_main_arg6, f23_main_arg7, f23_main_arg8, f23_main_arg1, f23_main_arg2, f23_main_v253⟩ := stage23 V (after seg22 (after seg21 (after seg20 (after seg19 (after seg18 (after seg17 (after seg16 (after seg15 (after seg14 (after seg13 (after seg12 (after seg11 (after seg10 (after seg9 (after seg8 (after seg7 (after seg6 (after seg5 (after seg4 (after seg3 (after seg2 (after seg1 V)))))))))))))))))))))) f22_main_arg3 f22_main_arg0 f22_main_arg4 f22_main_arg5 f22_main_arg6 f22_main_arg7 f22_main_arg8 f22_main_arg1 f22_main_v16 f22_main_arg2 f22_main_v125 f22_main_v4 f22_main_v252
  exact ⟨f23_main_arg0, f23_main_arg1, f23_main_arg2, f23_main_arg3, f23_main_arg4, f23_main_arg5, f23_main_arg6, f23_main_arg7, f23_main_arg8, f23_main_v253⟩

/-- On every device, for any float values, from any memory with zero counters: every weakly fair execution of the
    reference terminates with the result buffer at its stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v253) = ReadP.val_main_v253 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => by
      obtain ⟨e0, e1, e2, e3, e4, e5, e6, e7, e8, e253⟩ := after_all (F := F) (launchContents m c)
      exact ⟨(h c main_v253).trans e253, (h c main_arg0).trans e0, (h c main_arg1).trans e1, (h c main_arg2).trans e2, (h c main_arg3).trans e3, (h c main_arg4).trans e4, (h c main_arg5).trans e5, (h c main_arg6).trans e6, (h c main_arg7).trans e7, (h c main_arg8).trans e8⟩)
    (run_seq scopedRefs_eq scopedSems_eq defs main (fun _ => ops) main_eq (fun _ => ops_sub) m ρ (fun _ => ops_fresh))

end Cert.ReferenceIdeal.ValueP

end
-- ==== Proof.lean ====
/-
  A detection head over 65536 proposals, its Pallas kernel against its jnp reference, on the extended reals.

  For each proposal both programs compute one row of 90 numbers from the proposal's 1024 features, four raw box
  numbers and a hundred noise vectors: 81 class scores (an affine head of the features), the four corners of the
  predicted box clipped to the image (the proposal box moved and scaled by a second affine head's deltas), four
  variances (the exponential of a third head's clipped output), and the mean, over the hundred noise vectors, of
  the intersection-over-union of the clipped box with the box sampled by applying the noise, scaled by the
  variances' square roots, to the clipped box as deltas. Proof/BoxSpec.lean states that row as one function
  `row` on the extended reals, following both programs operation by operation, and Proof/BoxArray.lean the whole
  output `table`. At the exact values a change of float format is the identity, the kernel's three matrix products
  into a zero accumulator are the host's contractions, and its lane sum is the host's sum, so the two programs are
  the same function and no algebraic law — and so no finiteness of the inputs — is needed.

  The kernel side: the body's result block at a row is `row` of that row of its input blocks (Proof/KernelRow.lean);
  the 128 grid points' blocks are the blocks of `table` of the argument arrays, read through the host's transpose
  of the noise and its reshapes of the biases, and they tile the output (Proof/KernelArray.lean, over the
  generated frame run with its output array named). The reference side: its result array at an index is `row` of
  that row (Proof/RefRow.lean, over the stage-by-stage reading Proof/RefRead.lean); its run ends with the result
  buffer at its last stage (Proof/RefRun.lean, the line of 329 host operations run segment by segment,
  Proof/RefPart0 … 4 and Proof/RefStage0 … 4). The frames of the two kernel programs are the generated ones; the
  reference's is its run with the result dropped; the idealization rewrote nothing, so `preserves` is trivial.
-/
import proofs.«177437_j84602265797277_1_alg».proof.Defs
import proofs.«177437_j84602265797277_1_alg».proof.Proof.Gen.Kernel
import proofs.«177437_j84602265797277_1_alg».proof.Proof.Gen.Kernel.Frame
import proofs.«177437_j84602265797277_1_alg».proof.Proof.Gen.KernelIdeal
import proofs.«177437_j84602265797277_1_alg».proof.Proof.Gen.KernelIdeal.Frame
import proofs.«177437_j84602265797277_1_alg».proof.Proof.Gen.KernelIdeal.Value
import proofs.«177437_j84602265797277_1_alg».proof.Proof.Gen.ReferenceIdeal
import proofs.«177437_j84602265797277_1_alg».proof.Proof.Gen.Pre_finite_inputs
import proofs.«177437_j84602265797277_1_alg».proof.Proof.KernelRow
import proofs.«177437_j84602265797277_1_alg».proof.Proof.KernelArray
import proofs.«177437_j84602265797277_1_alg».proof.Proof.RefRow
import proofs.«177437_j84602265797277_1_alg».proof.Proof.RefRun
import Idealize.ShloMosaic.Adequacy
import Idealize.ShloMosaic.Init

noncomputable section

namespace Cert.Proof

open Idealize.ShloMosaic Idealize.ShloMosaic.TcCoe Idealize.SL.Sem Idealize.ShloMosaic.ValueIdx Cert.BoxHead

/-- The word-level kernel terminates without a fault and leaves its arguments as they were: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with the result buffer's contents dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the nine arguments both idealized programs end with the output table of those
    arguments: the kernel's array is the table block by block, and the reference's last stage is the table index by
    index. -/
theorem algebraic : Cert.algebraic_KernelIdeal_ReferenceIdeal := by
  intro m ρ m' ρ' _ hagree
  refine ⟨fun c => table (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.ArrayValue.run m ρ Cert.KernelIdeal.RowValue.out_apply, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8⟩ := hagree c
  rw [a0, a1, a2, a3, a4, a5, a6, a7, a8]
  funext i
  obtain ⟨r, q, rfl⟩ : ∃ (r : Fin 65536) (q : Fin 90), i = ix2 r q := ⟨i 0, i 1, eq_ix2 i⟩
  exact Cert.ReferenceIdeal.RowValue.ref_apply _ _ _ _ _ _ _ _ _ r q

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
